-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x400000 : Shape := ⟨2, ![2, 400000]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_arg12 : FVec F S64x8 .f32) (main_arg13 : FVec F S8 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x8 .f32 := Host.absf main_arg12
  let main_cst_20 : FVec F S_ .f32 := constant S_ .f32 0x7F800000#32
  let main_v55 : FVec F S64x8 .f32 := broadcastInDim S64x8 ![] bcast_S_S64x8 main_cst_20
  let main_v56 : IVec S64x8 1 := cmpf .olt main_v54 main_v55
  let main_c_21 : IVec S_ 1 := constantI S_ 1 1#1
  let main_v57 : IVec S_ 1 := (fun x v => Host.reduce IntOp.andi x v reducesTo_S64x8_S_d0_1 h_S_) main_v56 main_c_21
  let main_v58 : IVec S_ 1 := andi main_v53 main_v57
  let main_v59 : FVec F S8 .f32 := Host.absf main_arg13
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  main_v63

def fn_part2 {F : FTy → Type} [FloatOps F] (main_arg8 : FVec F S256x128 .f32) (main_arg9 : FVec F S128 .f32) (main_arg10 : FVec F S128x64 .f32) (main_arg11 : FVec F S64 .f32) (main_arg12 : FVec F S64x8 .f32) (main_arg13 : FVec F S8 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S128x128 .f32) (main_arg6 : FVec F S128 .f32) (main_arg7 : FVec F S128x128 .f32) (main_arg8 : FVec F S256x128 .f32) (main_arg9 : FVec F S128 .f32) (main_arg10 : FVec F S128x64 .f32) (main_arg11 : FVec F S64 .f32) (main_arg12 : FVec F S64x8 .f32) (main_arg13 : FVec F S8 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x400000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S256x128 .f32) (main_arg9 : FVec F S128 .f32) (main_arg10 : FVec F S128x64 .f32) (main_arg11 : FVec F S64 .f32) (main_arg12 : FVec F S64x8 .f32) (main_arg13 : FVec F S8 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x400000 : Shape := ⟨2, ![2, 400000]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S50000x1 : Shape := ⟨2, ![50000, 1]⟩
abbrev S1x256 : Shape := ⟨2, ![1, 256]⟩
abbrev S5000x128 : Shape := ⟨2, ![5000, 128]⟩
abbrev S1x128 : Shape := ⟨2, ![1, 128]⟩
abbrev S5000 : Shape := ⟨1, ![5000]⟩
abbrev S5000x1 : Shape := ⟨2, ![5000, 1]⟩
abbrev S1 : Shape := ⟨1, ![1]⟩
abbrev S1x1 : Shape := ⟨2, ![1, 1]⟩
abbrev S400000x256 : Shape := ⟨2, ![400000, 256]⟩
abbrev S400000x8 : Shape := ⟨2, ![400000, 8]⟩
abbrev S4000x256 : Shape := ⟨2, ![4000, 256]⟩
abbrev S4000x8 : Shape := ⟨2, ![4000, 8]⟩
abbrev S4000x128 : Shape := ⟨2, ![4000, 128]⟩
abbrev S4000x64 : Shape := ⟨2, ![4000, 64]⟩
abbrev S1x64 : Shape := ⟨2, ![1, 64]⟩
abbrev S1x8 : Shape := ⟨2, ![1, 8]⟩

abbrev nBuf : Space → Nat
  | .hbm => 130
  | .vmem => 40
  | .smem => 0
  | _ => 0

abbrev hbmTy0_0 (i : Nat) : BufTy := match i % 128 with
  | 0 => ⟨S50000x128, .f32⟩
  | 1 => ⟨S2x400000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S256x128, .f32⟩
  | 9 => ⟨S128, .f32⟩
  | 10 => ⟨S128x64, .f32⟩
  | 11 => ⟨S64, .f32⟩
  | 12 => ⟨S64x8, .f32⟩
  | 13 => ⟨S8, .f32⟩
  | 14 => ⟨S1x400000, .i32⟩
  | 15 => ⟨S400000, .i32⟩
  | 16 => ⟨S1x400000, .i32⟩
  | 17 => ⟨S400000, .i32⟩
  | 18 => ⟨S_, .i32⟩
  | 19 => ⟨S400000, .i32⟩
  | 20 => ⟨S400000, .i1⟩
  | 21 => ⟨S_, .i32⟩
  | 22 => ⟨S400000, .i32⟩
  | 23 => ⟨S400000, .i32⟩
  | 24 => ⟨S400000, .i32⟩
  | 25 => ⟨S400000x1, .i32⟩
  | 26 => ⟨S400000x128, .f32⟩
  | 27 => ⟨S_, .f32⟩
  | 28 => ⟨S50000x128, .f32⟩
  | 29 => ⟨S400000x1, .i32⟩
  | 30 => ⟨S50000x128, .f32⟩
  | 31 => ⟨S_, .f32⟩
  | 32 => ⟨S400000x1, .f32⟩
  | 33 => ⟨S_, .f32⟩
  | 34 => ⟨S50000x1, .f32⟩
  | 35 => ⟨S400000x1, .i32⟩
  | 36 => ⟨S50000x1, .f32⟩
  | 37 => ⟨S_, .f32⟩
  | 38 => ⟨S50000x1, .f32⟩
  | 39 => ⟨S50000x1, .f32⟩
  | 40 => ⟨S50000x128, .f32⟩
  | 41 => ⟨S50000x128, .f32⟩
  | 42 => ⟨S50000x128, .f32⟩
  | 43 => ⟨S1x256, .f32⟩
  | 44 => ⟨S1x128, .f32⟩
  | 45 => ⟨S1x1, .f32⟩
  | 46 => ⟨S_, .f32⟩
  | 47 => ⟨S_, .f32⟩
  | 48 => ⟨S1x128, .f32⟩
  | 49 => ⟨S1x128, .f32⟩
  | 50 => ⟨S1x128, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S1x128, .f32⟩
  | 62 => ⟨S1x256, .f32⟩
  | 63 => ⟨S50000x128, .f32⟩
  | 64 => ⟨S_, .i32⟩
  | 65 => ⟨S400000, .i32⟩
  | 66 => ⟨S400000, .i1⟩
  | 67 => ⟨S_, .i32⟩
  | 68 => ⟨S400000, .i32⟩
  | 69 => ⟨S400000, .i32⟩
  | 70 => ⟨S400000, .i32⟩
  | 71 => ⟨S400000x1, .i32⟩
  | 72 => ⟨S400000x128, .f32⟩
  | 73 => ⟨S_, .f32⟩
  | 74 => ⟨S50000x128, .f32⟩
  | 75 => ⟨S400000x1, .i32⟩
  | 76 => ⟨S50000x128, .f32⟩
  | 77 => ⟨S_, .f32⟩
  | 78 => ⟨S400000x1, .f32⟩
  | 79 => ⟨S_, .f32⟩
  | 80 => ⟨S50000x1, .f32⟩
  | 81 => ⟨S400000x1, .i32⟩
  | 82 => ⟨S50000x1, .f32⟩
  | 83 => ⟨S_, .f32⟩
  | 84 => ⟨S50000x1, .f32⟩
  | 85 => ⟨S50000x1, .f32⟩
  | 86 => ⟨S50000x128, .f32⟩
  | 87 => ⟨S50000x128, .f32⟩
  | 88 => ⟨S50000x128, .f32⟩
  | 89 => ⟨S1x256, .f32⟩
  | 90 => ⟨S1x128, .f32⟩
  | 91 => ⟨S1x1, .f32⟩
  | 92 => ⟨S_, .f32⟩
  | 93 => ⟨S_, .f32⟩
  | 94 => ⟨S1x128, .f32⟩
  | 95 => ⟨S1x128, .f32⟩
  | 96 => ⟨S1x128, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S1x128, .f32⟩
  | 108 => ⟨S1x256, .f32⟩
  | 109 => ⟨S50000x128, .f32⟩
  | 110 => ⟨S_, .i32⟩
  | 111 => ⟨S400000, .i32⟩
  | 112 => ⟨S400000, .i1⟩
  | 113 => ⟨S_, .i32⟩
  | 114 => ⟨S400000, .i32⟩
  | 115 => ⟨S400000, .i32⟩
  | 116 => ⟨S400000, .i32⟩
  | 117 => ⟨S400000x1, .i32⟩
  | 118 => ⟨S400000x128, .f32⟩
  | 119 => ⟨S_, .i32⟩
  | 120 => ⟨S400000, .i32⟩
  | 121 => ⟨S400000, .i1⟩
  | 122 => ⟨S_, .i32⟩
  | 123 => ⟨S400000, .i32⟩
  | 124 => ⟨S400000, .i32⟩
  | 125 => ⟨S400000, .i32⟩
  | 126 => ⟨S400000x1, .i32⟩
  | 127 => ⟨S400000x128, .f32⟩
  | _ => ⟨S50000x128, .f32⟩

abbrev hbmTy0_1 (i : Nat) : BufTy := match i % 128 with
  | 0 => ⟨S400000x256, .f32⟩
  | 1 => ⟨S400000x8, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S1x256, .f32⟩
  | .local _ .vmem, ⟨10, _⟩ => ⟨S5000x128, .f32⟩
  | .local _ .vmem, ⟨11, _⟩ => ⟨S5000x128, .f32⟩
  | .local _ .vmem, ⟨12, _⟩ => ⟨S1x256, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S1x256, .f32⟩
  | .local _ .vmem, ⟨25, _⟩ => ⟨S5000x128, .f32⟩
  | .local _ .vmem, ⟨26, _⟩ => ⟨S5000x128, .f32⟩
  | .local _ .vmem, ⟨27, _⟩ => ⟨S1x256, .f32⟩
  | .local _ .vmem, ⟨28, _⟩ => ⟨S5000x128, .f32⟩
  | .local _ .vmem, ⟨29, _⟩ => ⟨S5000x128, .f32⟩
  | .local _ .vmem, ⟨30, _⟩ => ⟨S4000x256, .f32⟩
  | .local _ .vmem, ⟨31, _⟩ => ⟨S4000x256, .f32⟩
  | .local _ .vmem, ⟨32, _⟩ => ⟨S256x128, .f32⟩
  | .local _ .vmem, ⟨33, _⟩ => ⟨S128, .f32⟩
  | .local _ .vmem, ⟨34, _⟩ => ⟨S128x64, .f32⟩
  | .local _ .vmem, ⟨35, _⟩ => ⟨S64, .f32⟩
  | .local _ .vmem, ⟨36, _⟩ => ⟨S64x8, .f32⟩
  | .local _ .vmem, ⟨37, _⟩ => ⟨S8, .f32⟩
  | .local _ .vmem, ⟨38, _⟩ => ⟨S4000x8, .f32⟩
  | .local _ .vmem, ⟨39, _⟩ => ⟨S4000x8, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22_0 : Ref sig .tc := ⟨.hbm, 42, rfl⟩
abbrev main_v22_1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_cst_7 : Ref sig .tc := ⟨.hbm, 56, rfl⟩
abbrev main_v32 : Ref sig .tc := ⟨.hbm, 57, rfl⟩
abbrev main_cst_8 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_9 : Ref sig .tc := ⟨.hbm, 64, rfl⟩
abbrev main_v38 : Ref sig .tc := ⟨.hbm, 65, rfl⟩
abbrev main_v39 : Ref sig .tc := ⟨.hbm, 66, rfl⟩
abbrev main_c_10 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_11 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_12 : Ref sig .tc := ⟨.hbm, 77, rfl⟩
abbrev main_v48 : Ref sig .tc := ⟨.hbm, 78, rfl⟩
abbrev main_cst_13 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_14 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56_0 : Ref sig .tc := ⟨.hbm, 88, rfl⟩
abbrev main_v56_1 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_15 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_16 : Ref sig .tc := ⟨.hbm, 97, rfl⟩
abbrev main_v63 : Ref sig .tc := ⟨.hbm, 98, rfl⟩
abbrev main_cst_17 : Ref sig .tc := ⟨.hbm, 99, rfl⟩
abbrev main_v64 : Ref sig .tc := ⟨.hbm, 100, rfl⟩
abbrev main_v65 : Ref sig .tc := ⟨.hbm, 101, rfl⟩
abbrev main_cst_18 : Ref sig .tc := ⟨.hbm, 102, rfl⟩
abbrev main_v66 : Ref sig .tc := ⟨.hbm, 103, rfl⟩
abbrev main_cst_19 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_20 : Ref sig .tc := ⟨.hbm, 110, rfl⟩
abbrev main_v72 : Ref sig .tc := ⟨.hbm, 111, rfl⟩
abbrev main_v73 : Ref sig .tc := ⟨.hbm, 112, rfl⟩
abbrev main_c_21 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_22 : Ref sig .tc := ⟨.hbm, 119, rfl⟩
abbrev main_v79 : Ref sig .tc := ⟨.hbm, 120, rfl⟩
abbrev main_v80 : Ref sig .tc := ⟨.hbm, 121, rfl⟩
abbrev main_c_23 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg6_0 : Ref sig .tc := ⟨.vmem, 37, rfl⟩
abbrev cc4_stg7_0 : Ref sig .tc := ⟨.vmem, 38, rfl⟩
abbrev cc4_stg7_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc2_sem6_0 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem6_0 : DmaSem sig := 37
abbrev cc4_sem7_0 : DmaSem sig := 38
abbrev cc4_sem7_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x8 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S8 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S4000x8 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x128 : S_.BroadcastsInDim S50000x128 (![] : Fin 0 → Fin S50000x128.rank)
  bcast_S_S400000x1 : S_.BroadcastsInDim S400000x1 (![] : Fin 0 → Fin S400000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  inb_S1x256_S1x256_0_0 : ∀ a, (![0, 0] : Fin 2 → Nat) a + S1x256.size a ≤ S1x256.size a
  h_S1x256 : 0 < S1x256.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S128 : S5000x128.Reduces [0] S128
  reduces_S5000x128_S5000 : S5000x128.Reduces [1] S5000
  shapeCasts_S5000_S5000x1 : S5000.ShapeCasts S5000x1
  reduces_S5000x1_S1 : S5000x1.Reduces [0] S1
  shapeCasts_S1_S1x1 : S1.ShapeCasts S1x1
  shapeCasts_S1x1_S1x1 : S1x1.ShapeCasts S1x1
  broadcasts_S1x1_S1x128 : S1x1.Broadcasts S1x128
  inb_S1x256_S1x128_0_0 : ∀ a, (![0, 0] : Fin 2 → Nat) a + S1x128.size a ≤ S1x256.size a
  h_S1x128 : 0 < S1x128.numel
  shapeCasts_S1x128_S1x128 : S1x128.ShapeCasts S1x128
  inb_S1x256_S1x128_0_128 : ∀ a, (![0, 128] : Fin 2 → Nat) a + S1x128.size a ≤ S1x256.size a
  slices_S1x256_S1x128_0_0 : S1x256.Slices ![0, 0] S1x128
  slices_S1x256_S1x1_0_128 : S1x256.Slices ![0, 128] S1x1
  shapeCasts_S1x1_S_ : S1x1.ShapeCasts S_
  bcast_S_S1x128 : S_.BroadcastsInDim S1x128 (![] : Fin 0 → Fin S1x128.rank)
  reducesTo_S1x128_S_d0_1 : S1x128.ReducesTo [0, 1] S_
  h_S_ : 0 < S_.numel
  concatenates_S1x128_S1x128_S1x256_d1 : Shape.Concatenates [S1x128, S1x128] S1x256 1
  concatenates_S400000x128_S400000x128_S400000x256_d1 : Shape.Concatenates [S400000x128, S400000x128] S400000x256 1
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x128_S256x128_0_0 : ∀ a, (![0, 0] : Fin 2 → Nat) a + S256x128.size a ≤ S256x128.size a
  h_S256x128 : 0 < S256x128.numel
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S64x8_S64x8_0_0 : ∀ a, (![0, 0] : Fin 2 → Nat) a + S64x8.size a ≤ S64x8.size a
  h_S64x8 : 0 < S64x8.numel
  inb_S8_S8_0 : ∀ a, (![0] : Fin 1 → Nat) a + S8.size a ≤ S8.size a
  h_S8 : 0 < S8.numel
  shapeCasts_S8_S1x8 : S8.ShapeCasts S1x8
  broadcasts_S1x8_S4000x8 : S1x8.Broadcasts S4000x8
  inb_S4000x8_S4000x8_0_0 : ∀ a, (![0, 0] : Fin 2 → Nat) a + S4000x8.size a ≤ S4000x8.size a
  h_S4000x8 : 0 < S4000x8.numel
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  scatter_S50000x1_S400000x1_S400000x1_1_0_0_1_wf : ScatterDims.WF S50000x1 S400000x1 S400000x1 [1] [0] [0] 1
  dot_S5000x128_S128x128_S5000x128_1_0_0_1_n_n_wf : DotDims.WF S5000x128 S128x128 S5000x128 [1] [0] [0] [1] [] []
  dot_S4000x256_S256x128_S4000x128_1_0_0_1_n_n_wf : DotDims.WF S4000x256 S256x128 S4000x128 [1] [0] [0] [1] [] []
  dot_S4000x128_S128x64_S4000x64_1_0_0_1_n_n_wf : DotDims.WF S4000x128 S128x64 S4000x64 [1] [0] [0] [1] [] []
  dot_S4000x64_S64x8_S4000x8_1_0_0_1_n_n_wf : DotDims.WF S4000x64 S64x8 S4000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x256.size a ≤ S400000x256.size a
  hwx4_0 : ∀ i : grid4.Coords, EltTy.bits .f32 = 32 ∨ (Rect.block (s := S400000x256) S4000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64.size a ≤ S64.size a
  hwx4_4 : ∀ i : grid4.Coords, EltTy.bits .f32 = 32 ∨ (Rect.block (s := S64) S64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x8.size a ≤ S64x8.size a
  hwx4_5 : ∀ i : grid4.Coords, EltTy.bits .f32 = 32 ∨ (Rect.block (s := S64x8) S64x8.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S8.size a ≤ S8.size a
  hwx4_6 : ∀ i : grid4.Coords, EltTy.bits .f32 = 32 ∨ (Rect.block (s := S8) S8.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S4000x8.size a ≤ S400000x8.size a
  hwx4_7 : ∀ i : grid4.Coords, EltTy.bits .f32 = 32 ∨ (Rect.block (s := S400000x8) S4000x8.size (cc4_transform_7 i) (hinb4_7 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x8_S4000x8_1_0_0_1_n_n : DotDims S4000x64 S64x8 S4000x8 where
  lhsContracting := [1]
  rhsContracting := [0]
  lhsNonContracting := [0]
  rhsNonContracting := [1]
  lhsBatch := []
  rhsBatch := []
  wf := dot_S4000x64_S64x8_S4000x8_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22_1) S1x256.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v55) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v56_1) S1x256.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v56_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v86) S4000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg11) S64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg12) S64x8.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg13) S8.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v87) S4000x8.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x400000 : Shape := ⟨2, ![2, 400000]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S50000x1 : Shape := ⟨2, ![50000, 1]⟩
abbrev S1x128 : Shape := ⟨2, ![1, 128]⟩
abbrev S50000 : Shape := ⟨1, ![50000]⟩
abbrev S400000x256 : Shape := ⟨2, ![400000, 256]⟩
abbrev S400000x64 : Shape := ⟨2, ![400000, 64]⟩
abbrev S1x64 : Shape := ⟨2, ![1, 64]⟩
abbrev S400000x8 : Shape := ⟨2, ![400000, 8]⟩
abbrev S1x8 : Shape := ⟨2, ![1, 8]⟩

abbrev nBuf : Space → Nat
  | .hbm => 177
  | .vmem => 0
  | .smem => 0
  | _ => 0

abbrev hbmTy0_0 (i : Nat) : BufTy := match i % 128 with
  | 0 => ⟨S50000x128, .f32⟩
  | 1 => ⟨S2x400000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S256x128, .f32⟩
  | 9 => ⟨S128, .f32⟩
  | 10 => ⟨S128x64, .f32⟩
  | 11 => ⟨S64, .f32⟩
  | 12 => ⟨S64x8, .f32⟩
  | 13 => ⟨S8, .f32⟩
  | 14 => ⟨S1x400000, .i32⟩
  | 15 => ⟨S400000, .i32⟩
  | 16 => ⟨S1x400000, .i32⟩
  | 17 => ⟨S400000, .i32⟩
  | 18 => ⟨S_, .i32⟩
  | 19 => ⟨S400000, .i32⟩
  | 20 => ⟨S400000, .i1⟩
  | 21 => ⟨S_, .i32⟩
  | 22 => ⟨S400000, .i32⟩
  | 23 => ⟨S400000, .i32⟩
  | 24 => ⟨S400000, .i32⟩
  | 25 => ⟨S400000x1, .i32⟩
  | 26 => ⟨S400000x128, .f32⟩
  | 27 => ⟨S_, .f32⟩
  | 28 => ⟨S50000x128, .f32⟩
  | 29 => ⟨S400000x1, .i32⟩
  | 30 => ⟨S50000x128, .f32⟩
  | 31 => ⟨S_, .f32⟩
  | 32 => ⟨S400000x1, .f32⟩
  | 33 => ⟨S_, .f32⟩
  | 34 => ⟨S50000x1, .f32⟩
  | 35 => ⟨S400000x1, .i32⟩
  | 36 => ⟨S50000x1, .f32⟩
  | 37 => ⟨S_, .f32⟩
  | 38 => ⟨S50000x1, .f32⟩
  | 39 => ⟨S50000x1, .f32⟩
  | 40 => ⟨S50000x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S50000x128, .f32⟩
  | 47 => ⟨S50000x128, .f32⟩
  | 48 => ⟨S_, .f32⟩
  | 49 => ⟨S128, .f32⟩
  | 50 => ⟨S1x128, .f32⟩
  | 51 => ⟨S_, .f32⟩
  | 52 => ⟨S1x128, .f32⟩
  | 53 => ⟨S1x128, .f32⟩
  | 54 => ⟨S50000x128, .f32⟩
  | 55 => ⟨S50000x128, .f32⟩
  | 56 => ⟨S50000x128, .f32⟩
  | 57 => ⟨S_, .f32⟩
  | 58 => ⟨S50000, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S50000x128, .f32⟩
  | 67 => ⟨S50000x128, .f32⟩
  | 68 => ⟨S_, .f32⟩
  | 69 => ⟨S50000x128, .f32⟩
  | 70 => ⟨S50000x128, .i1⟩
  | 71 => ⟨S_, .f32⟩
  | 72 => ⟨S50000x128, .f32⟩
  | 73 => ⟨S50000x128, .f32⟩
  | 74 => ⟨S50000x128, .f32⟩
  | 75 => ⟨S_, .i32⟩
  | 76 => ⟨S400000, .i32⟩
  | 77 => ⟨S400000, .i1⟩
  | 78 => ⟨S_, .i32⟩
  | 79 => ⟨S400000, .i32⟩
  | 80 => ⟨S400000, .i32⟩
  | 81 => ⟨S400000, .i32⟩
  | 82 => ⟨S400000x1, .i32⟩
  | 83 => ⟨S400000x128, .f32⟩
  | 84 => ⟨S_, .f32⟩
  | 85 => ⟨S50000x128, .f32⟩
  | 86 => ⟨S400000x1, .i32⟩
  | 87 => ⟨S50000x128, .f32⟩
  | 88 => ⟨S_, .f32⟩
  | 89 => ⟨S400000x1, .f32⟩
  | 90 => ⟨S_, .f32⟩
  | 91 => ⟨S50000x1, .f32⟩
  | 92 => ⟨S400000x1, .i32⟩
  | 93 => ⟨S50000x1, .f32⟩
  | 94 => ⟨S_, .f32⟩
  | 95 => ⟨S50000x1, .f32⟩
  | 96 => ⟨S50000x1, .f32⟩
  | 97 => ⟨S50000x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S50000x128, .f32⟩
  | 104 => ⟨S50000x128, .f32⟩
  | 105 => ⟨S_, .f32⟩
  | 106 => ⟨S128, .f32⟩
  | 107 => ⟨S1x128, .f32⟩
  | 108 => ⟨S_, .f32⟩
  | 109 => ⟨S1x128, .f32⟩
  | 110 => ⟨S1x128, .f32⟩
  | 111 => ⟨S50000x128, .f32⟩
  | 112 => ⟨S50000x128, .f32⟩
  | 113 => ⟨S50000x128, .f32⟩
  | 114 => ⟨S_, .f32⟩
  | 115 => ⟨S50000, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S50000x128, .f32⟩
  | 124 => ⟨S50000x128, .f32⟩
  | 125 => ⟨S_, .f32⟩
  | 126 => ⟨S50000x128, .f32⟩
  | 127 => ⟨S50000x128, .i1⟩
  | _ => ⟨S50000x128, .f32⟩

abbrev hbmTy0_1 (i : Nat) : BufTy := match i % 128 with
  | 0 => ⟨S_, .f32⟩
  | 1 => ⟨S50000x128, .f32⟩
  | 2 => ⟨S50000x128, .f32⟩
  | 3 => ⟨S50000x128, .f32⟩
  | 4 => ⟨S_, .i32⟩
  | 5 => ⟨S400000, .i32⟩
  | 6 => ⟨S400000, .i1⟩
  | 7 => ⟨S_, .i32⟩
  | 8 => ⟨S400000, .i32⟩
  | 9 => ⟨S400000, .i32⟩
  | 10 => ⟨S400000, .i32⟩
  | 11 => ⟨S400000x1, .i32⟩
  | 12 => ⟨S400000x128, .f32⟩
  | 13 => ⟨S_, .i32⟩
  | 14 => ⟨S400000, .i32⟩
  | 15 => ⟨S400000, .i1⟩
  | 16 => ⟨S_, .i32⟩
  | 17 => ⟨S400000, .i32⟩
  | 18 => ⟨S400000, .i32⟩
  | 19 => ⟨S400000, .i32⟩
  | 20 => ⟨S400000x1, .i32⟩
  | 21 => ⟨S400000x128, .f32⟩
  | 22 => ⟨S400000x256, .f32⟩
  | 23 => ⟨S400000x128, .f32⟩
  | 24 => ⟨S1x128, .f32⟩
  | 25 => ⟨S400000x128, .f32⟩
  | 26 => ⟨S400000x128, .f32⟩
  | 27 => ⟨S_, .f32⟩
  | 28 => ⟨S400000x128, .f32⟩
  | 29 => ⟨S400000x128, .i1⟩
  | 30 => ⟨S_, .f32⟩
  | 31 => ⟨S400000x128, .f32⟩
  | 32 => ⟨S400000x128, .f32⟩
  | 33 => ⟨S400000x128, .f32⟩
  | 34 => ⟨S400000x64, .f32⟩
  | 35 => ⟨S1x64, .f32⟩
  | 36 => ⟨S400000x64, .f32⟩
  | 37 => ⟨S400000x64, .f32⟩
  | 38 => ⟨S_, .f32⟩
  | 39 => ⟨S400000x64, .f32⟩
  | 40 => ⟨S400000x64, .i1⟩
  | 41 => ⟨S_, .f32⟩
  | 42 => ⟨S400000x64, .f32⟩
  | 43 => ⟨S400000x64, .f32⟩
  | 44 => ⟨S400000x64, .f32⟩
  | 45 => ⟨S400000x8, .f32⟩
  | 46 => ⟨S1x8, .f32⟩
  | 47 => ⟨S400000x8, .f32⟩
  | 48 => ⟨S400000x8, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_cst_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩
abbrev main_cst_11 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_12 : Ref sig .tc := ⟨.hbm, 75, rfl⟩
abbrev main_v47 : Ref sig .tc := ⟨.hbm, 76, rfl⟩
abbrev main_v48 : Ref sig .tc := ⟨.hbm, 77, rfl⟩
abbrev main_c_13 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_14 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_15 : Ref sig .tc := ⟨.hbm, 88, rfl⟩
abbrev main_v57 : Ref sig .tc := ⟨.hbm, 89, rfl⟩
abbrev main_cst_16 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_17 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_18 : Ref sig .tc := ⟨.hbm, 105, rfl⟩
abbrev main_v71 : Ref sig .tc := ⟨.hbm, 106, rfl⟩
abbrev main_v72 : Ref sig .tc := ⟨.hbm, 107, rfl⟩
abbrev main_cst_19 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_20 : Ref sig .tc := ⟨.hbm, 114, rfl⟩
abbrev main_v78 : Ref sig .tc := ⟨.hbm, 115, rfl⟩
abbrev main_cst_21 : Ref sig .tc := ⟨.hbm, 116, rfl⟩
abbrev main_v79 : Ref sig .tc := ⟨.hbm, 117, rfl⟩
abbrev main_cst_22 : Ref sig .tc := ⟨.hbm, 118, rfl⟩
abbrev main_v80 : Ref sig .tc := ⟨.hbm, 119, rfl⟩
abbrev main_cst_23 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_24 : Ref sig .tc := ⟨.hbm, 125, rfl⟩
abbrev main_v85 : Ref sig .tc := ⟨.hbm, 126, rfl⟩
abbrev main_v86 : Ref sig .tc := ⟨.hbm, 127, rfl⟩
abbrev main_cst_25 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_c_26 : Ref sig .tc := ⟨.hbm, 132, rfl⟩
abbrev main_v90 : Ref sig .tc := ⟨.hbm, 133, rfl⟩
abbrev main_v91 : Ref sig .tc := ⟨.hbm, 134, rfl⟩
abbrev main_c_27 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_c_28 : Ref sig .tc := ⟨.hbm, 141, rfl⟩
abbrev main_v97 : Ref sig .tc := ⟨.hbm, 142, rfl⟩
abbrev main_v98 : Ref sig .tc := ⟨.hbm, 143, rfl⟩
abbrev main_c_29 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_30 : Ref sig .tc := ⟨.hbm, 155, rfl⟩
abbrev main_v109 : Ref sig .tc := ⟨.hbm, 156, rfl⟩
abbrev main_v110 : Ref sig .tc := ⟨.hbm, 157, rfl⟩
abbrev main_cst_31 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_32 : Ref sig .tc := ⟨.hbm, 166, rfl⟩
abbrev main_v118 : Ref sig .tc := ⟨.hbm, 167, rfl⟩
abbrev main_v119 : Ref sig .tc := ⟨.hbm, 168, rfl⟩
abbrev main_cst_33 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x128 : S_.BroadcastsInDim S50000x128 (![] : Fin 0 → Fin S50000x128.rank)
  bcast_S_S400000x1 : S_.BroadcastsInDim S400000x1 (![] : Fin 0 → Fin S400000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S1x128 : S_.BroadcastsInDim S1x128 (![] : Fin 0 → Fin S1x128.rank)
  reducesTo_S50000x128_S50000_d1 : S50000x128.ReducesTo [1] S50000
  reducesTo_S50000_S_d0 : S50000.ReducesTo [0] S_
  concatenates_S400000x128_S400000x128_S400000x256_d1 : Shape.Concatenates [S400000x128, S400000x128] S400000x256 1
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S64_S1x64_1 : S64.BroadcastsInDim S1x64 (![1] : Fin 1 → Fin S1x64.rank)
  bcast_S1x64_S400000x64_0_1 : S1x64.BroadcastsInDim S400000x64 (![0, 1] : Fin 2 → Fin S400000x64.rank)
  bcast_S_S400000x64 : S_.BroadcastsInDim S400000x64 (![] : Fin 0 → Fin S400000x64.rank)
  bcast_S8_S1x8_1 : S8.BroadcastsInDim S1x8 (![1] : Fin 1 → Fin S1x8.rank)
  bcast_S1x8_S400000x8_0_1 : S1x8.BroadcastsInDim S400000x8 (![0, 1] : Fin 2 → Fin S400000x8.rank)
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  scatter_S50000x1_S400000x1_S400000x1_1_0_0_1_wf : ScatterDims.WF S50000x1 S400000x1 S400000x1 [1] [0] [0] 1
  dot_S50000x128_S128x128_S50000x128_1_0_0_1_n_n_wf : DotDims.WF S50000x128 S128x128 S50000x128 [1] [0] [0] [1] [] []
  dot_S400000x256_S256x128_S400000x128_1_0_0_1_n_n_wf : DotDims.WF S400000x256 S256x128 S400000x128 [1] [0] [0] [1] [] []
  dot_S400000x128_S128x64_S400000x64_1_0_0_1_n_n_wf : DotDims.WF S400000x128 S128x64 S400000x64 [1] [0] [0] [1] [] []
  dot_S400000x64_S64x8_S400000x8_1_0_0_1_n_n_wf : DotDims.WF S400000x64 S64x8 S400000x8 [1] [0] [0] [1] [] []

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S400000x256_S256x128_S400000x128_1_0_0_1_n_n : DotDims S400000x256 S256x128 S400000x128 where
  lhsContracting := [1]
  rhsContracting := [0]
  lhsNonContracting := [0]
  rhsNonContracting := [1]
  lhsBatch := []
  rhsBatch := []
  wf := dot_S400000x256_S256x128_S400000x128_1_0_0_1_n_n_wf
def dot_S400000x128_S128x64_S400000x64_1_0_0_1_n_n : DotDims S400000x128 S128x64 S400000x64 where
  lhsContracting := [1]
  rhsContracting := [0]
  lhsNonContracting := [0]
  rhsNonContracting := [1]
  lhsBatch := []
  rhsBatch := []
  wf := dot_S400000x128_S128x64_S400000x64_1_0_0_1_n_n_wf
def dot_S400000x64_S64x8_S400000x8_1_0_0_1_n_n : DotDims S400000x64 S64x8 S400000x8 where
  lhsContracting := [1]
  rhsContracting := [0]
  lhsNonContracting := [0]
  rhsNonContracting := [1]
  lhsBatch := []
  rhsBatch := []
  wf := dot_S400000x64_S64x8_S400000x8_1_0_0_1_n_n_wf

class Facts : Prop extends Facts₀ where

variable [Facts]
-- ==== Proof.LibAfterAppend.lean ====
/-
  Running a line of host operations in two parts: the buffer contents after the operations `l₁ ++ l₂` are the contents after
  `l₂`, started from the contents after `l₁`. (The contents after a line are the fold of each operation's result over the
  contents before it, so this is the fold of an appended list.)
-/
import Idealize.ShloMosaic.Lib.StableHlo.Run

namespace Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op ops ih => exact ih (op.result V)

end Idealize.ShloMosaic.StableHlo
-- ==== Proof.RefRunFast.lean ====
/-
  The reference program's run, read slice by slice.

  The reference's @main is a line of 163 host operations. Its result is stated by the stage function `ReadP.val_main_v126`
  of the argument arrays (the same operations, each value named once). The operations are cut into eleven consecutive
  slices `sl1 … sl11` at points where few values are live (`ops_eq`); for each slice and each buffer a later slice still
  reads, a lemma `sK_<buffer>` says that from ANY contents `W` that hold the stage functions at the slice's live inputs,
  the contents after the slice hold the stage function at that buffer; `result` chains them along
  `after (l₁ ++ l₂) V = after l₂ (after l₁ V)`, generalizing the contents between slices. No operation writes an
  argument's buffer, so every argument ends as launched (`arg_keepK`). `run`: every weakly fair execution terminates
  with the result at that stage function of the launch contents and the arguments unchanged.
-/
import proofs.«149413_j36197984370744_1_alg».proof.Proof.Gen.ReferenceIdeal
import proofs.«149413_j36197984370744_1_alg».proof.Proof.RefRead
import proofs.«149413_j36197984370744_1_alg».proof.Proof.LibAfterAppend
import Idealize.ShloMosaic.Lib.StableHlo.Run

noncomputable section

namespace Cert.ReferenceIdeal.ValueQ

open Cert.ReferenceIdeal Cert.ReferenceIdeal.Gen Idealize.ShloMosaic Idealize.ShloMosaic.TcCoe Idealize.SL.Sem Idealize.ShloMosaic.StableHlo

variable {F : FTy → Type} [FloatOps F]

/-- @main's 163 operations, in order (a called function's operations stand in its call's place, spelt `TRef.…`). -/
abbrev ops : List (HloOp τ sig (Elt F)) :=
  [ unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    reshape main_v0 main_v1 rfl shapeCasts_S1x400000_S400000,
    unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    reshape main_v2 main_v3 rfl shapeCasts_S1x400000_S400000,
    nullary main_c (constantI S_ 32 0#32),
    unary main_c main_v4 (broadcastInDim S400000 ![] bcast_S_S400000 : (⟨S_, .i32⟩ : BufTy).Contents (Elt F) → (⟨S400000, .i32⟩ : BufTy).Contents (Elt F)),
    binary main_v1 main_v4 main_v5 (cmpi .slt : (⟨S400000, .i32⟩ : BufTy).Contents (Elt F) → (⟨S400000, .i32⟩ : BufTy).Contents (Elt F) → (⟨S400000, .i1⟩ : BufTy).Contents (Elt F)),
    nullary main_c_0 (constantI S_ 32 50000#32),
    unary main_c_0 main_v6 (broadcastInDim S400000 ![] bcast_S_S400000 : (⟨S_, .i32⟩ : BufTy).Contents (Elt F) → (⟨S400000, .i32⟩ : BufTy).Contents (Elt F)),
    binary main_v1 main_v6 main_v7 (addi : (⟨S400000, .i32⟩ : BufTy).Contents (Elt F) → (⟨S400000, .i32⟩ : BufTy).Contents (Elt F) → (⟨S400000, .i32⟩ : BufTy).Contents (Elt F)),
    ternary main_v5 main_v7 main_v1 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v8 main_v9 (broadcastInDim S400000x1 ![0] bcast_S400000_S400000x1_0 : (⟨S400000, .i32⟩ : BufTy).Contents (Elt F) → (⟨S400000x1, .i32⟩ : BufTy).Contents (Elt F)),
    binary main_arg0 main_v9 main_v10 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S400000x1 ![0] bcast_S400000_S400000x1_0 : (⟨S400000, .i32⟩ : BufTy).Contents (Elt F) → (⟨S400000x1, .i32⟩ : BufTy).Contents (Elt F)),
    ternary main_v11 main_v12 main_v10 main_v13 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    nullary main_cst_1 (constant S_ .f32 0x3F800000#32),
    unary main_cst_1 main_v14 (broadcastInDim S400000x1 ![] bcast_S_S400000x1 : (⟨S_, .f32⟩ : BufTy).Contents (Elt F) → (⟨S400000x1, .f32⟩ : BufTy).Contents (Elt F)),
    nullary main_cst_2 (constant S_ .f32 0x00000000#32),
    unary main_cst_2 main_v15 (broadcastInDim S50000x1 ![] bcast_S_S50000x1 : (⟨S_, .f32⟩ : BufTy).Contents (Elt F) → (⟨S50000x1, .f32⟩ : BufTy).Contents (Elt F)),
    unary main_v3 main_v16 (broadcastInDim S400000x1 ![0] bcast_S400000_S400000x1_0 : (⟨S400000, .i32⟩ : BufTy).Contents (Elt F) → (⟨S400000x1, .i32⟩ : BufTy).Contents (Elt F)),
    ternary main_v15 main_v16 main_v14 main_v17 ((fun x i u => Host.scatterAdd scatter_S50000x1_S400000x1_S400000x1_1_0_0_1 x i u) : (⟨S50000x1, .f32⟩ : BufTy).Contents (Elt F) → (⟨S400000x1, .i32⟩ : BufTy).Contents (Elt F) → (⟨S400000x1, .f32⟩ : BufTy).Contents (Elt F) → (⟨S50000x1, .f32⟩ : BufTy).Contents (Elt F)),
    nullary main_cst_3 (constant S_ .f32 0x3F800000#32),
    unary main_cst_3 main_v18 (broadcastInDim S50000x1 ![] bcast_S_S50000x1 : (⟨S_, .f32⟩ : BufTy).Contents (Elt F) → (⟨S50000x1, .f32⟩ : BufTy).Contents (Elt F)),
    binary main_v17 main_v18 main_v19 (maximumf : (⟨S50000x1, .f32⟩ : BufTy).Contents (Elt F) → (⟨S50000x1, .f32⟩ : BufTy).Contents (Elt F) → (⟨S50000x1, .f32⟩ : BufTy).Contents (Elt F)),
    unary main_v19 main_v20 (broadcastInDim S50000x128 ![0, 1] bcast_S50000x1_S50000x128_0_1 : (⟨S50000x1, .f32⟩ : BufTy).Contents (Elt F) → (⟨S50000x128, .f32⟩ : BufTy).Contents (Elt F)),
    binary main_v13 main_v20 main_v21 (Host.divf : (⟨S50000x128, .f32⟩ : BufTy).Contents (Elt F) → (⟨S50000x128, .f32⟩ : BufTy).Contents (Elt F) → (⟨S50000x128, .f32⟩ : BufTy).Contents (Elt F)),
    binary main_v21 main_arg2 main_v22 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v23 (broadcastInDim S1x128 ![1] bcast_S128_S1x128_1 : (⟨S128, .f32⟩ : BufTy).Contents (Elt F) → (⟨S1x128, .f32⟩ : BufTy).Contents (Elt F)),
    unary main_v23 main_v24 (broadcastInDim S50000x128 ![0, 1] bcast_S1x128_S50000x128_0_1 : (⟨S1x128, .f32⟩ : BufTy).Contents (Elt F) → (⟨S50000x128, .f32⟩ : BufTy).Contents (Elt F)),
    binary main_v22 main_v24 main_v25 (addf : (⟨S50000x128, .f32⟩ : BufTy).Contents (Elt F) → (⟨S50000x128, .f32⟩ : BufTy).Contents (Elt F) → (⟨S50000x128, .f32⟩ : BufTy).Contents (Elt F)),
    binary main_arg0 main_arg4 main_v26 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v25 main_v26 main_v27 (addf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x00000000#32),
    binary main_v27 main_cst_4 main_v28 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v28 main_v29 (broadcastInDim S1x128 ![1] bcast_S128_S1x128_1 : (⟨S128, .f32⟩ : BufTy).Contents (Elt F) → (⟨S1x128, .f32⟩ : BufTy).Contents (Elt F)),
    nullary main_cst_5 (constant S_ .f32 0x47435000#32),
    unary main_cst_5 main_v30 (broadcastInDim S1x128 ![] bcast_S_S1x128 : (⟨S_, .f32⟩ : BufTy).Contents (Elt F) → (⟨S1x128, .f32⟩ : BufTy).Contents (Elt F)),
    binary main_v29 main_v30 main_v31 (Host.divf : (⟨S1x128, .f32⟩ : BufTy).Contents (Elt F) → (⟨S1x128, .f32⟩ : BufTy).Contents (Elt F) → (⟨S1x128, .f32⟩ : BufTy).Contents (Elt F)),
    unary main_v31 main_v32 (broadcastInDim S50000x128 ![0, 1] bcast_S1x128_S50000x128_0_1 : (⟨S1x128, .f32⟩ : BufTy).Contents (Elt F) → (⟨S50000x128, .f32⟩ : BufTy).Contents (Elt F)),
    binary main_v27 main_v32 main_v33 (subf : (⟨S50000x128, .f32⟩ : BufTy).Contents (Elt F) → (⟨S50000x128, .f32⟩ : BufTy).Contents (Elt F) → (⟨S50000x128, .f32⟩ : BufTy).Contents (Elt F)),
    binary main_v33 main_v33 main_v34 (mulf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x00000000#32),
    binary main_v34 main_cst_6 main_v35 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    nullary main_cst_7 (constant S_ .f32 0x00000000#32),
    binary main_v35 main_cst_7 main_v36 ((fun x v => Host.reduceAdd x v reducesTo_S50000_S_d0 h_S_) : (⟨S50000, .f32⟩ : BufTy).Contents (Elt F) → (⟨S_, .f32⟩ : BufTy).Contents (Elt F) → (⟨S_, .f32⟩ : BufTy).Contents (Elt F)),
    nullary main_cst_8 (constant S_ .f32 0x47435000#32),
    binary main_v36 main_cst_8 main_v37 (Host.divf : (⟨S_, .f32⟩ : BufTy).Contents (Elt F) → (⟨S_, .f32⟩ : BufTy).Contents (Elt F) → (⟨S_, .f32⟩ : BufTy).Contents (Elt F)),
    nullary main_cst_9 (constant S_ .f32 0x3727C5AC#32),
    binary main_cst_9 main_v37 main_v38 (addf : (⟨S_, .f32⟩ : BufTy).Contents (Elt F) → (⟨S_, .f32⟩ : BufTy).Contents (Elt F) → (⟨S_, .f32⟩ : BufTy).Contents (Elt F)),
    unary main_v38 main_v39 (Host.sqrt : (⟨S_, .f32⟩ : BufTy).Contents (Elt F) → (⟨S_, .f32⟩ : BufTy).Contents (Elt F)),
    unary main_v39 main_v40 (broadcastInDim S50000x128 ![] bcast_S_S50000x128 : (⟨S_, .f32⟩ : BufTy).Contents (Elt F) → (⟨S50000x128, .f32⟩ : BufTy).Contents (Elt F)),
    binary main_v33 main_v40 main_v41 (Host.divf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x00000000#32),
    unary main_cst_10 main_v42 (broadcastInDim S50000x128 ![] bcast_S_S50000x128 : (⟨S_, .f32⟩ : BufTy).Contents (Elt F) → (⟨S50000x128, .f32⟩ : BufTy).Contents (Elt F)),
    binary main_v41 main_v42 main_v43 (cmpf .oge : (⟨S50000x128, .f32⟩ : BufTy).Contents (Elt F) → (⟨S50000x128, .f32⟩ : BufTy).Contents (Elt F) → (⟨S50000x128, .i1⟩ : BufTy).Contents (Elt F)),
    nullary main_cst_11 (constant S_ .f32 0x3DCCCCCD#32),
    unary main_cst_11 main_v44 (broadcastInDim S50000x128 ![] bcast_S_S50000x128 : (⟨S_, .f32⟩ : BufTy).Contents (Elt F) → (⟨S50000x128, .f32⟩ : BufTy).Contents (Elt F)),
    binary main_v44 main_v41 main_v45 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v43) (TRef.of (T := ⟨S50000x128, .f32⟩) main_v41) (TRef.of (T := ⟨S50000x128, .f32⟩) main_v45) (TRef.of (T := ⟨S50000x128, .f32⟩) main_v46) select,
    nullary main_c_12 (constantI S_ 32 0#32),
    unary main_c_12 main_v47 (broadcastInDim S400000 ![] bcast_S_S400000 : (⟨S_, .i32⟩ : BufTy).Contents (Elt F) → (⟨S400000, .i32⟩ : BufTy).Contents (Elt F)),
    binary main_v1 main_v47 main_v48 (cmpi .slt : (⟨S400000, .i32⟩ : BufTy).Contents (Elt F) → (⟨S400000, .i32⟩ : BufTy).Contents (Elt F) → (⟨S400000, .i1⟩ : BufTy).Contents (Elt F)),
    nullary main_c_13 (constantI S_ 32 50000#32),
    unary main_c_13 main_v49 (broadcastInDim S400000 ![] bcast_S_S400000 : (⟨S_, .i32⟩ : BufTy).Contents (Elt F) → (⟨S400000, .i32⟩ : BufTy).Contents (Elt F)),
    binary main_v1 main_v49 main_v50 (addi : (⟨S400000, .i32⟩ : BufTy).Contents (Elt F) → (⟨S400000, .i32⟩ : BufTy).Contents (Elt F) → (⟨S400000, .i32⟩ : BufTy).Contents (Elt F)),
    ternary main_v48 main_v50 main_v1 main_v51 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v51 main_v52 (broadcastInDim S400000x1 ![0] bcast_S400000_S400000x1_0 : (⟨S400000, .i32⟩ : BufTy).Contents (Elt F) → (⟨S400000x1, .i32⟩ : BufTy).Contents (Elt F)),
    binary main_v46 main_v52 main_v53 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_cst_14 (constant S_ .f32 0x00000000#32),
    unary main_cst_14 main_v54 (broadcastInDim S50000x128 ![] bcast_S_S50000x128 : (⟨S_, .f32⟩ : BufTy).Contents (Elt F) → (⟨S50000x128, .f32⟩ : BufTy).Contents (Elt F)),
    unary main_v3 main_v55 (broadcastInDim S400000x1 ![0] bcast_S400000_S400000x1_0 : (⟨S400000, .i32⟩ : BufTy).Contents (Elt F) → (⟨S400000x1, .i32⟩ : BufTy).Contents (Elt F)),
    ternary main_v54 main_v55 main_v53 main_v56 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    nullary main_cst_15 (constant S_ .f32 0x3F800000#32),
    unary main_cst_15 main_v57 (broadcastInDim S400000x1 ![] bcast_S_S400000x1 : (⟨S_, .f32⟩ : BufTy).Contents (Elt F) → (⟨S400000x1, .f32⟩ : BufTy).Contents (Elt F)),
    nullary main_cst_16 (constant S_ .f32 0x00000000#32),
    unary main_cst_16 main_v58 (broadcastInDim S50000x1 ![] bcast_S_S50000x1 : (⟨S_, .f32⟩ : BufTy).Contents (Elt F) → (⟨S50000x1, .f32⟩ : BufTy).Contents (Elt F)),
    unary main_v3 main_v59 (broadcastInDim S400000x1 ![0] bcast_S400000_S400000x1_0 : (⟨S400000, .i32⟩ : BufTy).Contents (Elt F) → (⟨S400000x1, .i32⟩ : BufTy).Contents (Elt F)),
    ternary main_v58 main_v59 main_v57 main_v60 ((fun x i u => Host.scatterAdd scatter_S50000x1_S400000x1_S400000x1_1_0_0_1 x i u) : (⟨S50000x1, .f32⟩ : BufTy).Contents (Elt F) → (⟨S400000x1, .i32⟩ : BufTy).Contents (Elt F) → (⟨S400000x1, .f32⟩ : BufTy).Contents (Elt F) → (⟨S50000x1, .f32⟩ : BufTy).Contents (Elt F)),
    nullary main_cst_17 (constant S_ .f32 0x3F800000#32),
    unary main_cst_17 main_v61 (broadcastInDim S50000x1 ![] bcast_S_S50000x1 : (⟨S_, .f32⟩ : BufTy).Contents (Elt F) → (⟨S50000x1, .f32⟩ : BufTy).Contents (Elt F)),
    binary main_v60 main_v61 main_v62 (maximumf : (⟨S50000x1, .f32⟩ : BufTy).Contents (Elt F) → (⟨S50000x1, .f32⟩ : BufTy).Contents (Elt F) → (⟨S50000x1, .f32⟩ : BufTy).Contents (Elt F)),
    unary main_v62 main_v63 (broadcastInDim S50000x128 ![0, 1] bcast_S50000x1_S50000x128_0_1 : (⟨S50000x1, .f32⟩ : BufTy).Contents (Elt F) → (⟨S50000x128, .f32⟩ : BufTy).Contents (Elt F)),
    binary main_v56 main_v63 main_v64 (Host.divf : (⟨S50000x128, .f32⟩ : BufTy).Contents (Elt F) → (⟨S50000x128, .f32⟩ : BufTy).Contents (Elt F) → (⟨S50000x128, .f32⟩ : BufTy).Contents (Elt F)),
    binary main_v64 main_arg5 main_v65 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v66 (broadcastInDim S1x128 ![1] bcast_S128_S1x128_1 : (⟨S128, .f32⟩ : BufTy).Contents (Elt F) → (⟨S1x128, .f32⟩ : BufTy).Contents (Elt F)),
    unary main_v66 main_v67 (broadcastInDim S50000x128 ![0, 1] bcast_S1x128_S50000x128_0_1 : (⟨S1x128, .f32⟩ : BufTy).Contents (Elt F) → (⟨S50000x128, .f32⟩ : BufTy).Contents (Elt F)),
    binary main_v65 main_v67 main_v68 (addf : (⟨S50000x128, .f32⟩ : BufTy).Contents (Elt F) → (⟨S50000x128, .f32⟩ : BufTy).Contents (Elt F) → (⟨S50000x128, .f32⟩ : BufTy).Contents (Elt F)),
    binary main_v46 main_arg7 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v68 main_v69 main_v70 (addf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x00000000#32),
    binary main_v70 main_cst_18 main_v71 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v71 main_v72 (broadcastInDim S1x128 ![1] bcast_S128_S1x128_1 : (⟨S128, .f32⟩ : BufTy).Contents (Elt F) → (⟨S1x128, .f32⟩ : BufTy).Contents (Elt F)),
    nullary main_cst_19 (constant S_ .f32 0x47435000#32),
    unary main_cst_19 main_v73 (broadcastInDim S1x128 ![] bcast_S_S1x128 : (⟨S_, .f32⟩ : BufTy).Contents (Elt F) → (⟨S1x128, .f32⟩ : BufTy).Contents (Elt F)),
    binary main_v72 main_v73 main_v74 (Host.divf : (⟨S1x128, .f32⟩ : BufTy).Contents (Elt F) → (⟨S1x128, .f32⟩ : BufTy).Contents (Elt F) → (⟨S1x128, .f32⟩ : BufTy).Contents (Elt F)),
    unary main_v74 main_v75 (broadcastInDim S50000x128 ![0, 1] bcast_S1x128_S50000x128_0_1 : (⟨S1x128, .f32⟩ : BufTy).Contents (Elt F) → (⟨S50000x128, .f32⟩ : BufTy).Contents (Elt F)),
    binary main_v70 main_v75 main_v76 (subf : (⟨S50000x128, .f32⟩ : BufTy).Contents (Elt F) → (⟨S50000x128, .f32⟩ : BufTy).Contents (Elt F) → (⟨S50000x128, .f32⟩ : BufTy).Contents (Elt F)),
    binary main_v76 main_v76 main_v77 (mulf : (⟨S50000x128, .f32⟩ : BufTy).Contents (Elt F) → (⟨S50000x128, .f32⟩ : BufTy).Contents (Elt F) → (⟨S50000x128, .f32⟩ : BufTy).Contents (Elt F)),
    nullary main_cst_20 (constant S_ .f32 0x00000000#32),
    binary main_v77 main_cst_20 main_v78 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    nullary main_cst_21 (constant S_ .f32 0x00000000#32),
    binary main_v78 main_cst_21 main_v79 ((fun x v => Host.reduceAdd x v reducesTo_S50000_S_d0 h_S_) : (⟨S50000, .f32⟩ : BufTy).Contents (Elt F) → (⟨S_, .f32⟩ : BufTy).Contents (Elt F) → (⟨S_, .f32⟩ : BufTy).Contents (Elt F)),
    nullary main_cst_22 (constant S_ .f32 0x47435000#32),
    binary main_v79 main_cst_22 main_v80 (Host.divf : (⟨S_, .f32⟩ : BufTy).Contents (Elt F) → (⟨S_, .f32⟩ : BufTy).Contents (Elt F) → (⟨S_, .f32⟩ : BufTy).Contents (Elt F)),
    nullary main_cst_23 (constant S_ .f32 0x3727C5AC#32),
    binary main_cst_23 main_v80 main_v81 (addf : (⟨S_, .f32⟩ : BufTy).Contents (Elt F) → (⟨S_, .f32⟩ : BufTy).Contents (Elt F) → (⟨S_, .f32⟩ : BufTy).Contents (Elt F)),
    unary main_v81 main_v82 (Host.sqrt : (⟨S_, .f32⟩ : BufTy).Contents (Elt F) → (⟨S_, .f32⟩ : BufTy).Contents (Elt F)),
    unary main_v82 main_v83 (broadcastInDim S50000x128 ![] bcast_S_S50000x128 : (⟨S_, .f32⟩ : BufTy).Contents (Elt F) → (⟨S50000x128, .f32⟩ : BufTy).Contents (Elt F)),
    binary main_v76 main_v83 main_v84 (Host.divf : (⟨S50000x128, .f32⟩ : BufTy).Contents (Elt F) → (⟨S50000x128, .f32⟩ : BufTy).Contents (Elt F) → (⟨S50000x128, .f32⟩ : BufTy).Contents (Elt F)),
    nullary main_cst_24 (constant S_ .f32 0x00000000#32),
    unary main_cst_24 main_v85 (broadcastInDim S50000x128 ![] bcast_S_S50000x128 : (⟨S_, .f32⟩ : BufTy).Contents (Elt F) → (⟨S50000x128, .f32⟩ : BufTy).Contents (Elt F)),
    binary main_v84 main_v85 main_v86 (cmpf .oge : (⟨S50000x128, .f32⟩ : BufTy).Contents (Elt F) → (⟨S50000x128, .f32⟩ : BufTy).Contents (Elt F) → (⟨S50000x128, .i1⟩ : BufTy).Contents (Elt F)),
    nullary main_cst_25 (constant S_ .f32 0x3DCCCCCD#32),
    unary main_cst_25 main_v87 (broadcastInDim S50000x128 ![] bcast_S_S50000x128 : (⟨S_, .f32⟩ : BufTy).Contents (Elt F) → (⟨S50000x128, .f32⟩ : BufTy).Contents (Elt F)),
    binary main_v87 main_v84 main_v88 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v86) (TRef.of (T := ⟨S50000x128, .f32⟩) main_v84) (TRef.of (T := ⟨S50000x128, .f32⟩) main_v88) (TRef.of (T := ⟨S50000x128, .f32⟩) main_v89) select,
    nullary main_c_26 (constantI S_ 32 0#32),
    unary main_c_26 main_v90 (broadcastInDim S400000 ![] bcast_S_S400000 : (⟨S_, .i32⟩ : BufTy).Contents (Elt F) → (⟨S400000, .i32⟩ : BufTy).Contents (Elt F)),
    binary main_v1 main_v90 main_v91 (cmpi .slt : (⟨S400000, .i32⟩ : BufTy).Contents (Elt F) → (⟨S400000, .i32⟩ : BufTy).Contents (Elt F) → (⟨S400000, .i1⟩ : BufTy).Contents (Elt F)),
    nullary main_c_27 (constantI S_ 32 50000#32),
    unary main_c_27 main_v92 (broadcastInDim S400000 ![] bcast_S_S400000 : (⟨S_, .i32⟩ : BufTy).Contents (Elt F) → (⟨S400000, .i32⟩ : BufTy).Contents (Elt F)),
    binary main_v1 main_v92 main_v93 (addi : (⟨S400000, .i32⟩ : BufTy).Contents (Elt F) → (⟨S400000, .i32⟩ : BufTy).Contents (Elt F) → (⟨S400000, .i32⟩ : BufTy).Contents (Elt F)),
    ternary main_v91 main_v93 main_v1 main_v94 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v94 main_v95 (broadcastInDim S400000x1 ![0] bcast_S400000_S400000x1_0 : (⟨S400000, .i32⟩ : BufTy).Contents (Elt F) → (⟨S400000x1, .i32⟩ : BufTy).Contents (Elt F)),
    binary main_v89 main_v95 main_v96 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_c_28 (constantI S_ 32 0#32),
    unary main_c_28 main_v97 (broadcastInDim S400000 ![] bcast_S_S400000 : (⟨S_, .i32⟩ : BufTy).Contents (Elt F) → (⟨S400000, .i32⟩ : BufTy).Contents (Elt F)),
    binary main_v3 main_v97 main_v98 (cmpi .slt : (⟨S400000, .i32⟩ : BufTy).Contents (Elt F) → (⟨S400000, .i32⟩ : BufTy).Contents (Elt F) → (⟨S400000, .i1⟩ : BufTy).Contents (Elt F)),
    nullary main_c_29 (constantI S_ 32 50000#32),
    unary main_c_29 main_v99 (broadcastInDim S400000 ![] bcast_S_S400000 : (⟨S_, .i32⟩ : BufTy).Contents (Elt F) → (⟨S400000, .i32⟩ : BufTy).Contents (Elt F)),
    binary main_v3 main_v99 main_v100 (addi : (⟨S400000, .i32⟩ : BufTy).Contents (Elt F) → (⟨S400000, .i32⟩ : BufTy).Contents (Elt F) → (⟨S400000, .i32⟩ : BufTy).Contents (Elt F)),
    ternary main_v98 main_v100 main_v3 main_v101 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v101 main_v102 (broadcastInDim S400000x1 ![0] bcast_S400000_S400000x1_0 : (⟨S400000, .i32⟩ : BufTy).Contents (Elt F) → (⟨S400000x1, .i32⟩ : BufTy).Contents (Elt F)),
    binary main_v89 main_v102 main_v103 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    binary main_v96 main_v103 main_v104 ((fun a b => concatenate S400000x256 1 [⟨S400000x128, a⟩, ⟨S400000x128, b⟩] concatenates_S400000x128_S400000x128_S400000x256_d1) : (⟨S400000x128, .f32⟩ : BufTy).Contents (Elt F) → (⟨S400000x128, .f32⟩ : BufTy).Contents (Elt F) → (⟨S400000x256, .f32⟩ : BufTy).Contents (Elt F)),
    binary main_v104 main_arg8 main_v105 ((fun l r => Host.dotGeneral dot_S400000x256_S256x128_S400000x128_1_0_0_1_n_n none l r) : (⟨S400000x256, .f32⟩ : BufTy).Contents (Elt F) → (⟨S256x128, .f32⟩ : BufTy).Contents (Elt F) → (⟨S400000x128, .f32⟩ : BufTy).Contents (Elt F)),
    unary main_arg9 main_v106 (broadcastInDim S1x128 ![1] bcast_S128_S1x128_1 : (⟨S128, .f32⟩ : BufTy).Contents (Elt F) → (⟨S1x128, .f32⟩ : BufTy).Contents (Elt F)),
    unary main_v106 main_v107 (broadcastInDim S400000x128 ![0, 1] bcast_S1x128_S400000x128_0_1 : (⟨S1x128, .f32⟩ : BufTy).Contents (Elt F) → (⟨S400000x128, .f32⟩ : BufTy).Contents (Elt F)),
    binary main_v105 main_v107 main_v108 (addf : (⟨S400000x128, .f32⟩ : BufTy).Contents (Elt F) → (⟨S400000x128, .f32⟩ : BufTy).Contents (Elt F) → (⟨S400000x128, .f32⟩ : BufTy).Contents (Elt F)),
    nullary main_cst_30 (constant S_ .f32 0x00000000#32),
    unary main_cst_30 main_v109 (broadcastInDim S400000x128 ![] bcast_S_S400000x128 : (⟨S_, .f32⟩ : BufTy).Contents (Elt F) → (⟨S400000x128, .f32⟩ : BufTy).Contents (Elt F)),
    binary main_v108 main_v109 main_v110 (cmpf .oge : (⟨S400000x128, .f32⟩ : BufTy).Contents (Elt F) → (⟨S400000x128, .f32⟩ : BufTy).Contents (Elt F) → (⟨S400000x128, .i1⟩ : BufTy).Contents (Elt F)),
    nullary main_cst_31 (constant S_ .f32 0x3DCCCCCD#32),
    unary main_cst_31 main_v111 (broadcastInDim S400000x128 ![] bcast_S_S400000x128 : (⟨S_, .f32⟩ : BufTy).Contents (Elt F) → (⟨S400000x128, .f32⟩ : BufTy).Contents (Elt F)),
    binary main_v111 main_v108 main_v112 (mulf : (⟨S400000x128, .f32⟩ : BufTy).Contents (Elt F) → (⟨S400000x128, .f32⟩ : BufTy).Contents (Elt F) → (⟨S400000x128, .f32⟩ : BufTy).Contents (Elt F)),
    TRef.ternary (TRef.of (T := ⟨S400000x128, .i1⟩) main_v110) (TRef.of (T := ⟨S400000x128, .f32⟩) main_v108) (TRef.of (T := ⟨S400000x128, .f32⟩) main_v112) (TRef.of (T := ⟨S400000x128, .f32⟩) main_v113) select,
    binary main_v113 main_arg10 main_v114 ((fun l r => Host.dotGeneral dot_S400000x128_S128x64_S400000x64_1_0_0_1_n_n none l r) : (⟨S400000x128, .f32⟩ : BufTy).Contents (Elt F) → (⟨S128x64, .f32⟩ : BufTy).Contents (Elt F) → (⟨S400000x64, .f32⟩ : BufTy).Contents (Elt F)),
    unary main_arg11 main_v115 (broadcastInDim S1x64 ![1] bcast_S64_S1x64_1 : (⟨S64, .f32⟩ : BufTy).Contents (Elt F) → (⟨S1x64, .f32⟩ : BufTy).Contents (Elt F)),
    unary main_v115 main_v116 (broadcastInDim S400000x64 ![0, 1] bcast_S1x64_S400000x64_0_1 : (⟨S1x64, .f32⟩ : BufTy).Contents (Elt F) → (⟨S400000x64, .f32⟩ : BufTy).Contents (Elt F)),
    binary main_v114 main_v116 main_v117 (addf : (⟨S400000x64, .f32⟩ : BufTy).Contents (Elt F) → (⟨S400000x64, .f32⟩ : BufTy).Contents (Elt F) → (⟨S400000x64, .f32⟩ : BufTy).Contents (Elt F)),
    nullary main_cst_32 (constant S_ .f32 0x00000000#32),
    unary main_cst_32 main_v118 (broadcastInDim S400000x64 ![] bcast_S_S400000x64 : (⟨S_, .f32⟩ : BufTy).Contents (Elt F) → (⟨S400000x64, .f32⟩ : BufTy).Contents (Elt F)),
    binary main_v117 main_v118 main_v119 (cmpf .oge : (⟨S400000x64, .f32⟩ : BufTy).Contents (Elt F) → (⟨S400000x64, .f32⟩ : BufTy).Contents (Elt F) → (⟨S400000x64, .i1⟩ : BufTy).Contents (Elt F)),
    nullary main_cst_33 (constant S_ .f32 0x3DCCCCCD#32),
    unary main_cst_33 main_v120 (broadcastInDim S400000x64 ![] bcast_S_S400000x64 : (⟨S_, .f32⟩ : BufTy).Contents (Elt F) → (⟨S400000x64, .f32⟩ : BufTy).Contents (Elt F)),
    binary main_v120 main_v117 main_v121 (mulf : (⟨S400000x64, .f32⟩ : BufTy).Contents (Elt F) → (⟨S400000x64, .f32⟩ : BufTy).Contents (Elt F) → (⟨S400000x64, .f32⟩ : BufTy).Contents (Elt F)),
    TRef.ternary (TRef.of (T := ⟨S400000x64, .i1⟩) main_v119) (TRef.of (T := ⟨S400000x64, .f32⟩) main_v117) (TRef.of (T := ⟨S400000x64, .f32⟩) main_v121) (TRef.of (T := ⟨S400000x64, .f32⟩) main_v122) select,
    binary main_v122 main_arg12 main_v123 ((fun l r => Host.dotGeneral dot_S400000x64_S64x8_S400000x8_1_0_0_1_n_n none l r) : (⟨S400000x64, .f32⟩ : BufTy).Contents (Elt F) → (⟨S64x8, .f32⟩ : BufTy).Contents (Elt F) → (⟨S400000x8, .f32⟩ : BufTy).Contents (Elt F)),
    unary main_arg13 main_v124 (broadcastInDim S1x8 ![1] bcast_S8_S1x8_1 : (⟨S8, .f32⟩ : BufTy).Contents (Elt F) → (⟨S1x8, .f32⟩ : BufTy).Contents (Elt F)),
    unary main_v124 main_v125 (broadcastInDim S400000x8 ![0, 1] bcast_S1x8_S400000x8_0_1 : (⟨S1x8, .f32⟩ : BufTy).Contents (Elt F) → (⟨S400000x8, .f32⟩ : BufTy).Contents (Elt F)),
    binary main_v123 main_v125 main_v126 (addf : (⟨S400000x8, .f32⟩ : BufTy).Contents (Elt F) → (⟨S400000x8, .f32⟩ : BufTy).Contents (Elt F) → (⟨S400000x8, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub ..⟩

/-- Operations 0–12 of @main. -/
abbrev sl1 : List (HloOp τ sig (Elt F)) :=
  [ unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    reshape main_v0 main_v1 rfl shapeCasts_S1x400000_S400000,
    unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    reshape main_v2 main_v3 rfl shapeCasts_S1x400000_S400000,
    nullary main_c (constantI S_ 32 0#32),
    unary main_c main_v4 (broadcastInDim S400000 ![] bcast_S_S400000 : (⟨S_, .i32⟩ : BufTy).Contents (Elt F) → (⟨S400000, .i32⟩ : BufTy).Contents (Elt F)),
    binary main_v1 main_v4 main_v5 (cmpi .slt : (⟨S400000, .i32⟩ : BufTy).Contents (Elt F) → (⟨S400000, .i32⟩ : BufTy).Contents (Elt F) → (⟨S400000, .i1⟩ : BufTy).Contents (Elt F)),
    nullary main_c_0 (constantI S_ 32 50000#32),
    unary main_c_0 main_v6 (broadcastInDim S400000 ![] bcast_S_S400000 : (⟨S_, .i32⟩ : BufTy).Contents (Elt F) → (⟨S400000, .i32⟩ : BufTy).Contents (Elt F)),
    binary main_v1 main_v6 main_v7 (addi : (⟨S400000, .i32⟩ : BufTy).Contents (Elt F) → (⟨S400000, .i32⟩ : BufTy).Contents (Elt F) → (⟨S400000, .i32⟩ : BufTy).Contents (Elt F)),
    ternary main_v5 main_v7 main_v1 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v8 main_v9 (broadcastInDim S400000x1 ![0] bcast_S400000_S400000x1_0 : (⟨S400000, .i32⟩ : BufTy).Contents (Elt F) → (⟨S400000x1, .i32⟩ : BufTy).Contents (Elt F)),
    binary main_arg0 main_v9 main_v10 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)) ]

/-- Operations 13–27 of @main. -/
abbrev sl2 : List (HloOp τ sig (Elt F)) :=
  [ nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S400000x1 ![0] bcast_S400000_S400000x1_0 : (⟨S400000, .i32⟩ : BufTy).Contents (Elt F) → (⟨S400000x1, .i32⟩ : BufTy).Contents (Elt F)),
    ternary main_v11 main_v12 main_v10 main_v13 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    nullary main_cst_1 (constant S_ .f32 0x3F800000#32),
    unary main_cst_1 main_v14 (broadcastInDim S400000x1 ![] bcast_S_S400000x1 : (⟨S_, .f32⟩ : BufTy).Contents (Elt F) → (⟨S400000x1, .f32⟩ : BufTy).Contents (Elt F)),
    nullary main_cst_2 (constant S_ .f32 0x00000000#32),
    unary main_cst_2 main_v15 (broadcastInDim S50000x1 ![] bcast_S_S50000x1 : (⟨S_, .f32⟩ : BufTy).Contents (Elt F) → (⟨S50000x1, .f32⟩ : BufTy).Contents (Elt F)),
    unary main_v3 main_v16 (broadcastInDim S400000x1 ![0] bcast_S400000_S400000x1_0 : (⟨S400000, .i32⟩ : BufTy).Contents (Elt F) → (⟨S400000x1, .i32⟩ : BufTy).Contents (Elt F)),
    ternary main_v15 main_v16 main_v14 main_v17 ((fun x i u => Host.scatterAdd scatter_S50000x1_S400000x1_S400000x1_1_0_0_1 x i u) : (⟨S50000x1, .f32⟩ : BufTy).Contents (Elt F) → (⟨S400000x1, .i32⟩ : BufTy).Contents (Elt F) → (⟨S400000x1, .f32⟩ : BufTy).Contents (Elt F) → (⟨S50000x1, .f32⟩ : BufTy).Contents (Elt F)),
    nullary main_cst_3 (constant S_ .f32 0x3F800000#32),
    unary main_cst_3 main_v18 (broadcastInDim S50000x1 ![] bcast_S_S50000x1 : (⟨S_, .f32⟩ : BufTy).Contents (Elt F) → (⟨S50000x1, .f32⟩ : BufTy).Contents (Elt F)),
    binary main_v17 main_v18 main_v19 (maximumf : (⟨S50000x1, .f32⟩ : BufTy).Contents (Elt F) → (⟨S50000x1, .f32⟩ : BufTy).Contents (Elt F) → (⟨S50000x1, .f32⟩ : BufTy).Contents (Elt F)),
    unary main_v19 main_v20 (broadcastInDim S50000x128 ![0, 1] bcast_S50000x1_S50000x128_0_1 : (⟨S50000x1, .f32⟩ : BufTy).Contents (Elt F) → (⟨S50000x128, .f32⟩ : BufTy).Contents (Elt F)),
    binary main_v13 main_v20 main_v21 (Host.divf : (⟨S50000x128, .f32⟩ : BufTy).Contents (Elt F) → (⟨S50000x128, .f32⟩ : BufTy).Contents (Elt F) → (⟨S50000x128, .f32⟩ : BufTy).Contents (Elt F)) ]

/-- Operations 28–41 of @main. -/
abbrev sl3 : List (HloOp τ sig (Elt F)) :=
  [ binary main_v21 main_arg2 main_v22 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v23 (broadcastInDim S1x128 ![1] bcast_S128_S1x128_1 : (⟨S128, .f32⟩ : BufTy).Contents (Elt F) → (⟨S1x128, .f32⟩ : BufTy).Contents (Elt F)),
    unary main_v23 main_v24 (broadcastInDim S50000x128 ![0, 1] bcast_S1x128_S50000x128_0_1 : (⟨S1x128, .f32⟩ : BufTy).Contents (Elt F) → (⟨S50000x128, .f32⟩ : BufTy).Contents (Elt F)),
    binary main_v22 main_v24 main_v25 (addf : (⟨S50000x128, .f32⟩ : BufTy).Contents (Elt F) → (⟨S50000x128, .f32⟩ : BufTy).Contents (Elt F) → (⟨S50000x128, .f32⟩ : BufTy).Contents (Elt F)),
    binary main_arg0 main_arg4 main_v26 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v25 main_v26 main_v27 (addf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x00000000#32),
    binary main_v27 main_cst_4 main_v28 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v28 main_v29 (broadcastInDim S1x128 ![1] bcast_S128_S1x128_1 : (⟨S128, .f32⟩ : BufTy).Contents (Elt F) → (⟨S1x128, .f32⟩ : BufTy).Contents (Elt F)),
    nullary main_cst_5 (constant S_ .f32 0x47435000#32),
    unary main_cst_5 main_v30 (broadcastInDim S1x128 ![] bcast_S_S1x128 : (⟨S_, .f32⟩ : BufTy).Contents (Elt F) → (⟨S1x128, .f32⟩ : BufTy).Contents (Elt F)),
    binary main_v29 main_v30 main_v31 (Host.divf : (⟨S1x128, .f32⟩ : BufTy).Contents (Elt F) → (⟨S1x128, .f32⟩ : BufTy).Contents (Elt F) → (⟨S1x128, .f32⟩ : BufTy).Contents (Elt F)),
    unary main_v31 main_v32 (broadcastInDim S50000x128 ![0, 1] bcast_S1x128_S50000x128_0_1 : (⟨S1x128, .f32⟩ : BufTy).Contents (Elt F) → (⟨S50000x128, .f32⟩ : BufTy).Contents (Elt F)),
    binary main_v27 main_v32 main_v33 (subf : (⟨S50000x128, .f32⟩ : BufTy).Contents (Elt F) → (⟨S50000x128, .f32⟩ : BufTy).Contents (Elt F) → (⟨S50000x128, .f32⟩ : BufTy).Contents (Elt F)) ]

/-- Operations 42–60 of @main. -/
abbrev sl4 : List (HloOp τ sig (Elt F)) :=
  [ binary main_v33 main_v33 main_v34 (mulf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x00000000#32),
    binary main_v34 main_cst_6 main_v35 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    nullary main_cst_7 (constant S_ .f32 0x00000000#32),
    binary main_v35 main_cst_7 main_v36 ((fun x v => Host.reduceAdd x v reducesTo_S50000_S_d0 h_S_) : (⟨S50000, .f32⟩ : BufTy).Contents (Elt F) → (⟨S_, .f32⟩ : BufTy).Contents (Elt F) → (⟨S_, .f32⟩ : BufTy).Contents (Elt F)),
    nullary main_cst_8 (constant S_ .f32 0x47435000#32),
    binary main_v36 main_cst_8 main_v37 (Host.divf : (⟨S_, .f32⟩ : BufTy).Contents (Elt F) → (⟨S_, .f32⟩ : BufTy).Contents (Elt F) → (⟨S_, .f32⟩ : BufTy).Contents (Elt F)),
    nullary main_cst_9 (constant S_ .f32 0x3727C5AC#32),
    binary main_cst_9 main_v37 main_v38 (addf : (⟨S_, .f32⟩ : BufTy).Contents (Elt F) → (⟨S_, .f32⟩ : BufTy).Contents (Elt F) → (⟨S_, .f32⟩ : BufTy).Contents (Elt F)),
    unary main_v38 main_v39 (Host.sqrt : (⟨S_, .f32⟩ : BufTy).Contents (Elt F) → (⟨S_, .f32⟩ : BufTy).Contents (Elt F)),
    unary main_v39 main_v40 (broadcastInDim S50000x128 ![] bcast_S_S50000x128 : (⟨S_, .f32⟩ : BufTy).Contents (Elt F) → (⟨S50000x128, .f32⟩ : BufTy).Contents (Elt F)),
    binary main_v33 main_v40 main_v41 (Host.divf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x00000000#32),
    unary main_cst_10 main_v42 (broadcastInDim S50000x128 ![] bcast_S_S50000x128 : (⟨S_, .f32⟩ : BufTy).Contents (Elt F) → (⟨S50000x128, .f32⟩ : BufTy).Contents (Elt F)),
    binary main_v41 main_v42 main_v43 (cmpf .oge : (⟨S50000x128, .f32⟩ : BufTy).Contents (Elt F) → (⟨S50000x128, .f32⟩ : BufTy).Contents (Elt F) → (⟨S50000x128, .i1⟩ : BufTy).Contents (Elt F)),
    nullary main_cst_11 (constant S_ .f32 0x3DCCCCCD#32),
    unary main_cst_11 main_v44 (broadcastInDim S50000x128 ![] bcast_S_S50000x128 : (⟨S_, .f32⟩ : BufTy).Contents (Elt F) → (⟨S50000x128, .f32⟩ : BufTy).Contents (Elt F)),
    binary main_v44 main_v41 main_v45 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v43) (TRef.of (T := ⟨S50000x128, .f32⟩) main_v41) (TRef.of (T := ⟨S50000x128, .f32⟩) main_v45) (TRef.of (T := ⟨S50000x128, .f32⟩) main_v46) select ]

/-- Operations 61–73 of @main. -/
abbrev sl5 : List (HloOp τ sig (Elt F)) :=
  [ nullary main_c_12 (constantI S_ 32 0#32),
    unary main_c_12 main_v47 (broadcastInDim S400000 ![] bcast_S_S400000 : (⟨S_, .i32⟩ : BufTy).Contents (Elt F) → (⟨S400000, .i32⟩ : BufTy).Contents (Elt F)),
    binary main_v1 main_v47 main_v48 (cmpi .slt : (⟨S400000, .i32⟩ : BufTy).Contents (Elt F) → (⟨S400000, .i32⟩ : BufTy).Contents (Elt F) → (⟨S400000, .i1⟩ : BufTy).Contents (Elt F)),
    nullary main_c_13 (constantI S_ 32 50000#32),
    unary main_c_13 main_v49 (broadcastInDim S400000 ![] bcast_S_S400000 : (⟨S_, .i32⟩ : BufTy).Contents (Elt F) → (⟨S400000, .i32⟩ : BufTy).Contents (Elt F)),
    binary main_v1 main_v49 main_v50 (addi : (⟨S400000, .i32⟩ : BufTy).Contents (Elt F) → (⟨S400000, .i32⟩ : BufTy).Contents (Elt F) → (⟨S400000, .i32⟩ : BufTy).Contents (Elt F)),
    ternary main_v48 main_v50 main_v1 main_v51 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v51 main_v52 (broadcastInDim S400000x1 ![0] bcast_S400000_S400000x1_0 : (⟨S400000, .i32⟩ : BufTy).Contents (Elt F) → (⟨S400000x1, .i32⟩ : BufTy).Contents (Elt F)),
    binary main_v46 main_v52 main_v53 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_cst_14 (constant S_ .f32 0x00000000#32),
    unary main_cst_14 main_v54 (broadcastInDim S50000x128 ![] bcast_S_S50000x128 : (⟨S_, .f32⟩ : BufTy).Contents (Elt F) → (⟨S50000x128, .f32⟩ : BufTy).Contents (Elt F)),
    unary main_v3 main_v55 (broadcastInDim S400000x1 ![0] bcast_S400000_S400000x1_0 : (⟨S400000, .i32⟩ : BufTy).Contents (Elt F) → (⟨S400000x1, .i32⟩ : BufTy).Contents (Elt F)),
    ternary main_v54 main_v55 main_v53 main_v56 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)) ]

/-- Operations 74–84 of @main. -/
abbrev sl6 : List (HloOp τ sig (Elt F)) :=
  [ nullary main_cst_15 (constant S_ .f32 0x3F800000#32),
    unary main_cst_15 main_v57 (broadcastInDim S400000x1 ![] bcast_S_S400000x1 : (⟨S_, .f32⟩ : BufTy).Contents (Elt F) → (⟨S400000x1, .f32⟩ : BufTy).Contents (Elt F)),
    nullary main_cst_16 (constant S_ .f32 0x00000000#32),
    unary main_cst_16 main_v58 (broadcastInDim S50000x1 ![] bcast_S_S50000x1 : (⟨S_, .f32⟩ : BufTy).Contents (Elt F) → (⟨S50000x1, .f32⟩ : BufTy).Contents (Elt F)),
    unary main_v3 main_v59 (broadcastInDim S400000x1 ![0] bcast_S400000_S400000x1_0 : (⟨S400000, .i32⟩ : BufTy).Contents (Elt F) → (⟨S400000x1, .i32⟩ : BufTy).Contents (Elt F)),
    ternary main_v58 main_v59 main_v57 main_v60 ((fun x i u => Host.scatterAdd scatter_S50000x1_S400000x1_S400000x1_1_0_0_1 x i u) : (⟨S50000x1, .f32⟩ : BufTy).Contents (Elt F) → (⟨S400000x1, .i32⟩ : BufTy).Contents (Elt F) → (⟨S400000x1, .f32⟩ : BufTy).Contents (Elt F) → (⟨S50000x1, .f32⟩ : BufTy).Contents (Elt F)),
    nullary main_cst_17 (constant S_ .f32 0x3F800000#32),
    unary main_cst_17 main_v61 (broadcastInDim S50000x1 ![] bcast_S_S50000x1 : (⟨S_, .f32⟩ : BufTy).Contents (Elt F) → (⟨S50000x1, .f32⟩ : BufTy).Contents (Elt F)),
    binary main_v60 main_v61 main_v62 (maximumf : (⟨S50000x1, .f32⟩ : BufTy).Contents (Elt F) → (⟨S50000x1, .f32⟩ : BufTy).Contents (Elt F) → (⟨S50000x1, .f32⟩ : BufTy).Contents (Elt F)),
    unary main_v62 main_v63 (broadcastInDim S50000x128 ![0, 1] bcast_S50000x1_S50000x128_0_1 : (⟨S50000x1, .f32⟩ : BufTy).Contents (Elt F) → (⟨S50000x128, .f32⟩ : BufTy).Contents (Elt F)),
    binary main_v56 main_v63 main_v64 (Host.divf : (⟨S50000x128, .f32⟩ : BufTy).Contents (Elt F) → (⟨S50000x128, .f32⟩ : BufTy).Contents (Elt F) → (⟨S50000x128, .f32⟩ : BufTy).Contents (Elt F)) ]

/-- Operations 85–98 of @main. -/
abbrev sl7 : List (HloOp τ sig (Elt F)) :=
  [ binary main_v64 main_arg5 main_v65 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v66 (broadcastInDim S1x128 ![1] bcast_S128_S1x128_1 : (⟨S128, .f32⟩ : BufTy).Contents (Elt F) → (⟨S1x128, .f32⟩ : BufTy).Contents (Elt F)),
    unary main_v66 main_v67 (broadcastInDim S50000x128 ![0, 1] bcast_S1x128_S50000x128_0_1 : (⟨S1x128, .f32⟩ : BufTy).Contents (Elt F) → (⟨S50000x128, .f32⟩ : BufTy).Contents (Elt F)),
    binary main_v65 main_v67 main_v68 (addf : (⟨S50000x128, .f32⟩ : BufTy).Contents (Elt F) → (⟨S50000x128, .f32⟩ : BufTy).Contents (Elt F) → (⟨S50000x128, .f32⟩ : BufTy).Contents (Elt F)),
    binary main_v46 main_arg7 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v68 main_v69 main_v70 (addf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x00000000#32),
    binary main_v70 main_cst_18 main_v71 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v71 main_v72 (broadcastInDim S1x128 ![1] bcast_S128_S1x128_1 : (⟨S128, .f32⟩ : BufTy).Contents (Elt F) → (⟨S1x128, .f32⟩ : BufTy).Contents (Elt F)),
    nullary main_cst_19 (constant S_ .f32 0x47435000#32),
    unary main_cst_19 main_v73 (broadcastInDim S1x128 ![] bcast_S_S1x128 : (⟨S_, .f32⟩ : BufTy).Contents (Elt F) → (⟨S1x128, .f32⟩ : BufTy).Contents (Elt F)),
    binary main_v72 main_v73 main_v74 (Host.divf : (⟨S1x128, .f32⟩ : BufTy).Contents (Elt F) → (⟨S1x128, .f32⟩ : BufTy).Contents (Elt F) → (⟨S1x128, .f32⟩ : BufTy).Contents (Elt F)),
    unary main_v74 main_v75 (broadcastInDim S50000x128 ![0, 1] bcast_S1x128_S50000x128_0_1 : (⟨S1x128, .f32⟩ : BufTy).Contents (Elt F) → (⟨S50000x128, .f32⟩ : BufTy).Contents (Elt F)),
    binary main_v70 main_v75 main_v76 (subf : (⟨S50000x128, .f32⟩ : BufTy).Contents (Elt F) → (⟨S50000x128, .f32⟩ : BufTy).Contents (Elt F) → (⟨S50000x128, .f32⟩ : BufTy).Contents (Elt F)) ]

/-- Operations 99–117 of @main. -/
abbrev sl8 : List (HloOp τ sig (Elt F)) :=
  [ binary main_v76 main_v76 main_v77 (mulf : (⟨S50000x128, .f32⟩ : BufTy).Contents (Elt F) → (⟨S50000x128, .f32⟩ : BufTy).Contents (Elt F) → (⟨S50000x128, .f32⟩ : BufTy).Contents (Elt F)),
    nullary main_cst_20 (constant S_ .f32 0x00000000#32),
    binary main_v77 main_cst_20 main_v78 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    nullary main_cst_21 (constant S_ .f32 0x00000000#32),
    binary main_v78 main_cst_21 main_v79 ((fun x v => Host.reduceAdd x v reducesTo_S50000_S_d0 h_S_) : (⟨S50000, .f32⟩ : BufTy).Contents (Elt F) → (⟨S_, .f32⟩ : BufTy).Contents (Elt F) → (⟨S_, .f32⟩ : BufTy).Contents (Elt F)),
    nullary main_cst_22 (constant S_ .f32 0x47435000#32),
    binary main_v79 main_cst_22 main_v80 (Host.divf : (⟨S_, .f32⟩ : BufTy).Contents (Elt F) → (⟨S_, .f32⟩ : BufTy).Contents (Elt F) → (⟨S_, .f32⟩ : BufTy).Contents (Elt F)),
    nullary main_cst_23 (constant S_ .f32 0x3727C5AC#32),
    binary main_cst_23 main_v80 main_v81 (addf : (⟨S_, .f32⟩ : BufTy).Contents (Elt F) → (⟨S_, .f32⟩ : BufTy).Contents (Elt F) → (⟨S_, .f32⟩ : BufTy).Contents (Elt F)),
    unary main_v81 main_v82 (Host.sqrt : (⟨S_, .f32⟩ : BufTy).Contents (Elt F) → (⟨S_, .f32⟩ : BufTy).Contents (Elt F)),
    unary main_v82 main_v83 (broadcastInDim S50000x128 ![] bcast_S_S50000x128 : (⟨S_, .f32⟩ : BufTy).Contents (Elt F) → (⟨S50000x128, .f32⟩ : BufTy).Contents (Elt F)),
    binary main_v76 main_v83 main_v84 (Host.divf : (⟨S50000x128, .f32⟩ : BufTy).Contents (Elt F) → (⟨S50000x128, .f32⟩ : BufTy).Contents (Elt F) → (⟨S50000x128, .f32⟩ : BufTy).Contents (Elt F)),
    nullary main_cst_24 (constant S_ .f32 0x00000000#32),
    unary main_cst_24 main_v85 (broadcastInDim S50000x128 ![] bcast_S_S50000x128 : (⟨S_, .f32⟩ : BufTy).Contents (Elt F) → (⟨S50000x128, .f32⟩ : BufTy).Contents (Elt F)),
    binary main_v84 main_v85 main_v86 (cmpf .oge : (⟨S50000x128, .f32⟩ : BufTy).Contents (Elt F) → (⟨S50000x128, .f32⟩ : BufTy).Contents (Elt F) → (⟨S50000x128, .i1⟩ : BufTy).Contents (Elt F)),
    nullary main_cst_25 (constant S_ .f32 0x3DCCCCCD#32),
    unary main_cst_25 main_v87 (broadcastInDim S50000x128 ![] bcast_S_S50000x128 : (⟨S_, .f32⟩ : BufTy).Contents (Elt F) → (⟨S50000x128, .f32⟩ : BufTy).Contents (Elt F)),
    binary main_v87 main_v84 main_v88 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v86) (TRef.of (T := ⟨S50000x128, .f32⟩) main_v84) (TRef.of (T := ⟨S50000x128, .f32⟩) main_v88) (TRef.of (T := ⟨S50000x128, .f32⟩) main_v89) select ]

/-- Operations 118–136 of @main. -/
abbrev sl9 : List (HloOp τ sig (Elt F)) :=
  [ nullary main_c_26 (constantI S_ 32 0#32),
    unary main_c_26 main_v90 (broadcastInDim S400000 ![] bcast_S_S400000 : (⟨S_, .i32⟩ : BufTy).Contents (Elt F) → (⟨S400000, .i32⟩ : BufTy).Contents (Elt F)),
    binary main_v1 main_v90 main_v91 (cmpi .slt : (⟨S400000, .i32⟩ : BufTy).Contents (Elt F) → (⟨S400000, .i32⟩ : BufTy).Contents (Elt F) → (⟨S400000, .i1⟩ : BufTy).Contents (Elt F)),
    nullary main_c_27 (constantI S_ 32 50000#32),
    unary main_c_27 main_v92 (broadcastInDim S400000 ![] bcast_S_S400000 : (⟨S_, .i32⟩ : BufTy).Contents (Elt F) → (⟨S400000, .i32⟩ : BufTy).Contents (Elt F)),
    binary main_v1 main_v92 main_v93 (addi : (⟨S400000, .i32⟩ : BufTy).Contents (Elt F) → (⟨S400000, .i32⟩ : BufTy).Contents (Elt F) → (⟨S400000, .i32⟩ : BufTy).Contents (Elt F)),
    ternary main_v91 main_v93 main_v1 main_v94 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v94 main_v95 (broadcastInDim S400000x1 ![0] bcast_S400000_S400000x1_0 : (⟨S400000, .i32⟩ : BufTy).Contents (Elt F) → (⟨S400000x1, .i32⟩ : BufTy).Contents (Elt F)),
    binary main_v89 main_v95 main_v96 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_c_28 (constantI S_ 32 0#32),
    unary main_c_28 main_v97 (broadcastInDim S400000 ![] bcast_S_S400000 : (⟨S_, .i32⟩ : BufTy).Contents (Elt F) → (⟨S400000, .i32⟩ : BufTy).Contents (Elt F)),
    binary main_v3 main_v97 main_v98 (cmpi .slt : (⟨S400000, .i32⟩ : BufTy).Contents (Elt F) → (⟨S400000, .i32⟩ : BufTy).Contents (Elt F) → (⟨S400000, .i1⟩ : BufTy).Contents (Elt F)),
    nullary main_c_29 (constantI S_ 32 50000#32),
    unary main_c_29 main_v99 (broadcastInDim S400000 ![] bcast_S_S400000 : (⟨S_, .i32⟩ : BufTy).Contents (Elt F) → (⟨S400000, .i32⟩ : BufTy).Contents (Elt F)),
    binary main_v3 main_v99 main_v100 (addi : (⟨S400000, .i32⟩ : BufTy).Contents (Elt F) → (⟨S400000, .i32⟩ : BufTy).Contents (Elt F) → (⟨S400000, .i32⟩ : BufTy).Contents (Elt F)),
    ternary main_v98 main_v100 main_v3 main_v101 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v101 main_v102 (broadcastInDim S400000x1 ![0] bcast_S400000_S400000x1_0 : (⟨S400000, .i32⟩ : BufTy).Contents (Elt F) → (⟨S400000x1, .i32⟩ : BufTy).Contents (Elt F)),
    binary main_v89 main_v102 main_v103 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    binary main_v96 main_v103 main_v104 ((fun a b => concatenate S400000x256 1 [⟨S400000x128, a⟩, ⟨S400000x128, b⟩] concatenates_S400000x128_S400000x128_S400000x256_d1) : (⟨S400000x128, .f32⟩ : BufTy).Contents (Elt F) → (⟨S400000x128, .f32⟩ : BufTy).Contents (Elt F) → (⟨S400000x256, .f32⟩ : BufTy).Contents (Elt F)) ]

/-- Operations 137–147 of @main. -/
abbrev sl10 : List (HloOp τ sig (Elt F)) :=
  [ binary main_v104 main_arg8 main_v105 ((fun l r => Host.dotGeneral dot_S400000x256_S256x128_S400000x128_1_0_0_1_n_n none l r) : (⟨S400000x256, .f32⟩ : BufTy).Contents (Elt F) → (⟨S256x128, .f32⟩ : BufTy).Contents (Elt F) → (⟨S400000x128, .f32⟩ : BufTy).Contents (Elt F)),
    unary main_arg9 main_v106 (broadcastInDim S1x128 ![1] bcast_S128_S1x128_1 : (⟨S128, .f32⟩ : BufTy).Contents (Elt F) → (⟨S1x128, .f32⟩ : BufTy).Contents (Elt F)),
    unary main_v106 main_v107 (broadcastInDim S400000x128 ![0, 1] bcast_S1x128_S400000x128_0_1 : (⟨S1x128, .f32⟩ : BufTy).Contents (Elt F) → (⟨S400000x128, .f32⟩ : BufTy).Contents (Elt F)),
    binary main_v105 main_v107 main_v108 (addf : (⟨S400000x128, .f32⟩ : BufTy).Contents (Elt F) → (⟨S400000x128, .f32⟩ : BufTy).Contents (Elt F) → (⟨S400000x128, .f32⟩ : BufTy).Contents (Elt F)),
    nullary main_cst_30 (constant S_ .f32 0x00000000#32),
    unary main_cst_30 main_v109 (broadcastInDim S400000x128 ![] bcast_S_S400000x128 : (⟨S_, .f32⟩ : BufTy).Contents (Elt F) → (⟨S400000x128, .f32⟩ : BufTy).Contents (Elt F)),
    binary main_v108 main_v109 main_v110 (cmpf .oge : (⟨S400000x128, .f32⟩ : BufTy).Contents (Elt F) → (⟨S400000x128, .f32⟩ : BufTy).Contents (Elt F) → (⟨S400000x128, .i1⟩ : BufTy).Contents (Elt F)),
    nullary main_cst_31 (constant S_ .f32 0x3DCCCCCD#32),
    unary main_cst_31 main_v111 (broadcastInDim S400000x128 ![] bcast_S_S400000x128 : (⟨S_, .f32⟩ : BufTy).Contents (Elt F) → (⟨S400000x128, .f32⟩ : BufTy).Contents (Elt F)),
    binary main_v111 main_v108 main_v112 (mulf : (⟨S400000x128, .f32⟩ : BufTy).Contents (Elt F) → (⟨S400000x128, .f32⟩ : BufTy).Contents (Elt F) → (⟨S400000x128, .f32⟩ : BufTy).Contents (Elt F)),
    TRef.ternary (TRef.of (T := ⟨S400000x128, .i1⟩) main_v110) (TRef.of (T := ⟨S400000x128, .f32⟩) main_v108) (TRef.of (T := ⟨S400000x128, .f32⟩) main_v112) (TRef.of (T := ⟨S400000x128, .f32⟩) main_v113) select ]

/-- Operations 148–162 of @main. -/
abbrev sl11 : List (HloOp τ sig (Elt F)) :=
  [ binary main_v113 main_arg10 main_v114 ((fun l r => Host.dotGeneral dot_S400000x128_S128x64_S400000x64_1_0_0_1_n_n none l r) : (⟨S400000x128, .f32⟩ : BufTy).Contents (Elt F) → (⟨S128x64, .f32⟩ : BufTy).Contents (Elt F) → (⟨S400000x64, .f32⟩ : BufTy).Contents (Elt F)),
    unary main_arg11 main_v115 (broadcastInDim S1x64 ![1] bcast_S64_S1x64_1 : (⟨S64, .f32⟩ : BufTy).Contents (Elt F) → (⟨S1x64, .f32⟩ : BufTy).Contents (Elt F)),
    unary main_v115 main_v116 (broadcastInDim S400000x64 ![0, 1] bcast_S1x64_S400000x64_0_1 : (⟨S1x64, .f32⟩ : BufTy).Contents (Elt F) → (⟨S400000x64, .f32⟩ : BufTy).Contents (Elt F)),
    binary main_v114 main_v116 main_v117 (addf : (⟨S400000x64, .f32⟩ : BufTy).Contents (Elt F) → (⟨S400000x64, .f32⟩ : BufTy).Contents (Elt F) → (⟨S400000x64, .f32⟩ : BufTy).Contents (Elt F)),
    nullary main_cst_32 (constant S_ .f32 0x00000000#32),
    unary main_cst_32 main_v118 (broadcastInDim S400000x64 ![] bcast_S_S400000x64 : (⟨S_, .f32⟩ : BufTy).Contents (Elt F) → (⟨S400000x64, .f32⟩ : BufTy).Contents (Elt F)),
    binary main_v117 main_v118 main_v119 (cmpf .oge : (⟨S400000x64, .f32⟩ : BufTy).Contents (Elt F) → (⟨S400000x64, .f32⟩ : BufTy).Contents (Elt F) → (⟨S400000x64, .i1⟩ : BufTy).Contents (Elt F)),
    nullary main_cst_33 (constant S_ .f32 0x3DCCCCCD#32),
    unary main_cst_33 main_v120 (broadcastInDim S400000x64 ![] bcast_S_S400000x64 : (⟨S_, .f32⟩ : BufTy).Contents (Elt F) → (⟨S400000x64, .f32⟩ : BufTy).Contents (Elt F)),
    binary main_v120 main_v117 main_v121 (mulf : (⟨S400000x64, .f32⟩ : BufTy).Contents (Elt F) → (⟨S400000x64, .f32⟩ : BufTy).Contents (Elt F) → (⟨S400000x64, .f32⟩ : BufTy).Contents (Elt F)),
    TRef.ternary (TRef.of (T := ⟨S400000x64, .i1⟩) main_v119) (TRef.of (T := ⟨S400000x64, .f32⟩) main_v117) (TRef.of (T := ⟨S400000x64, .f32⟩) main_v121) (TRef.of (T := ⟨S400000x64, .f32⟩) main_v122) select,
    binary main_v122 main_arg12 main_v123 ((fun l r => Host.dotGeneral dot_S400000x64_S64x8_S400000x8_1_0_0_1_n_n none l r) : (⟨S400000x64, .f32⟩ : BufTy).Contents (Elt F) → (⟨S64x8, .f32⟩ : BufTy).Contents (Elt F) → (⟨S400000x8, .f32⟩ : BufTy).Contents (Elt F)),
    unary main_arg13 main_v124 (broadcastInDim S1x8 ![1] bcast_S8_S1x8_1 : (⟨S8, .f32⟩ : BufTy).Contents (Elt F) → (⟨S1x8, .f32⟩ : BufTy).Contents (Elt F)),
    unary main_v124 main_v125 (broadcastInDim S400000x8 ![0, 1] bcast_S1x8_S400000x8_0_1 : (⟨S1x8, .f32⟩ : BufTy).Contents (Elt F) → (⟨S400000x8, .f32⟩ : BufTy).Contents (Elt F)),
    binary main_v123 main_v125 main_v126 (addf : (⟨S400000x8, .f32⟩ : BufTy).Contents (Elt F) → (⟨S400000x8, .f32⟩ : BufTy).Contents (Elt F) → (⟨S400000x8, .f32⟩ : BufTy).Contents (Elt F)) ]

/-- @main's operations are the slices in order. -/
theorem ops_eq : (ops : List (HloOp τ sig (Elt F))) = sl1 ++ (sl2 ++ (sl3 ++ (sl4 ++ (sl5 ++ (sl6 ++ (sl7 ++ (sl8 ++ (sl9 ++ (sl10 ++ (sl11)))))))))) := rfl

theorem s1_main_arg0 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg1 : W (Proc.devRef .tc main_arg1) = x1)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9) :
    after (sl1 (F := F)) W (Proc.devRef .tc main_arg0) = x0 := by
  after_results_simp
  exact h_main_arg0

theorem s1_main_arg10 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg1 : W (Proc.devRef .tc main_arg1) = x1)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9) :
    after (sl1 (F := F)) W (Proc.devRef .tc main_arg10) = x10 := by
  after_results_simp
  exact h_main_arg10

theorem s1_main_arg11 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg1 : W (Proc.devRef .tc main_arg1) = x1)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9) :
    after (sl1 (F := F)) W (Proc.devRef .tc main_arg11) = x11 := by
  after_results_simp
  exact h_main_arg11

theorem s1_main_arg12 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg1 : W (Proc.devRef .tc main_arg1) = x1)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9) :
    after (sl1 (F := F)) W (Proc.devRef .tc main_arg12) = x12 := by
  after_results_simp
  exact h_main_arg12

theorem s1_main_arg13 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg1 : W (Proc.devRef .tc main_arg1) = x1)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9) :
    after (sl1 (F := F)) W (Proc.devRef .tc main_arg13) = x13 := by
  after_results_simp
  exact h_main_arg13

theorem s1_main_arg2 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg1 : W (Proc.devRef .tc main_arg1) = x1)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9) :
    after (sl1 (F := F)) W (Proc.devRef .tc main_arg2) = x2 := by
  after_results_simp
  exact h_main_arg2

theorem s1_main_arg3 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg1 : W (Proc.devRef .tc main_arg1) = x1)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9) :
    after (sl1 (F := F)) W (Proc.devRef .tc main_arg3) = x3 := by
  after_results_simp
  exact h_main_arg3

theorem s1_main_arg4 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg1 : W (Proc.devRef .tc main_arg1) = x1)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9) :
    after (sl1 (F := F)) W (Proc.devRef .tc main_arg4) = x4 := by
  after_results_simp
  exact h_main_arg4

theorem s1_main_arg5 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg1 : W (Proc.devRef .tc main_arg1) = x1)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9) :
    after (sl1 (F := F)) W (Proc.devRef .tc main_arg5) = x5 := by
  after_results_simp
  exact h_main_arg5

theorem s1_main_arg6 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg1 : W (Proc.devRef .tc main_arg1) = x1)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9) :
    after (sl1 (F := F)) W (Proc.devRef .tc main_arg6) = x6 := by
  after_results_simp
  exact h_main_arg6

theorem s1_main_arg7 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg1 : W (Proc.devRef .tc main_arg1) = x1)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9) :
    after (sl1 (F := F)) W (Proc.devRef .tc main_arg7) = x7 := by
  after_results_simp
  exact h_main_arg7

theorem s1_main_arg8 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg1 : W (Proc.devRef .tc main_arg1) = x1)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9) :
    after (sl1 (F := F)) W (Proc.devRef .tc main_arg8) = x8 := by
  after_results_simp
  exact h_main_arg8

theorem s1_main_arg9 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg1 : W (Proc.devRef .tc main_arg1) = x1)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9) :
    after (sl1 (F := F)) W (Proc.devRef .tc main_arg9) = x9 := by
  after_results_simp
  exact h_main_arg9

theorem s1_main_v1 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg1 : W (Proc.devRef .tc main_arg1) = x1)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9) :
    after (sl1 (F := F)) W (Proc.devRef .tc main_v1) = Cert.ReferenceIdeal.ReadP.val_main_v1 (F := F) x1 := by
  after_results_simp
  simp only [h_main_arg1]
  rfl

theorem s1_main_v10 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg1 : W (Proc.devRef .tc main_arg1) = x1)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9) :
    after (sl1 (F := F)) W (Proc.devRef .tc main_v10) = Cert.ReferenceIdeal.ReadP.val_main_v10 (F := F) x0 x1 := by
  after_results_simp
  simp only [h_main_arg0, h_main_arg1]
  rfl

theorem s1_main_v3 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg1 : W (Proc.devRef .tc main_arg1) = x1)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9) :
    after (sl1 (F := F)) W (Proc.devRef .tc main_v3) = Cert.ReferenceIdeal.ReadP.val_main_v3 (F := F) x1 := by
  after_results_simp
  simp only [h_main_arg1]
  rfl

theorem s2_main_arg0 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v10 : W (Proc.devRef .tc main_v10) = Cert.ReferenceIdeal.ReadP.val_main_v10 (F := F) x0 x1)
    (h_main_v3 : W (Proc.devRef .tc main_v3) = Cert.ReferenceIdeal.ReadP.val_main_v3 (F := F) x1) :
    after (sl2 (F := F)) W (Proc.devRef .tc main_arg0) = x0 := by
  after_results_simp
  exact h_main_arg0

theorem s2_main_arg10 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v10 : W (Proc.devRef .tc main_v10) = Cert.ReferenceIdeal.ReadP.val_main_v10 (F := F) x0 x1)
    (h_main_v3 : W (Proc.devRef .tc main_v3) = Cert.ReferenceIdeal.ReadP.val_main_v3 (F := F) x1) :
    after (sl2 (F := F)) W (Proc.devRef .tc main_arg10) = x10 := by
  after_results_simp
  exact h_main_arg10

theorem s2_main_arg11 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v10 : W (Proc.devRef .tc main_v10) = Cert.ReferenceIdeal.ReadP.val_main_v10 (F := F) x0 x1)
    (h_main_v3 : W (Proc.devRef .tc main_v3) = Cert.ReferenceIdeal.ReadP.val_main_v3 (F := F) x1) :
    after (sl2 (F := F)) W (Proc.devRef .tc main_arg11) = x11 := by
  after_results_simp
  exact h_main_arg11

theorem s2_main_arg12 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v10 : W (Proc.devRef .tc main_v10) = Cert.ReferenceIdeal.ReadP.val_main_v10 (F := F) x0 x1)
    (h_main_v3 : W (Proc.devRef .tc main_v3) = Cert.ReferenceIdeal.ReadP.val_main_v3 (F := F) x1) :
    after (sl2 (F := F)) W (Proc.devRef .tc main_arg12) = x12 := by
  after_results_simp
  exact h_main_arg12

theorem s2_main_arg13 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v10 : W (Proc.devRef .tc main_v10) = Cert.ReferenceIdeal.ReadP.val_main_v10 (F := F) x0 x1)
    (h_main_v3 : W (Proc.devRef .tc main_v3) = Cert.ReferenceIdeal.ReadP.val_main_v3 (F := F) x1) :
    after (sl2 (F := F)) W (Proc.devRef .tc main_arg13) = x13 := by
  after_results_simp
  exact h_main_arg13

theorem s2_main_arg2 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v10 : W (Proc.devRef .tc main_v10) = Cert.ReferenceIdeal.ReadP.val_main_v10 (F := F) x0 x1)
    (h_main_v3 : W (Proc.devRef .tc main_v3) = Cert.ReferenceIdeal.ReadP.val_main_v3 (F := F) x1) :
    after (sl2 (F := F)) W (Proc.devRef .tc main_arg2) = x2 := by
  after_results_simp
  exact h_main_arg2

theorem s2_main_arg3 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v10 : W (Proc.devRef .tc main_v10) = Cert.ReferenceIdeal.ReadP.val_main_v10 (F := F) x0 x1)
    (h_main_v3 : W (Proc.devRef .tc main_v3) = Cert.ReferenceIdeal.ReadP.val_main_v3 (F := F) x1) :
    after (sl2 (F := F)) W (Proc.devRef .tc main_arg3) = x3 := by
  after_results_simp
  exact h_main_arg3

theorem s2_main_arg4 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v10 : W (Proc.devRef .tc main_v10) = Cert.ReferenceIdeal.ReadP.val_main_v10 (F := F) x0 x1)
    (h_main_v3 : W (Proc.devRef .tc main_v3) = Cert.ReferenceIdeal.ReadP.val_main_v3 (F := F) x1) :
    after (sl2 (F := F)) W (Proc.devRef .tc main_arg4) = x4 := by
  after_results_simp
  exact h_main_arg4

theorem s2_main_arg5 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v10 : W (Proc.devRef .tc main_v10) = Cert.ReferenceIdeal.ReadP.val_main_v10 (F := F) x0 x1)
    (h_main_v3 : W (Proc.devRef .tc main_v3) = Cert.ReferenceIdeal.ReadP.val_main_v3 (F := F) x1) :
    after (sl2 (F := F)) W (Proc.devRef .tc main_arg5) = x5 := by
  after_results_simp
  exact h_main_arg5

theorem s2_main_arg6 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v10 : W (Proc.devRef .tc main_v10) = Cert.ReferenceIdeal.ReadP.val_main_v10 (F := F) x0 x1)
    (h_main_v3 : W (Proc.devRef .tc main_v3) = Cert.ReferenceIdeal.ReadP.val_main_v3 (F := F) x1) :
    after (sl2 (F := F)) W (Proc.devRef .tc main_arg6) = x6 := by
  after_results_simp
  exact h_main_arg6

theorem s2_main_arg7 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v10 : W (Proc.devRef .tc main_v10) = Cert.ReferenceIdeal.ReadP.val_main_v10 (F := F) x0 x1)
    (h_main_v3 : W (Proc.devRef .tc main_v3) = Cert.ReferenceIdeal.ReadP.val_main_v3 (F := F) x1) :
    after (sl2 (F := F)) W (Proc.devRef .tc main_arg7) = x7 := by
  after_results_simp
  exact h_main_arg7

theorem s2_main_arg8 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v10 : W (Proc.devRef .tc main_v10) = Cert.ReferenceIdeal.ReadP.val_main_v10 (F := F) x0 x1)
    (h_main_v3 : W (Proc.devRef .tc main_v3) = Cert.ReferenceIdeal.ReadP.val_main_v3 (F := F) x1) :
    after (sl2 (F := F)) W (Proc.devRef .tc main_arg8) = x8 := by
  after_results_simp
  exact h_main_arg8

theorem s2_main_arg9 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v10 : W (Proc.devRef .tc main_v10) = Cert.ReferenceIdeal.ReadP.val_main_v10 (F := F) x0 x1)
    (h_main_v3 : W (Proc.devRef .tc main_v3) = Cert.ReferenceIdeal.ReadP.val_main_v3 (F := F) x1) :
    after (sl2 (F := F)) W (Proc.devRef .tc main_arg9) = x9 := by
  after_results_simp
  exact h_main_arg9

theorem s2_main_v1 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v10 : W (Proc.devRef .tc main_v10) = Cert.ReferenceIdeal.ReadP.val_main_v10 (F := F) x0 x1)
    (h_main_v3 : W (Proc.devRef .tc main_v3) = Cert.ReferenceIdeal.ReadP.val_main_v3 (F := F) x1) :
    after (sl2 (F := F)) W (Proc.devRef .tc main_v1) = Cert.ReferenceIdeal.ReadP.val_main_v1 (F := F) x1 := by
  after_results_simp
  exact h_main_v1

theorem s2_main_v21 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v10 : W (Proc.devRef .tc main_v10) = Cert.ReferenceIdeal.ReadP.val_main_v10 (F := F) x0 x1)
    (h_main_v3 : W (Proc.devRef .tc main_v3) = Cert.ReferenceIdeal.ReadP.val_main_v3 (F := F) x1) :
    after (sl2 (F := F)) W (Proc.devRef .tc main_v21) = Cert.ReferenceIdeal.ReadP.val_main_v21 (F := F) x0 x1 := by
  after_results_simp
  simp only [h_main_v10, h_main_v3]
  rfl

theorem s2_main_v3 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v10 : W (Proc.devRef .tc main_v10) = Cert.ReferenceIdeal.ReadP.val_main_v10 (F := F) x0 x1)
    (h_main_v3 : W (Proc.devRef .tc main_v3) = Cert.ReferenceIdeal.ReadP.val_main_v3 (F := F) x1) :
    after (sl2 (F := F)) W (Proc.devRef .tc main_v3) = Cert.ReferenceIdeal.ReadP.val_main_v3 (F := F) x1 := by
  after_results_simp
  exact h_main_v3

theorem s3_main_arg10 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v21 : W (Proc.devRef .tc main_v21) = Cert.ReferenceIdeal.ReadP.val_main_v21 (F := F) x0 x1)
    (h_main_v3 : W (Proc.devRef .tc main_v3) = Cert.ReferenceIdeal.ReadP.val_main_v3 (F := F) x1) :
    after (sl3 (F := F)) W (Proc.devRef .tc main_arg10) = x10 := by
  after_results_simp
  exact h_main_arg10

theorem s3_main_arg11 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v21 : W (Proc.devRef .tc main_v21) = Cert.ReferenceIdeal.ReadP.val_main_v21 (F := F) x0 x1)
    (h_main_v3 : W (Proc.devRef .tc main_v3) = Cert.ReferenceIdeal.ReadP.val_main_v3 (F := F) x1) :
    after (sl3 (F := F)) W (Proc.devRef .tc main_arg11) = x11 := by
  after_results_simp
  exact h_main_arg11

theorem s3_main_arg12 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v21 : W (Proc.devRef .tc main_v21) = Cert.ReferenceIdeal.ReadP.val_main_v21 (F := F) x0 x1)
    (h_main_v3 : W (Proc.devRef .tc main_v3) = Cert.ReferenceIdeal.ReadP.val_main_v3 (F := F) x1) :
    after (sl3 (F := F)) W (Proc.devRef .tc main_arg12) = x12 := by
  after_results_simp
  exact h_main_arg12

theorem s3_main_arg13 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v21 : W (Proc.devRef .tc main_v21) = Cert.ReferenceIdeal.ReadP.val_main_v21 (F := F) x0 x1)
    (h_main_v3 : W (Proc.devRef .tc main_v3) = Cert.ReferenceIdeal.ReadP.val_main_v3 (F := F) x1) :
    after (sl3 (F := F)) W (Proc.devRef .tc main_arg13) = x13 := by
  after_results_simp
  exact h_main_arg13

theorem s3_main_arg5 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v21 : W (Proc.devRef .tc main_v21) = Cert.ReferenceIdeal.ReadP.val_main_v21 (F := F) x0 x1)
    (h_main_v3 : W (Proc.devRef .tc main_v3) = Cert.ReferenceIdeal.ReadP.val_main_v3 (F := F) x1) :
    after (sl3 (F := F)) W (Proc.devRef .tc main_arg5) = x5 := by
  after_results_simp
  exact h_main_arg5

theorem s3_main_arg6 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v21 : W (Proc.devRef .tc main_v21) = Cert.ReferenceIdeal.ReadP.val_main_v21 (F := F) x0 x1)
    (h_main_v3 : W (Proc.devRef .tc main_v3) = Cert.ReferenceIdeal.ReadP.val_main_v3 (F := F) x1) :
    after (sl3 (F := F)) W (Proc.devRef .tc main_arg6) = x6 := by
  after_results_simp
  exact h_main_arg6

theorem s3_main_arg7 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v21 : W (Proc.devRef .tc main_v21) = Cert.ReferenceIdeal.ReadP.val_main_v21 (F := F) x0 x1)
    (h_main_v3 : W (Proc.devRef .tc main_v3) = Cert.ReferenceIdeal.ReadP.val_main_v3 (F := F) x1) :
    after (sl3 (F := F)) W (Proc.devRef .tc main_arg7) = x7 := by
  after_results_simp
  exact h_main_arg7

theorem s3_main_arg8 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v21 : W (Proc.devRef .tc main_v21) = Cert.ReferenceIdeal.ReadP.val_main_v21 (F := F) x0 x1)
    (h_main_v3 : W (Proc.devRef .tc main_v3) = Cert.ReferenceIdeal.ReadP.val_main_v3 (F := F) x1) :
    after (sl3 (F := F)) W (Proc.devRef .tc main_arg8) = x8 := by
  after_results_simp
  exact h_main_arg8

theorem s3_main_arg9 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v21 : W (Proc.devRef .tc main_v21) = Cert.ReferenceIdeal.ReadP.val_main_v21 (F := F) x0 x1)
    (h_main_v3 : W (Proc.devRef .tc main_v3) = Cert.ReferenceIdeal.ReadP.val_main_v3 (F := F) x1) :
    after (sl3 (F := F)) W (Proc.devRef .tc main_arg9) = x9 := by
  after_results_simp
  exact h_main_arg9

theorem s3_main_v1 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v21 : W (Proc.devRef .tc main_v21) = Cert.ReferenceIdeal.ReadP.val_main_v21 (F := F) x0 x1)
    (h_main_v3 : W (Proc.devRef .tc main_v3) = Cert.ReferenceIdeal.ReadP.val_main_v3 (F := F) x1) :
    after (sl3 (F := F)) W (Proc.devRef .tc main_v1) = Cert.ReferenceIdeal.ReadP.val_main_v1 (F := F) x1 := by
  after_results_simp
  exact h_main_v1

theorem s3_main_v3 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v21 : W (Proc.devRef .tc main_v21) = Cert.ReferenceIdeal.ReadP.val_main_v21 (F := F) x0 x1)
    (h_main_v3 : W (Proc.devRef .tc main_v3) = Cert.ReferenceIdeal.ReadP.val_main_v3 (F := F) x1) :
    after (sl3 (F := F)) W (Proc.devRef .tc main_v3) = Cert.ReferenceIdeal.ReadP.val_main_v3 (F := F) x1 := by
  after_results_simp
  exact h_main_v3

theorem s3_main_v33 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg0 : W (Proc.devRef .tc main_arg0) = x0)
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v21 : W (Proc.devRef .tc main_v21) = Cert.ReferenceIdeal.ReadP.val_main_v21 (F := F) x0 x1)
    (h_main_v3 : W (Proc.devRef .tc main_v3) = Cert.ReferenceIdeal.ReadP.val_main_v3 (F := F) x1) :
    after (sl3 (F := F)) W (Proc.devRef .tc main_v33) = Cert.ReferenceIdeal.ReadP.val_main_v33 (F := F) x0 x1 x2 x3 x4 := by
  after_results_simp
  simp only [h_main_arg0, h_main_arg2, h_main_arg3, h_main_arg4, h_main_v21]
  rfl

theorem s4_main_arg10 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v33 : W (Proc.devRef .tc main_v33) = Cert.ReferenceIdeal.ReadP.val_main_v33 (F := F) x0 x1 x2 x3 x4) :
    after (sl4 (F := F)) W (Proc.devRef .tc main_arg10) = x10 := by
  after_results_simp
  exact h_main_arg10

theorem s4_main_arg11 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v33 : W (Proc.devRef .tc main_v33) = Cert.ReferenceIdeal.ReadP.val_main_v33 (F := F) x0 x1 x2 x3 x4) :
    after (sl4 (F := F)) W (Proc.devRef .tc main_arg11) = x11 := by
  after_results_simp
  exact h_main_arg11

theorem s4_main_arg12 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v33 : W (Proc.devRef .tc main_v33) = Cert.ReferenceIdeal.ReadP.val_main_v33 (F := F) x0 x1 x2 x3 x4) :
    after (sl4 (F := F)) W (Proc.devRef .tc main_arg12) = x12 := by
  after_results_simp
  exact h_main_arg12

theorem s4_main_arg13 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v33 : W (Proc.devRef .tc main_v33) = Cert.ReferenceIdeal.ReadP.val_main_v33 (F := F) x0 x1 x2 x3 x4) :
    after (sl4 (F := F)) W (Proc.devRef .tc main_arg13) = x13 := by
  after_results_simp
  exact h_main_arg13

theorem s4_main_arg5 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v33 : W (Proc.devRef .tc main_v33) = Cert.ReferenceIdeal.ReadP.val_main_v33 (F := F) x0 x1 x2 x3 x4) :
    after (sl4 (F := F)) W (Proc.devRef .tc main_arg5) = x5 := by
  after_results_simp
  exact h_main_arg5

theorem s4_main_arg6 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v33 : W (Proc.devRef .tc main_v33) = Cert.ReferenceIdeal.ReadP.val_main_v33 (F := F) x0 x1 x2 x3 x4) :
    after (sl4 (F := F)) W (Proc.devRef .tc main_arg6) = x6 := by
  after_results_simp
  exact h_main_arg6

theorem s4_main_arg7 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v33 : W (Proc.devRef .tc main_v33) = Cert.ReferenceIdeal.ReadP.val_main_v33 (F := F) x0 x1 x2 x3 x4) :
    after (sl4 (F := F)) W (Proc.devRef .tc main_arg7) = x7 := by
  after_results_simp
  exact h_main_arg7

theorem s4_main_arg8 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v33 : W (Proc.devRef .tc main_v33) = Cert.ReferenceIdeal.ReadP.val_main_v33 (F := F) x0 x1 x2 x3 x4) :
    after (sl4 (F := F)) W (Proc.devRef .tc main_arg8) = x8 := by
  after_results_simp
  exact h_main_arg8

theorem s4_main_arg9 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v33 : W (Proc.devRef .tc main_v33) = Cert.ReferenceIdeal.ReadP.val_main_v33 (F := F) x0 x1 x2 x3 x4) :
    after (sl4 (F := F)) W (Proc.devRef .tc main_arg9) = x9 := by
  after_results_simp
  exact h_main_arg9

theorem s4_main_v1 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v33 : W (Proc.devRef .tc main_v33) = Cert.ReferenceIdeal.ReadP.val_main_v33 (F := F) x0 x1 x2 x3 x4) :
    after (sl4 (F := F)) W (Proc.devRef .tc main_v1) = Cert.ReferenceIdeal.ReadP.val_main_v1 (F := F) x1 := by
  after_results_simp
  exact h_main_v1

theorem s4_main_v3 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v33 : W (Proc.devRef .tc main_v33) = Cert.ReferenceIdeal.ReadP.val_main_v33 (F := F) x0 x1 x2 x3 x4) :
    after (sl4 (F := F)) W (Proc.devRef .tc main_v3) = Cert.ReferenceIdeal.ReadP.val_main_v3 (F := F) x1 := by
  after_results_simp
  exact h_main_v3

theorem s4_main_v46 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v33 : W (Proc.devRef .tc main_v33) = Cert.ReferenceIdeal.ReadP.val_main_v33 (F := F) x0 x1 x2 x3 x4) :
    after (sl4 (F := F)) W (Proc.devRef .tc main_v46) = Cert.ReferenceIdeal.ReadP.val_main_v46 (F := F) x0 x1 x2 x3 x4 := by
  after_results_simp
  simp only [h_main_v33]
  rfl

theorem s5_main_arg10 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4) :
    after (sl5 (F := F)) W (Proc.devRef .tc main_arg10) = x10 := by
  after_results_simp
  exact h_main_arg10

theorem s5_main_arg11 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4) :
    after (sl5 (F := F)) W (Proc.devRef .tc main_arg11) = x11 := by
  after_results_simp
  exact h_main_arg11

theorem s5_main_arg12 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4) :
    after (sl5 (F := F)) W (Proc.devRef .tc main_arg12) = x12 := by
  after_results_simp
  exact h_main_arg12

theorem s5_main_arg13 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4) :
    after (sl5 (F := F)) W (Proc.devRef .tc main_arg13) = x13 := by
  after_results_simp
  exact h_main_arg13

theorem s5_main_arg5 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4) :
    after (sl5 (F := F)) W (Proc.devRef .tc main_arg5) = x5 := by
  after_results_simp
  exact h_main_arg5

theorem s5_main_arg6 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4) :
    after (sl5 (F := F)) W (Proc.devRef .tc main_arg6) = x6 := by
  after_results_simp
  exact h_main_arg6

theorem s5_main_arg7 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4) :
    after (sl5 (F := F)) W (Proc.devRef .tc main_arg7) = x7 := by
  after_results_simp
  exact h_main_arg7

theorem s5_main_arg8 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4) :
    after (sl5 (F := F)) W (Proc.devRef .tc main_arg8) = x8 := by
  after_results_simp
  exact h_main_arg8

theorem s5_main_arg9 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4) :
    after (sl5 (F := F)) W (Proc.devRef .tc main_arg9) = x9 := by
  after_results_simp
  exact h_main_arg9

theorem s5_main_v1 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4) :
    after (sl5 (F := F)) W (Proc.devRef .tc main_v1) = Cert.ReferenceIdeal.ReadP.val_main_v1 (F := F) x1 := by
  after_results_simp
  exact h_main_v1

theorem s5_main_v3 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4) :
    after (sl5 (F := F)) W (Proc.devRef .tc main_v3) = Cert.ReferenceIdeal.ReadP.val_main_v3 (F := F) x1 := by
  after_results_simp
  exact h_main_v3

theorem s5_main_v46 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4) :
    after (sl5 (F := F)) W (Proc.devRef .tc main_v46) = Cert.ReferenceIdeal.ReadP.val_main_v46 (F := F) x0 x1 x2 x3 x4 := by
  after_results_simp
  exact h_main_v46

theorem s5_main_v56 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4) :
    after (sl5 (F := F)) W (Proc.devRef .tc main_v56) = Cert.ReferenceIdeal.ReadP.val_main_v56 (F := F) x0 x1 x2 x3 x4 := by
  after_results_simp
  simp only [h_main_v1, h_main_v3, h_main_v46]
  rfl

theorem s6_main_arg10 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4)
    (h_main_v56 : W (Proc.devRef .tc main_v56) = Cert.ReferenceIdeal.ReadP.val_main_v56 (F := F) x0 x1 x2 x3 x4) :
    after (sl6 (F := F)) W (Proc.devRef .tc main_arg10) = x10 := by
  after_results_simp
  exact h_main_arg10

theorem s6_main_arg11 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4)
    (h_main_v56 : W (Proc.devRef .tc main_v56) = Cert.ReferenceIdeal.ReadP.val_main_v56 (F := F) x0 x1 x2 x3 x4) :
    after (sl6 (F := F)) W (Proc.devRef .tc main_arg11) = x11 := by
  after_results_simp
  exact h_main_arg11

theorem s6_main_arg12 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4)
    (h_main_v56 : W (Proc.devRef .tc main_v56) = Cert.ReferenceIdeal.ReadP.val_main_v56 (F := F) x0 x1 x2 x3 x4) :
    after (sl6 (F := F)) W (Proc.devRef .tc main_arg12) = x12 := by
  after_results_simp
  exact h_main_arg12

theorem s6_main_arg13 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4)
    (h_main_v56 : W (Proc.devRef .tc main_v56) = Cert.ReferenceIdeal.ReadP.val_main_v56 (F := F) x0 x1 x2 x3 x4) :
    after (sl6 (F := F)) W (Proc.devRef .tc main_arg13) = x13 := by
  after_results_simp
  exact h_main_arg13

theorem s6_main_arg5 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4)
    (h_main_v56 : W (Proc.devRef .tc main_v56) = Cert.ReferenceIdeal.ReadP.val_main_v56 (F := F) x0 x1 x2 x3 x4) :
    after (sl6 (F := F)) W (Proc.devRef .tc main_arg5) = x5 := by
  after_results_simp
  exact h_main_arg5

theorem s6_main_arg6 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4)
    (h_main_v56 : W (Proc.devRef .tc main_v56) = Cert.ReferenceIdeal.ReadP.val_main_v56 (F := F) x0 x1 x2 x3 x4) :
    after (sl6 (F := F)) W (Proc.devRef .tc main_arg6) = x6 := by
  after_results_simp
  exact h_main_arg6

theorem s6_main_arg7 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4)
    (h_main_v56 : W (Proc.devRef .tc main_v56) = Cert.ReferenceIdeal.ReadP.val_main_v56 (F := F) x0 x1 x2 x3 x4) :
    after (sl6 (F := F)) W (Proc.devRef .tc main_arg7) = x7 := by
  after_results_simp
  exact h_main_arg7

theorem s6_main_arg8 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4)
    (h_main_v56 : W (Proc.devRef .tc main_v56) = Cert.ReferenceIdeal.ReadP.val_main_v56 (F := F) x0 x1 x2 x3 x4) :
    after (sl6 (F := F)) W (Proc.devRef .tc main_arg8) = x8 := by
  after_results_simp
  exact h_main_arg8

theorem s6_main_arg9 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4)
    (h_main_v56 : W (Proc.devRef .tc main_v56) = Cert.ReferenceIdeal.ReadP.val_main_v56 (F := F) x0 x1 x2 x3 x4) :
    after (sl6 (F := F)) W (Proc.devRef .tc main_arg9) = x9 := by
  after_results_simp
  exact h_main_arg9

theorem s6_main_v1 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4)
    (h_main_v56 : W (Proc.devRef .tc main_v56) = Cert.ReferenceIdeal.ReadP.val_main_v56 (F := F) x0 x1 x2 x3 x4) :
    after (sl6 (F := F)) W (Proc.devRef .tc main_v1) = Cert.ReferenceIdeal.ReadP.val_main_v1 (F := F) x1 := by
  after_results_simp
  exact h_main_v1

theorem s6_main_v3 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4)
    (h_main_v56 : W (Proc.devRef .tc main_v56) = Cert.ReferenceIdeal.ReadP.val_main_v56 (F := F) x0 x1 x2 x3 x4) :
    after (sl6 (F := F)) W (Proc.devRef .tc main_v3) = Cert.ReferenceIdeal.ReadP.val_main_v3 (F := F) x1 := by
  after_results_simp
  exact h_main_v3

theorem s6_main_v46 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4)
    (h_main_v56 : W (Proc.devRef .tc main_v56) = Cert.ReferenceIdeal.ReadP.val_main_v56 (F := F) x0 x1 x2 x3 x4) :
    after (sl6 (F := F)) W (Proc.devRef .tc main_v46) = Cert.ReferenceIdeal.ReadP.val_main_v46 (F := F) x0 x1 x2 x3 x4 := by
  after_results_simp
  exact h_main_v46

theorem s6_main_v64 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4)
    (h_main_v56 : W (Proc.devRef .tc main_v56) = Cert.ReferenceIdeal.ReadP.val_main_v56 (F := F) x0 x1 x2 x3 x4) :
    after (sl6 (F := F)) W (Proc.devRef .tc main_v64) = Cert.ReferenceIdeal.ReadP.val_main_v64 (F := F) x0 x1 x2 x3 x4 := by
  after_results_simp
  simp only [h_main_v3, h_main_v56]
  rfl

theorem s7_main_arg10 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4)
    (h_main_v64 : W (Proc.devRef .tc main_v64) = Cert.ReferenceIdeal.ReadP.val_main_v64 (F := F) x0 x1 x2 x3 x4) :
    after (sl7 (F := F)) W (Proc.devRef .tc main_arg10) = x10 := by
  after_results_simp
  exact h_main_arg10

theorem s7_main_arg11 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4)
    (h_main_v64 : W (Proc.devRef .tc main_v64) = Cert.ReferenceIdeal.ReadP.val_main_v64 (F := F) x0 x1 x2 x3 x4) :
    after (sl7 (F := F)) W (Proc.devRef .tc main_arg11) = x11 := by
  after_results_simp
  exact h_main_arg11

theorem s7_main_arg12 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4)
    (h_main_v64 : W (Proc.devRef .tc main_v64) = Cert.ReferenceIdeal.ReadP.val_main_v64 (F := F) x0 x1 x2 x3 x4) :
    after (sl7 (F := F)) W (Proc.devRef .tc main_arg12) = x12 := by
  after_results_simp
  exact h_main_arg12

theorem s7_main_arg13 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4)
    (h_main_v64 : W (Proc.devRef .tc main_v64) = Cert.ReferenceIdeal.ReadP.val_main_v64 (F := F) x0 x1 x2 x3 x4) :
    after (sl7 (F := F)) W (Proc.devRef .tc main_arg13) = x13 := by
  after_results_simp
  exact h_main_arg13

theorem s7_main_arg8 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4)
    (h_main_v64 : W (Proc.devRef .tc main_v64) = Cert.ReferenceIdeal.ReadP.val_main_v64 (F := F) x0 x1 x2 x3 x4) :
    after (sl7 (F := F)) W (Proc.devRef .tc main_arg8) = x8 := by
  after_results_simp
  exact h_main_arg8

theorem s7_main_arg9 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4)
    (h_main_v64 : W (Proc.devRef .tc main_v64) = Cert.ReferenceIdeal.ReadP.val_main_v64 (F := F) x0 x1 x2 x3 x4) :
    after (sl7 (F := F)) W (Proc.devRef .tc main_arg9) = x9 := by
  after_results_simp
  exact h_main_arg9

theorem s7_main_v1 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4)
    (h_main_v64 : W (Proc.devRef .tc main_v64) = Cert.ReferenceIdeal.ReadP.val_main_v64 (F := F) x0 x1 x2 x3 x4) :
    after (sl7 (F := F)) W (Proc.devRef .tc main_v1) = Cert.ReferenceIdeal.ReadP.val_main_v1 (F := F) x1 := by
  after_results_simp
  exact h_main_v1

theorem s7_main_v3 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4)
    (h_main_v64 : W (Proc.devRef .tc main_v64) = Cert.ReferenceIdeal.ReadP.val_main_v64 (F := F) x0 x1 x2 x3 x4) :
    after (sl7 (F := F)) W (Proc.devRef .tc main_v3) = Cert.ReferenceIdeal.ReadP.val_main_v3 (F := F) x1 := by
  after_results_simp
  exact h_main_v3

theorem s7_main_v76 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v46 : W (Proc.devRef .tc main_v46) = Cert.ReferenceIdeal.ReadP.val_main_v46 (F := F) x0 x1 x2 x3 x4)
    (h_main_v64 : W (Proc.devRef .tc main_v64) = Cert.ReferenceIdeal.ReadP.val_main_v64 (F := F) x0 x1 x2 x3 x4) :
    after (sl7 (F := F)) W (Proc.devRef .tc main_v76) = Cert.ReferenceIdeal.ReadP.val_main_v76 (F := F) x0 x1 x2 x3 x4 x5 x6 x7 := by
  after_results_simp
  simp only [h_main_arg5, h_main_arg6, h_main_arg7, h_main_v46, h_main_v64]
  rfl

theorem s8_main_arg10 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v76 : W (Proc.devRef .tc main_v76) = Cert.ReferenceIdeal.ReadP.val_main_v76 (F := F) x0 x1 x2 x3 x4 x5 x6 x7) :
    after (sl8 (F := F)) W (Proc.devRef .tc main_arg10) = x10 := by
  after_results_simp
  exact h_main_arg10

theorem s8_main_arg11 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v76 : W (Proc.devRef .tc main_v76) = Cert.ReferenceIdeal.ReadP.val_main_v76 (F := F) x0 x1 x2 x3 x4 x5 x6 x7) :
    after (sl8 (F := F)) W (Proc.devRef .tc main_arg11) = x11 := by
  after_results_simp
  exact h_main_arg11

theorem s8_main_arg12 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v76 : W (Proc.devRef .tc main_v76) = Cert.ReferenceIdeal.ReadP.val_main_v76 (F := F) x0 x1 x2 x3 x4 x5 x6 x7) :
    after (sl8 (F := F)) W (Proc.devRef .tc main_arg12) = x12 := by
  after_results_simp
  exact h_main_arg12

theorem s8_main_arg13 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v76 : W (Proc.devRef .tc main_v76) = Cert.ReferenceIdeal.ReadP.val_main_v76 (F := F) x0 x1 x2 x3 x4 x5 x6 x7) :
    after (sl8 (F := F)) W (Proc.devRef .tc main_arg13) = x13 := by
  after_results_simp
  exact h_main_arg13

theorem s8_main_arg8 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v76 : W (Proc.devRef .tc main_v76) = Cert.ReferenceIdeal.ReadP.val_main_v76 (F := F) x0 x1 x2 x3 x4 x5 x6 x7) :
    after (sl8 (F := F)) W (Proc.devRef .tc main_arg8) = x8 := by
  after_results_simp
  exact h_main_arg8

theorem s8_main_arg9 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v76 : W (Proc.devRef .tc main_v76) = Cert.ReferenceIdeal.ReadP.val_main_v76 (F := F) x0 x1 x2 x3 x4 x5 x6 x7) :
    after (sl8 (F := F)) W (Proc.devRef .tc main_arg9) = x9 := by
  after_results_simp
  exact h_main_arg9

theorem s8_main_v1 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v76 : W (Proc.devRef .tc main_v76) = Cert.ReferenceIdeal.ReadP.val_main_v76 (F := F) x0 x1 x2 x3 x4 x5 x6 x7) :
    after (sl8 (F := F)) W (Proc.devRef .tc main_v1) = Cert.ReferenceIdeal.ReadP.val_main_v1 (F := F) x1 := by
  after_results_simp
  exact h_main_v1

theorem s8_main_v3 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v76 : W (Proc.devRef .tc main_v76) = Cert.ReferenceIdeal.ReadP.val_main_v76 (F := F) x0 x1 x2 x3 x4 x5 x6 x7) :
    after (sl8 (F := F)) W (Proc.devRef .tc main_v3) = Cert.ReferenceIdeal.ReadP.val_main_v3 (F := F) x1 := by
  after_results_simp
  exact h_main_v3

theorem s8_main_v89 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v76 : W (Proc.devRef .tc main_v76) = Cert.ReferenceIdeal.ReadP.val_main_v76 (F := F) x0 x1 x2 x3 x4 x5 x6 x7) :
    after (sl8 (F := F)) W (Proc.devRef .tc main_v89) = Cert.ReferenceIdeal.ReadP.val_main_v89 (F := F) x0 x1 x2 x3 x4 x5 x6 x7 := by
  after_results_simp
  simp only [h_main_v76]
  rfl

theorem s9_main_arg10 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v89 : W (Proc.devRef .tc main_v89) = Cert.ReferenceIdeal.ReadP.val_main_v89 (F := F) x0 x1 x2 x3 x4 x5 x6 x7) :
    after (sl9 (F := F)) W (Proc.devRef .tc main_arg10) = x10 := by
  after_results_simp
  exact h_main_arg10

theorem s9_main_arg11 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v89 : W (Proc.devRef .tc main_v89) = Cert.ReferenceIdeal.ReadP.val_main_v89 (F := F) x0 x1 x2 x3 x4 x5 x6 x7) :
    after (sl9 (F := F)) W (Proc.devRef .tc main_arg11) = x11 := by
  after_results_simp
  exact h_main_arg11

theorem s9_main_arg12 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v89 : W (Proc.devRef .tc main_v89) = Cert.ReferenceIdeal.ReadP.val_main_v89 (F := F) x0 x1 x2 x3 x4 x5 x6 x7) :
    after (sl9 (F := F)) W (Proc.devRef .tc main_arg12) = x12 := by
  after_results_simp
  exact h_main_arg12

theorem s9_main_arg13 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v89 : W (Proc.devRef .tc main_v89) = Cert.ReferenceIdeal.ReadP.val_main_v89 (F := F) x0 x1 x2 x3 x4 x5 x6 x7) :
    after (sl9 (F := F)) W (Proc.devRef .tc main_arg13) = x13 := by
  after_results_simp
  exact h_main_arg13

theorem s9_main_arg8 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v89 : W (Proc.devRef .tc main_v89) = Cert.ReferenceIdeal.ReadP.val_main_v89 (F := F) x0 x1 x2 x3 x4 x5 x6 x7) :
    after (sl9 (F := F)) W (Proc.devRef .tc main_arg8) = x8 := by
  after_results_simp
  exact h_main_arg8

theorem s9_main_arg9 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v89 : W (Proc.devRef .tc main_v89) = Cert.ReferenceIdeal.ReadP.val_main_v89 (F := F) x0 x1 x2 x3 x4 x5 x6 x7) :
    after (sl9 (F := F)) W (Proc.devRef .tc main_arg9) = x9 := by
  after_results_simp
  exact h_main_arg9

theorem s9_main_v104 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg8 : W (Proc.devRef .tc main_arg8) = x8)
    (h_main_arg9 : W (Proc.devRef .tc main_arg9) = x9)
    (h_main_v1 : W (Proc.devRef .tc main_v1) = Cert.ReferenceIdeal.ReadP.val_main_v1 (F := F) x1)
    (h_main_v3 : W (Proc.devRef .tc main_v3) = Cert.ReferenceIdeal.ReadP.val_main_v3 (F := F) x1)
    (h_main_v89 : W (Proc.devRef .tc main_v89) = Cert.ReferenceIdeal.ReadP.val_main_v89 (F := F) x0 x1 x2 x3 x4 x5 x6 x7) :
    after (sl9 (F := F)) W (Proc.devRef .tc main_v104) = Cert.ReferenceIdeal.ReadP.val_main_v104 (F := F) x0 x1 x2 x3 x4 x5 x6 x7 := by
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rw [h_main_v1, h_main_v3, h_main_v89]
  rfl

theorem s10_main_arg10 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg8 : W (Proc.devRef .tc main_arg8) = x8)
    (h_main_arg9 : W (Proc.devRef .tc main_arg9) = x9)
    (h_main_v104 : W (Proc.devRef .tc main_v104) = Cert.ReferenceIdeal.ReadP.val_main_v104 (F := F) x0 x1 x2 x3 x4 x5 x6 x7) :
    after (sl10 (F := F)) W (Proc.devRef .tc main_arg10) = x10 := by
  after_results_simp
  exact h_main_arg10

theorem s10_main_arg11 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg8 : W (Proc.devRef .tc main_arg8) = x8)
    (h_main_arg9 : W (Proc.devRef .tc main_arg9) = x9)
    (h_main_v104 : W (Proc.devRef .tc main_v104) = Cert.ReferenceIdeal.ReadP.val_main_v104 (F := F) x0 x1 x2 x3 x4 x5 x6 x7) :
    after (sl10 (F := F)) W (Proc.devRef .tc main_arg11) = x11 := by
  after_results_simp
  exact h_main_arg11

theorem s10_main_arg12 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg8 : W (Proc.devRef .tc main_arg8) = x8)
    (h_main_arg9 : W (Proc.devRef .tc main_arg9) = x9)
    (h_main_v104 : W (Proc.devRef .tc main_v104) = Cert.ReferenceIdeal.ReadP.val_main_v104 (F := F) x0 x1 x2 x3 x4 x5 x6 x7) :
    after (sl10 (F := F)) W (Proc.devRef .tc main_arg12) = x12 := by
  after_results_simp
  exact h_main_arg12

theorem s10_main_arg13 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg8 : W (Proc.devRef .tc main_arg8) = x8)
    (h_main_arg9 : W (Proc.devRef .tc main_arg9) = x9)
    (h_main_v104 : W (Proc.devRef .tc main_v104) = Cert.ReferenceIdeal.ReadP.val_main_v104 (F := F) x0 x1 x2 x3 x4 x5 x6 x7) :
    after (sl10 (F := F)) W (Proc.devRef .tc main_arg13) = x13 := by
  after_results_simp
  exact h_main_arg13

theorem s10_main_v113 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_arg8 : W (Proc.devRef .tc main_arg8) = x8)
    (h_main_arg9 : W (Proc.devRef .tc main_arg9) = x9)
    (h_main_v104 : W (Proc.devRef .tc main_v104) = Cert.ReferenceIdeal.ReadP.val_main_v104 (F := F) x0 x1 x2 x3 x4 x5 x6 x7) :
    after (sl10 (F := F)) W (Proc.devRef .tc main_v113) = Cert.ReferenceIdeal.ReadP.val_main_v113 (F := F) x0 x1 x2 x3 x4 x5 x6 x7 x8 x9 := by
  after_results_simp
  simp only [h_main_arg8, h_main_arg9, h_main_v104]
  rfl

theorem s11_main_v126 (W : Valuation τ sig (Elt F)) (x0 : (⟨S50000x128, .f32⟩ : BufTy).Contents (Elt F)) (x1 : (⟨S2x400000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S256x128, .f32⟩ : BufTy).Contents (Elt F)) (x9 : (⟨S128, .f32⟩ : BufTy).Contents (Elt F)) (x10 : (⟨S128x64, .f32⟩ : BufTy).Contents (Elt F)) (x11 : (⟨S64, .f32⟩ : BufTy).Contents (Elt F)) (x12 : (⟨S64x8, .f32⟩ : BufTy).Contents (Elt F)) (x13 : (⟨S8, .f32⟩ : BufTy).Contents (Elt F))
    (h_main_arg10 : W (Proc.devRef .tc main_arg10) = x10)
    (h_main_arg11 : W (Proc.devRef .tc main_arg11) = x11)
    (h_main_arg12 : W (Proc.devRef .tc main_arg12) = x12)
    (h_main_arg13 : W (Proc.devRef .tc main_arg13) = x13)
    (h_main_v113 : W (Proc.devRef .tc main_v113) = Cert.ReferenceIdeal.ReadP.val_main_v113 (F := F) x0 x1 x2 x3 x4 x5 x6 x7 x8 x9) :
    after (sl11 (F := F)) W (Proc.devRef .tc main_v126) = Cert.ReferenceIdeal.ReadP.val_main_v126 (F := F) x0 x1 x2 x3 x4 x5 x6 x7 x8 x9 x10 x11 x12 x13 := by
  after_results_simp
  simp only [h_main_arg10, h_main_arg11, h_main_arg12, h_main_arg13, h_main_v113]
  rfl

/-- The result's buffer after all of @main's operations is the stage function of the argument buffers. -/
theorem result (V : Valuation τ sig (Elt F)) :
    after (ops (F := F)) V (Proc.devRef .tc main_v126) = Cert.ReferenceIdeal.ReadP.val_main_v126 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [ops_eq]
  simp only [after_append]
  have f1_main_arg0 := s1_main_arg0 (F := F) V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) rfl rfl rfl rfl rfl rfl rfl rfl rfl rfl rfl rfl rfl rfl
  have f1_main_arg10 := s1_main_arg10 (F := F) V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) rfl rfl rfl rfl rfl rfl rfl rfl rfl rfl rfl rfl rfl rfl
  have f1_main_arg11 := s1_main_arg11 (F := F) V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) rfl rfl rfl rfl rfl rfl rfl rfl rfl rfl rfl rfl rfl rfl
  have f1_main_arg12 := s1_main_arg12 (F := F) V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) rfl rfl rfl rfl rfl rfl rfl rfl rfl rfl rfl rfl rfl rfl
  have f1_main_arg13 := s1_main_arg13 (F := F) V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) rfl rfl rfl rfl rfl rfl rfl rfl rfl rfl rfl rfl rfl rfl
  have f1_main_arg2 := s1_main_arg2 (F := F) V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) rfl rfl rfl rfl rfl rfl rfl rfl rfl rfl rfl rfl rfl rfl
  have f1_main_arg3 := s1_main_arg3 (F := F) V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) rfl rfl rfl rfl rfl rfl rfl rfl rfl rfl rfl rfl rfl rfl
  have f1_main_arg4 := s1_main_arg4 (F := F) V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) rfl rfl rfl rfl rfl rfl rfl rfl rfl rfl rfl rfl rfl rfl
  have f1_main_arg5 := s1_main_arg5 (F := F) V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) rfl rfl rfl rfl rfl rfl rfl rfl rfl rfl rfl rfl rfl rfl
  have f1_main_arg6 := s1_main_arg6 (F := F) V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) rfl rfl rfl rfl rfl rfl rfl rfl rfl rfl rfl rfl rfl rfl
  have f1_main_arg7 := s1_main_arg7 (F := F) V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) rfl rfl rfl rfl rfl rfl rfl rfl rfl rfl rfl rfl rfl rfl
  have f1_main_arg8 := s1_main_arg8 (F := F) V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) rfl rfl rfl rfl rfl rfl rfl rfl rfl rfl rfl rfl rfl rfl
  have f1_main_arg9 := s1_main_arg9 (F := F) V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) rfl rfl rfl rfl rfl rfl rfl rfl rfl rfl rfl rfl rfl rfl
  have f1_main_v1 := s1_main_v1 (F := F) V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) rfl rfl rfl rfl rfl rfl rfl rfl rfl rfl rfl rfl rfl rfl
  have f1_main_v10 := s1_main_v10 (F := F) V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) rfl rfl rfl rfl rfl rfl rfl rfl rfl rfl rfl rfl rfl rfl
  have f1_main_v3 := s1_main_v3 (F := F) V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) rfl rfl rfl rfl rfl rfl rfl rfl rfl rfl rfl rfl rfl rfl
  generalize after (sl1 (F := F)) V = W1 at *
  have f2_main_arg0 := s2_main_arg0 (F := F) W1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f1_main_arg0 f1_main_arg10 f1_main_arg11 f1_main_arg12 f1_main_arg13 f1_main_arg2 f1_main_arg3 f1_main_arg4 f1_main_arg5 f1_main_arg6 f1_main_arg7 f1_main_arg8 f1_main_arg9 f1_main_v1 f1_main_v10 f1_main_v3
  have f2_main_arg10 := s2_main_arg10 (F := F) W1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f1_main_arg0 f1_main_arg10 f1_main_arg11 f1_main_arg12 f1_main_arg13 f1_main_arg2 f1_main_arg3 f1_main_arg4 f1_main_arg5 f1_main_arg6 f1_main_arg7 f1_main_arg8 f1_main_arg9 f1_main_v1 f1_main_v10 f1_main_v3
  have f2_main_arg11 := s2_main_arg11 (F := F) W1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f1_main_arg0 f1_main_arg10 f1_main_arg11 f1_main_arg12 f1_main_arg13 f1_main_arg2 f1_main_arg3 f1_main_arg4 f1_main_arg5 f1_main_arg6 f1_main_arg7 f1_main_arg8 f1_main_arg9 f1_main_v1 f1_main_v10 f1_main_v3
  have f2_main_arg12 := s2_main_arg12 (F := F) W1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f1_main_arg0 f1_main_arg10 f1_main_arg11 f1_main_arg12 f1_main_arg13 f1_main_arg2 f1_main_arg3 f1_main_arg4 f1_main_arg5 f1_main_arg6 f1_main_arg7 f1_main_arg8 f1_main_arg9 f1_main_v1 f1_main_v10 f1_main_v3
  have f2_main_arg13 := s2_main_arg13 (F := F) W1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f1_main_arg0 f1_main_arg10 f1_main_arg11 f1_main_arg12 f1_main_arg13 f1_main_arg2 f1_main_arg3 f1_main_arg4 f1_main_arg5 f1_main_arg6 f1_main_arg7 f1_main_arg8 f1_main_arg9 f1_main_v1 f1_main_v10 f1_main_v3
  have f2_main_arg2 := s2_main_arg2 (F := F) W1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f1_main_arg0 f1_main_arg10 f1_main_arg11 f1_main_arg12 f1_main_arg13 f1_main_arg2 f1_main_arg3 f1_main_arg4 f1_main_arg5 f1_main_arg6 f1_main_arg7 f1_main_arg8 f1_main_arg9 f1_main_v1 f1_main_v10 f1_main_v3
  have f2_main_arg3 := s2_main_arg3 (F := F) W1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f1_main_arg0 f1_main_arg10 f1_main_arg11 f1_main_arg12 f1_main_arg13 f1_main_arg2 f1_main_arg3 f1_main_arg4 f1_main_arg5 f1_main_arg6 f1_main_arg7 f1_main_arg8 f1_main_arg9 f1_main_v1 f1_main_v10 f1_main_v3
  have f2_main_arg4 := s2_main_arg4 (F := F) W1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f1_main_arg0 f1_main_arg10 f1_main_arg11 f1_main_arg12 f1_main_arg13 f1_main_arg2 f1_main_arg3 f1_main_arg4 f1_main_arg5 f1_main_arg6 f1_main_arg7 f1_main_arg8 f1_main_arg9 f1_main_v1 f1_main_v10 f1_main_v3
  have f2_main_arg5 := s2_main_arg5 (F := F) W1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f1_main_arg0 f1_main_arg10 f1_main_arg11 f1_main_arg12 f1_main_arg13 f1_main_arg2 f1_main_arg3 f1_main_arg4 f1_main_arg5 f1_main_arg6 f1_main_arg7 f1_main_arg8 f1_main_arg9 f1_main_v1 f1_main_v10 f1_main_v3
  have f2_main_arg6 := s2_main_arg6 (F := F) W1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f1_main_arg0 f1_main_arg10 f1_main_arg11 f1_main_arg12 f1_main_arg13 f1_main_arg2 f1_main_arg3 f1_main_arg4 f1_main_arg5 f1_main_arg6 f1_main_arg7 f1_main_arg8 f1_main_arg9 f1_main_v1 f1_main_v10 f1_main_v3
  have f2_main_arg7 := s2_main_arg7 (F := F) W1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f1_main_arg0 f1_main_arg10 f1_main_arg11 f1_main_arg12 f1_main_arg13 f1_main_arg2 f1_main_arg3 f1_main_arg4 f1_main_arg5 f1_main_arg6 f1_main_arg7 f1_main_arg8 f1_main_arg9 f1_main_v1 f1_main_v10 f1_main_v3
  have f2_main_arg8 := s2_main_arg8 (F := F) W1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f1_main_arg0 f1_main_arg10 f1_main_arg11 f1_main_arg12 f1_main_arg13 f1_main_arg2 f1_main_arg3 f1_main_arg4 f1_main_arg5 f1_main_arg6 f1_main_arg7 f1_main_arg8 f1_main_arg9 f1_main_v1 f1_main_v10 f1_main_v3
  have f2_main_arg9 := s2_main_arg9 (F := F) W1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f1_main_arg0 f1_main_arg10 f1_main_arg11 f1_main_arg12 f1_main_arg13 f1_main_arg2 f1_main_arg3 f1_main_arg4 f1_main_arg5 f1_main_arg6 f1_main_arg7 f1_main_arg8 f1_main_arg9 f1_main_v1 f1_main_v10 f1_main_v3
  have f2_main_v1 := s2_main_v1 (F := F) W1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f1_main_arg0 f1_main_arg10 f1_main_arg11 f1_main_arg12 f1_main_arg13 f1_main_arg2 f1_main_arg3 f1_main_arg4 f1_main_arg5 f1_main_arg6 f1_main_arg7 f1_main_arg8 f1_main_arg9 f1_main_v1 f1_main_v10 f1_main_v3
  have f2_main_v21 := s2_main_v21 (F := F) W1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f1_main_arg0 f1_main_arg10 f1_main_arg11 f1_main_arg12 f1_main_arg13 f1_main_arg2 f1_main_arg3 f1_main_arg4 f1_main_arg5 f1_main_arg6 f1_main_arg7 f1_main_arg8 f1_main_arg9 f1_main_v1 f1_main_v10 f1_main_v3
  have f2_main_v3 := s2_main_v3 (F := F) W1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f1_main_arg0 f1_main_arg10 f1_main_arg11 f1_main_arg12 f1_main_arg13 f1_main_arg2 f1_main_arg3 f1_main_arg4 f1_main_arg5 f1_main_arg6 f1_main_arg7 f1_main_arg8 f1_main_arg9 f1_main_v1 f1_main_v10 f1_main_v3
  generalize after (sl2 (F := F)) W1 = W2 at *
  have f3_main_arg10 := s3_main_arg10 (F := F) W2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f2_main_arg0 f2_main_arg10 f2_main_arg11 f2_main_arg12 f2_main_arg13 f2_main_arg2 f2_main_arg3 f2_main_arg4 f2_main_arg5 f2_main_arg6 f2_main_arg7 f2_main_arg8 f2_main_arg9 f2_main_v1 f2_main_v21 f2_main_v3
  have f3_main_arg11 := s3_main_arg11 (F := F) W2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f2_main_arg0 f2_main_arg10 f2_main_arg11 f2_main_arg12 f2_main_arg13 f2_main_arg2 f2_main_arg3 f2_main_arg4 f2_main_arg5 f2_main_arg6 f2_main_arg7 f2_main_arg8 f2_main_arg9 f2_main_v1 f2_main_v21 f2_main_v3
  have f3_main_arg12 := s3_main_arg12 (F := F) W2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f2_main_arg0 f2_main_arg10 f2_main_arg11 f2_main_arg12 f2_main_arg13 f2_main_arg2 f2_main_arg3 f2_main_arg4 f2_main_arg5 f2_main_arg6 f2_main_arg7 f2_main_arg8 f2_main_arg9 f2_main_v1 f2_main_v21 f2_main_v3
  have f3_main_arg13 := s3_main_arg13 (F := F) W2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f2_main_arg0 f2_main_arg10 f2_main_arg11 f2_main_arg12 f2_main_arg13 f2_main_arg2 f2_main_arg3 f2_main_arg4 f2_main_arg5 f2_main_arg6 f2_main_arg7 f2_main_arg8 f2_main_arg9 f2_main_v1 f2_main_v21 f2_main_v3
  have f3_main_arg5 := s3_main_arg5 (F := F) W2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f2_main_arg0 f2_main_arg10 f2_main_arg11 f2_main_arg12 f2_main_arg13 f2_main_arg2 f2_main_arg3 f2_main_arg4 f2_main_arg5 f2_main_arg6 f2_main_arg7 f2_main_arg8 f2_main_arg9 f2_main_v1 f2_main_v21 f2_main_v3
  have f3_main_arg6 := s3_main_arg6 (F := F) W2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f2_main_arg0 f2_main_arg10 f2_main_arg11 f2_main_arg12 f2_main_arg13 f2_main_arg2 f2_main_arg3 f2_main_arg4 f2_main_arg5 f2_main_arg6 f2_main_arg7 f2_main_arg8 f2_main_arg9 f2_main_v1 f2_main_v21 f2_main_v3
  have f3_main_arg7 := s3_main_arg7 (F := F) W2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f2_main_arg0 f2_main_arg10 f2_main_arg11 f2_main_arg12 f2_main_arg13 f2_main_arg2 f2_main_arg3 f2_main_arg4 f2_main_arg5 f2_main_arg6 f2_main_arg7 f2_main_arg8 f2_main_arg9 f2_main_v1 f2_main_v21 f2_main_v3
  have f3_main_arg8 := s3_main_arg8 (F := F) W2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f2_main_arg0 f2_main_arg10 f2_main_arg11 f2_main_arg12 f2_main_arg13 f2_main_arg2 f2_main_arg3 f2_main_arg4 f2_main_arg5 f2_main_arg6 f2_main_arg7 f2_main_arg8 f2_main_arg9 f2_main_v1 f2_main_v21 f2_main_v3
  have f3_main_arg9 := s3_main_arg9 (F := F) W2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f2_main_arg0 f2_main_arg10 f2_main_arg11 f2_main_arg12 f2_main_arg13 f2_main_arg2 f2_main_arg3 f2_main_arg4 f2_main_arg5 f2_main_arg6 f2_main_arg7 f2_main_arg8 f2_main_arg9 f2_main_v1 f2_main_v21 f2_main_v3
  have f3_main_v1 := s3_main_v1 (F := F) W2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f2_main_arg0 f2_main_arg10 f2_main_arg11 f2_main_arg12 f2_main_arg13 f2_main_arg2 f2_main_arg3 f2_main_arg4 f2_main_arg5 f2_main_arg6 f2_main_arg7 f2_main_arg8 f2_main_arg9 f2_main_v1 f2_main_v21 f2_main_v3
  have f3_main_v3 := s3_main_v3 (F := F) W2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f2_main_arg0 f2_main_arg10 f2_main_arg11 f2_main_arg12 f2_main_arg13 f2_main_arg2 f2_main_arg3 f2_main_arg4 f2_main_arg5 f2_main_arg6 f2_main_arg7 f2_main_arg8 f2_main_arg9 f2_main_v1 f2_main_v21 f2_main_v3
  have f3_main_v33 := s3_main_v33 (F := F) W2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f2_main_arg0 f2_main_arg10 f2_main_arg11 f2_main_arg12 f2_main_arg13 f2_main_arg2 f2_main_arg3 f2_main_arg4 f2_main_arg5 f2_main_arg6 f2_main_arg7 f2_main_arg8 f2_main_arg9 f2_main_v1 f2_main_v21 f2_main_v3
  generalize after (sl3 (F := F)) W2 = W3 at *
  have f4_main_arg10 := s4_main_arg10 (F := F) W3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f3_main_arg10 f3_main_arg11 f3_main_arg12 f3_main_arg13 f3_main_arg5 f3_main_arg6 f3_main_arg7 f3_main_arg8 f3_main_arg9 f3_main_v1 f3_main_v3 f3_main_v33
  have f4_main_arg11 := s4_main_arg11 (F := F) W3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f3_main_arg10 f3_main_arg11 f3_main_arg12 f3_main_arg13 f3_main_arg5 f3_main_arg6 f3_main_arg7 f3_main_arg8 f3_main_arg9 f3_main_v1 f3_main_v3 f3_main_v33
  have f4_main_arg12 := s4_main_arg12 (F := F) W3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f3_main_arg10 f3_main_arg11 f3_main_arg12 f3_main_arg13 f3_main_arg5 f3_main_arg6 f3_main_arg7 f3_main_arg8 f3_main_arg9 f3_main_v1 f3_main_v3 f3_main_v33
  have f4_main_arg13 := s4_main_arg13 (F := F) W3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f3_main_arg10 f3_main_arg11 f3_main_arg12 f3_main_arg13 f3_main_arg5 f3_main_arg6 f3_main_arg7 f3_main_arg8 f3_main_arg9 f3_main_v1 f3_main_v3 f3_main_v33
  have f4_main_arg5 := s4_main_arg5 (F := F) W3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f3_main_arg10 f3_main_arg11 f3_main_arg12 f3_main_arg13 f3_main_arg5 f3_main_arg6 f3_main_arg7 f3_main_arg8 f3_main_arg9 f3_main_v1 f3_main_v3 f3_main_v33
  have f4_main_arg6 := s4_main_arg6 (F := F) W3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f3_main_arg10 f3_main_arg11 f3_main_arg12 f3_main_arg13 f3_main_arg5 f3_main_arg6 f3_main_arg7 f3_main_arg8 f3_main_arg9 f3_main_v1 f3_main_v3 f3_main_v33
  have f4_main_arg7 := s4_main_arg7 (F := F) W3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f3_main_arg10 f3_main_arg11 f3_main_arg12 f3_main_arg13 f3_main_arg5 f3_main_arg6 f3_main_arg7 f3_main_arg8 f3_main_arg9 f3_main_v1 f3_main_v3 f3_main_v33
  have f4_main_arg8 := s4_main_arg8 (F := F) W3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f3_main_arg10 f3_main_arg11 f3_main_arg12 f3_main_arg13 f3_main_arg5 f3_main_arg6 f3_main_arg7 f3_main_arg8 f3_main_arg9 f3_main_v1 f3_main_v3 f3_main_v33
  have f4_main_arg9 := s4_main_arg9 (F := F) W3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f3_main_arg10 f3_main_arg11 f3_main_arg12 f3_main_arg13 f3_main_arg5 f3_main_arg6 f3_main_arg7 f3_main_arg8 f3_main_arg9 f3_main_v1 f3_main_v3 f3_main_v33
  have f4_main_v1 := s4_main_v1 (F := F) W3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f3_main_arg10 f3_main_arg11 f3_main_arg12 f3_main_arg13 f3_main_arg5 f3_main_arg6 f3_main_arg7 f3_main_arg8 f3_main_arg9 f3_main_v1 f3_main_v3 f3_main_v33
  have f4_main_v3 := s4_main_v3 (F := F) W3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f3_main_arg10 f3_main_arg11 f3_main_arg12 f3_main_arg13 f3_main_arg5 f3_main_arg6 f3_main_arg7 f3_main_arg8 f3_main_arg9 f3_main_v1 f3_main_v3 f3_main_v33
  have f4_main_v46 := s4_main_v46 (F := F) W3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f3_main_arg10 f3_main_arg11 f3_main_arg12 f3_main_arg13 f3_main_arg5 f3_main_arg6 f3_main_arg7 f3_main_arg8 f3_main_arg9 f3_main_v1 f3_main_v3 f3_main_v33
  generalize after (sl4 (F := F)) W3 = W4 at *
  have f5_main_arg10 := s5_main_arg10 (F := F) W4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f4_main_arg10 f4_main_arg11 f4_main_arg12 f4_main_arg13 f4_main_arg5 f4_main_arg6 f4_main_arg7 f4_main_arg8 f4_main_arg9 f4_main_v1 f4_main_v3 f4_main_v46
  have f5_main_arg11 := s5_main_arg11 (F := F) W4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f4_main_arg10 f4_main_arg11 f4_main_arg12 f4_main_arg13 f4_main_arg5 f4_main_arg6 f4_main_arg7 f4_main_arg8 f4_main_arg9 f4_main_v1 f4_main_v3 f4_main_v46
  have f5_main_arg12 := s5_main_arg12 (F := F) W4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f4_main_arg10 f4_main_arg11 f4_main_arg12 f4_main_arg13 f4_main_arg5 f4_main_arg6 f4_main_arg7 f4_main_arg8 f4_main_arg9 f4_main_v1 f4_main_v3 f4_main_v46
  have f5_main_arg13 := s5_main_arg13 (F := F) W4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f4_main_arg10 f4_main_arg11 f4_main_arg12 f4_main_arg13 f4_main_arg5 f4_main_arg6 f4_main_arg7 f4_main_arg8 f4_main_arg9 f4_main_v1 f4_main_v3 f4_main_v46
  have f5_main_arg5 := s5_main_arg5 (F := F) W4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f4_main_arg10 f4_main_arg11 f4_main_arg12 f4_main_arg13 f4_main_arg5 f4_main_arg6 f4_main_arg7 f4_main_arg8 f4_main_arg9 f4_main_v1 f4_main_v3 f4_main_v46
  have f5_main_arg6 := s5_main_arg6 (F := F) W4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f4_main_arg10 f4_main_arg11 f4_main_arg12 f4_main_arg13 f4_main_arg5 f4_main_arg6 f4_main_arg7 f4_main_arg8 f4_main_arg9 f4_main_v1 f4_main_v3 f4_main_v46
  have f5_main_arg7 := s5_main_arg7 (F := F) W4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f4_main_arg10 f4_main_arg11 f4_main_arg12 f4_main_arg13 f4_main_arg5 f4_main_arg6 f4_main_arg7 f4_main_arg8 f4_main_arg9 f4_main_v1 f4_main_v3 f4_main_v46
  have f5_main_arg8 := s5_main_arg8 (F := F) W4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f4_main_arg10 f4_main_arg11 f4_main_arg12 f4_main_arg13 f4_main_arg5 f4_main_arg6 f4_main_arg7 f4_main_arg8 f4_main_arg9 f4_main_v1 f4_main_v3 f4_main_v46
  have f5_main_arg9 := s5_main_arg9 (F := F) W4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f4_main_arg10 f4_main_arg11 f4_main_arg12 f4_main_arg13 f4_main_arg5 f4_main_arg6 f4_main_arg7 f4_main_arg8 f4_main_arg9 f4_main_v1 f4_main_v3 f4_main_v46
  have f5_main_v1 := s5_main_v1 (F := F) W4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f4_main_arg10 f4_main_arg11 f4_main_arg12 f4_main_arg13 f4_main_arg5 f4_main_arg6 f4_main_arg7 f4_main_arg8 f4_main_arg9 f4_main_v1 f4_main_v3 f4_main_v46
  have f5_main_v3 := s5_main_v3 (F := F) W4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f4_main_arg10 f4_main_arg11 f4_main_arg12 f4_main_arg13 f4_main_arg5 f4_main_arg6 f4_main_arg7 f4_main_arg8 f4_main_arg9 f4_main_v1 f4_main_v3 f4_main_v46
  have f5_main_v46 := s5_main_v46 (F := F) W4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f4_main_arg10 f4_main_arg11 f4_main_arg12 f4_main_arg13 f4_main_arg5 f4_main_arg6 f4_main_arg7 f4_main_arg8 f4_main_arg9 f4_main_v1 f4_main_v3 f4_main_v46
  have f5_main_v56 := s5_main_v56 (F := F) W4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f4_main_arg10 f4_main_arg11 f4_main_arg12 f4_main_arg13 f4_main_arg5 f4_main_arg6 f4_main_arg7 f4_main_arg8 f4_main_arg9 f4_main_v1 f4_main_v3 f4_main_v46
  generalize after (sl5 (F := F)) W4 = W5 at *
  have f6_main_arg10 := s6_main_arg10 (F := F) W5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f5_main_arg10 f5_main_arg11 f5_main_arg12 f5_main_arg13 f5_main_arg5 f5_main_arg6 f5_main_arg7 f5_main_arg8 f5_main_arg9 f5_main_v1 f5_main_v3 f5_main_v46 f5_main_v56
  have f6_main_arg11 := s6_main_arg11 (F := F) W5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f5_main_arg10 f5_main_arg11 f5_main_arg12 f5_main_arg13 f5_main_arg5 f5_main_arg6 f5_main_arg7 f5_main_arg8 f5_main_arg9 f5_main_v1 f5_main_v3 f5_main_v46 f5_main_v56
  have f6_main_arg12 := s6_main_arg12 (F := F) W5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f5_main_arg10 f5_main_arg11 f5_main_arg12 f5_main_arg13 f5_main_arg5 f5_main_arg6 f5_main_arg7 f5_main_arg8 f5_main_arg9 f5_main_v1 f5_main_v3 f5_main_v46 f5_main_v56
  have f6_main_arg13 := s6_main_arg13 (F := F) W5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f5_main_arg10 f5_main_arg11 f5_main_arg12 f5_main_arg13 f5_main_arg5 f5_main_arg6 f5_main_arg7 f5_main_arg8 f5_main_arg9 f5_main_v1 f5_main_v3 f5_main_v46 f5_main_v56
  have f6_main_arg5 := s6_main_arg5 (F := F) W5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f5_main_arg10 f5_main_arg11 f5_main_arg12 f5_main_arg13 f5_main_arg5 f5_main_arg6 f5_main_arg7 f5_main_arg8 f5_main_arg9 f5_main_v1 f5_main_v3 f5_main_v46 f5_main_v56
  have f6_main_arg6 := s6_main_arg6 (F := F) W5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f5_main_arg10 f5_main_arg11 f5_main_arg12 f5_main_arg13 f5_main_arg5 f5_main_arg6 f5_main_arg7 f5_main_arg8 f5_main_arg9 f5_main_v1 f5_main_v3 f5_main_v46 f5_main_v56
  have f6_main_arg7 := s6_main_arg7 (F := F) W5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f5_main_arg10 f5_main_arg11 f5_main_arg12 f5_main_arg13 f5_main_arg5 f5_main_arg6 f5_main_arg7 f5_main_arg8 f5_main_arg9 f5_main_v1 f5_main_v3 f5_main_v46 f5_main_v56
  have f6_main_arg8 := s6_main_arg8 (F := F) W5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f5_main_arg10 f5_main_arg11 f5_main_arg12 f5_main_arg13 f5_main_arg5 f5_main_arg6 f5_main_arg7 f5_main_arg8 f5_main_arg9 f5_main_v1 f5_main_v3 f5_main_v46 f5_main_v56
  have f6_main_arg9 := s6_main_arg9 (F := F) W5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f5_main_arg10 f5_main_arg11 f5_main_arg12 f5_main_arg13 f5_main_arg5 f5_main_arg6 f5_main_arg7 f5_main_arg8 f5_main_arg9 f5_main_v1 f5_main_v3 f5_main_v46 f5_main_v56
  have f6_main_v1 := s6_main_v1 (F := F) W5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f5_main_arg10 f5_main_arg11 f5_main_arg12 f5_main_arg13 f5_main_arg5 f5_main_arg6 f5_main_arg7 f5_main_arg8 f5_main_arg9 f5_main_v1 f5_main_v3 f5_main_v46 f5_main_v56
  have f6_main_v3 := s6_main_v3 (F := F) W5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f5_main_arg10 f5_main_arg11 f5_main_arg12 f5_main_arg13 f5_main_arg5 f5_main_arg6 f5_main_arg7 f5_main_arg8 f5_main_arg9 f5_main_v1 f5_main_v3 f5_main_v46 f5_main_v56
  have f6_main_v46 := s6_main_v46 (F := F) W5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f5_main_arg10 f5_main_arg11 f5_main_arg12 f5_main_arg13 f5_main_arg5 f5_main_arg6 f5_main_arg7 f5_main_arg8 f5_main_arg9 f5_main_v1 f5_main_v3 f5_main_v46 f5_main_v56
  have f6_main_v64 := s6_main_v64 (F := F) W5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f5_main_arg10 f5_main_arg11 f5_main_arg12 f5_main_arg13 f5_main_arg5 f5_main_arg6 f5_main_arg7 f5_main_arg8 f5_main_arg9 f5_main_v1 f5_main_v3 f5_main_v46 f5_main_v56
  generalize after (sl6 (F := F)) W5 = W6 at *
  have f7_main_arg10 := s7_main_arg10 (F := F) W6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f6_main_arg10 f6_main_arg11 f6_main_arg12 f6_main_arg13 f6_main_arg5 f6_main_arg6 f6_main_arg7 f6_main_arg8 f6_main_arg9 f6_main_v1 f6_main_v3 f6_main_v46 f6_main_v64
  have f7_main_arg11 := s7_main_arg11 (F := F) W6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f6_main_arg10 f6_main_arg11 f6_main_arg12 f6_main_arg13 f6_main_arg5 f6_main_arg6 f6_main_arg7 f6_main_arg8 f6_main_arg9 f6_main_v1 f6_main_v3 f6_main_v46 f6_main_v64
  have f7_main_arg12 := s7_main_arg12 (F := F) W6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f6_main_arg10 f6_main_arg11 f6_main_arg12 f6_main_arg13 f6_main_arg5 f6_main_arg6 f6_main_arg7 f6_main_arg8 f6_main_arg9 f6_main_v1 f6_main_v3 f6_main_v46 f6_main_v64
  have f7_main_arg13 := s7_main_arg13 (F := F) W6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f6_main_arg10 f6_main_arg11 f6_main_arg12 f6_main_arg13 f6_main_arg5 f6_main_arg6 f6_main_arg7 f6_main_arg8 f6_main_arg9 f6_main_v1 f6_main_v3 f6_main_v46 f6_main_v64
  have f7_main_arg8 := s7_main_arg8 (F := F) W6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f6_main_arg10 f6_main_arg11 f6_main_arg12 f6_main_arg13 f6_main_arg5 f6_main_arg6 f6_main_arg7 f6_main_arg8 f6_main_arg9 f6_main_v1 f6_main_v3 f6_main_v46 f6_main_v64
  have f7_main_arg9 := s7_main_arg9 (F := F) W6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f6_main_arg10 f6_main_arg11 f6_main_arg12 f6_main_arg13 f6_main_arg5 f6_main_arg6 f6_main_arg7 f6_main_arg8 f6_main_arg9 f6_main_v1 f6_main_v3 f6_main_v46 f6_main_v64
  have f7_main_v1 := s7_main_v1 (F := F) W6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f6_main_arg10 f6_main_arg11 f6_main_arg12 f6_main_arg13 f6_main_arg5 f6_main_arg6 f6_main_arg7 f6_main_arg8 f6_main_arg9 f6_main_v1 f6_main_v3 f6_main_v46 f6_main_v64
  have f7_main_v3 := s7_main_v3 (F := F) W6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f6_main_arg10 f6_main_arg11 f6_main_arg12 f6_main_arg13 f6_main_arg5 f6_main_arg6 f6_main_arg7 f6_main_arg8 f6_main_arg9 f6_main_v1 f6_main_v3 f6_main_v46 f6_main_v64
  have f7_main_v76 := s7_main_v76 (F := F) W6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f6_main_arg10 f6_main_arg11 f6_main_arg12 f6_main_arg13 f6_main_arg5 f6_main_arg6 f6_main_arg7 f6_main_arg8 f6_main_arg9 f6_main_v1 f6_main_v3 f6_main_v46 f6_main_v64
  generalize after (sl7 (F := F)) W6 = W7 at *
  have f8_main_arg10 := s8_main_arg10 (F := F) W7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f7_main_arg10 f7_main_arg11 f7_main_arg12 f7_main_arg13 f7_main_arg8 f7_main_arg9 f7_main_v1 f7_main_v3 f7_main_v76
  have f8_main_arg11 := s8_main_arg11 (F := F) W7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f7_main_arg10 f7_main_arg11 f7_main_arg12 f7_main_arg13 f7_main_arg8 f7_main_arg9 f7_main_v1 f7_main_v3 f7_main_v76
  have f8_main_arg12 := s8_main_arg12 (F := F) W7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f7_main_arg10 f7_main_arg11 f7_main_arg12 f7_main_arg13 f7_main_arg8 f7_main_arg9 f7_main_v1 f7_main_v3 f7_main_v76
  have f8_main_arg13 := s8_main_arg13 (F := F) W7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f7_main_arg10 f7_main_arg11 f7_main_arg12 f7_main_arg13 f7_main_arg8 f7_main_arg9 f7_main_v1 f7_main_v3 f7_main_v76
  have f8_main_arg8 := s8_main_arg8 (F := F) W7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f7_main_arg10 f7_main_arg11 f7_main_arg12 f7_main_arg13 f7_main_arg8 f7_main_arg9 f7_main_v1 f7_main_v3 f7_main_v76
  have f8_main_arg9 := s8_main_arg9 (F := F) W7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f7_main_arg10 f7_main_arg11 f7_main_arg12 f7_main_arg13 f7_main_arg8 f7_main_arg9 f7_main_v1 f7_main_v3 f7_main_v76
  have f8_main_v1 := s8_main_v1 (F := F) W7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f7_main_arg10 f7_main_arg11 f7_main_arg12 f7_main_arg13 f7_main_arg8 f7_main_arg9 f7_main_v1 f7_main_v3 f7_main_v76
  have f8_main_v3 := s8_main_v3 (F := F) W7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f7_main_arg10 f7_main_arg11 f7_main_arg12 f7_main_arg13 f7_main_arg8 f7_main_arg9 f7_main_v1 f7_main_v3 f7_main_v76
  have f8_main_v89 := s8_main_v89 (F := F) W7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f7_main_arg10 f7_main_arg11 f7_main_arg12 f7_main_arg13 f7_main_arg8 f7_main_arg9 f7_main_v1 f7_main_v3 f7_main_v76
  generalize after (sl8 (F := F)) W7 = W8 at *
  have f9_main_arg10 := s9_main_arg10 (F := F) W8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f8_main_arg10 f8_main_arg11 f8_main_arg12 f8_main_arg13 f8_main_arg8 f8_main_arg9 f8_main_v1 f8_main_v3 f8_main_v89
  have f9_main_arg11 := s9_main_arg11 (F := F) W8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f8_main_arg10 f8_main_arg11 f8_main_arg12 f8_main_arg13 f8_main_arg8 f8_main_arg9 f8_main_v1 f8_main_v3 f8_main_v89
  have f9_main_arg12 := s9_main_arg12 (F := F) W8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f8_main_arg10 f8_main_arg11 f8_main_arg12 f8_main_arg13 f8_main_arg8 f8_main_arg9 f8_main_v1 f8_main_v3 f8_main_v89
  have f9_main_arg13 := s9_main_arg13 (F := F) W8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f8_main_arg10 f8_main_arg11 f8_main_arg12 f8_main_arg13 f8_main_arg8 f8_main_arg9 f8_main_v1 f8_main_v3 f8_main_v89
  have f9_main_arg8 := s9_main_arg8 (F := F) W8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f8_main_arg10 f8_main_arg11 f8_main_arg12 f8_main_arg13 f8_main_arg8 f8_main_arg9 f8_main_v1 f8_main_v3 f8_main_v89
  have f9_main_arg9 := s9_main_arg9 (F := F) W8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f8_main_arg10 f8_main_arg11 f8_main_arg12 f8_main_arg13 f8_main_arg8 f8_main_arg9 f8_main_v1 f8_main_v3 f8_main_v89
  have f9_main_v104 := s9_main_v104 (F := F) W8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f8_main_arg10 f8_main_arg11 f8_main_arg12 f8_main_arg13 f8_main_arg8 f8_main_arg9 f8_main_v1 f8_main_v3 f8_main_v89
  generalize after (sl9 (F := F)) W8 = W9 at *
  have f10_main_arg10 := s10_main_arg10 (F := F) W9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f9_main_arg10 f9_main_arg11 f9_main_arg12 f9_main_arg13 f9_main_arg8 f9_main_arg9 f9_main_v104
  have f10_main_arg11 := s10_main_arg11 (F := F) W9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f9_main_arg10 f9_main_arg11 f9_main_arg12 f9_main_arg13 f9_main_arg8 f9_main_arg9 f9_main_v104
  have f10_main_arg12 := s10_main_arg12 (F := F) W9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f9_main_arg10 f9_main_arg11 f9_main_arg12 f9_main_arg13 f9_main_arg8 f9_main_arg9 f9_main_v104
  have f10_main_arg13 := s10_main_arg13 (F := F) W9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f9_main_arg10 f9_main_arg11 f9_main_arg12 f9_main_arg13 f9_main_arg8 f9_main_arg9 f9_main_v104
  have f10_main_v113 := s10_main_v113 (F := F) W9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f9_main_arg10 f9_main_arg11 f9_main_arg12 f9_main_arg13 f9_main_arg8 f9_main_arg9 f9_main_v104
  generalize after (sl10 (F := F)) W9 = W10 at *
  exact s11_main_v126 W10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) f10_main_arg10 f10_main_arg11 f10_main_arg12 f10_main_arg13 f10_main_v113

/-! ### No operation writes an argument -/

set_option maxRecDepth 8192

theorem arg_keep0 (V : Valuation τ sig (Elt F)) :
    after (ops (F := F)) V (Proc.devRef .tc main_arg0) = V (Proc.devRef .tc main_arg0) :=
  after_of_forall_not_mem (b := Proc.devRef .tc main_arg0) _ _ (List.forall_iff_forall_mem.mp (by
    simp only [ops, List.Forall, nullary_writes, unary_writes, binary_writes, ternary_writes, reshape_writes, Finset.mem_singleton]
    repeat' apply And.intro
    all_goals exact devRef_ne_of_ne (by decide)))

theorem arg_keep1 (V : Valuation τ sig (Elt F)) :
    after (ops (F := F)) V (Proc.devRef .tc main_arg1) = V (Proc.devRef .tc main_arg1) :=
  after_of_forall_not_mem (b := Proc.devRef .tc main_arg1) _ _ (List.forall_iff_forall_mem.mp (by
    simp only [ops, List.Forall, nullary_writes, unary_writes, binary_writes, ternary_writes, reshape_writes, Finset.mem_singleton]
    repeat' apply And.intro
    all_goals exact devRef_ne_of_ne (by decide)))

theorem arg_keep2 (V : Valuation τ sig (Elt F)) :
    after (ops (F := F)) V (Proc.devRef .tc main_arg2) = V (Proc.devRef .tc main_arg2) :=
  after_of_forall_not_mem (b := Proc.devRef .tc main_arg2) _ _ (List.forall_iff_forall_mem.mp (by
    simp only [ops, List.Forall, nullary_writes, unary_writes, binary_writes, ternary_writes, reshape_writes, Finset.mem_singleton]
    repeat' apply And.intro
    all_goals exact devRef_ne_of_ne (by decide)))

theorem arg_keep3 (V : Valuation τ sig (Elt F)) :
    after (ops (F := F)) V (Proc.devRef .tc main_arg3) = V (Proc.devRef .tc main_arg3) :=
  after_of_forall_not_mem (b := Proc.devRef .tc main_arg3) _ _ (List.forall_iff_forall_mem.mp (by
    simp only [ops, List.Forall, nullary_writes, unary_writes, binary_writes, ternary_writes, reshape_writes, Finset.mem_singleton]
    repeat' apply And.intro
    all_goals exact devRef_ne_of_ne (by decide)))

theorem arg_keep4 (V : Valuation τ sig (Elt F)) :
    after (ops (F := F)) V (Proc.devRef .tc main_arg4) = V (Proc.devRef .tc main_arg4) :=
  after_of_forall_not_mem (b := Proc.devRef .tc main_arg4) _ _ (List.forall_iff_forall_mem.mp (by
    simp only [ops, List.Forall, nullary_writes, unary_writes, binary_writes, ternary_writes, reshape_writes, Finset.mem_singleton]
    repeat' apply And.intro
    all_goals exact devRef_ne_of_ne (by decide)))

theorem arg_keep5 (V : Valuation τ sig (Elt F)) :
    after (ops (F := F)) V (Proc.devRef .tc main_arg5) = V (Proc.devRef .tc main_arg5) :=
  after_of_forall_not_mem (b := Proc.devRef .tc main_arg5) _ _ (List.forall_iff_forall_mem.mp (by
    simp only [ops, List.Forall, nullary_writes, unary_writes, binary_writes, ternary_writes, reshape_writes, Finset.mem_singleton]
    repeat' apply And.intro
    all_goals exact devRef_ne_of_ne (by decide)))

theorem arg_keep6 (V : Valuation τ sig (Elt F)) :
    after (ops (F := F)) V (Proc.devRef .tc main_arg6) = V (Proc.devRef .tc main_arg6) :=
  after_of_forall_not_mem (b := Proc.devRef .tc main_arg6) _ _ (List.forall_iff_forall_mem.mp (by
    simp only [ops, List.Forall, nullary_writes, unary_writes, binary_writes, ternary_writes, reshape_writes, Finset.mem_singleton]
    repeat' apply And.intro
    all_goals exact devRef_ne_of_ne (by decide)))

theorem arg_keep7 (V : Valuation τ sig (Elt F)) :
    after (ops (F := F)) V (Proc.devRef .tc main_arg7) = V (Proc.devRef .tc main_arg7) :=
  after_of_forall_not_mem (b := Proc.devRef .tc main_arg7) _ _ (List.forall_iff_forall_mem.mp (by
    simp only [ops, List.Forall, nullary_writes, unary_writes, binary_writes, ternary_writes, reshape_writes, Finset.mem_singleton]
    repeat' apply And.intro
    all_goals exact devRef_ne_of_ne (by decide)))

theorem arg_keep8 (V : Valuation τ sig (Elt F)) :
    after (ops (F := F)) V (Proc.devRef .tc main_arg8) = V (Proc.devRef .tc main_arg8) :=
  after_of_forall_not_mem (b := Proc.devRef .tc main_arg8) _ _ (List.forall_iff_forall_mem.mp (by
    simp only [ops, List.Forall, nullary_writes, unary_writes, binary_writes, ternary_writes, reshape_writes, Finset.mem_singleton]
    repeat' apply And.intro
    all_goals exact devRef_ne_of_ne (by decide)))

theorem arg_keep9 (V : Valuation τ sig (Elt F)) :
    after (ops (F := F)) V (Proc.devRef .tc main_arg9) = V (Proc.devRef .tc main_arg9) :=
  after_of_forall_not_mem (b := Proc.devRef .tc main_arg9) _ _ (List.forall_iff_forall_mem.mp (by
    simp only [ops, List.Forall, nullary_writes, unary_writes, binary_writes, ternary_writes, reshape_writes, Finset.mem_singleton]
    repeat' apply And.intro
    all_goals exact devRef_ne_of_ne (by decide)))

theorem arg_keep10 (V : Valuation τ sig (Elt F)) :
    after (ops (F := F)) V (Proc.devRef .tc main_arg10) = V (Proc.devRef .tc main_arg10) :=
  after_of_forall_not_mem (b := Proc.devRef .tc main_arg10) _ _ (List.forall_iff_forall_mem.mp (by
    simp only [ops, List.Forall, nullary_writes, unary_writes, binary_writes, ternary_writes, reshape_writes, Finset.mem_singleton]
    repeat' apply And.intro
    all_goals exact devRef_ne_of_ne (by decide)))

theorem arg_keep11 (V : Valuation τ sig (Elt F)) :
    after (ops (F := F)) V (Proc.devRef .tc main_arg11) = V (Proc.devRef .tc main_arg11) :=
  after_of_forall_not_mem (b := Proc.devRef .tc main_arg11) _ _ (List.forall_iff_forall_mem.mp (by
    simp only [ops, List.Forall, nullary_writes, unary_writes, binary_writes, ternary_writes, reshape_writes, Finset.mem_singleton]
    repeat' apply And.intro
    all_goals exact devRef_ne_of_ne (by decide)))

theorem arg_keep12 (V : Valuation τ sig (Elt F)) :
    after (ops (F := F)) V (Proc.devRef .tc main_arg12) = V (Proc.devRef .tc main_arg12) :=
  after_of_forall_not_mem (b := Proc.devRef .tc main_arg12) _ _ (List.forall_iff_forall_mem.mp (by
    simp only [ops, List.Forall, nullary_writes, unary_writes, binary_writes, ternary_writes, reshape_writes, Finset.mem_singleton]
    repeat' apply And.intro
    all_goals exact devRef_ne_of_ne (by decide)))

theorem arg_keep13 (V : Valuation τ sig (Elt F)) :
    after (ops (F := F)) V (Proc.devRef .tc main_arg13) = V (Proc.devRef .tc main_arg13) :=
  after_of_forall_not_mem (b := Proc.devRef .tc main_arg13) _ _ (List.forall_iff_forall_mem.mp (by
    simp only [ops, List.Forall, nullary_writes, unary_writes, binary_writes, ternary_writes, reshape_writes, Finset.mem_singleton]
    repeat' apply And.intro
    all_goals exact devRef_ne_of_ne (by decide)))

/-- On every device, for any float values, from any memory with zero counters: every weakly fair execution of
    @main terminates with the result at the operations' stage function of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v126) = Cert.ReferenceIdeal.ReadP.val_main_v126 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v126).trans (result _),
      (h c main_arg0).trans (arg_keep0 _),
      (h c main_arg1).trans (arg_keep1 _),
      (h c main_arg2).trans (arg_keep2 _),
      (h c main_arg3).trans (arg_keep3 _),
      (h c main_arg4).trans (arg_keep4 _),
      (h c main_arg5).trans (arg_keep5 _),
      (h c main_arg6).trans (arg_keep6 _),
      (h c main_arg7).trans (arg_keep7 _),
      (h c main_arg8).trans (arg_keep8 _),
      (h c main_arg9).trans (arg_keep9 _),
      (h c main_arg10).trans (arg_keep10 _),
      (h c main_arg11).trans (arg_keep11 _),
      (h c main_arg12).trans (arg_keep12 _),
      (h c main_arg13).trans (arg_keep13 _)⟩)
    (run_seq scopedRefs_eq scopedSems_eq defs main (fun _ => ops) main_eq (fun _ => ops_sub) m ρ)

end Cert.ReferenceIdeal.ValueQ

end
-- ==== Proof.LibDenseRows.lean ====
/-
  The mathematics both programs compute, stated once over the extended reals and over no program.

  A GraphSAGE layer sends a matrix `a` of aggregated neighbour features and a matrix `x` of node features
  (one row per node) to
      conv a x wl b wr [p, q] = (Σₖ a[p,k]·wl[k,q] + b[q]) + Σₖ x[p,k]·wr[k,q],
  the decoder sends the latent code `z` to  dec z w b [p, q] = Σⱼ z[p,j]·w[j,q] + b[q],  and `relu` is the maximum
  with zero (the zero kept as the float word both programs print, so that it is never evaluated).

  Row `p` of each result depends on row `p` of the row-indexed operands only.  That is what lets a grid of row
  blocks compute the whole result: `conv_rows` and `dec_rows` say that the layer applied to a block of rows is
  the layer's rows at the block's position.
-/
import Idealize.ShloMosaic.PureOps.Ideal
import Idealize.ShloMosaic.Lib.ValueIdx

noncomputable section

namespace Cert.Sage

open Idealize.ShloMosaic Idealize.ShloMosaic.ValueIdx
open scoped BigOperators

/-- A matrix of extended reals with `r` rows and `c` columns, indexed as the programs index their arrays. -/
abbrev Mat (r c : ℕ) := (⟨2, ![r, c]⟩ : Shape).Idx → EReal
/-- A vector of extended reals of length `n`. -/
abbrev Row (n : ℕ) := (⟨1, ![n]⟩ : Shape).Idx → EReal

/-- One SAGE layer before its nonlinearity: `(a·wl + b) + x·wr`, entry by entry, the bias added between the
    two products as both programs add it. -/
def conv {R K D : ℕ} (a x : Mat R K) (wl : Mat K D) (b : Row D) (wr : Mat K D) : Mat R D :=
  fun i => ((∑ k : Fin K, a (ix2 (i 0) k) * wl (ix2 k (i 1))) + b (ix1 (i 1)))
    + ∑ k : Fin K, x (ix2 (i 0) k) * wr (ix2 k (i 1))

/-- The maximum with the float zero, entry by entry. -/
def relu {R D : ℕ} (h : Mat R D) : Mat R D := fun i => max (h i) (Ideal.ofBits .f32 0x00000000#32)

/-- The linear decoder: `z·w + b`, entry by entry. -/
def dec {R K D : ℕ} (z : Mat R K) (w : Mat K D) (b : Row D) : Mat R D :=
  fun i => (∑ j : Fin K, z (ix2 (i 0) j) * w (ix2 j (i 1))) + b (ix1 (i 1))

/-- ROW LOCALITY of a layer: if row `y 0` of the small operands `A`, `X` is row `i 0` of the large ones and the
    two indices name the same column, the layer of the small operands at `y` is the layer of the large ones at `i`. -/
theorem conv_rows {R B K D : ℕ} (a x : Mat R K) (A X : Mat B K) (wl : Mat K D) (b : Row D) (wr : Mat K D)
    (y : (⟨2, ![B, D]⟩ : Shape).Idx) (i : (⟨2, ![R, D]⟩ : Shape).Idx) (hc : y 1 = i 1)
    (hA : ∀ k : Fin K, A (ix2 (y 0) k) = a (ix2 (i 0) k)) (hX : ∀ k : Fin K, X (ix2 (y 0) k) = x (ix2 (i 0) k)) :
    conv A X wl b wr y = conv a x wl b wr i := by
  unfold conv
  rw [hc]
  simp only [hA, hX]

/-- ROW LOCALITY of the decoder. -/
theorem dec_rows {R B K D : ℕ} (z : Mat R K) (Z : Mat B K) (w : Mat K D) (b : Row D)
    (y : (⟨2, ![B, D]⟩ : Shape).Idx) (i : (⟨2, ![R, D]⟩ : Shape).Idx) (hc : y 1 = i 1)
    (hZ : ∀ j : Fin K, Z (ix2 (y 0) j) = z (ix2 (i 0) j)) :
    dec Z w b y = dec z w b i := by
  unfold dec
  rw [hc]
  simp only [hZ]

end Cert.Sage

end
-- ==== Proof.Spec.lean ====
/-
  The mathematics of the two programs, stated over the extended reals and over no program.

  A layer sends the aggregated neighbour features `a` and the node features `x` to
  `z = conv a x wl b wr` (one row per node), then normalises `z` over all its entries and applies a leaky rectifier.
  The normalisation is arranged in two ways.
  * ONE PASS (`normK`): from the column totals `S_c = Σ_r z[r,c]` and the total of squares `Q = Σ_r Σ_c z[r,c]²`
    (kept side by side in one row of 256 entries, `stats`), the row `msRow` holds the column means `μ_c = S_c / n` and
    the scale `1/√(ε + (Q − n·Σ_c μ_c²)/n)`, and `normAct` sends `z[r,c]` to `leaky ((z[r,c] − μ_c) · scale)`.
  * TWO PASSES (`normR`): `z[r,c]` goes to `leaky ((z[r,c] − μ_c) / √(ε + (Σ_r Σ_c (z[r,c] − μ_c)²)/n))`.
  The edge network `mlp` is three linear maps `dec` with the leaky rectifier between them.
  The float words (the node count `n`, `ε`, the rectifier's zero and slope) are kept as the words the programs print.
-/
import Idealize.ShloMosaic.PureOps.Ideal
import Idealize.ShloMosaic.Lib.ValueIdx
import proofs.«149413_j36197984370744_1_alg».proof.Proof.LibDenseRows

noncomputable section

namespace Cert.Sage

open Idealize.ShloMosaic Idealize.ShloMosaic.ValueIdx
open scoped BigOperators

/-- The number of nodes, 50000, as the float word both programs divide by. -/
def nW : EReal := Ideal.ofBits .f32 0x47435000#32
/-- The normalisation's ε, the float nearest 1e-5. -/
def epsW : EReal := Ideal.ofBits .f32 0x3727C5AC#32

/-- The leaky rectifier on one extended real: `y` where `0 ≤ y`, else `slope · y`, spelled with the comparison, the
    product and the selection both programs use, the zero and the slope as their float words. -/
def leaky (y : EReal) : EReal :=
  Scalar.select (FloatOps.cmpf (F := Ideal) (φ := .f32) .oge y (FloatOps.ofBits .f32 0x00000000#32)) y
    (FloatOps.mulf (F := Ideal) (φ := .f32) (FloatOps.ofBits .f32 0x3DCCCCCD#32) y)

/-- The rectifier entry by entry. -/
def leakyM {R D : ℕ} (h : Mat R D) : Mat R D := fun i => leaky (h i)

/-- The total of column `c`. -/
def colSum {R D : ℕ} (z : Mat R D) (c : Fin D) : EReal := ∑ r : Fin R, z (ix2 r c)
/-- The total of the squares of all entries, row by row. -/
def sqSum {R D : ℕ} (z : Mat R D) : EReal := ∑ r : Fin R, ∑ c : Fin D, z (ix2 r c) * z (ix2 r c)
/-- The mean of column `c`: its total divided by the node count. -/
def meanCol {R D : ℕ} (z : Mat R D) (c : Fin D) : EReal := Ideal.div (colSum z c) nW

/-- The statistics row: entries 0..127 the column totals, entries 128..255 each the total of squares. -/
def stats {R : ℕ} (z : Mat R 128) : Mat 1 256 :=
  fun i => if h : (i 1).val < 128 then colSum z ⟨(i 1).val, h⟩ else sqSum z

/-- From a statistics row: entries 0..127 the column means, entries 128..255 each the scale
    `1/√(ε + (Q − n·Σ_c μ_c²)/n)` with `Q` read at entry 128. -/
def msRow (st : Mat 1 256) : Mat 1 256 :=
  fun i => if h : (i 1).val < 128 then Ideal.div (st (ix2 (0 : Fin 1) (⟨(i 1).val, by omega⟩ : Fin 256))) nW
    else Ideal.rsqrt (epsW + Ideal.div (st (ix2 (0 : Fin 1) (⟨128, by omega⟩ : Fin 256))
      - nW * ∑ c : Fin 128, Ideal.div (st (ix2 (0 : Fin 1) (⟨c.val, by omega⟩ : Fin 256))) nW
          * Ideal.div (st (ix2 (0 : Fin 1) (⟨c.val, by omega⟩ : Fin 256))) nW) nW)

/-- Normalise and activate with a row `ms` of means (entries 0..127) and scales (entries 128..255). -/
def normAct {R : ℕ} (z : Mat R 128) (ms : Mat 1 256) : Mat R 128 :=
  fun i => leaky ((z i - ms (ix2 (0 : Fin 1) (⟨(i 1).val, by have h : (i 1).val < 128 := (i 1).isLt; omega⟩ : Fin 256)))
    * ms (ix2 (0 : Fin 1) (⟨128 + (i 1).val, by have h : (i 1).val < 128 := (i 1).isLt; omega⟩ : Fin 256)))

/-- The one-pass arrangement. -/
def normK {R : ℕ} (z : Mat R 128) : Mat R 128 := normAct z (msRow (stats z))

/-- The two-pass arrangement. -/
def normR {R : ℕ} (z : Mat R 128) : Mat R 128 :=
  fun i => leaky (Ideal.div (z i - meanCol z (i 1))
    (Ideal.sqrt (epsW + Ideal.div
      (∑ r : Fin R, ∑ c : Fin 128, (z (ix2 r c) - meanCol z c) * (z (ix2 r c) - meanCol z c)) nW)))

/-- The edge network: three linear maps, the leaky rectifier after the first two. -/
def mlp {E : ℕ} (e : Mat E 256) (w0 : Mat 256 128) (b0 : Row 128) (w1 : Mat 128 64) (b1 : Row 64)
    (w2 : Mat 64 8) (b2 : Row 8) : Mat E 8 :=
  dec (leakyM (dec (leakyM (dec e w0 b0)) w1 b1)) w2 b2

/-- ROW LOCALITY of the edge network: row `y 0` of the result on a block of rows is row `i 0` of the result on all rows,
    when the block's row is that row. -/
theorem mlp_rows {E B : ℕ} (e : Mat E 256) (eb : Mat B 256) (w0 : Mat 256 128) (b0 : Row 128) (w1 : Mat 128 64) (b1 : Row 64)
    (w2 : Mat 64 8) (b2 : Row 8) (y : (⟨2, ![B, 8]⟩ : Shape).Idx) (i : (⟨2, ![E, 8]⟩ : Shape).Idx) (hc : y 1 = i 1)
    (he : ∀ k : Fin 256, eb (ix2 (y 0) k) = e (ix2 (i 0) k)) :
    mlp eb w0 b0 w1 b1 w2 b2 y = mlp e w0 b0 w1 b1 w2 b2 i := by
  unfold mlp
  refine dec_rows _ _ w2 b2 y i hc fun j => ?_
  unfold leakyM
  congr 1
  refine dec_rows _ _ w1 b1 _ _ rfl fun k => ?_
  congr 1
  exact dec_rows _ _ w0 b0 _ _ rfl fun l => he l

end Cert.Sage

end
-- ==== Proof.Consts.lean ====
/-
  The float words the two programs print, as the extended reals they denote, and the predicate "is a real number"
  on the extended reals.  This is the one module that evaluates a bit pattern.
-/
import proofs.«149413_j36197984370744_1_alg».proof.Proof.Spec

noncomputable section

namespace Cert.Sage

open Idealize.ShloMosaic

/-- An extended real that is a real number (neither infinity). -/
def IsReal (v : EReal) : Prop := ∃ x : ℝ, v = (x : EReal)

theorem isReal_coe (x : ℝ) : IsReal (x : EReal) := ⟨x, rfl⟩

/-- The word `+0.0` denotes `0`. -/
theorem zero_word : Ideal.ofBits .f32 0x00000000#32 = 0 := by
  simp [Ideal.ofBits, Ideal.ieee]

/-- The word `1.0` denotes `1`. -/
theorem one_word : Ideal.ofBits .f32 0x3F800000#32 = 1 := by
  simp [Ideal.ofBits, Ideal.ieee, -EReal.coe_mul]; norm_num

/-- The word `+inf` denotes `⊤`. -/
theorem inf_word : Ideal.ofBits .f32 0x7F800000#32 = ⊤ := by
  simp [Ideal.ofBits, Ideal.ieee]

/-- The rectifier's slope word denotes the real `13421773 / 2^27` (the float nearest 0.1). -/
theorem slope_word : Ideal.ofBits .f32 0x3DCCCCCD#32 = ((13421773 / 134217728 : ℝ) : EReal) := by
  simp [Ideal.ofBits, Ideal.ieee, -EReal.coe_mul]; norm_num

/-- The node-count word denotes `50000`. -/
theorem nW_eq : nW = ((50000 : ℝ) : EReal) := by
  unfold nW
  simp [Ideal.ofBits, Ideal.ieee, -EReal.coe_mul]; norm_num

/-- The ε word denotes the real `10995116 / 2^40`. -/
theorem epsW_eq : epsW = ((10995116 / 1099511627776 : ℝ) : EReal) := by
  unfold epsW
  simp [Ideal.ofBits, Ideal.ieee, -EReal.coe_mul]; norm_num

/-- ε is a positive real. -/
theorem epsW_pos : ∃ e : ℝ, 0 < e ∧ epsW = (e : EReal) :=
  ⟨10995116 / 1099511627776, by norm_num, epsW_eq⟩

/-- The leaky rectifier of a real is a real: it is either the argument or the slope times the argument. -/
theorem leaky_real {y : EReal} (h : IsReal y) : IsReal (leaky y) := by
  obtain ⟨r, rfl⟩ := h
  unfold leaky Scalar.select
  split
  · exact ⟨r, rfl⟩
  · rw [Ideal.mulf_def, Ideal.ofBits_def, slope_word]
    exact ⟨_, (EReal.coe_mul _ _).symm⟩

end Cert.Sage

end
-- ==== Proof.PreReal.lean ====
/-
  From the precondition to real inputs.  The precondition `finite_inputs` is the conjunction, over the thirteen float
  inputs, of "every entry has absolute value below +∞".  Over the extended reals `|x| = max x (−x)`, and
  `max x (−x) < ⊤` excludes both infinities, so every entry of every float input is a real number.
-/
import proofs.«149413_j36197984370744_1_alg».proof.Pre_finite_inputs
import proofs.«149413_j36197984370744_1_alg».proof.Proof.Consts
import Idealize.ShloMosaic.Lib.ReduceAll
import Idealize.ShloMosaic.Lib.Pipeline.Value
import Idealize.ShloMosaic.Lib.ValueIdx

noncomputable section

namespace Cert.Sage

open Idealize.ShloMosaic

/-- The shape of a scalar has one index. -/
theorem scalarIdx_subsingleton : Subsingleton (⟨0, ![]⟩ : Shape).Idx := ⟨fun a b => funext fun d => d.elim0⟩

theorem ofBool_eq_one_iff (b : Bool) : BitVec.ofBool b = 1#1 ↔ b = true := by cases b <;> decide

/-- An extended real whose absolute value `max x (−x)` compares below `⊤` is a real number. -/
theorem real_of_abs_lt_top (x : EReal) (h : Ideal.cmp .olt (max x (-x)) ⊤ = 1#1) : IsReal x := by
  have h' : max x (-x) < ⊤ := by
    have e : BitVec.ofBool (decide (max x (-x) < ⊤)) = 1#1 := h
    rw [ofBool_eq_one_iff] at e
    exact of_decide_eq_true e
  induction x using EReal.rec with
  | bot => simp at h'
  | coe r => exact ⟨r, rfl⟩
  | top => simp at h'

/-- ONE CONJUNCT of the precondition read back: if the `and` over all entries of `|a| < +∞` is 1, every entry of
    `a` is a real number. -/
theorem real_of_all {s : Shape} {axes : List (Fin s.rank)} (a : s.Idx → EReal)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf (F := Ideal) (φ := .f32) .olt (Host.absf (F := Ideal) (φ := .f32) a)
          (broadcastInDim s ![] hb (constant (F := Ideal) (⟨0, ![]⟩ : Shape) .f32 0x7F800000#32)))
        (constantI (⟨0, ![]⟩ : Shape) 1 1#1) hr hu ValueIdx.ix0 = 1#1) (i : s.Idx) : IsReal (a i) := by
  haveI := scalarIdx_subsingleton
  have h := Host.reduce_andi_all _ _ hr hu _ e i
  have hbc : broadcastInDim s ![] hb (constant (F := Ideal) (⟨0, ![]⟩ : Shape) .f32 0x7F800000#32) i = ⊤ := by
    rw [broadcastInDim_apply _ hb _ i ValueIdx.ix0 (fun a => a.elim0)]
    exact inf_word
  have h2 : Ideal.cmp .olt (max (a i) (-(a i)))
      (broadcastInDim s ![] hb (constant (F := Ideal) (⟨0, ![]⟩ : Shape) .f32 0x7F800000#32) i) = 1#1 := h
  rw [hbc] at h2
  exact real_of_abs_lt_top _ h2

open Cert.Pre_finite_inputs in
/-- FROM THE PRECONDITION TO REAL INPUTS: if `finite_inputs` of the fourteen arguments is all ones, every entry of
    every float argument is a real number. -/
theorem real_inputs [Cert.Pre_finite_inputs.Facts]
    (a0 : FVec Ideal S50000x128 .f32) (a1 : IVec S2x400000 32) (a2 : FVec Ideal S128x128 .f32)
    (a3 : FVec Ideal S128 .f32) (a4 : FVec Ideal S128x128 .f32) (a5 : FVec Ideal S128x128 .f32)
    (a6 : FVec Ideal S128 .f32) (a7 : FVec Ideal S128x128 .f32) (a8 : FVec Ideal S256x128 .f32)
    (a9 : FVec Ideal S128 .f32) (a10 : FVec Ideal S128x64 .f32) (a11 : FVec Ideal S64 .f32)
    (a12 : FVec Ideal S64x8 .f32) (a13 : FVec Ideal S8 .f32)
    (h : Cert.Pre_finite_inputs.fn (F := Ideal) a0 a1 a2 a3 a4 a5 a6 a7 a8 a9 a10 a11 a12 a13 = (fun _ => 1#1)) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) ∧ (∀ i, IsReal (a12 i)) ∧ (∀ i, IsReal (a13 i)) := by
  have h0 := congrFun h ValueIdx.ix0
  dsimp only [Cert.Pre_finite_inputs.fn, Cert.Pre_finite_inputs.fn_part1, Cert.Pre_finite_inputs.fn_part2,
    Cert.Pre_finite_inputs.fn_part3, Idealize.ShloMosaic.andi] at h0
  simp only [IntOp.andi_eq_one] at h0
  obtain ⟨⟨⟨⟨⟨⟨⟨⟨⟨⟨⟨⟨c0, c2⟩, c3⟩, c4⟩, c5⟩, c6⟩, c7⟩, c8⟩, c9⟩, c10⟩, c11⟩, c12⟩, c13⟩ := h0
  exact ⟨real_of_all a0 _ _ _ c0, real_of_all a2 _ _ _ c2, real_of_all a3 _ _ _ c3, real_of_all a4 _ _ _ c4,
    real_of_all a5 _ _ _ c5, real_of_all a6 _ _ _ c6, real_of_all a7 _ _ _ c7, real_of_all a8 _ _ _ c8,
    real_of_all a9 _ _ _ c9, real_of_all a10 _ _ _ c10, real_of_all a11 _ _ _ c11, real_of_all a12 _ _ _ c12,
    real_of_all a13 _ _ _ c13⟩

end Cert.Sage

end
-- ==== Proof.KNormAct.lean ====
/-
  Regions 1 and 3 of the kernel program, the normalise-and-activate kernel on a grid of ten blocks of 5000 rows:
  the output array after the region is `normAct` of the two input arrays as the region finds them.

  One block's result is, entry by entry, the leaky rectifier of the centred entry times the scale, the mean and the
  scale read from the two halves of the statistics row; the entry depends on its own row of `z` only, so a block of
  rows computes the rows of `normAct` at the block's position; the ten blocks of 5000 rows tile the 50000 rows.
-/
import proofs.«149413_j36197984370744_1_alg».proof.Proof.Gen.KernelIdeal.Frame
import proofs.«149413_j36197984370744_1_alg».proof.Proof.Spec
import Idealize.ShloMosaic.Lib.Pipeline.Value
import Idealize.ShloMosaic.Lib.ValueLayout
import Idealize.ShloMosaic.Lib.ValueIdx

set_option maxRecDepth 16384

noncomputable section

namespace Cert.Sage.K

open Idealize.ShloMosaic Idealize.ShloMosaic.ValueIdx Idealize.ShloMosaic.TcCoe Idealize.SL.Sem
open Idealize.ShloMosaic.Pipeline (Dat)
open Cert.KernelIdeal Cert.KernelIdeal.Gen

namespace NormAct

theorem zero2 : (![0, 0] : Fin 2 → Nat) = fun _ => 0 := funext fun a => by fin_cases a <;> rfl

/-- The first half of a row of 256, read through the rectangle at column 0. -/
theorem ld_lo (x1 : Vec Ideal S1x256 .f32) (q : Fin 128) :
    View.ld x1 (Rect.unit (s := S1x256) ![0, 0] S1x128.size inb_S1x256_S1x128_0_0) (ix2 (0 : Fin 1) q)
      = x1 (ix2 (0 : Fin 1) (⟨q.val, by omega⟩ : Fin 256)) := by
  show x1 _ = x1 _
  congr 1
  funext a; apply Fin.ext
  match a with
  | ⟨0, _⟩ => rfl
  | ⟨1, _⟩ => simp only [LoadRect.idx_apply, Rect.emb_apply, Rect.off_unit, Rect.stride_unit, Nat.one_mul]; exact Nat.zero_add _

/-- The second half of a row of 256, read through the rectangle at column 128. -/
theorem ld_hi (x1 : Vec Ideal S1x256 .f32) (q : Fin 128) :
    View.ld x1 (Rect.unit (s := S1x256) ![0, 128] S1x128.size inb_S1x256_S1x128_0_128) (ix2 (0 : Fin 1) q)
      = x1 (ix2 (0 : Fin 1) (⟨128 + q.val, by omega⟩ : Fin 256)) := by
  show x1 _ = x1 _
  congr 1
  funext a; apply Fin.ext
  match a with
  | ⟨0, _⟩ => rfl
  | ⟨1, _⟩ => simp only [LoadRect.idx_apply, Rect.emb_apply, Rect.off_unit, Rect.stride_unit, Nat.one_mul]; rfl

/-! ## Region 1 -/

/-- The body's arithmetic at one entry of the block: the leaky rectifier of the centred entry times the scale,
    the mean and the scale read from the two rows of 128 the body loads. -/
theorem pay1_at (v0 v2 : Vec Ideal S1x128 .f32) (v4 : Vec Ideal S5000x128 .f32) (p : Fin 5000) (q : Fin 128) :
    Gen.k1_pay1 (F := Ideal) v0 v2 v4 (ix2 p q)
      = Cert.Sage.leaky ((v4 (ix2 p q) - v0 (ix2 (0 : Fin 1) q)) * v2 (ix2 (0 : Fin 1) q)) := by
  unfold Gen.k1_pay1
  simp only [shapeCast_self]
  simp only [select_apply, cmpf_apply, mulf_apply, subf_apply, broadcast_apply, broadcastTo_1b_ab_apply]
  rfl

/-- What the body leaves in the output block, at one entry: `normAct` of the input block and the statistics row. -/
theorem out1_at (x0 : Vec Ideal S5000x128 .f32) (x1 : Vec Ideal S1x256 .f32) (p : Fin 5000) (q : Fin 128) :
    Gen.out1_2 (F := Ideal) x0 x1 (ix2 p q) = Cert.Sage.normAct (R := 5000) x0 x1 (ix2 p q) := by
  unfold Gen.out1_2
  rw [View.canon_unit_zero zero2]
  simp only [View.ld_unit_zero (S := S5000x128) zero2]
  rw [pay1_at, ld_lo, ld_hi]
  rfl

/-- Entry by entry, the body's result on a block of rows is `normAct` of all rows at the block's position. -/
theorem block1_at (z : Cert.Sage.Mat 50000 128) (ms : Cert.Sage.Mat 1 256) (x0 : Vec Ideal S5000x128 .f32)
    (x1 : Vec Ideal S1x256 .f32) (y : S5000x128.Idx) (i : S50000x128.Idx) (hc : y 1 = i 1) (h0 : x0 y = z i)
    (h1 : ∀ k : S1x256.Idx, x1 k = ms k) :
    Gen.out1_2 (F := Ideal) x0 x1 y = Cert.Sage.normAct z ms i := by
  obtain ⟨p, q, rfl⟩ : ∃ (p : Fin 5000) (q : Fin 128), y = ix2 p q := ⟨y 0, y 1, eq_ix2 y⟩
  rw [out1_at]
  unfold Cert.Sage.normAct
  rw [h0, h1, h1]
  have hq : (i 1) = q := hc.symm
  simp only [hq]

section
variable (V : (c : Dev nD) → (b : Ref sig .tc) → Buf (Elt Ideal) ((c : Thread nD τ).loc b))

/-- The blocks' positions, decided over the ten points: the input and output blocks of 5000 rows sit at the point's
    number, the statistics row is the whole of its array. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `normAct` of the two input arrays. -/
theorem region1_flushed (c : Dev nD) (t : Fin cfg1.N) :
    (Gen.dat1 (F := Ideal) V c).flushed 2 t
      = ((cfg1.win 2).blk t).view.read (Elt Ideal)
          (Cert.Sage.normAct (R := 50000) (V c (Pipeline.arrRef spec1 0)) (V c (Pipeline.arrRef spec1 1))) := by
  show (cfg1.win 2).cut (grid1.coords t) ((Gen.dat1 V c).after 2 t) = _
  rw [Gen.after1_2]
  obtain ⟨e0, e1, e2, e3, e4, e5⟩ := idx1 t
  funext j
  show Gen.out1_2 (Gen.iblk1 V c 0 t) (Gen.iblk1 V c 1 t) j
    = Cert.Sage.normAct (R := 50000) (V c (Pipeline.arrRef spec1 0)) (V c (Pipeline.arrRef spec1 1)) (((cfg1.win 2).blk t).view.emb j)
  refine block1_at _ _ _ _ j _ ?_ ?_ ?_
  · apply Fin.ext
    show (j 1).val = win1_2.index t (1 : Fin 2) * 128 + 1 * (j 1).val
    rw [e5]; omega
  · show V c (Pipeline.arrRef spec1 0) (((cfg1.win 0).blk t).view.emb j) = V c (Pipeline.arrRef spec1 0) (((cfg1.win 2).blk t).view.emb j)
    refine congrArg _ (funext fun a => Fin.ext ?_)
    match a with
    | ⟨0, _⟩ => show win1_0.index t (0 : Fin 2) * 5000 + 1 * (j 0).val = win1_2.index t (0 : Fin 2) * 5000 + 1 * (j 0).val; rw [e0, e4]
    | ⟨1, _⟩ => show win1_0.index t (1 : Fin 2) * 128 + 1 * (j 1).val = win1_2.index t (1 : Fin 2) * 128 + 1 * (j 1).val; rw [e1, e5]
  · intro k
    show V c (Pipeline.arrRef spec1 1) (((cfg1.win 1).blk t).view.emb k) = V c (Pipeline.arrRef spec1 1) k
    refine congrArg _ (funext fun a => Fin.ext ?_)
    match a with
    | ⟨0, _⟩ => show win1_1.index t (0 : Fin 2) * 1 + 1 * (k 0).val = (k 0).val; rw [e2]; omega
    | ⟨1, _⟩ => show win1_1.index t (1 : Fin 2) * 256 + 1 * (k 1).val = (k 1).val; rw [e3]; omega

/-- Row `r` is in the block of point `r / 5000`. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨e0, e1, e2, e3, e4, e5⟩ := idx1 ⟨(i 0).val / 5000, ht⟩
  refine ⟨⟨(i 0).val / 5000, ht⟩, flush1_2 _, ?_⟩
  show i ∈ ((View.whole main_v37).slice (win1_2.rect ⟨(i 0).val / 5000, ht⟩)).set
  rw [View.set_slice_whole, Rect.mem_set_unit]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e5]; omega

end

/-! ## Region 3 -/

/-- The body's arithmetic at one entry of the block: the leaky rectifier of the centred entry times the scale,
    the mean and the scale read from the two rows of 128 the body loads. -/
theorem pay3_at (v0 v2 : Vec Ideal S1x128 .f32) (v4 : Vec Ideal S5000x128 .f32) (p : Fin 5000) (q : Fin 128) :
    Gen.k3_pay1 (F := Ideal) v0 v2 v4 (ix2 p q)
      = Cert.Sage.leaky ((v4 (ix2 p q) - v0 (ix2 (0 : Fin 1) q)) * v2 (ix2 (0 : Fin 1) q)) := by
  unfold Gen.k3_pay1
  simp only [shapeCast_self]
  simp only [select_apply, cmpf_apply, mulf_apply, subf_apply, broadcast_apply, broadcastTo_1b_ab_apply]
  rfl

/-- What the body leaves in the output block, at one entry: `normAct` of the input block and the statistics row. -/
theorem out3_at (x0 : Vec Ideal S5000x128 .f32) (x1 : Vec Ideal S1x256 .f32) (p : Fin 5000) (q : Fin 128) :
    Gen.out3_2 (F := Ideal) x0 x1 (ix2 p q) = Cert.Sage.normAct (R := 5000) x0 x1 (ix2 p q) := by
  unfold Gen.out3_2
  rw [View.canon_unit_zero zero2]
  simp only [View.ld_unit_zero (S := S5000x128) zero2]
  rw [pay3_at, ld_lo, ld_hi]
  rfl

/-- Entry by entry, the body's result on a block of rows is `normAct` of all rows at the block's position. -/
theorem block3_at (z : Cert.Sage.Mat 50000 128) (ms : Cert.Sage.Mat 1 256) (x0 : Vec Ideal S5000x128 .f32)
    (x1 : Vec Ideal S1x256 .f32) (y : S5000x128.Idx) (i : S50000x128.Idx) (hc : y 1 = i 1) (h0 : x0 y = z i)
    (h1 : ∀ k : S1x256.Idx, x1 k = ms k) :
    Gen.out3_2 (F := Ideal) x0 x1 y = Cert.Sage.normAct z ms i := by
  obtain ⟨p, q, rfl⟩ : ∃ (p : Fin 5000) (q : Fin 128), y = ix2 p q := ⟨y 0, y 1, eq_ix2 y⟩
  rw [out3_at]
  unfold Cert.Sage.normAct
  rw [h0, h1, h1]
  have hq : (i 1) = q := hc.symm
  simp only [hq]

section
variable (V : (c : Dev nD) → (b : Ref sig .tc) → Buf (Elt Ideal) ((c : Thread nD τ).loc b))

/-- The blocks' positions, decided over the ten points: the input and output blocks of 5000 rows sit at the point's
    number, the statistics row is the whole of its array. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `normAct` of the two input arrays. -/
theorem region3_flushed (c : Dev nD) (t : Fin cfg3.N) :
    (Gen.dat3 (F := Ideal) V c).flushed 2 t
      = ((cfg3.win 2).blk t).view.read (Elt Ideal)
          (Cert.Sage.normAct (R := 50000) (V c (Pipeline.arrRef spec3 0)) (V c (Pipeline.arrRef spec3 1))) := by
  show (cfg3.win 2).cut (grid3.coords t) ((Gen.dat3 V c).after 2 t) = _
  rw [Gen.after3_2]
  obtain ⟨e0, e1, e2, e3, e4, e5⟩ := idx3 t
  funext j
  show Gen.out3_2 (Gen.iblk3 V c 0 t) (Gen.iblk3 V c 1 t) j
    = Cert.Sage.normAct (R := 50000) (V c (Pipeline.arrRef spec3 0)) (V c (Pipeline.arrRef spec3 1)) (((cfg3.win 2).blk t).view.emb j)
  refine block3_at _ _ _ _ j _ ?_ ?_ ?_
  · apply Fin.ext
    show (j 1).val = win3_2.index t (1 : Fin 2) * 128 + 1 * (j 1).val
    rw [e5]; omega
  · show V c (Pipeline.arrRef spec3 0) (((cfg3.win 0).blk t).view.emb j) = V c (Pipeline.arrRef spec3 0) (((cfg3.win 2).blk t).view.emb j)
    refine congrArg _ (funext fun a => Fin.ext ?_)
    match a with
    | ⟨0, _⟩ => show win3_0.index t (0 : Fin 2) * 5000 + 1 * (j 0).val = win3_2.index t (0 : Fin 2) * 5000 + 1 * (j 0).val; rw [e0, e4]
    | ⟨1, _⟩ => show win3_0.index t (1 : Fin 2) * 128 + 1 * (j 1).val = win3_2.index t (1 : Fin 2) * 128 + 1 * (j 1).val; rw [e1, e5]
  · intro k
    show V c (Pipeline.arrRef spec3 1) (((cfg3.win 1).blk t).view.emb k) = V c (Pipeline.arrRef spec3 1) k
    refine congrArg _ (funext fun a => Fin.ext ?_)
    match a with
    | ⟨0, _⟩ => show win3_1.index t (0 : Fin 2) * 1 + 1 * (k 0).val = (k 0).val; rw [e2]; omega
    | ⟨1, _⟩ => show win3_1.index t (1 : Fin 2) * 256 + 1 * (k 1).val = (k 1).val; rw [e3]; omega

/-- Row `r` is in the block of point `r / 5000`. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  have ht : (i 0).val / 5000 < cfg3.N := by rw [hN]; omega
  obtain ⟨e0, e1, e2, e3, e4, e5⟩ := idx3 ⟨(i 0).val / 5000, ht⟩
  refine ⟨⟨(i 0).val / 5000, ht⟩, flush3_2 _, ?_⟩
  show i ∈ ((View.whole main_v71).slice (win3_2.rect ⟨(i 0).val / 5000, ht⟩)).set
  rw [View.set_slice_whole, Rect.mem_set_unit]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 128 ≤ (i 1).val ∧ (i 1).val < win3_2.index ⟨(i 0).val / 5000, ht⟩ (1 : Fin 2) * 128 + 128
    rw [e5]; omega

end

end NormAct

/-- REGION 1's output array after the region: `normAct` of its two input arrays as the region finds them. -/
theorem region1_out (V : (c : Dev nD) → (b : Ref sig .tc) → Buf (Elt Ideal) ((c : Thread nD τ).loc b)) (c : Dev nD) :
    (Gen.dat1 (F := Ideal) V c).arrAt 2 cfg1.N
      = Cert.Sage.normAct (R := 50000) (V c (Pipeline.arrRef spec1 0)) (V c (Pipeline.arrRef spec1 1)) :=
  (Gen.dat1 V c).arrAt_eq_of_cover 2 _ (fun t _ => NormAct.region1_flushed V c t) fun i => NormAct.cover1 i

/-- REGION 3's output array after the region: `normAct` of its two input arrays as the region finds them. -/
theorem region3_out (V : (c : Dev nD) → (b : Ref sig .tc) → Buf (Elt Ideal) ((c : Thread nD τ).loc b)) (c : Dev nD) :
    (Gen.dat3 (F := Ideal) V c).arrAt 2 cfg3.N
      = Cert.Sage.normAct (R := 50000) (V c (Pipeline.arrRef spec3 0)) (V c (Pipeline.arrRef spec3 1)) :=
  (Gen.dat3 V c).arrAt_eq_of_cover 2 _ (fun t _ => NormAct.region3_flushed V c t) fun i => NormAct.cover3 i

end Cert.Sage.K

end
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.KMlp.lean ====
/-
  Region 4 of the kernel program, the edge network on a grid of a hundred blocks of 4000 rows: the output array after
  the region is `mlp` of the edge-feature array and the six parameter arrays as the region finds them.

  One block's result is three linear maps — each a product into the zero accumulator plus a bias vector made a row and
  repeated down the rows — with the leaky rectifier after the first two; that is `mlp` of the block. A row of the
  result depends on the same row of the edge features only (`mlp_rows`), so a block of rows computes the rows of
  `mlp` at the block's position; the hundred blocks of 4000 rows tile the 400000 rows.
-/
import proofs.«149413_j36197984370744_1_alg».proof.Proof.Gen.KernelIdeal.Frame
import proofs.«149413_j36197984370744_1_alg».proof.Proof.Spec
import proofs.«149413_j36197984370744_1_alg».proof.Proof.LibPlainDot
import Idealize.ShloMosaic.Lib.Pipeline.Value
import Idealize.ShloMosaic.Lib.ValueLayout
import Idealize.ShloMosaic.Lib.ValueIdx

set_option maxRecDepth 16384

noncomputable section

namespace Cert.Sage.K

open Idealize.ShloMosaic Idealize.ShloMosaic.ValueIdx Idealize.ShloMosaic.TcCoe Idealize.SL.Sem
open Idealize.ShloMosaic.Pipeline (Dat)
open Cert.KernelIdeal Cert.KernelIdeal.Gen

namespace Mlp
open scoped BigOperators

theorem zero2 : (![0, 0] : Fin 2 → Nat) = fun _ => 0 := funext fun a => by fin_cases a <;> rfl
theorem zero1 : (![0] : Fin 1 → Nat) = fun _ => 0 := funext fun a => by fin_cases a; rfl

/-- One linear map as the body spells it — the product into the zero accumulator plus the bias vector made a row and
    repeated down the rows — is `dec`. -/
theorem layer_eq (M K N : Nat) (l : FVec Ideal ⟨2, ![M, K]⟩ .f32) (r : FVec Ideal ⟨2, ![K, N]⟩ .f32)
    (b : FVec Ideal ⟨1, ![N]⟩ .f32) (h1 h2) (hs : (⟨1, ![N]⟩ : Shape).ShapeCasts ⟨2, ![1, N]⟩)
    (hb : (⟨2, ![1, N]⟩ : Shape).Broadcasts ⟨2, ![M, N]⟩) :
    addf (matmul (DotDims.plain M K N) none (truncf .bf16 l h1) (truncf .bf16 r h2) (constant ⟨2, ![M, N]⟩ .f32 0x00000000#32))
      (broadcastTo ⟨2, ![M, N]⟩ (shapeCast ⟨2, ![1, N]⟩ b hs) hb) = Cert.Sage.dec l r b := by
  funext i
  obtain ⟨p, q, rfl⟩ : ∃ (p : Fin M) (q : Fin N), i = ix2 p q := ⟨i 0, i 1, eq_ix2 i⟩
  rw [addf_apply, broadcastTo_1b_ab_apply, shapeCast_a_1a_apply]
  simp only [matmul]
  rw [PlainDot.matmul_zero_apply]
  rfl

/-- The rectifier as the body spells it, on a whole block. -/
theorem leaky_eq (M N : Nat) (v : FVec Ideal ⟨2, ![M, N]⟩ .f32) :
    select (cmpf .oge v (broadcast ⟨2, ![M, N]⟩ (Scalar.ofBits .f32 0x00000000#32))) v
      (mulf (broadcast ⟨2, ![M, N]⟩ (Scalar.ofBits .f32 0x3DCCCCCD#32)) v) = Cert.Sage.leakyM v := by
  funext i; rfl

/-- The body's arithmetic on a whole block: the edge network of the loaded block and parameters. -/
theorem pay4_eq (v0 : Vec Ideal S4000x256 .f32) (v3 : Vec Ideal S256x128 .f32) (v6 : Vec Ideal S128 .f32)
    (v16 : Vec Ideal S128x64 .f32) (v19 : Vec Ideal S64 .f32) (v29 : Vec Ideal S64x8 .f32) (v32 : Vec Ideal S8 .f32) :
    Gen.k4_pay1 (F := Ideal) v0 v3 v6 v16 v19 v29 v32 = Cert.Sage.mlp (E := 4000) v0 v3 v6 v16 v19 v29 v32 := by
  unfold Gen.k4_pay1
  simp only [shapeCast_self]
  rw [show dot_S4000x256_S256x128_S4000x128_1_0_0_1_n_n = DotDims.plain 4000 256 128 from rfl,
    show dot_S4000x128_S128x64_S4000x64_1_0_0_1_n_n = DotDims.plain 4000 128 64 from rfl,
    show dot_S4000x64_S64x8_S4000x8_1_0_0_1_n_n = DotDims.plain 4000 64 8 from rfl]
  rw [layer_eq 4000 256 128, leaky_eq, layer_eq 4000 128 64, leaky_eq, layer_eq 4000 64 8]
  rfl

/-- What the body leaves in the output block: the edge network of the input block and the six parameter arrays. -/
theorem out4_eq (x0 : Vec Ideal S4000x256 .f32) (x1 : Vec Ideal S256x128 .f32) (x2 : Vec Ideal S128 .f32)
    (x3 : Vec Ideal S128x64 .f32) (x4 : Vec Ideal S64 .f32) (x5 : Vec Ideal S64x8 .f32) (x6 : Vec Ideal S8 .f32) :
    Gen.out4_7 (F := Ideal) x0 x1 x2 x3 x4 x5 x6 = Cert.Sage.mlp (E := 4000) x0 x1 x2 x3 x4 x5 x6 := by
  unfold Gen.out4_7
  rw [View.canon_unit_zero zero2]
  simp only [View.ld_unit_zero (S := S4000x256) zero2, View.ld_unit_zero (S := S256x128) zero2,
    View.ld_unit_zero (S := S128x64) zero2, View.ld_unit_zero (S := S64x8) zero2,
    View.ld_unit_zero (S := S128) zero1, View.ld_unit_zero (S := S64) zero1, View.ld_unit_zero (S := S8) zero1]
  exact pay4_eq x0 x1 x2 x3 x4 x5 x6

/-- Entry by entry, the body's result on a block of rows is the edge network of all rows at the block's position. -/
theorem block4_at (e : Cert.Sage.Mat 400000 256) (w0 : Cert.Sage.Mat 256 128) (b0 : Cert.Sage.Row 128)
    (w1 : Cert.Sage.Mat 128 64) (b1 : Cert.Sage.Row 64) (w2 : Cert.Sage.Mat 64 8) (b2 : Cert.Sage.Row 8)
    (x0 : Vec Ideal S4000x256 .f32) (x1 : Vec Ideal S256x128 .f32) (x2 : Vec Ideal S128 .f32)
    (x3 : Vec Ideal S128x64 .f32) (x4 : Vec Ideal S64 .f32) (x5 : Vec Ideal S64x8 .f32) (x6 : Vec Ideal S8 .f32)
    (y : S4000x8.Idx) (i : S400000x8.Idx) (hc : y 1 = i 1)
    (h0 : ∀ k : Fin 256, x0 (ix2 (y 0) k) = e (ix2 (i 0) k))
    (h1 : x1 = w0) (h2 : x2 = b0) (h3 : x3 = w1) (h4 : x4 = b1) (h5 : x5 = w2) (h6 : x6 = b2) :
    Gen.out4_7 (F := Ideal) x0 x1 x2 x3 x4 x5 x6 y = Cert.Sage.mlp e w0 b0 w1 b1 w2 b2 i := by
  rw [out4_eq]
  subst h1 h2 h3 h4 h5 h6
  exact Cert.Sage.mlp_rows e x0 x1 x2 x3 x4 x5 x6 y i hc h0

section
variable (V : (c : Dev nD) → (b : Ref sig .tc) → Buf (Elt Ideal) ((c : Thread nD τ).loc b))

/-- The blocks' positions, decided over the hundred points: the input and output blocks of 4000 rows sit at the
    point's number. -/
theorem idx4 : ∀ t : Fin cfg4.N, win4_0.index t (0 : Fin 2) = t.val ∧ win4_0.index t (1 : Fin 2) = 0
    ∧ win4_7.index t (0 : Fin 2) = t.val ∧ win4_7.index t (1 : Fin 2) = 0 :=
  (by decide +kernel : ∀ t : Fin grid4.N, _)
/-- Each parameter array is one block, the whole of it, at every point. -/
theorem hw1 : ∀ t : Fin cfg4.N, win4_1.index t (0 : Fin 2) = 0 ∧ win4_1.index t (1 : Fin 2) = 0 :=
  (by decide +kernel : ∀ t : Fin grid4.N, _)
theorem hw2 : ∀ t : Fin cfg4.N, win4_2.index t (0 : Fin 1) = 0 :=
  (by decide +kernel : ∀ t : Fin grid4.N, _)
theorem hw3 : ∀ t : Fin cfg4.N, win4_3.index t (0 : Fin 2) = 0 ∧ win4_3.index t (1 : Fin 2) = 0 :=
  (by decide +kernel : ∀ t : Fin grid4.N, _)
theorem hw4 : ∀ t : Fin cfg4.N, win4_4.index t (0 : Fin 1) = 0 :=
  (by decide +kernel : ∀ t : Fin grid4.N, _)
theorem hw5 : ∀ t : Fin cfg4.N, win4_5.index t (0 : Fin 2) = 0 ∧ win4_5.index t (1 : Fin 2) = 0 :=
  (by decide +kernel : ∀ t : Fin grid4.N, _)
theorem hw6 : ∀ t : Fin cfg4.N, win4_6.index t (0 : Fin 1) = 0 :=
  (by decide +kernel : ∀ t : Fin grid4.N, _)

/-- What point `t` writes back is block `t` of `mlp` of the seven input arrays. -/
theorem region4_flushed (c : Dev nD) (t : Fin cfg4.N) :
    (Gen.dat4 (F := Ideal) V c).flushed 7 t
      = ((cfg4.win 7).blk t).view.read (Elt Ideal)
          (Cert.Sage.mlp (E := 400000) (V c (Pipeline.arrRef spec4 0)) (V c (Pipeline.arrRef spec4 1))
            (V c (Pipeline.arrRef spec4 2)) (V c (Pipeline.arrRef spec4 3)) (V c (Pipeline.arrRef spec4 4))
            (V c (Pipeline.arrRef spec4 5)) (V c (Pipeline.arrRef spec4 6))) := by
  show (cfg4.win 7).cut (grid4.coords t) ((Gen.dat4 V c).after 7 t) = _
  rw [Gen.after4_7]
  obtain ⟨e0, e1, e2, e3⟩ := idx4 t
  funext j
  show Gen.out4_7 (Gen.iblk4 V c 0 t) (Gen.iblk4 V c 1 t) (Gen.iblk4 V c 2 t) (Gen.iblk4 V c 3 t) (Gen.iblk4 V c 4 t)
      (Gen.iblk4 V c 5 t) (Gen.iblk4 V c 6 t) j
    = Cert.Sage.mlp (E := 400000) (V c (Pipeline.arrRef spec4 0)) (V c (Pipeline.arrRef spec4 1))
        (V c (Pipeline.arrRef spec4 2)) (V c (Pipeline.arrRef spec4 3)) (V c (Pipeline.arrRef spec4 4))
        (V c (Pipeline.arrRef spec4 5)) (V c (Pipeline.arrRef spec4 6)) (((cfg4.win 7).blk t).view.emb j)
  refine block4_at _ _ _ _ _ _ _ _ _ _ _ _ _ _ j _ ?_ ?_ ?_ ?_ ?_ ?_ ?_ ?_
  · apply Fin.ext
    show (j 1).val = win4_7.index t (1 : Fin 2) * 8 + 1 * (j 1).val
    rw [e3]; omega
  · intro k
    show V c (Pipeline.arrRef spec4 0) (((cfg4.win 0).blk t).view.emb (ix2 (j 0) k))
      = V c (Pipeline.arrRef spec4 0) (ix2 ((((cfg4.win 7).blk t).view.emb j) 0) k)
    refine congrArg _ (funext fun a => Fin.ext ?_)
    match a with
    | ⟨0, _⟩ => show win4_0.index t (0 : Fin 2) * 4000 + 1 * (j 0).val = win4_7.index t (0 : Fin 2) * 4000 + 1 * (j 0).val; rw [e0, e2]
    | ⟨1, _⟩ => show win4_0.index t (1 : Fin 2) * 256 + 1 * k.val = k.val; rw [e1]; omega
  · funext k
    show V c (Pipeline.arrRef spec4 1) (((cfg4.win 1).blk t).view.emb k) = V c (Pipeline.arrRef spec4 1) k
    refine congrArg _ (funext fun a => Fin.ext ?_)
    match a with
    | ⟨0, _⟩ => show win4_1.index t (0 : Fin 2) * 256 + 1 * (k 0).val = (k 0).val; rw [(hw1 t).1]; omega
    | ⟨1, _⟩ => show win4_1.index t (1 : Fin 2) * 128 + 1 * (k 1).val = (k 1).val; rw [(hw1 t).2]; omega
  · funext k
    show V c (Pipeline.arrRef spec4 2) (((cfg4.win 2).blk t).view.emb k) = V c (Pipeline.arrRef spec4 2) k
    refine congrArg _ (funext fun a => Fin.ext ?_)
    match a with
    | ⟨0, _⟩ => show win4_2.index t (0 : Fin 1) * 128 + 1 * (k 0).val = (k 0).val; rw [hw2 t]; omega
  · funext k
    show V c (Pipeline.arrRef spec4 3) (((cfg4.win 3).blk t).view.emb k) = V c (Pipeline.arrRef spec4 3) k
    refine congrArg _ (funext fun a => Fin.ext ?_)
    match a with
    | ⟨0, _⟩ => show win4_3.index t (0 : Fin 2) * 128 + 1 * (k 0).val = (k 0).val; rw [(hw3 t).1]; omega
    | ⟨1, _⟩ => show win4_3.index t (1 : Fin 2) * 64 + 1 * (k 1).val = (k 1).val; rw [(hw3 t).2]; omega
  · funext k
    show V c (Pipeline.arrRef spec4 4) (((cfg4.win 4).blk t).view.emb k) = V c (Pipeline.arrRef spec4 4) k
    refine congrArg _ (funext fun a => Fin.ext ?_)
    match a with
    | ⟨0, _⟩ => show win4_4.index t (0 : Fin 1) * 64 + 1 * (k 0).val = (k 0).val; rw [hw4 t]; omega
  · funext k
    show V c (Pipeline.arrRef spec4 5) (((cfg4.win 5).blk t).view.emb k) = V c (Pipeline.arrRef spec4 5) k
    refine congrArg _ (funext fun a => Fin.ext ?_)
    match a with
    | ⟨0, _⟩ => show win4_5.index t (0 : Fin 2) * 64 + 1 * (k 0).val = (k 0).val; rw [(hw5 t).1]; omega
    | ⟨1, _⟩ => show win4_5.index t (1 : Fin 2) * 8 + 1 * (k 1).val = (k 1).val; rw [(hw5 t).2]; omega
  · funext k
    show V c (Pipeline.arrRef spec4 6) (((cfg4.win 6).blk t).view.emb k) = V c (Pipeline.arrRef spec4 6) k
    refine congrArg _ (funext fun a => Fin.ext ?_)
    match a with
    | ⟨0, _⟩ => show win4_6.index t (0 : Fin 1) * 8 + 1 * (k 0).val = (k 0).val; rw [hw6 t]; omega

/-- Row `r` is in the block of point `r / 4000`. -/
theorem cover4 (i : S400000x8.Idx) :
    ∃ t : Fin cfg4.N, (cfg4.win 7).flush t = true ∧ i ∈ ((cfg4.win 7).blk t).view.set := by
  have hi0 : (i 0).val < 400000 := (i 0).isLt
  have hi1 : (i 1).val < 8 := (i 1).isLt
  have hN : cfg4.N = 100 := N_4
  have ht : (i 0).val / 4000 < cfg4.N := by rw [hN]; omega
  obtain ⟨e0, e1, e2, e3⟩ := idx4 ⟨(i 0).val / 4000, ht⟩
  refine ⟨⟨(i 0).val / 4000, ht⟩, flush4_7 _, ?_⟩
  show i ∈ ((View.whole main_v87).slice (win4_7.rect ⟨(i 0).val / 4000, ht⟩)).set
  rw [View.set_slice_whole, Rect.mem_set_unit]
  intro a
  match a with
  | ⟨0, _⟩ =>
    show win4_7.index ⟨(i 0).val / 4000, ht⟩ (0 : Fin 2) * 4000 ≤ (i 0).val ∧ (i 0).val < win4_7.index ⟨(i 0).val / 4000, ht⟩ (0 : Fin 2) * 4000 + 4000
    rw [e2]; show (i 0).val / 4000 * 4000 ≤ (i 0).val ∧ (i 0).val < (i 0).val / 4000 * 4000 + 4000; omega
  | ⟨1, _⟩ =>
    show win4_7.index ⟨(i 0).val / 4000, ht⟩ (1 : Fin 2) * 8 ≤ (i 1).val ∧ (i 1).val < win4_7.index ⟨(i 0).val / 4000, ht⟩ (1 : Fin 2) * 8 + 8
    rw [e3]; omega

end

end Mlp

/-- REGION 4's output array after the region: `mlp` of its seven input arrays as the region finds them. -/
theorem region4_out (V : (c : Dev nD) → (b : Ref sig .tc) → Buf (Elt Ideal) ((c : Thread nD τ).loc b)) (c : Dev nD) :
    (Gen.dat4 (F := Ideal) V c).arrAt 7 cfg4.N
      = Cert.Sage.mlp (E := 400000) (V c (Pipeline.arrRef spec4 0)) (V c (Pipeline.arrRef spec4 1))
          (V c (Pipeline.arrRef spec4 2)) (V c (Pipeline.arrRef spec4 3)) (V c (Pipeline.arrRef spec4 4))
          (V c (Pipeline.arrRef spec4 5)) (V c (Pipeline.arrRef spec4 6)) :=
  (Gen.dat4 V c).arrAt_eq_of_cover 7 _ (fun t _ => Mlp.region4_flushed V c t) fun i => Mlp.cover4 i

end Cert.Sage.K

end
-- ==== Proof.LibKeepdims.lean ====
/-
  Arrays with a kept unit axis, read at an index given by coordinates.

  A row reduction that keeps its axis (the sum over the columns of an [a, b] array, kept as an [a, 1] column) is three
  operations: the sum over the second axis into [a], a cast of [a] to [a, 1], and, where the column meets an [a, b]
  array again, its broadcast along the rows. Read at coordinates: the sum at row r is the sum over the columns k of the
  entry (r, k); the cast's entry (r, 0) is the vector's entry r; the broadcast's entry (r, c) is the column's entry (r, 0).
-/
import Idealize.ShloMosaic.Lib.ValueLayout
import Idealize.ShloMosaic.PureOps.Ideal.Laws

namespace Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum of an [a, b] array over its second axis, read at row r, is the sum over the columns
    k of the entry (r, k). -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = ∑ k : Fin b, v (ix2 r k)
  refine Finset.sum_congr rfl fun k _ => congrArg v (funext fun d => Fin.ext ?_)
  match d with
  | ⟨0, _⟩ => rfl
  | ⟨1, _⟩ => rfl

/-- The kept-axis row sum: the sum over the second axis cast to a column reads, at (r, 0), the sum over the columns k
    of the entry (r, k). -/
theorem rowSumKeep_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ v acc h hφ hacc) hc (ix2 r u) = ∑ k : Fin b, v (ix2 r k) :=
  (shapeCast_a_a1_apply _ hc r u).trans (rowSum_apply v acc h hφ hacc r)

end Keepdims
-- ==== Proof.LibBlockSum.lean ====
/-
  A finite sum over `m · n` consecutive positions, split into `m` blocks of `n`: for any function `f`
  of the natural numbers with values in a commutative additive monoid,
  `Σ_{i < m·n} f i = Σ_{t < m} Σ_{r < n} f (n·t + r)` — over `Finset.range` (`sum_range_blocks`) and
  with the outer left side and the inner right side indexed by `Fin` (`sum_fin_blocks`). A grid of
  `m` row blocks of `n` rows that accumulates one block per step ends at the sum over all `m·n` rows.
-/
import Idealize.ShloMosaic.Lib.ValueIdx

namespace AnchorGcn

/-- `Σ_{i < m·n} f i = Σ_{t < m} Σ_{r < n} f (n·t + r)`, by induction on the number of blocks. -/
theorem sum_range_blocks {M : Type*} [AddCommMonoid M] (f : ℕ → M) (n : ℕ) : ∀ m : ℕ,
    ∑ i ∈ Finset.range (m * n), f i = ∑ t ∈ Finset.range m, ∑ r ∈ Finset.range n, f (n * t + r)
  | 0 => by rw [Nat.zero_mul, Finset.sum_range_zero, Finset.sum_range_zero]
  | m + 1 => by
    rw [Nat.succ_mul, Finset.sum_range_add, sum_range_blocks f n m, Finset.sum_range_succ, Nat.mul_comm m n]

/-- The same with the positions and the rows of a block as `Fin` indices:
    `Σ_{i : Fin (m·n)} f i = Σ_{t < m} Σ_{r : Fin n} f (n·t + r)`. -/
theorem sum_fin_blocks {M : Type*} [AddCommMonoid M] (f : ℕ → M) (m n : ℕ) :
    ∑ i : Fin (m * n), f i.val = ∑ t ∈ Finset.range m, ∑ r : Fin n, f (n * t + r.val) := by
  rw [Fin.sum_univ_eq_sum_range f (m * n), sum_range_blocks f n m]
  exact Finset.sum_congr rfl fun t _ => (Fin.sum_univ_eq_sum_range (fun r => f (n * t + r)) n).symm

end AnchorGcn
-- ==== Proof.KDense.lean ====
/-
  The first kernel of a layer (the dense layer with its running statistics), read as values.

  The kernel runs over ten blocks of 5000 rows. At each block it stores the layer's rows
      z = (a·wl + b) + x·wr
  of that block, and keeps in one row of 256 entries two running totals over the blocks seen so far: entries 0..127 the
  column totals of z, entries 128..255 the total of the squares of all entries of z. The row is reset to zero at the
  first block. This module reads what one block's stores leave (the z block; the row of totals updated from the row
  before), then, over the whole grid, that the z blocks tile the layer `conv` of the whole arrays and that the row ends
  at `stats (conv …)`: a sum over 50000 rows taken as ten sums over 5000.
-/
import proofs.«149413_j36197984370744_1_alg».proof.Proof.Gen.KernelIdeal.Frame
import proofs.«149413_j36197984370744_1_alg».proof.Proof.Spec
import proofs.«149413_j36197984370744_1_alg».proof.Proof.LibPlainDot
import proofs.«149413_j36197984370744_1_alg».proof.Proof.LibKeepdims
import proofs.«149413_j36197984370744_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.Sage.K

open Cert.KernelIdeal Cert.KernelIdeal.Gen
open Idealize.ShloMosaic Idealize.ShloMosaic.ValueIdx Idealize.ShloMosaic.TcCoe Idealize.SL.Sem Idealize.ShloMosaic.Tactic
open Idealize.ShloMosaic.Pipeline (Dat)
open scoped BigOperators

theorem hz2 : (![0, 0] : Fin 2 → Nat) = fun _ => 0 := funext fun a => by fin_cases a <;> rfl
theorem hz1 : (![0] : Fin 1 → Nat) = fun _ => 0 := funext fun a => by fin_cases a; rfl

/-! ## A row of 256 entries written as two halves -/

section Halves
variable {Val : EltTy → Type} {e : EltTy} [∀ e, Nonempty (Val e)]

/-- Entry `k` of the low half, as an index of the row. -/
abbrev lo (k : Fin 128) : S1x256.Idx := ix2 (0 : Fin 1) (⟨k.val, by omega⟩ : Fin 256)
/-- Entry `k` of the high half, as an index of the row. -/
abbrev hi (k : Fin 128) : S1x256.Idx := ix2 (0 : Fin 1) (⟨128 + k.val, by omega⟩ : Fin 256)

theorem emb_lo (inb) (k : Fin 128) : (Rect.unit (s := S1x256) ![0, 0] ![1, 128] inb).emb (ix2 (0 : Fin 1) k) = lo k := by
  funext a; apply Fin.ext
  match a with
  | ⟨0, _⟩ => rfl
  | ⟨1, _⟩ => show 0 + 1 * k.val = k.val; omega
theorem emb_hi (inb) (k : Fin 128) : (Rect.unit (s := S1x256) ![0, 128] ![1, 128] inb).emb (ix2 (0 : Fin 1) k) = hi k := by
  funext a; apply Fin.ext
  match a with
  | ⟨0, _⟩ => rfl
  | ⟨1, _⟩ => show 128 + 1 * k.val = 128 + k.val; omega

theorem lo_not_mem_hi (inbH) (k : Fin 128) : lo k ∉ (Rect.unit (s := S1x256) ![0, 128] ![1, 128] inbH).set := by
  rw [Rect.mem_set_unit]; intro h
  obtain ⟨h1, -⟩ := h (1 : Fin 2)
  have e : ((lo k) (1 : Fin 2) : Nat) = k.val := rfl
  have e2 : (![0, 128] : Fin 2 → Nat) 1 = 128 := rfl
  rw [e] at h1
  have := k.isLt; omega
theorem hi_not_mem_lo (inbL) (k : Fin 128) : hi k ∉ (Rect.unit (s := S1x256) ![0, 0] ![1, 128] inbL).set := by
  rw [Rect.mem_set_unit]; intro h
  obtain ⟨-, h1⟩ := h (1 : Fin 2)
  have e : ((hi k) (1 : Fin 2) : Nat) = 128 + k.val := rfl
  have e2 : (![0, 0] : Fin 2 → Nat) 1 + (![1, 128] : Fin 2 → Nat) 1 = 128 := rfl
  rw [e] at h1
  omega

/-- A row whose last two stores are the high half then (before it) the low half reads, at a low entry, the low
    store's payload and, at a high entry, the high store's. -/
theorem canon_lo (inbH inbL) (wH wL : S1x128.Idx → Val e) (L : List (View.Piece Val S1x256 e)) (k : Fin 128) :
    View.canon ((⟨Rect.unit (s := S1x256) ![0, 128] ![1, 128] inbH, wH⟩ : View.Piece Val S1x256 e)
      :: ⟨Rect.unit (s := S1x256) ![0, 0] ![1, 128] inbL, wL⟩ :: L) (lo k) = wL (ix2 (0 : Fin 1) k) := by
  rw [View.canon_cons_of_not_mem (⟨Rect.unit (s := S1x256) ![0, 128] ![1, 128] inbH, wH⟩ : View.Piece Val S1x256 e) _ (lo_not_mem_hi inbH k)]
  have : lo k = (Rect.unit (s := S1x256) ![0, 0] ![1, 128] inbL).emb (ix2 (0 : Fin 1) k) := (emb_lo inbL _).symm
  rw [this, View.canon_cons_emb]
theorem canon_hi (inbH) (wH : S1x128.Idx → Val e) (L : List (View.Piece Val S1x256 e)) (k : Fin 128) :
    View.canon ((⟨Rect.unit (s := S1x256) ![0, 128] ![1, 128] inbH, wH⟩ : View.Piece Val S1x256 e) :: L) (hi k)
      = wH (ix2 (0 : Fin 1) k) := by
  have : hi k = (Rect.unit (s := S1x256) ![0, 128] ![1, 128] inbH).emb (ix2 (0 : Fin 1) k) := (emb_hi inbH _).symm
  rw [this, View.canon_cons_emb]

/-- A load of a half of the row reads the row at the half's entries. -/
theorem ld_lo_apply (X : S1x256.Idx → Val e) (inb) (k : Fin 128) :
    View.ld X (Rect.unit (s := S1x256) ![0, 0] ![1, 128] inb) (ix2 (0 : Fin 1) k) = X (lo k) := by
  show X ((Rect.unit (s := S1x256) ![0, 0] ![1, 128] inb).emb (ix2 (0 : Fin 1) k)) = X (lo k)
  rw [emb_lo]
theorem ld_hi_apply (X : S1x256.Idx → Val e) (inb) (k : Fin 128) :
    View.ld X (Rect.unit (s := S1x256) ![0, 128] ![1, 128] inb) (ix2 (0 : Fin 1) k) = X (hi k) := by
  show X ((Rect.unit (s := S1x256) ![0, 128] ![1, 128] inb).emb (ix2 (0 : Fin 1) k)) = X (hi k)
  rw [emb_hi]

/-- Every index of the row is a low or a high entry. -/
theorem lo_or_hi (y : S1x256.Idx) : (∃ k : Fin 128, y = lo k) ∨ (∃ k : Fin 128, y = hi k) := by
  have h0 : (y 0).val = 0 := by have h : (y 0).val < 1 := (y 0).isLt; omega
  have h1 : (y 1).val < 256 := (y 1).isLt
  by_cases h : (y 1).val < 128
  · refine Or.inl ⟨⟨(y 1).val, h⟩, ?_⟩
    funext a; apply Fin.ext
    match a with
    | ⟨0, _⟩ => exact h0
    | ⟨1, _⟩ => rfl
  · refine Or.inr ⟨⟨(y 1).val - 128, by omega⟩, ?_⟩
    funext a; apply Fin.ext
    match a with
    | ⟨0, _⟩ => exact h0
    | ⟨1, _⟩ => show (y 1).val = 128 + ((y 1).val - 128); omega

end Halves

/-! ## What one block's stores leave -/

section Pieces
variable {F : FTy → Type} [FloatOps F]

/-- At the first block the body leaves, in the layer's staging buffer, its one covering store: the layer's rows of
    the block. -/
theorem dense_A (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S5000x128 .f32) (h6 : a6.IsWhole) (a7 : Memref sig .tc .vmem S1x256 .f32) (h7 : a7.IsWhole) (hc : cond0_0 i) (x0 : Vec F S5000x128 .f32) (x1 : Vec F S5000x128 .f32) (x2 : Vec F S128x128 .f32) (x3 : Vec F S128 .f32) (x4 : Vec F S128x128 .f32) :
    out0_A_5 c i a1 h1 a2 h2 a3 h3 a4 h4 a5 h5 a6 h6 a7 h7 hc x0 x1 x2 x3 x4 = k0_pay3 x0 x1 x2 x4 x3 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  rw [View.canon_unit_zero hz2]
  simp only [View.readAt_eq_ld, h1.read_unread, h2.read_unread, h3.read_unread, h4.read_unread, h5.read_unread,
    View.ld_unit_zero (S := S5000x128) hz2, View.ld_unit_zero (S := S128x128) hz2, View.ld_unit_zero (S := S128) hz1]

/-- At a later block likewise. -/
theorem dense_B (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S5000x128 .f32) (h6 : a6.IsWhole) (a7 : Memref sig .tc .vmem S1x256 .f32) (h7 : a7.IsWhole) (hc : ¬cond0_0 i) (x0 : Vec F S5000x128 .f32) (x1 : Vec F S5000x128 .f32) (x2 : Vec F S128x128 .f32) (x3 : Vec F S128 .f32) (x4 : Vec F S128x128 .f32) (xo6 : Vec F S1x256 .f32) :
    out0_B_5 c i a1 h1 a2 h2 a3 h3 a4 h4 a5 h5 a6 h6 a7 h7 hc x0 x1 x2 x3 x4 xo6 = k0_pay3 x0 x1 x2 x4 x3 := by
  unfold out0_B_5
  rw [View.read_writes_eq_canon _ _ _ (cover0_B_5 c i a1 h1 a2 h2 a3 h3 a4 h4 a5 h5 a6 h6 a7 h7 hc x0 x1 x2 x3 x4 xo6)]
  unfold kernelRun0_B
  dsimp only
  rw [View.canon_unit_zero hz2]
  simp only [View.readAt_eq_ld, h1.read_unread, h2.read_unread, h3.read_unread, h4.read_unread, h5.read_unread,
    View.ld_unit_zero (S := S5000x128) hz2, View.ld_unit_zero (S := S128x128) hz2, View.ld_unit_zero (S := S128) hz1]

/-- One block's update of the row of totals `X`: the low half from the low half of `X` and the block's rows, the high
    half from the high half of `X` and the block's total of squares — the two stores, high half last. -/
def rowUpd (x0 : Vec F S5000x128 .f32) (x1 : Vec F S5000x128 .f32) (x2 : Vec F S128x128 .f32) (x3 : Vec F S128 .f32) (x4 : Vec F S128x128 .f32) (X : Vec F S1x256 .f32) : Vec F S1x256 .f32 :=
  View.canon
    [⟨Rect.unit (s := S1x256) ![0, 128] ![1, 128] inb_S1x256_S1x128_0_128,
        k0_pay1 (k0_pay4 x0 x1 x2 x4 x3) (View.ld X (Rect.unit (s := S1x256) ![0, 128] ![1, 128] inb_S1x256_S1x128_0_128))⟩,
      ⟨Rect.unit (s := S1x256) ![0, 0] ![1, 128] inb_S1x256_S1x128_0_0,
        k0_pay5 x0 x1 x2 x4 x3 (View.ld X (Rect.unit (s := S1x256) ![0, 0] ![1, 128] inb_S1x256_S1x128_0_0))⟩]

/-- At a later block the row of totals is updated from what the block before left. -/
theorem stats_B (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S5000x128 .f32) (h6 : a6.IsWhole) (a7 : Memref sig .tc .vmem S1x256 .f32) (h7 : a7.IsWhole) (hc : ¬cond0_0 i) (x0 : Vec F S5000x128 .f32) (x1 : Vec F S5000x128 .f32) (x2 : Vec F S128x128 .f32) (x3 : Vec F S128 .f32) (x4 : Vec F S128x128 .f32) (xo6 : Vec F S1x256 .f32) :
    out0_B_6 c i a1 h1 a2 h2 a3 h3 a4 h4 a5 h5 a6 h6 a7 h7 hc x0 x1 x2 x3 x4 xo6 = rowUpd x0 x1 x2 x3 x4 xo6 := by
  unfold out0_B_6
  rw [View.read_writes_eq_canon _ _ _ (cover0_B_6 c i a1 h1 a2 h2 a3 h3 a4 h4 a5 h5 a6 h6 a7 h7 hc x0 x1 x2 x3 x4 xo6)]
  unfold kernelRun0_B
  dsimp only
  sl_unfold_words
  simp only [View.readAt_eq_ld, h1.read_unread, h2.read_unread, h3.read_unread, h4.read_unread, h5.read_unread, h7.read_unread,
    View.ld_unit_zero (S := S5000x128) hz2, View.ld_unit_zero (S := S128x128) hz2, View.ld_unit_zero (S := S128) hz1]
  rfl

/-- At the first block the row is first filled with zeros, and what the two loads then read back is that zero row: the
    row of totals is updated from the zero row. -/
theorem stats_A (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S5000x128 .f32) (h6 : a6.IsWhole) (a7 : Memref sig .tc .vmem S1x256 .f32) (h7 : a7.IsWhole) (hc : cond0_0 i) (x0 : Vec F S5000x128 .f32) (x1 : Vec F S5000x128 .f32) (x2 : Vec F S128x128 .f32) (x3 : Vec F S128 .f32) (x4 : Vec F S128x128 .f32) :
    out0_A_6 c i a1 h1 a2 h2 a3 h3 a4 h4 a5 h5 a6 h6 a7 h7 hc x0 x1 x2 x3 x4 = rowUpd x0 x1 x2 x3 x4 (k0_pay2 (F := F)) := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  simp only [View.readAt_eq_ld, h1.read_unread, h2.read_unread, h3.read_unread, h4.read_unread, h5.read_unread, h7.read_unread,
    View.ld_unit_zero (S := S5000x128) hz2, View.ld_unit_zero (S := S128x128) hz2, View.ld_unit_zero (S := S128) hz1]
  have eL : a7.view.readCov [(⟨Rect.unit (s := S1x256) ![0, 0] ![1, 256] inb_S1x256_S1x256_0_0, k0_pay2 (F := F)⟩ : View.Piece (Elt F) S1x256 .f32)]
        (Rect.unit (s := S1x256) ![0, 0] ![1, 128] inb_S1x256_S1x128_0_0).toLoadRect
      = View.ld (k0_pay2 (F := F)) (Rect.unit (s := S1x256) ![0, 0] ![1, 128] inb_S1x256_S1x128_0_0) := by
    rw [View.readCov_eq_canon_ld _ _ _ (fun y => ⟨(⟨Rect.unit (s := S1x256) ![0, 0] ![1, 256] inb_S1x256_S1x256_0_0, k0_pay2 (F := F)⟩ : View.Piece (Elt F) S1x256 .f32), List.mem_singleton_self _, View.mem_set_unit_zero hz2 inb_S1x256_S1x256_0_0 y⟩),
      View.canon_unit_zero hz2]
  rw [eL]
  have eH : ∀ w : S1x128.Idx → Elt F .f32, a7.view.readCov [(⟨Rect.unit (s := S1x256) ![0, 0] ![1, 128] inb_S1x256_S1x128_0_0, w⟩ : View.Piece (Elt F) S1x256 .f32),
          ⟨Rect.unit (s := S1x256) ![0, 0] ![1, 256] inb_S1x256_S1x256_0_0, k0_pay2 (F := F)⟩]
        (Rect.unit (s := S1x256) ![0, 128] ![1, 128] inb_S1x256_S1x128_0_128).toLoadRect
      = View.ld (k0_pay2 (F := F)) (Rect.unit (s := S1x256) ![0, 128] ![1, 128] inb_S1x256_S1x128_0_128) := by
    intro w
    rw [View.readCov_eq_canon_ld _ _ _ (fun y => ⟨(⟨Rect.unit (s := S1x256) ![0, 0] ![1, 256] inb_S1x256_S1x256_0_0, k0_pay2 (F := F)⟩ : View.Piece (Elt F) S1x256 .f32), List.mem_cons_of_mem _ (List.mem_singleton_self _), View.mem_set_unit_zero hz2 inb_S1x256_S1x256_0_0 y⟩)]
    funext x
    obtain ⟨u, k, rfl⟩ : ∃ (u : Fin 1) (k : Fin 128), x = ix2 u k := ⟨x 0, x 1, eq_ix2 x⟩
    obtain rfl : u = 0 := Subsingleton.elim _ _
    rw [ld_hi_apply, ld_hi_apply, View.canon_cons_of_not_mem (⟨Rect.unit (s := S1x256) ![0, 0] ![1, 128] inb_S1x256_S1x128_0_0, w⟩ : View.Piece (Elt F) S1x256 .f32) _ (hi_not_mem_lo inb_S1x256_S1x128_0_0 k), View.canon_unit_zero hz2]
  rw [eH]
  funext y
  rcases lo_or_hi y with ⟨k, rfl⟩ | ⟨k, rfl⟩
  · unfold rowUpd; rw [canon_lo, canon_lo]
  · unfold rowUpd; rw [canon_hi, canon_hi]

end Pieces

end Cert.Sage.K

end
-- ==== Proof.KDensePay.lean ====
/-
  The first kernel's arithmetic at the exact instance, entry by entry.

  On extended reals a cast between float formats is the identity, a matrix product into the zero accumulator is the plain
  sum of products and a reduction is the plain sum, so the block the kernel stores is `conv` of its operand blocks, the
  low half of the totals row gains the block's column totals and the high half the block's total of squares.
-/
import proofs.«149413_j36197984370744_1_alg».proof.Proof.Gen.KernelIdeal.Skeleton
import proofs.«149413_j36197984370744_1_alg».proof.Proof.Spec
import proofs.«149413_j36197984370744_1_alg».proof.Proof.LibPlainDot
import proofs.«149413_j36197984370744_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Sage.K

open Cert.KernelIdeal Cert.KernelIdeal.Gen
open Idealize.ShloMosaic Idealize.ShloMosaic.ValueIdx Idealize.ShloMosaic.TcCoe
open scoped BigOperators

/-- On the extended reals the sum of an [a, b] array over its first axis, read at column c, is the sum over the rows k
    of the entry (k, c). -/
theorem colSum_apply {a b : ℕ} {φ : FTy} (v : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ v acc h hφ hacc (ix1 c) = ∑ k : Fin a, v (ix2 k c) := by
  refine (Ideal.multiReduction_add_single v acc h hφ hacc (ix1 c)).trans ?_
  show ∑ k : Fin a, v (h.lift (ix1 c) k) = ∑ k : Fin a, v (ix2 k c)
  refine Finset.sum_congr rfl fun k _ => congrArg v (funext fun d => Fin.ext ?_)
  match d with
  | ⟨0, _⟩ => rfl
  | ⟨1, _⟩ => rfl

/-- The block the kernel stores is the layer of its operand blocks. -/
theorem pay3_eq (x0 x1 : Vec Ideal S5000x128 .f32) (w0 w1 : Vec Ideal S128x128 .f32) (b : Vec Ideal S128 .f32) :
    (k0_pay3 (F := Ideal) x0 x1 w0 w1 b : Mat 5000 128) = conv x0 x1 w0 b w1 := by
  funext j
  obtain ⟨p, q, rfl⟩ : ∃ (p : Fin 5000) (q : Fin 128), j = ix2 p q := ⟨j 0, j 1, eq_ix2 j⟩
  unfold k0_pay3
  rw [shapeCast_self, addf_apply, addf_apply, broadcastTo_1b_ab_apply, shapeCast_a_1a_apply]
  have hd : dot_S5000x128_S128x128_S5000x128_1_0_0_1_n_n = DotDims.plain 5000 128 128 := rfl
  rw [hd]
  simp only [matmul]
  rw [PlainDot.matmul_zero_apply, PlainDot.matmul_zero_apply]
  rfl

/-- The low half's payload: the row it read plus the block's column totals. -/
theorem pay5_apply (x0 x1 : Vec Ideal S5000x128 .f32) (w0 w1 : Vec Ideal S128x128 .f32) (b : Vec Ideal S128 .f32)
    (v : Vec Ideal S1x128 .f32) (k : Fin 128) :
    k0_pay5 (F := Ideal) x0 x1 w0 w1 b v (ix2 (0 : Fin 1) k)
      = v (ix2 (0 : Fin 1) k) + ∑ r : Fin 5000, conv (R := 5000) x0 x1 w0 b w1 (ix2 r k) := by
  unfold k0_pay5
  rw [shapeCast_self, addf_apply, shapeCast_a_1a_apply]
  refine congrArg (v (ix2 (0 : Fin 1) k) + ·) ?_
  refine (colSum_apply _ _ _ _ _ k).trans ?_
  rw [pay3_eq]

/-- The block's total of squares, spread over a row of 128. -/
theorem pay4_apply (x0 x1 : Vec Ideal S5000x128 .f32) (w0 w1 : Vec Ideal S128x128 .f32) (b : Vec Ideal S128 .f32) (k : Fin 128) :
    k0_pay4 (F := Ideal) x0 x1 w0 w1 b (ix2 (0 : Fin 1) k)
      = ∑ r : Fin 5000, ∑ c : Fin 128, conv (R := 5000) x0 x1 w0 b w1 (ix2 r c) * conv (R := 5000) x0 x1 w0 b w1 (ix2 r c) := by
  unfold k0_pay4
  rw [shapeCast_self]
  refine (broadcastTo_apply _ broadcasts_S1x1_S1x128 (ix2 (0 : Fin 1) k) (ix2 (0 : Fin 1) (0 : Fin 1)) (fun a => by
    match a with
    | ⟨0, _⟩ => rfl
    | ⟨1, _⟩ => rfl)).trans ?_
  refine (shapeCast_a_1a_apply _ shapeCasts_S1_S1x1 (0 : Fin 1) (0 : Fin 1)).trans ?_
  refine (colSum_apply _ _ _ _ _ (0 : Fin 1)).trans ?_
  refine Finset.sum_congr rfl fun r _ => ?_
  refine (Keepdims.rowSumKeep_apply _ _ _ _ _ shapeCasts_S5000_S5000x1 r (0 : Fin 1)).trans ?_
  refine Finset.sum_congr rfl fun c _ => ?_
  rw [mulf_apply, pay3_eq]

/-- The high half's payload: the row it read plus the block's total of squares. -/
theorem pay1_apply (v28 : FVec Ideal S1x128 .f32) (v33 : Vec Ideal S1x128 .f32) (k : Fin 128) :
    k0_pay1 (F := Ideal) v28 v33 (ix2 (0 : Fin 1) k) = v33 (ix2 (0 : Fin 1) k) + v28 (ix2 (0 : Fin 1) k) := by
  unfold k0_pay1
  rw [shapeCast_self, addf_apply]

/-- The zero row. -/
theorem pay2_apply (y : S1x256.Idx) : k0_pay2 (F := Ideal) y = 0 := by
  unfold k0_pay2
  show Ideal.ofBits .f32 0x00000000#32 = 0
  exact Ideal.ofBits_zero_f32

end Cert.Sage.K

end
-- ==== Proof.KDenseGrid.lean ====
/-
  The first kernel of a layer over its whole grid.

  Block `t` of the two row-blocked operands is rows 5000·t … 5000·t+4999 of their arrays and the three parameter
  operands are read whole at every block, so the block the kernel stores at `t` is rows 5000·t … of the layer `conv`
  of the whole arrays (row locality), and the ten blocks tile the 50000 rows. The row of totals after block `n` holds the
  column totals and the total of squares over the rows of blocks 0..n (induction on the block; the zero row at the
  start); it is written back after the last block, where those sums over ten blocks of 5000 are the sums over all
  50000 rows: `stats` of the layer.
-/
import proofs.«149413_j36197984370744_1_alg».proof.Proof.KDense
import proofs.«149413_j36197984370744_1_alg».proof.Proof.KDensePay

set_option maxRecDepth 16384

noncomputable section

namespace Cert.Sage.K

open Cert.KernelIdeal Cert.KernelIdeal.Gen
open Idealize.ShloMosaic Idealize.ShloMosaic.ValueIdx Idealize.ShloMosaic.TcCoe Idealize.SL.Sem
open Idealize.ShloMosaic.Pipeline (Dat)
open scoped BigOperators

namespace Dense0

/-! ## One block's update of the totals row, as values -/

theorem rowUpd_lo (x0 x1 : Vec Ideal S5000x128 .f32) (x2 : Vec Ideal S128x128 .f32) (x3 : Vec Ideal S128 .f32)
    (x4 : Vec Ideal S128x128 .f32) (X : Vec Ideal S1x256 .f32) (k : Fin 128) :
    rowUpd (F := Ideal) x0 x1 x2 x3 x4 X (lo k)
      = X (lo k) + ∑ r : Fin 5000, conv (R := 5000) (K := 128) (D := 128) x0 x1 x2 x3 x4 (ix2 r k) := by
  unfold rowUpd
  rw [canon_lo, pay5_apply, ld_lo_apply]

theorem rowUpd_hi (x0 x1 : Vec Ideal S5000x128 .f32) (x2 : Vec Ideal S128x128 .f32) (x3 : Vec Ideal S128 .f32)
    (x4 : Vec Ideal S128x128 .f32) (X : Vec Ideal S1x256 .f32) (k : Fin 128) :
    rowUpd (F := Ideal) x0 x1 x2 x3 x4 X (hi k)
      = X (hi k) + ∑ r : Fin 5000, ∑ c : Fin 128, conv (R := 5000) (K := 128) (D := 128) x0 x1 x2 x3 x4 (ix2 r c)
          * conv (R := 5000) (K := 128) (D := 128) x0 x1 x2 x3 x4 (ix2 r c) := by
  unfold rowUpd
  rw [canon_hi, pay1_apply, pay4_apply, ld_hi_apply]

section
variable (V : (c : Dev nD) → (b : Ref sig .tc) → Buf (Elt Ideal) ((c : Thread nD τ).loc b))

/-- The blocks' positions, decided over the ten points. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0 :=
  (by decide +kernel : ∀ t : Fin grid0.N, _)

/-- The layer of the whole arrays as the region finds them. -/
abbrev Zw (c : Dev nD) : Mat 50000 128 :=
  conv (R := 50000) (K := 128) (D := 128) (V c (Pipeline.arrRef spec0 0)) (V c (Pipeline.arrRef spec0 1))
    (V c (Pipeline.arrRef spec0 2)) (V c (Pipeline.arrRef spec0 3)) (V c (Pipeline.arrRef spec0 4))

/-- Row `5000·t + r` of the whole arrays. -/
abbrev rowAt (t : Fin cfg0.N) (r : Fin 5000) : Fin 50000 :=
  ⟨5000 * t.val + r.val, by have h : t.val < 10 := lt_of_lt_of_eq t.isLt N_0; have := r.isLt; omega⟩

/-- The layer of the blocks at point `t`, at row `r`, is the layer of the whole arrays at row `5000·t + r`. -/
theorem block_conv (c : Dev nD) (t : Fin cfg0.N) (r : Fin 5000) (k : Fin 128) :
    conv (R := 5000) (K := 128) (D := 128) (iblk0 V c 0 t) (iblk0 V c 1 t) (iblk0 V c 2 t) (iblk0 V c 3 t) (iblk0 V c 4 t) (ix2 r k)
      = Zw V c (ix2 (rowAt t r) k) := by
  obtain ⟨e00, e01, e10, e11, e20, e21, e30, e40, e41, e50, e51, e60, e61⟩ := idx0 t
  have hwl : (iblk0 V c 2 t : Mat 128 128) = V c (Pipeline.arrRef spec0 2) := by
    funext y
    show V c (Pipeline.arrRef spec0 2) (((cfg0.win 2).blk t).view.emb y) = V c (Pipeline.arrRef spec0 2) y
    refine congrArg _ (funext fun a => Fin.ext ?_)
    match a with
    | ⟨0, _⟩ => show win0_2.index t (0 : Fin 2) * 128 + 1 * (y 0).val = (y 0).val; rw [e20]; omega
    | ⟨1, _⟩ => show win0_2.index t (1 : Fin 2) * 128 + 1 * (y 1).val = (y 1).val; rw [e21]; omega
  have hb : (iblk0 V c 3 t : Row 128) = V c (Pipeline.arrRef spec0 3) := by
    funext y
    show V c (Pipeline.arrRef spec0 3) (((cfg0.win 3).blk t).view.emb y) = V c (Pipeline.arrRef spec0 3) y
    refine congrArg _ (funext fun a => Fin.ext ?_)
    match a with
    | ⟨0, _⟩ => show win0_3.index t (0 : Fin 1) * 128 + 1 * (y 0).val = (y 0).val; rw [e30]; omega
  have hwr : (iblk0 V c 4 t : Mat 128 128) = V c (Pipeline.arrRef spec0 4) := by
    funext y
    show V c (Pipeline.arrRef spec0 4) (((cfg0.win 4).blk t).view.emb y) = V c (Pipeline.arrRef spec0 4) y
    refine congrArg _ (funext fun a => Fin.ext ?_)
    match a with
    | ⟨0, _⟩ => show win0_4.index t (0 : Fin 2) * 128 + 1 * (y 0).val = (y 0).val; rw [e40]; omega
    | ⟨1, _⟩ => show win0_4.index t (1 : Fin 2) * 128 + 1 * (y 1).val = (y 1).val; rw [e41]; omega
  rw [hwl, hb, hwr]
  refine conv_rows _ _ _ _ _ _ _ (ix2 r k) (ix2 (rowAt t r) k) rfl (fun j => ?_) (fun j => ?_)
  · show V c (Pipeline.arrRef spec0 0) (((cfg0.win 0).blk t).view.emb (ix2 r j)) = V c (Pipeline.arrRef spec0 0) (ix2 (rowAt t r) j)
    refine congrArg _ (funext fun a => Fin.ext ?_)
    match a with
    | ⟨0, _⟩ => show win0_0.index t (0 : Fin 2) * 5000 + 1 * r.val = 5000 * t.val + r.val; rw [e00]; omega
    | ⟨1, _⟩ => show win0_0.index t (1 : Fin 2) * 128 + 1 * j.val = j.val; rw [e01]; omega
  · show V c (Pipeline.arrRef spec0 1) (((cfg0.win 1).blk t).view.emb (ix2 r j)) = V c (Pipeline.arrRef spec0 1) (ix2 (rowAt t r) j)
    refine congrArg _ (funext fun a => Fin.ext ?_)
    match a with
    | ⟨0, _⟩ => show win0_1.index t (0 : Fin 2) * 5000 + 1 * r.val = 5000 * t.val + r.val; rw [e10]; omega
    | ⟨1, _⟩ => show win0_1.index t (1 : Fin 2) * 128 + 1 * j.val = j.val; rw [e11]; omega

/-- What the layer's staging buffer holds after point `t`: the layer of the point's blocks. -/
theorem outs_z (c : Dev nD) (t : Fin cfg0.N) : ((outsAt0 V c t.val t.isLt).1 : Mat 5000 128)
      = conv (R := 5000) (K := 128) (D := 128) (iblk0 V c 0 t) (iblk0 V c 1 t) (iblk0 V c 2 t) (iblk0 V c 3 t) (iblk0 V c 4 t) := by
  by_cases h0 : t.val % 10 = 0
  · rw [outsAt0_A V c t h0]
    dsimp only
    exact (dense_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t)).trans
      (pay3_eq (iblk0 V c 0 t) (iblk0 V c 1 t) (iblk0 V c 2 t) (iblk0 V c 4 t) (iblk0 V c 3 t))
  · rw [outsAt0_B V c t h0]
    dsimp only
    exact (dense_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t)
        (outsAt0 V c (t.val - 1) (Nat.lt_of_le_of_lt (Nat.sub_le _ _) t.isLt)).2).trans
      (pay3_eq (iblk0 V c 0 t) (iblk0 V c 1 t) (iblk0 V c 2 t) (iblk0 V c 4 t) (iblk0 V c 3 t))

/-- What point `t` writes back of the layer is block `t` of the layer of the whole arrays. -/
theorem flushed_z (c : Dev nD) (t : Fin cfg0.N) :
    (dat0 (F := Ideal) V c).flushed 5 t = ((cfg0.win 5).blk t).view.read (Elt Ideal) (Zw V c) := by
  show (cfg0.win 5).cut (grid0.coords t) ((dat0 V c).after 5 t) = _
  rw [after0_5]
  obtain ⟨e00, e01, e10, e11, e20, e21, e30, e40, e41, e50, e51, e60, e61⟩ := idx0 t
  funext j
  obtain ⟨r, k, rfl⟩ : ∃ (r : Fin 5000) (k : Fin 128), j = ix2 r k := ⟨j 0, j 1, eq_ix2 j⟩
  show (outsAt0 V c t.val t.isLt).1 (ix2 r k) = Zw V c (((cfg0.win 5).blk t).view.emb (ix2 r k))
  rw [outs_z V c t, block_conv V c t r k]
  refine congrArg _ (funext fun a => Fin.ext ?_)
  match a with
  | ⟨0, _⟩ => show 5000 * t.val + r.val = win0_5.index t (0 : Fin 2) * 5000 + 1 * r.val; rw [e50]; omega
  | ⟨1, _⟩ => show k.val = win0_5.index t (1 : Fin 2) * 128 + 1 * k.val; rw [e51]; omega

/-- Row `r` is in the block of point `r / 5000`. -/
theorem cover_z (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨e00, e01, e10, e11, e20, e21, e30, e40, e41, e50, e51, e60, e61⟩ := idx0 ⟨(i 0).val / 5000, ht⟩
  refine ⟨⟨(i 0).val / 5000, ht⟩, flush0_5 _, ?_⟩
  show i ∈ ((View.whole main_v22_0).slice (win0_5.rect ⟨(i 0).val / 5000, ht⟩)).set
  rw [View.set_slice_whole, Rect.mem_set_unit]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e51]; omega

/-! ## The row of totals -/

/-- Row `i` of the layer of the whole arrays, for any natural `i` (zero past the last row). -/
def zrow (c : Dev nD) (i : ℕ) (k : Fin 128) : EReal := if h : i < 50000 then Zw V c (ix2 (⟨i, h⟩ : Fin 50000) k) else 0

theorem zrow_rowAt (c : Dev nD) (t : Fin cfg0.N) (r : Fin 5000) (k : Fin 128) :
    Zw V c (ix2 (rowAt t r) k) = zrow V c (5000 * t.val + r.val) k := by
  unfold zrow
  rw [dif_pos (rowAt t r).isLt]

/-- The totals over the rows of blocks 0..n: low entries the column totals, high entries the total of squares. -/
def psum (c : Dev nD) (n : ℕ) : Mat 1 256 := fun y =>
  if h : (y 1).val < 128 then ∑ t ∈ Finset.range (n + 1), ∑ r : Fin 5000, zrow V c (5000 * t + r.val) ⟨(y 1).val, h⟩
  else ∑ t ∈ Finset.range (n + 1), ∑ r : Fin 5000, ∑ k : Fin 128, zrow V c (5000 * t + r.val) k * zrow V c (5000 * t + r.val) k

theorem psum_lo (c : Dev nD) (n : ℕ) (k : Fin 128) :
    psum V c n (lo k) = ∑ t ∈ Finset.range (n + 1), ∑ r : Fin 5000, zrow V c (5000 * t + r.val) k := by
  unfold psum
  rw [dif_pos (show ((lo k) 1).val < 128 from k.isLt)]
theorem psum_hi (c : Dev nD) (n : ℕ) (k : Fin 128) :
    psum V c n (hi k) = ∑ t ∈ Finset.range (n + 1), ∑ r : Fin 5000, ∑ k' : Fin 128,
      zrow V c (5000 * t + r.val) k' * zrow V c (5000 * t + r.val) k' := by
  unfold psum
  rw [dif_neg (show ¬ ((hi k) 1).val < 128 from by show ¬ (128 + k.val < 128); omega)]

/-- What the totals' staging buffer holds after point `n`: the totals over blocks 0..n. -/
theorem outs_stats (c : Dev nD) : ∀ (n : ℕ) (h : n < cfg0.N), ((outsAt0 V c n h).2 : Mat 1 256) = psum V c n
  | 0, h => by
    refine (congrArg Prod.snd (outsAt0_A V c ⟨0, h⟩ rfl)).trans
      ((stats_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr rfl) (iblk0 V c 0 ⟨0, h⟩) (iblk0 V c 1 ⟨0, h⟩) (iblk0 V c 2 ⟨0, h⟩) (iblk0 V c 3 ⟨0, h⟩) (iblk0 V c 4 ⟨0, h⟩)).trans ?_)
    funext y
    rcases lo_or_hi y with ⟨k, rfl⟩ | ⟨k, rfl⟩
    · refine (rowUpd_lo (iblk0 V c 0 ⟨0, h⟩) (iblk0 V c 1 ⟨0, h⟩) (iblk0 V c 2 ⟨0, h⟩) (iblk0 V c 3 ⟨0, h⟩) (iblk0 V c 4 ⟨0, h⟩) (k0_pay2 (F := Ideal)) k).trans ?_
      rw [psum_lo, pay2_apply, zero_add, Finset.sum_range_one]
      exact Finset.sum_congr rfl fun r _ => (block_conv V c ⟨0, h⟩ r k).trans (zrow_rowAt V c ⟨0, h⟩ r k)
    · refine (rowUpd_hi (iblk0 V c 0 ⟨0, h⟩) (iblk0 V c 1 ⟨0, h⟩) (iblk0 V c 2 ⟨0, h⟩) (iblk0 V c 3 ⟨0, h⟩) (iblk0 V c 4 ⟨0, h⟩) (k0_pay2 (F := Ideal)) k).trans ?_
      rw [psum_hi, pay2_apply, zero_add, Finset.sum_range_one]
      refine Finset.sum_congr rfl fun r _ => Finset.sum_congr rfl fun k' _ => ?_
      rw [block_conv V c ⟨0, h⟩ r k', zrow_rowAt]
  | n + 1, h => by
    have hN : cfg0.N = 10 := N_0
    have hB : ¬(⟨n + 1, h⟩ : Fin cfg0.N).val % 10 = 0 := by dsimp only; omega
    have ih : ((outsAt0 V c ((⟨n + 1, h⟩ : Fin cfg0.N).val - 1) (Nat.lt_of_le_of_lt (Nat.sub_le _ _) (⟨n + 1, h⟩ : Fin cfg0.N).isLt)).2 : Mat 1 256)
        = psum V c n := outs_stats c n (Nat.lt_of_succ_lt h)
    refine (congrArg Prod.snd (outsAt0_B V c ⟨n + 1, h⟩ hB)).trans
      ((stats_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun h' => hB ((hcond0_0 ⟨n + 1, h⟩).mp h')) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩)
          (outsAt0 V c ((⟨n + 1, h⟩ : Fin cfg0.N).val - 1) (Nat.lt_of_le_of_lt (Nat.sub_le _ _) (⟨n + 1, h⟩ : Fin cfg0.N).isLt)).2).trans ?_)
    funext y
    rcases lo_or_hi y with ⟨k, rfl⟩ | ⟨k, rfl⟩
    · refine (rowUpd_lo (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) _ k).trans ?_
      rw [psum_lo, Finset.sum_range_succ, ← psum_lo]
      refine congrArg₂ (· + ·) (congrFun ih (lo k)) ?_
      exact Finset.sum_congr rfl fun r _ => (block_conv V c ⟨n + 1, h⟩ r k).trans (zrow_rowAt V c ⟨n + 1, h⟩ r k)
    · refine (rowUpd_hi (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) _ k).trans ?_
      rw [psum_hi, Finset.sum_range_succ, ← psum_hi V c n k]
      refine congrArg₂ (· + ·) (congrFun ih (hi k)) ?_
      refine Finset.sum_congr rfl fun r _ => Finset.sum_congr rfl fun k' _ => ?_
      rw [block_conv V c ⟨n + 1, h⟩ r k', zrow_rowAt]

/-- Over all ten blocks the totals are the statistics of the layer. -/
theorem psum_last (c : Dev nD) : psum V c 9 = stats (R := 50000) (Zw V c) := by
  have hz : ∀ (i : Fin 50000) (k : Fin 128), zrow V c i.val k = Zw V c (ix2 i k) := fun i k => by
    unfold zrow; rw [dif_pos i.isLt]
  funext y
  rcases lo_or_hi y with ⟨k, rfl⟩ | ⟨k, rfl⟩
  · rw [psum_lo]
    show _ = stats (R := 50000) (Zw V c) (ix2 (0 : Fin 1) (⟨k.val, by omega⟩ : Fin 256))
    unfold stats
    rw [dif_pos (show ((ix2 (0 : Fin 1) (⟨k.val, by omega⟩ : Fin 256)) 1).val < 128 from k.isLt)]
    unfold colSum
    rw [← AnchorGcn.sum_fin_blocks (fun i => zrow V c i k) 10 5000]
    exact Finset.sum_congr rfl fun i _ => hz i k
  · rw [psum_hi]
    show _ = stats (R := 50000) (Zw V c) (ix2 (0 : Fin 1) (⟨128 + k.val, by omega⟩ : Fin 256))
    unfold stats
    rw [dif_neg (show ¬ ((ix2 (0 : Fin 1) (⟨128 + k.val, by omega⟩ : Fin 256)) 1).val < 128 from by
      show ¬ (128 + k.val < 128); omega)]
    unfold sqSum
    rw [← AnchorGcn.sum_fin_blocks (fun i => ∑ k' : Fin 128, zrow V c i k' * zrow V c i k') 10 5000]
    exact Finset.sum_congr rfl fun i _ => Finset.sum_congr rfl fun k' _ => by rw [hz i k']

/-- The one write-back of the totals, after the last point, writes the statistics of the layer. -/
theorem flushed_stats (c : Dev nD) (t : Fin cfg0.N) (hf : (cfg0.win 6).flush t = true) :
    (dat0 (F := Ideal) V c).flushed 6 t = ((cfg0.win 6).blk t).view.read (Elt Ideal) (stats (R := 50000) (Zw V c)) := by
  have hN : cfg0.N = 10 := N_0
  have h9 : t.val = 9 := by have := (flush0_6 t).mp hf; have := t.isLt; omega
  obtain ⟨e00, e01, e10, e11, e20, e21, e30, e40, e41, e50, e51, e60, e61⟩ := idx0 t
  show (cfg0.win 6).cut (grid0.coords t) ((dat0 V c).after 6 t) = _
  rw [after0_6]
  funext j
  show (outsAt0 V c t.val t.isLt).2 j = stats (R := 50000) (Zw V c) (((cfg0.win 6).blk t).view.emb j)
  have hj : ((cfg0.win 6).blk t).view.emb j = j := by
    funext a; apply Fin.ext
    match a with
    | ⟨0, _⟩ => show win0_6.index t (0 : Fin 2) * 1 + 1 * (j 0).val = (j 0).val; rw [e60]; omega
    | ⟨1, _⟩ => show win0_6.index t (1 : Fin 2) * 256 + 1 * (j 1).val = (j 1).val; rw [e61]; omega
  rw [hj, outs_stats V c t.val t.isLt, ← psum_last]
  have : t.val = 9 := h9
  rw [this]

/-- The last point's block of the totals is the whole row. -/
theorem cover_stats (i : S1x256.Idx) :
    ∃ t : Fin cfg0.N, (cfg0.win 6).flush t = true ∧ i ∈ ((cfg0.win 6).blk t).view.set := by
  have hi0 : (i 0).val < 1 := (i 0).isLt
  have hi1 : (i 1).val < 256 := (i 1).isLt
  have hN : cfg0.N = 10 := N_0
  have ht : 9 < cfg0.N := by rw [hN]; omega
  obtain ⟨e00, e01, e10, e11, e20, e21, e30, e40, e41, e50, e51, e60, e61⟩ := idx0 ⟨9, ht⟩
  refine ⟨⟨9, ht⟩, (flush0_6 _).mpr rfl, ?_⟩
  show i ∈ ((View.whole main_v22_1).slice (win0_6.rect ⟨9, ht⟩)).set
  rw [View.set_slice_whole, Rect.mem_set_unit]
  intro a
  match a with
  | ⟨0, _⟩ =>
    show win0_6.index ⟨9, ht⟩ (0 : Fin 2) * 1 ≤ (i 0).val ∧ (i 0).val < win0_6.index ⟨9, ht⟩ (0 : Fin 2) * 1 + 1
    rw [e60]; omega
  | ⟨1, _⟩ =>
    show win0_6.index ⟨9, ht⟩ (1 : Fin 2) * 256 ≤ (i 1).val ∧ (i 1).val < win0_6.index ⟨9, ht⟩ (1 : Fin 2) * 256 + 256
    rw [e61]; omega

end

end Dense0

/-- The layer's array after the region: `conv` of the five operand arrays as the region finds them. -/
theorem region0_z (V : (c : Dev nD) → (b : Ref sig .tc) → Buf (Elt Ideal) ((c : Thread nD τ).loc b)) (c : Dev nD) :
    (Gen.dat0 (F := Ideal) V c).arrAt 5 cfg0.N
      = Cert.Sage.conv (R := 50000) (K := 128) (D := 128) (V c (Pipeline.arrRef spec0 0)) (V c (Pipeline.arrRef spec0 1))
          (V c (Pipeline.arrRef spec0 2)) (V c (Pipeline.arrRef spec0 3)) (V c (Pipeline.arrRef spec0 4)) :=
  (Gen.dat0 V c).arrAt_eq_of_cover 5 _ (fun t _ => Dense0.flushed_z V c t) fun i => Dense0.cover_z i

/-- The totals' array after the region: the statistics of that layer. -/
theorem region0_stats (V : (c : Dev nD) → (b : Ref sig .tc) → Buf (Elt Ideal) ((c : Thread nD τ).loc b)) (c : Dev nD) :
    (Gen.dat0 (F := Ideal) V c).arrAt 6 cfg0.N
      = Cert.Sage.stats (R := 50000) (Cert.Sage.conv (R := 50000) (K := 128) (D := 128) (V c (Pipeline.arrRef spec0 0))
          (V c (Pipeline.arrRef spec0 1)) (V c (Pipeline.arrRef spec0 2)) (V c (Pipeline.arrRef spec0 3)) (V c (Pipeline.arrRef spec0 4))) :=
  (Gen.dat0 V c).arrAt_eq_of_cover 6 _ (fun t hf => Dense0.flushed_stats V c t hf) fun i => Dense0.cover_stats i

end Cert.Sage.K

end
-- ==== Proof.KDense2.lean ====
/-
  The first kernel of the SECOND layer, read as values: what one block's stores leave. The kernel is the first
  layer's kernel launched again on the second layer's operands; the statements are those of the first layer's module.
-/
import proofs.«149413_j36197984370744_1_alg».proof.Proof.KDense

set_option maxRecDepth 16384

noncomputable section

namespace Cert.Sage.K.R2

open Cert.KernelIdeal Cert.KernelIdeal.Gen
open Idealize.ShloMosaic Idealize.ShloMosaic.ValueIdx Idealize.ShloMosaic.TcCoe Idealize.SL.Sem Idealize.ShloMosaic.Tactic
open Idealize.ShloMosaic.Pipeline (Dat)
open scoped BigOperators
open Cert.Sage.K (hz2 hz1 lo hi emb_lo emb_hi lo_not_mem_hi hi_not_mem_lo canon_lo canon_hi ld_lo_apply ld_hi_apply lo_or_hi)

/-! ## What one block's stores leave -/

section Pieces
variable {F : FTy → Type} [FloatOps F]

/-- At the first block the body leaves, in the layer's staging buffer, its one covering store: the layer's rows of
    the block. -/
theorem dense_A (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S5000x128 .f32) (h6 : a6.IsWhole) (a7 : Memref sig .tc .vmem S1x256 .f32) (h7 : a7.IsWhole) (hc : cond2_0 i) (x0 : Vec F S5000x128 .f32) (x1 : Vec F S5000x128 .f32) (x2 : Vec F S128x128 .f32) (x3 : Vec F S128 .f32) (x4 : Vec F S128x128 .f32) :
    out2_A_5 c i a1 h1 a2 h2 a3 h3 a4 h4 a5 h5 a6 h6 a7 h7 hc x0 x1 x2 x3 x4 = k2_pay3 x0 x1 x2 x4 x3 := by
  unfold out2_A_5
  rw [View.read_writes_eq_canon _ _ _ (cover2_A_5 c i a1 h1 a2 h2 a3 h3 a4 h4 a5 h5 a6 h6 a7 h7 hc x0 x1 x2 x3 x4)]
  unfold kernelRun2_A
  dsimp only
  rw [View.canon_unit_zero hz2]
  simp only [View.readAt_eq_ld, h1.read_unread, h2.read_unread, h3.read_unread, h4.read_unread, h5.read_unread,
    View.ld_unit_zero (S := S5000x128) hz2, View.ld_unit_zero (S := S128x128) hz2, View.ld_unit_zero (S := S128) hz1]

/-- At a later block likewise. -/
theorem dense_B (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S5000x128 .f32) (h6 : a6.IsWhole) (a7 : Memref sig .tc .vmem S1x256 .f32) (h7 : a7.IsWhole) (hc : ¬cond2_0 i) (x0 : Vec F S5000x128 .f32) (x1 : Vec F S5000x128 .f32) (x2 : Vec F S128x128 .f32) (x3 : Vec F S128 .f32) (x4 : Vec F S128x128 .f32) (xo6 : Vec F S1x256 .f32) :
    out2_B_5 c i a1 h1 a2 h2 a3 h3 a4 h4 a5 h5 a6 h6 a7 h7 hc x0 x1 x2 x3 x4 xo6 = k2_pay3 x0 x1 x2 x4 x3 := by
  unfold out2_B_5
  rw [View.read_writes_eq_canon _ _ _ (cover2_B_5 c i a1 h1 a2 h2 a3 h3 a4 h4 a5 h5 a6 h6 a7 h7 hc x0 x1 x2 x3 x4 xo6)]
  unfold kernelRun2_B
  dsimp only
  rw [View.canon_unit_zero hz2]
  simp only [View.readAt_eq_ld, h1.read_unread, h2.read_unread, h3.read_unread, h4.read_unread, h5.read_unread,
    View.ld_unit_zero (S := S5000x128) hz2, View.ld_unit_zero (S := S128x128) hz2, View.ld_unit_zero (S := S128) hz1]

/-- One block's update of the row of totals `X`: the low half from the low half of `X` and the block's rows, the high
    half from the high half of `X` and the block's total of squares — the two stores, high half last. -/
def rowUpd (x0 : Vec F S5000x128 .f32) (x1 : Vec F S5000x128 .f32) (x2 : Vec F S128x128 .f32) (x3 : Vec F S128 .f32) (x4 : Vec F S128x128 .f32) (X : Vec F S1x256 .f32) : Vec F S1x256 .f32 :=
  View.canon
    [⟨Rect.unit (s := S1x256) ![0, 128] ![1, 128] inb_S1x256_S1x128_0_128,
        k2_pay1 (k2_pay4 x0 x1 x2 x4 x3) (View.ld X (Rect.unit (s := S1x256) ![0, 128] ![1, 128] inb_S1x256_S1x128_0_128))⟩,
      ⟨Rect.unit (s := S1x256) ![0, 0] ![1, 128] inb_S1x256_S1x128_0_0,
        k2_pay5 x0 x1 x2 x4 x3 (View.ld X (Rect.unit (s := S1x256) ![0, 0] ![1, 128] inb_S1x256_S1x128_0_0))⟩]

/-- At a later block the row of totals is updated from what the block before left. -/
theorem stats_B (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S5000x128 .f32) (h6 : a6.IsWhole) (a7 : Memref sig .tc .vmem S1x256 .f32) (h7 : a7.IsWhole) (hc : ¬cond2_0 i) (x0 : Vec F S5000x128 .f32) (x1 : Vec F S5000x128 .f32) (x2 : Vec F S128x128 .f32) (x3 : Vec F S128 .f32) (x4 : Vec F S128x128 .f32) (xo6 : Vec F S1x256 .f32) :
    out2_B_6 c i a1 h1 a2 h2 a3 h3 a4 h4 a5 h5 a6 h6 a7 h7 hc x0 x1 x2 x3 x4 xo6 = rowUpd x0 x1 x2 x3 x4 xo6 := by
  unfold out2_B_6
  rw [View.read_writes_eq_canon _ _ _ (cover2_B_6 c i a1 h1 a2 h2 a3 h3 a4 h4 a5 h5 a6 h6 a7 h7 hc x0 x1 x2 x3 x4 xo6)]
  unfold kernelRun2_B
  dsimp only
  sl_unfold_words
  simp only [View.readAt_eq_ld, h1.read_unread, h2.read_unread, h3.read_unread, h4.read_unread, h5.read_unread, h7.read_unread,
    View.ld_unit_zero (S := S5000x128) hz2, View.ld_unit_zero (S := S128x128) hz2, View.ld_unit_zero (S := S128) hz1]
  rfl

/-- At the first block the row is first filled with zeros, and what the two loads then read back is that zero row: the
    row of totals is updated from the zero row. -/
theorem stats_A (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S5000x128 .f32) (h6 : a6.IsWhole) (a7 : Memref sig .tc .vmem S1x256 .f32) (h7 : a7.IsWhole) (hc : cond2_0 i) (x0 : Vec F S5000x128 .f32) (x1 : Vec F S5000x128 .f32) (x2 : Vec F S128x128 .f32) (x3 : Vec F S128 .f32) (x4 : Vec F S128x128 .f32) :
    out2_A_6 c i a1 h1 a2 h2 a3 h3 a4 h4 a5 h5 a6 h6 a7 h7 hc x0 x1 x2 x3 x4 = rowUpd x0 x1 x2 x3 x4 (k2_pay2 (F := F)) := by
  unfold out2_A_6
  rw [View.read_writes_eq_canon _ _ _ (cover2_A_6 c i a1 h1 a2 h2 a3 h3 a4 h4 a5 h5 a6 h6 a7 h7 hc x0 x1 x2 x3 x4)]
  unfold kernelRun2_A
  dsimp only
  sl_unfold_words
  simp only [View.readAt_eq_ld, h1.read_unread, h2.read_unread, h3.read_unread, h4.read_unread, h5.read_unread, h7.read_unread,
    View.ld_unit_zero (S := S5000x128) hz2, View.ld_unit_zero (S := S128x128) hz2, View.ld_unit_zero (S := S128) hz1]
  have eL : a7.view.readCov [(⟨Rect.unit (s := S1x256) ![0, 0] ![1, 256] inb_S1x256_S1x256_0_0, k2_pay2 (F := F)⟩ : View.Piece (Elt F) S1x256 .f32)]
        (Rect.unit (s := S1x256) ![0, 0] ![1, 128] inb_S1x256_S1x128_0_0).toLoadRect
      = View.ld (k2_pay2 (F := F)) (Rect.unit (s := S1x256) ![0, 0] ![1, 128] inb_S1x256_S1x128_0_0) := by
    rw [View.readCov_eq_canon_ld _ _ _ (fun y => ⟨(⟨Rect.unit (s := S1x256) ![0, 0] ![1, 256] inb_S1x256_S1x256_0_0, k2_pay2 (F := F)⟩ : View.Piece (Elt F) S1x256 .f32), List.mem_singleton_self _, View.mem_set_unit_zero hz2 inb_S1x256_S1x256_0_0 y⟩),
      View.canon_unit_zero hz2]
  rw [eL]
  have eH : ∀ w : S1x128.Idx → Elt F .f32, a7.view.readCov [(⟨Rect.unit (s := S1x256) ![0, 0] ![1, 128] inb_S1x256_S1x128_0_0, w⟩ : View.Piece (Elt F) S1x256 .f32),
          ⟨Rect.unit (s := S1x256) ![0, 0] ![1, 256] inb_S1x256_S1x256_0_0, k2_pay2 (F := F)⟩]
        (Rect.unit (s := S1x256) ![0, 128] ![1, 128] inb_S1x256_S1x128_0_128).toLoadRect
      = View.ld (k2_pay2 (F := F)) (Rect.unit (s := S1x256) ![0, 128] ![1, 128] inb_S1x256_S1x128_0_128) := by
    intro w
    rw [View.readCov_eq_canon_ld _ _ _ (fun y => ⟨(⟨Rect.unit (s := S1x256) ![0, 0] ![1, 256] inb_S1x256_S1x256_0_0, k2_pay2 (F := F)⟩ : View.Piece (Elt F) S1x256 .f32), List.mem_cons_of_mem _ (List.mem_singleton_self _), View.mem_set_unit_zero hz2 inb_S1x256_S1x256_0_0 y⟩)]
    funext x
    obtain ⟨u, k, rfl⟩ : ∃ (u : Fin 1) (k : Fin 128), x = ix2 u k := ⟨x 0, x 1, eq_ix2 x⟩
    obtain rfl : u = 0 := Subsingleton.elim _ _
    rw [ld_hi_apply, ld_hi_apply, View.canon_cons_of_not_mem (⟨Rect.unit (s := S1x256) ![0, 0] ![1, 128] inb_S1x256_S1x128_0_0, w⟩ : View.Piece (Elt F) S1x256 .f32) _ (hi_not_mem_lo inb_S1x256_S1x128_0_0 k), View.canon_unit_zero hz2]
  rw [eH]
  funext y
  rcases lo_or_hi y with ⟨k, rfl⟩ | ⟨k, rfl⟩
  · unfold rowUpd; rw [canon_lo, canon_lo]
  · unfold rowUpd; rw [canon_hi, canon_hi]

end Pieces

end Cert.Sage.K.R2

end
-- ==== Proof.KDensePay2.lean ====
/-
  The second layer's first kernel at the exact instance, entry by entry: the statements of the first layer's module for
  the kernel launched on the second layer's operands.
-/
import proofs.«149413_j36197984370744_1_alg».proof.Proof.KDensePay

set_option maxRecDepth 16384

noncomputable section

namespace Cert.Sage.K.R2

open Cert.KernelIdeal Cert.KernelIdeal.Gen
open Idealize.ShloMosaic Idealize.ShloMosaic.ValueIdx Idealize.ShloMosaic.TcCoe
open scoped BigOperators
open Cert.Sage.K (colSum_apply)

/-- The block the kernel stores is the layer of its operand blocks. -/
theorem pay3_eq (x0 x1 : Vec Ideal S5000x128 .f32) (w0 w1 : Vec Ideal S128x128 .f32) (b : Vec Ideal S128 .f32) :
    (k2_pay3 (F := Ideal) x0 x1 w0 w1 b : Mat 5000 128) = conv x0 x1 w0 b w1 := by
  funext j
  obtain ⟨p, q, rfl⟩ : ∃ (p : Fin 5000) (q : Fin 128), j = ix2 p q := ⟨j 0, j 1, eq_ix2 j⟩
  unfold k2_pay3
  rw [shapeCast_self, shapeCast_self, addf_apply, addf_apply, broadcastTo_1b_ab_apply, shapeCast_a_1a_apply]
  have hd : dot_S5000x128_S128x128_S5000x128_1_0_0_1_n_n = DotDims.plain 5000 128 128 := rfl
  rw [hd]
  simp only [matmul]
  rw [PlainDot.matmul_zero_apply, PlainDot.matmul_zero_apply]
  rfl

/-- The low half's payload: the row it read plus the block's column totals. -/
theorem pay5_apply (x0 x1 : Vec Ideal S5000x128 .f32) (w0 w1 : Vec Ideal S128x128 .f32) (b : Vec Ideal S128 .f32)
    (v : Vec Ideal S1x128 .f32) (k : Fin 128) :
    k2_pay5 (F := Ideal) x0 x1 w0 w1 b v (ix2 (0 : Fin 1) k)
      = v (ix2 (0 : Fin 1) k) + ∑ r : Fin 5000, conv (R := 5000) x0 x1 w0 b w1 (ix2 r k) := by
  unfold k2_pay5
  rw [shapeCast_self, addf_apply, shapeCast_a_1a_apply]
  refine congrArg (v (ix2 (0 : Fin 1) k) + ·) ?_
  refine (colSum_apply _ _ _ _ _ k).trans ?_
  rw [pay3_eq]

/-- The block's total of squares, spread over a row of 128. -/
theorem pay4_apply (x0 x1 : Vec Ideal S5000x128 .f32) (w0 w1 : Vec Ideal S128x128 .f32) (b : Vec Ideal S128 .f32) (k : Fin 128) :
    k2_pay4 (F := Ideal) x0 x1 w0 w1 b (ix2 (0 : Fin 1) k)
      = ∑ r : Fin 5000, ∑ c : Fin 128, conv (R := 5000) x0 x1 w0 b w1 (ix2 r c) * conv (R := 5000) x0 x1 w0 b w1 (ix2 r c) := by
  unfold k2_pay4
  rw [shapeCast_self]
  refine (broadcastTo_apply _ broadcasts_S1x1_S1x128 (ix2 (0 : Fin 1) k) (ix2 (0 : Fin 1) (0 : Fin 1)) (fun a => by
    match a with
    | ⟨0, _⟩ => rfl
    | ⟨1, _⟩ => rfl)).trans ?_
  refine (shapeCast_a_1a_apply _ shapeCasts_S1_S1x1 (0 : Fin 1) (0 : Fin 1)).trans ?_
  refine (colSum_apply _ _ _ _ _ (0 : Fin 1)).trans ?_
  refine Finset.sum_congr rfl fun r _ => ?_
  refine (Keepdims.rowSumKeep_apply _ _ _ _ _ shapeCasts_S5000_S5000x1 r (0 : Fin 1)).trans ?_
  refine Finset.sum_congr rfl fun c _ => ?_
  rw [mulf_apply, pay3_eq]

/-- The high half's payload: the row it read plus the block's total of squares. -/
theorem pay1_apply (v28 : FVec Ideal S1x128 .f32) (v33 : Vec Ideal S1x128 .f32) (k : Fin 128) :
    k2_pay1 (F := Ideal) v28 v33 (ix2 (0 : Fin 1) k) = v33 (ix2 (0 : Fin 1) k) + v28 (ix2 (0 : Fin 1) k) := by
  unfold k2_pay1
  rw [shapeCast_self, addf_apply]

/-- The zero row. -/
theorem pay2_apply (y : S1x256.Idx) : k2_pay2 (F := Ideal) y = 0 := by
  unfold k2_pay2
  show Ideal.ofBits .f32 0x00000000#32 = 0
  exact Ideal.ofBits_zero_f32

end Cert.Sage.K.R2

end
-- ==== Proof.KDenseGrid2.lean ====
/-
  The first kernel of the SECOND layer over its whole grid (the first layer's module for the second launch).

  Block `t` of the two row-blocked operands is rows 5000·t … 5000·t+4999 of their arrays and the three parameter
  operands are read whole at every block, so the block the kernel stores at `t` is rows 5000·t … of the layer `conv`
  of the whole arrays (row locality), and the ten blocks tile the 50000 rows. The row of totals after block `n` holds the
  column totals and the total of squares over the rows of blocks 0..n (induction on the block; the zero row at the
  start); it is written back after the last block, where those sums over ten blocks of 5000 are the sums over all
  50000 rows: `stats` of the layer.
-/
import proofs.«149413_j36197984370744_1_alg».proof.Proof.KDense2
import proofs.«149413_j36197984370744_1_alg».proof.Proof.KDensePay2

set_option maxRecDepth 16384

noncomputable section

namespace Cert.Sage.K

open Cert.KernelIdeal Cert.KernelIdeal.Gen
open Idealize.ShloMosaic Idealize.ShloMosaic.ValueIdx Idealize.ShloMosaic.TcCoe Idealize.SL.Sem
open Idealize.ShloMosaic.Pipeline (Dat)
open scoped BigOperators

namespace Dense2

/-! ## One block's update of the totals row, as values -/

theorem rowUpd_lo (x0 x1 : Vec Ideal S5000x128 .f32) (x2 : Vec Ideal S128x128 .f32) (x3 : Vec Ideal S128 .f32)
    (x4 : Vec Ideal S128x128 .f32) (X : Vec Ideal S1x256 .f32) (k : Fin 128) :
    R2.rowUpd (F := Ideal) x0 x1 x2 x3 x4 X (lo k)
      = X (lo k) + ∑ r : Fin 5000, conv (R := 5000) (K := 128) (D := 128) x0 x1 x2 x3 x4 (ix2 r k) := by
  unfold R2.rowUpd
  rw [canon_lo, R2.pay5_apply, ld_lo_apply]

theorem rowUpd_hi (x0 x1 : Vec Ideal S5000x128 .f32) (x2 : Vec Ideal S128x128 .f32) (x3 : Vec Ideal S128 .f32)
    (x4 : Vec Ideal S128x128 .f32) (X : Vec Ideal S1x256 .f32) (k : Fin 128) :
    R2.rowUpd (F := Ideal) x0 x1 x2 x3 x4 X (hi k)
      = X (hi k) + ∑ r : Fin 5000, ∑ c : Fin 128, conv (R := 5000) (K := 128) (D := 128) x0 x1 x2 x3 x4 (ix2 r c)
          * conv (R := 5000) (K := 128) (D := 128) x0 x1 x2 x3 x4 (ix2 r c) := by
  unfold R2.rowUpd
  rw [canon_hi, R2.pay1_apply, R2.pay4_apply, ld_hi_apply]

section
variable (V : (c : Dev nD) → (b : Ref sig .tc) → Buf (Elt Ideal) ((c : Thread nD τ).loc b))

/-- The blocks' positions, decided over the ten points. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0 :=
  (by decide +kernel : ∀ t : Fin grid2.N, _)

/-- The layer of the whole arrays as the region finds them. -/
abbrev Zw (c : Dev nD) : Mat 50000 128 :=
  conv (R := 50000) (K := 128) (D := 128) (V c (Pipeline.arrRef spec2 0)) (V c (Pipeline.arrRef spec2 1))
    (V c (Pipeline.arrRef spec2 2)) (V c (Pipeline.arrRef spec2 3)) (V c (Pipeline.arrRef spec2 4))

/-- Row `5000·t + r` of the whole arrays. -/
abbrev rowAt (t : Fin cfg2.N) (r : Fin 5000) : Fin 50000 :=
  ⟨5000 * t.val + r.val, by have h : t.val < 10 := lt_of_lt_of_eq t.isLt N_2; have := r.isLt; omega⟩

/-- The layer of the blocks at point `t`, at row `r`, is the layer of the whole arrays at row `5000·t + r`. -/
theorem block_conv (c : Dev nD) (t : Fin cfg2.N) (r : Fin 5000) (k : Fin 128) :
    conv (R := 5000) (K := 128) (D := 128) (iblk2 V c 0 t) (iblk2 V c 1 t) (iblk2 V c 2 t) (iblk2 V c 3 t) (iblk2 V c 4 t) (ix2 r k)
      = Zw V c (ix2 (rowAt t r) k) := by
  obtain ⟨e00, e01, e10, e11, e20, e21, e30, e40, e41, e50, e51, e60, e61⟩ := idx2 t
  have hwl : (iblk2 V c 2 t : Mat 128 128) = V c (Pipeline.arrRef spec2 2) := by
    funext y
    show V c (Pipeline.arrRef spec2 2) (((cfg2.win 2).blk t).view.emb y) = V c (Pipeline.arrRef spec2 2) y
    refine congrArg _ (funext fun a => Fin.ext ?_)
    match a with
    | ⟨0, _⟩ => show win2_2.index t (0 : Fin 2) * 128 + 1 * (y 0).val = (y 0).val; rw [e20]; omega
    | ⟨1, _⟩ => show win2_2.index t (1 : Fin 2) * 128 + 1 * (y 1).val = (y 1).val; rw [e21]; omega
  have hb : (iblk2 V c 3 t : Row 128) = V c (Pipeline.arrRef spec2 3) := by
    funext y
    show V c (Pipeline.arrRef spec2 3) (((cfg2.win 3).blk t).view.emb y) = V c (Pipeline.arrRef spec2 3) y
    refine congrArg _ (funext fun a => Fin.ext ?_)
    match a with
    | ⟨0, _⟩ => show win2_3.index t (0 : Fin 1) * 128 + 1 * (y 0).val = (y 0).val; rw [e30]; omega
  have hwr : (iblk2 V c 4 t : Mat 128 128) = V c (Pipeline.arrRef spec2 4) := by
    funext y
    show V c (Pipeline.arrRef spec2 4) (((cfg2.win 4).blk t).view.emb y) = V c (Pipeline.arrRef spec2 4) y
    refine congrArg _ (funext fun a => Fin.ext ?_)
    match a with
    | ⟨0, _⟩ => show win2_4.index t (0 : Fin 2) * 128 + 1 * (y 0).val = (y 0).val; rw [e40]; omega
    | ⟨1, _⟩ => show win2_4.index t (1 : Fin 2) * 128 + 1 * (y 1).val = (y 1).val; rw [e41]; omega
  rw [hwl, hb, hwr]
  refine conv_rows _ _ _ _ _ _ _ (ix2 r k) (ix2 (rowAt t r) k) rfl (fun j => ?_) (fun j => ?_)
  · show V c (Pipeline.arrRef spec2 0) (((cfg2.win 0).blk t).view.emb (ix2 r j)) = V c (Pipeline.arrRef spec2 0) (ix2 (rowAt t r) j)
    refine congrArg _ (funext fun a => Fin.ext ?_)
    match a with
    | ⟨0, _⟩ => show win2_0.index t (0 : Fin 2) * 5000 + 1 * r.val = 5000 * t.val + r.val; rw [e00]; omega
    | ⟨1, _⟩ => show win2_0.index t (1 : Fin 2) * 128 + 1 * j.val = j.val; rw [e01]; omega
  · show V c (Pipeline.arrRef spec2 1) (((cfg2.win 1).blk t).view.emb (ix2 r j)) = V c (Pipeline.arrRef spec2 1) (ix2 (rowAt t r) j)
    refine congrArg _ (funext fun a => Fin.ext ?_)
    match a with
    | ⟨0, _⟩ => show win2_1.index t (0 : Fin 2) * 5000 + 1 * r.val = 5000 * t.val + r.val; rw [e10]; omega
    | ⟨1, _⟩ => show win2_1.index t (1 : Fin 2) * 128 + 1 * j.val = j.val; rw [e11]; omega

/-- What the layer's staging buffer holds after point `t`: the layer of the point's blocks. -/
theorem outs_z (c : Dev nD) (t : Fin cfg2.N) : ((outsAt2 V c t.val t.isLt).1 : Mat 5000 128)
      = conv (R := 5000) (K := 128) (D := 128) (iblk2 V c 0 t) (iblk2 V c 1 t) (iblk2 V c 2 t) (iblk2 V c 3 t) (iblk2 V c 4 t) := by
  by_cases h0 : t.val % 10 = 0
  · rw [outsAt2_A V c t h0]
    dsimp only
    exact (R2.dense_A (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t) (iblk2 V c 4 t)).trans
      (R2.pay3_eq (iblk2 V c 0 t) (iblk2 V c 1 t) (iblk2 V c 2 t) (iblk2 V c 4 t) (iblk2 V c 3 t))
  · rw [outsAt2_B V c t h0]
    dsimp only
    exact (R2.dense_B (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (iblk2 V c 4 t)
        (outsAt2 V c (t.val - 1) (Nat.lt_of_le_of_lt (Nat.sub_le _ _) t.isLt)).2).trans
      (R2.pay3_eq (iblk2 V c 0 t) (iblk2 V c 1 t) (iblk2 V c 2 t) (iblk2 V c 4 t) (iblk2 V c 3 t))

/-- What point `t` writes back of the layer is block `t` of the layer of the whole arrays. -/
theorem flushed_z (c : Dev nD) (t : Fin cfg2.N) :
    (dat2 (F := Ideal) V c).flushed 5 t = ((cfg2.win 5).blk t).view.read (Elt Ideal) (Zw V c) := by
  show (cfg2.win 5).cut (grid2.coords t) ((dat2 V c).after 5 t) = _
  rw [after2_5]
  obtain ⟨e00, e01, e10, e11, e20, e21, e30, e40, e41, e50, e51, e60, e61⟩ := idx2 t
  funext j
  obtain ⟨r, k, rfl⟩ : ∃ (r : Fin 5000) (k : Fin 128), j = ix2 r k := ⟨j 0, j 1, eq_ix2 j⟩
  show (outsAt2 V c t.val t.isLt).1 (ix2 r k) = Zw V c (((cfg2.win 5).blk t).view.emb (ix2 r k))
  rw [outs_z V c t, block_conv V c t r k]
  refine congrArg _ (funext fun a => Fin.ext ?_)
  match a with
  | ⟨0, _⟩ => show 5000 * t.val + r.val = win2_5.index t (0 : Fin 2) * 5000 + 1 * r.val; rw [e50]; omega
  | ⟨1, _⟩ => show k.val = win2_5.index t (1 : Fin 2) * 128 + 1 * k.val; rw [e51]; omega

/-- Row `r` is in the block of point `r / 5000`. -/
theorem cover_z (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  have ht : (i 0).val / 5000 < cfg2.N := by rw [hN]; omega
  obtain ⟨e00, e01, e10, e11, e20, e21, e30, e40, e41, e50, e51, e60, e61⟩ := idx2 ⟨(i 0).val / 5000, ht⟩
  refine ⟨⟨(i 0).val / 5000, ht⟩, flush2_5 _, ?_⟩
  show i ∈ ((View.whole main_v56_0).slice (win2_5.rect ⟨(i 0).val / 5000, ht⟩)).set
  rw [View.set_slice_whole, Rect.mem_set_unit]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val ∧ (i 1).val < win2_5.index ⟨(i 0).val / 5000, ht⟩ (1 : Fin 2) * 128 + 128
    rw [e51]; omega

/-! ## The row of totals -/

/-- Row `i` of the layer of the whole arrays, for any natural `i` (zero past the last row). -/
def zrow (c : Dev nD) (i : ℕ) (k : Fin 128) : EReal := if h : i < 50000 then Zw V c (ix2 (⟨i, h⟩ : Fin 50000) k) else 0

theorem zrow_rowAt (c : Dev nD) (t : Fin cfg2.N) (r : Fin 5000) (k : Fin 128) :
    Zw V c (ix2 (rowAt t r) k) = zrow V c (5000 * t.val + r.val) k := by
  unfold zrow
  rw [dif_pos (rowAt t r).isLt]

/-- The totals over the rows of blocks 0..n: low entries the column totals, high entries the total of squares. -/
def psum (c : Dev nD) (n : ℕ) : Mat 1 256 := fun y =>
  if h : (y 1).val < 128 then ∑ t ∈ Finset.range (n + 1), ∑ r : Fin 5000, zrow V c (5000 * t + r.val) ⟨(y 1).val, h⟩
  else ∑ t ∈ Finset.range (n + 1), ∑ r : Fin 5000, ∑ k : Fin 128, zrow V c (5000 * t + r.val) k * zrow V c (5000 * t + r.val) k

theorem psum_lo (c : Dev nD) (n : ℕ) (k : Fin 128) :
    psum V c n (lo k) = ∑ t ∈ Finset.range (n + 1), ∑ r : Fin 5000, zrow V c (5000 * t + r.val) k := by
  unfold psum
  rw [dif_pos (show ((lo k) 1).val < 128 from k.isLt)]
theorem psum_hi (c : Dev nD) (n : ℕ) (k : Fin 128) :
    psum V c n (hi k) = ∑ t ∈ Finset.range (n + 1), ∑ r : Fin 5000, ∑ k' : Fin 128,
      zrow V c (5000 * t + r.val) k' * zrow V c (5000 * t + r.val) k' := by
  unfold psum
  rw [dif_neg (show ¬ ((hi k) 1).val < 128 from by show ¬ (128 + k.val < 128); omega)]

/-- What the totals' staging buffer holds after point `n`: the totals over blocks 0..n. -/
theorem outs_stats (c : Dev nD) : ∀ (n : ℕ) (h : n < cfg2.N), ((outsAt2 V c n h).2 : Mat 1 256) = psum V c n
  | 0, h => by
    refine (congrArg Prod.snd (outsAt2_A V c ⟨0, h⟩ rfl)).trans
      ((R2.stats_A (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) ((hcond2_0 ⟨0, h⟩).mpr rfl) (iblk2 V c 0 ⟨0, h⟩) (iblk2 V c 1 ⟨0, h⟩) (iblk2 V c 2 ⟨0, h⟩) (iblk2 V c 3 ⟨0, h⟩) (iblk2 V c 4 ⟨0, h⟩)).trans ?_)
    funext y
    rcases lo_or_hi y with ⟨k, rfl⟩ | ⟨k, rfl⟩
    · refine (rowUpd_lo (iblk2 V c 0 ⟨0, h⟩) (iblk2 V c 1 ⟨0, h⟩) (iblk2 V c 2 ⟨0, h⟩) (iblk2 V c 3 ⟨0, h⟩) (iblk2 V c 4 ⟨0, h⟩) (k2_pay2 (F := Ideal)) k).trans ?_
      rw [psum_lo, R2.pay2_apply, zero_add, Finset.sum_range_one]
      exact Finset.sum_congr rfl fun r _ => (block_conv V c ⟨0, h⟩ r k).trans (zrow_rowAt V c ⟨0, h⟩ r k)
    · refine (rowUpd_hi (iblk2 V c 0 ⟨0, h⟩) (iblk2 V c 1 ⟨0, h⟩) (iblk2 V c 2 ⟨0, h⟩) (iblk2 V c 3 ⟨0, h⟩) (iblk2 V c 4 ⟨0, h⟩) (k2_pay2 (F := Ideal)) k).trans ?_
      rw [psum_hi, R2.pay2_apply, zero_add, Finset.sum_range_one]
      refine Finset.sum_congr rfl fun r _ => Finset.sum_congr rfl fun k' _ => ?_
      rw [block_conv V c ⟨0, h⟩ r k', zrow_rowAt]
  | n + 1, h => by
    have hN : cfg2.N = 10 := N_2
    have hB : ¬(⟨n + 1, h⟩ : Fin cfg2.N).val % 10 = 0 := by dsimp only; omega
    have ih : ((outsAt2 V c ((⟨n + 1, h⟩ : Fin cfg2.N).val - 1) (Nat.lt_of_le_of_lt (Nat.sub_le _ _) (⟨n + 1, h⟩ : Fin cfg2.N).isLt)).2 : Mat 1 256)
        = psum V c n := outs_stats c n (Nat.lt_of_succ_lt h)
    refine (congrArg Prod.snd (outsAt2_B V c ⟨n + 1, h⟩ hB)).trans
      ((R2.stats_B (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (fun h' => hB ((hcond2_0 ⟨n + 1, h⟩).mp h')) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩)
          (outsAt2 V c ((⟨n + 1, h⟩ : Fin cfg2.N).val - 1) (Nat.lt_of_le_of_lt (Nat.sub_le _ _) (⟨n + 1, h⟩ : Fin cfg2.N).isLt)).2).trans ?_)
    funext y
    rcases lo_or_hi y with ⟨k, rfl⟩ | ⟨k, rfl⟩
    · refine (rowUpd_lo (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) _ k).trans ?_
      rw [psum_lo, Finset.sum_range_succ, ← psum_lo]
      refine congrArg₂ (· + ·) (congrFun ih (lo k)) ?_
      exact Finset.sum_congr rfl fun r _ => (block_conv V c ⟨n + 1, h⟩ r k).trans (zrow_rowAt V c ⟨n + 1, h⟩ r k)
    · refine (rowUpd_hi (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) _ k).trans ?_
      rw [psum_hi, Finset.sum_range_succ, ← psum_hi V c n k]
      refine congrArg₂ (· + ·) (congrFun ih (hi k)) ?_
      refine Finset.sum_congr rfl fun r _ => Finset.sum_congr rfl fun k' _ => ?_
      rw [block_conv V c ⟨n + 1, h⟩ r k', zrow_rowAt]

/-- Over all ten blocks the totals are the statistics of the layer. -/
theorem psum_last (c : Dev nD) : psum V c 9 = stats (R := 50000) (Zw V c) := by
  have hz : ∀ (i : Fin 50000) (k : Fin 128), zrow V c i.val k = Zw V c (ix2 i k) := fun i k => by
    unfold zrow; rw [dif_pos i.isLt]
  funext y
  rcases lo_or_hi y with ⟨k, rfl⟩ | ⟨k, rfl⟩
  · rw [psum_lo]
    show _ = stats (R := 50000) (Zw V c) (ix2 (0 : Fin 1) (⟨k.val, by omega⟩ : Fin 256))
    unfold stats
    rw [dif_pos (show ((ix2 (0 : Fin 1) (⟨k.val, by omega⟩ : Fin 256)) 1).val < 128 from k.isLt)]
    unfold colSum
    rw [← AnchorGcn.sum_fin_blocks (fun i => zrow V c i k) 10 5000]
    exact Finset.sum_congr rfl fun i _ => hz i k
  · rw [psum_hi]
    show _ = stats (R := 50000) (Zw V c) (ix2 (0 : Fin 1) (⟨128 + k.val, by omega⟩ : Fin 256))
    unfold stats
    rw [dif_neg (show ¬ ((ix2 (0 : Fin 1) (⟨128 + k.val, by omega⟩ : Fin 256)) 1).val < 128 from by
      show ¬ (128 + k.val < 128); omega)]
    unfold sqSum
    rw [← AnchorGcn.sum_fin_blocks (fun i => ∑ k' : Fin 128, zrow V c i k' * zrow V c i k') 10 5000]
    exact Finset.sum_congr rfl fun i _ => Finset.sum_congr rfl fun k' _ => by rw [hz i k']

/-- The one write-back of the totals, after the last point, writes the statistics of the layer. -/
theorem flushed_stats (c : Dev nD) (t : Fin cfg2.N) (hf : (cfg2.win 6).flush t = true) :
    (dat2 (F := Ideal) V c).flushed 6 t = ((cfg2.win 6).blk t).view.read (Elt Ideal) (stats (R := 50000) (Zw V c)) := by
  have hN : cfg2.N = 10 := N_2
  have h9 : t.val = 9 := by have := (flush2_6 t).mp hf; have := t.isLt; omega
  obtain ⟨e00, e01, e10, e11, e20, e21, e30, e40, e41, e50, e51, e60, e61⟩ := idx2 t
  show (cfg2.win 6).cut (grid2.coords t) ((dat2 V c).after 6 t) = _
  rw [after2_6]
  funext j
  show (outsAt2 V c t.val t.isLt).2 j = stats (R := 50000) (Zw V c) (((cfg2.win 6).blk t).view.emb j)
  have hj : ((cfg2.win 6).blk t).view.emb j = j := by
    funext a; apply Fin.ext
    match a with
    | ⟨0, _⟩ => show win2_6.index t (0 : Fin 2) * 1 + 1 * (j 0).val = (j 0).val; rw [e60]; omega
    | ⟨1, _⟩ => show win2_6.index t (1 : Fin 2) * 256 + 1 * (j 1).val = (j 1).val; rw [e61]; omega
  rw [hj, outs_stats V c t.val t.isLt, ← psum_last]
  have : t.val = 9 := h9
  rw [this]

/-- The last point's block of the totals is the whole row. -/
theorem cover_stats (i : S1x256.Idx) :
    ∃ t : Fin cfg2.N, (cfg2.win 6).flush t = true ∧ i ∈ ((cfg2.win 6).blk t).view.set := by
  have hi0 : (i 0).val < 1 := (i 0).isLt
  have hi1 : (i 1).val < 256 := (i 1).isLt
  have hN : cfg2.N = 10 := N_2
  have ht : 9 < cfg2.N := by rw [hN]; omega
  obtain ⟨e00, e01, e10, e11, e20, e21, e30, e40, e41, e50, e51, e60, e61⟩ := idx2 ⟨9, ht⟩
  refine ⟨⟨9, ht⟩, (flush2_6 _).mpr rfl, ?_⟩
  show i ∈ ((View.whole main_v56_1).slice (win2_6.rect ⟨9, ht⟩)).set
  rw [View.set_slice_whole, Rect.mem_set_unit]
  intro a
  match a with
  | ⟨0, _⟩ =>
    show win2_6.index ⟨9, ht⟩ (0 : Fin 2) * 1 ≤ (i 0).val ∧ (i 0).val < win2_6.index ⟨9, ht⟩ (0 : Fin 2) * 1 + 1
    rw [e60]; omega
  | ⟨1, _⟩ =>
    show win2_6.index ⟨9, ht⟩ (1 : Fin 2) * 256 ≤ (i 1).val ∧ (i 1).val < win2_6.index ⟨9, ht⟩ (1 : Fin 2) * 256 + 256
    rw [e61]; omega

end

end Dense2

/-- The layer's array after the region: `conv` of the five operand arrays as the region finds them. -/
theorem region2_z (V : (c : Dev nD) → (b : Ref sig .tc) → Buf (Elt Ideal) ((c : Thread nD τ).loc b)) (c : Dev nD) :
    (Gen.dat2 (F := Ideal) V c).arrAt 5 cfg2.N
      = Cert.Sage.conv (R := 50000) (K := 128) (D := 128) (V c (Pipeline.arrRef spec2 0)) (V c (Pipeline.arrRef spec2 1))
          (V c (Pipeline.arrRef spec2 2)) (V c (Pipeline.arrRef spec2 3)) (V c (Pipeline.arrRef spec2 4)) :=
  (Gen.dat2 V c).arrAt_eq_of_cover 5 _ (fun t _ => Dense2.flushed_z V c t) fun i => Dense2.cover_z i

/-- The totals' array after the region: the statistics of that layer. -/
theorem region2_stats (V : (c : Dev nD) → (b : Ref sig .tc) → Buf (Elt Ideal) ((c : Thread nD τ).loc b)) (c : Dev nD) :
    (Gen.dat2 (F := Ideal) V c).arrAt 6 cfg2.N
      = Cert.Sage.stats (R := 50000) (Cert.Sage.conv (R := 50000) (K := 128) (D := 128) (V c (Pipeline.arrRef spec2 0))
          (V c (Pipeline.arrRef spec2 1)) (V c (Pipeline.arrRef spec2 2)) (V c (Pipeline.arrRef spec2 3)) (V c (Pipeline.arrRef spec2 4))) :=
  (Gen.dat2 V c).arrAt_eq_of_cover 6 _ (fun t hf => Dense2.flushed_stats V c t hf) fun i => Dense2.cover_stats i

end Cert.Sage.K

end
-- ==== Proof.KHostNorm.lean ====
/-
  The host operations between a dense region and the normalise-and-activate region after it: from the statistics row
  (column totals, then the total of squares) they compute the row `msRow` of it — the column means in entries 0..127
  and, in entries 128..255, the scale `1/√(ε + (Q − n·Σ μ²)/n)`.
-/
import proofs.«149413_j36197984370744_1_alg».proof.Proof.Gen.KernelIdeal.Frame
import proofs.«149413_j36197984370744_1_alg».proof.Proof.Spec
import Idealize.ShloMosaic.Lib.Pipeline.Value
import Idealize.ShloMosaic.Lib.ValueIdx
import Idealize.ShloMosaic.Lib.StableHlo.Run
import Idealize.ShloMosaic.PureOps.Ideal.Laws
import Idealize.ShloMosaic.Lib.IdealHost

set_option maxRecDepth 16384

noncomputable section

namespace Cert.Sage.K.Stretch

open Idealize.ShloMosaic Idealize.ShloMosaic.ValueIdx Idealize.ShloMosaic.TcCoe Idealize.SL.Sem Idealize.ShloMosaic.Tactic
open Idealize.ShloMosaic.Pipeline (Dat)
open Cert.KernelIdeal Cert.KernelIdeal.Gen
open scoped BigOperators

open Idealize.ShloMosaic.StableHlo

/-- The result lemmas of a line of host operations, applied outermost first until none applies. -/
macro "norm_results_rw" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-- The column means' row at an entry: the statistic at that entry divided by the node count. -/
theorem mean_at (st : FVec Ideal S1x256 .f32) (u : Fin 1) (q : Fin 128) :
    Host.divf (extractStridedSlice S1x128 ![0, 0] st slices_S1x256_S1x128_0_0)
        (broadcastInDim S1x128 ![] bcast_S_S1x128 (constant (F := Ideal) S_ .f32 0x47435000#32)) (ix2 u q)
      = Ideal.div (st (ix2 (0 : Fin 1) (⟨q.val, by omega⟩ : Fin 256))) Cert.Sage.nW := by
  show Ideal.div (extractStridedSlice S1x128 ![0, 0] st slices_S1x256_S1x128_0_0 (ix2 u q))
      (broadcastInDim S1x128 ![] bcast_S_S1x128 (constant (F := Ideal) S_ .f32 0x47435000#32) (ix2 u q)) = _
  rw [extractStridedSlice_apply ![0, 0] st slices_S1x256_S1x128_0_0 (ix2 u q) (ix2 (0 : Fin 1) (⟨q.val, by omega⟩ : Fin 256))
      (fun a => match a with
        | ⟨0, _⟩ => by show (0 : ℕ) = 0 + u.val; omega
        | ⟨1, _⟩ => by show q.val = 0 + q.val; omega),
    broadcastInDim_apply ![] bcast_S_S1x128 _ (ix2 u q) ix0 (fun a => a.elim0)]
  rfl

/-- The scale at any entry of its row: from the statistics row, `1/√(ε + (Q − n·Σ μ²)/n)` with `Q` at entry 128. -/
theorem scale_at (st : FVec Ideal S1x256 .f32) (j : S1x128.Idx) :
    broadcastInDim S1x128 ![] bcast_S_S1x128
      (Host.rsqrt (addf (constant (F := Ideal) S_ .f32 0x3727C5AC#32)
        (Host.divf
          (subf (fun i => shapeCast S_ (extractStridedSlice S1x1 ![0, 128] st slices_S1x256_S1x1_0_128) shapeCasts_S1x1_S_ i)
            (mulf (constant (F := Ideal) S_ .f32 0x47435000#32)
              (Host.reduceAdd
                (mulf
                  (Host.divf (extractStridedSlice S1x128 ![0, 0] st slices_S1x256_S1x128_0_0)
                    (broadcastInDim S1x128 ![] bcast_S_S1x128 (constant (F := Ideal) S_ .f32 0x47435000#32)))
                  (Host.divf (extractStridedSlice S1x128 ![0, 0] st slices_S1x256_S1x128_0_0)
                    (broadcastInDim S1x128 ![] bcast_S_S1x128 (constant (F := Ideal) S_ .f32 0x47435000#32))))
                (constant (F := Ideal) S_ .f32 0x00000000#32) reducesTo_S1x128_S_d0_1 h_S_)))
          (constant (F := Ideal) S_ .f32 0x47435000#32)))) j
      = Ideal.rsqrt (Cert.Sage.epsW + Ideal.div (st (ix2 (0 : Fin 1) (⟨128, by omega⟩ : Fin 256))
          - Cert.Sage.nW * ∑ c : Fin 128, Ideal.div (st (ix2 (0 : Fin 1) (⟨c.val, by omega⟩ : Fin 256))) Cert.Sage.nW
              * Ideal.div (st (ix2 (0 : Fin 1) (⟨c.val, by omega⟩ : Fin 256))) Cert.Sage.nW) Cert.Sage.nW) := by
  rw [broadcastInDim_apply ![] bcast_S_S1x128 _ j ix0 (fun a => a.elim0)]
  show Ideal.rsqrt (Ideal.ofBits .f32 0x3727C5AC#32
      + Ideal.div (shapeCast S_ (extractStridedSlice S1x1 ![0, 128] st slices_S1x256_S1x1_0_128) shapeCasts_S1x1_S_ ix0
          - Ideal.ofBits .f32 0x47435000#32 * Host.reduceAdd _ (constant (F := Ideal) S_ .f32 0x00000000#32) reducesTo_S1x128_S_d0_1 h_S_ ix0)
        (Ideal.ofBits .f32 0x47435000#32)) = _
  rw [shapeCast_apply _ shapeCasts_S1x1_S_ ix0 (ix2 (0 : Fin 1) (0 : Fin 1)) (by
      have e1 : (S1x1.rowMajor (ix2 (0 : Fin 1) (0 : Fin 1))).val < 1 := (S1x1.rowMajor _).isLt
      have e2 : (S_.rowMajor ix0).val < 1 := (S_.rowMajor _).isLt
      omega),
    extractStridedSlice_apply ![0, 128] st slices_S1x256_S1x1_0_128 (ix2 (0 : Fin 1) (0 : Fin 1)) (ix2 (0 : Fin 1) (⟨128, by omega⟩ : Fin 256))
      (fun a => match a with
        | ⟨0, _⟩ => rfl
        | ⟨1, _⟩ => rfl),
    hostReduceAdd_apply, Ideal.hostReduceAdd_total _ (fun b => b.elim0), sum_idx2, Fin.sum_univ_one]
  rw [constant_apply, Ideal.ofBits_zero_f32, zero_add]
  refine congrArg (fun s => Ideal.rsqrt (Cert.Sage.epsW
    + Ideal.div (st (ix2 (0 : Fin 1) (⟨128, by omega⟩ : Fin 256)) - Cert.Sage.nW * s) Cert.Sage.nW))
    (Finset.sum_congr rfl fun b _ => ?_)
  rw [mulf_apply, mean_at]

/-- Two rows of 128 side by side are `msRow` of a statistics row when the first holds the means and the second the scale. -/
theorem concat_msRow (st : FVec Ideal S1x256 .f32) (A B : FVec Ideal S1x128 .f32)
    (hA : ∀ (u : Fin 1) (q : Fin 128), A (ix2 u q) = Ideal.div (st (ix2 (0 : Fin 1) (⟨q.val, by omega⟩ : Fin 256))) Cert.Sage.nW)
    (hB : ∀ j : S1x128.Idx, B j = Ideal.rsqrt (Cert.Sage.epsW + Ideal.div (st (ix2 (0 : Fin 1) (⟨128, by omega⟩ : Fin 256))
          - Cert.Sage.nW * ∑ c : Fin 128, Ideal.div (st (ix2 (0 : Fin 1) (⟨c.val, by omega⟩ : Fin 256))) Cert.Sage.nW
              * Ideal.div (st (ix2 (0 : Fin 1) (⟨c.val, by omega⟩ : Fin 256))) Cert.Sage.nW) Cert.Sage.nW)) :
    concatenate S1x256 1 [⟨S1x128, A⟩, ⟨S1x128, B⟩] concatenates_S1x128_S1x128_S1x256_d1 = Cert.Sage.msRow st := by
  funext i
  obtain ⟨u, q, rfl⟩ : ∃ (u : Fin 1) (q : Fin 256), i = ix2 u q := ⟨i 0, i 1, eq_ix2 i⟩
  have hu : u.val = 0 := by omega
  unfold Cert.Sage.msRow
  by_cases h : q.val < 128
  · rw [dif_pos (show ((ix2 u q : S1x256.Idx) 1).val < 128 from h)]
    refine (concatenate_pair_apply_left (t := S1x256) (s₁ := S1x128) (s₂ := S1x128) (1 : Fin 2) _ _ concatenates_S1x128_S1x128_S1x256_d1 (ix2 u q) rfl
      (ix2 (0 : Fin 1) (⟨q.val, h⟩ : Fin 128)) (fun b => match b with
        | ⟨0, _⟩ => by show (0 : ℕ) = u.val; omega
        | ⟨1, _⟩ => rfl)).trans ?_
    exact hA _ _
  · rw [dif_neg (show ¬ ((ix2 u q : S1x256.Idx) 1).val < 128 from h)]
    have hq : q.val < 256 := q.isLt
    refine (concatenate_pair_apply_right (t := S1x256) (s₁ := S1x128) (s₂ := S1x128) (1 : Fin 2) _ _ concatenates_S1x128_S1x128_S1x256_d1 (ix2 u q) rfl rfl
      (ix2 (0 : Fin 1) (⟨q.val - 128, by omega⟩ : Fin 128)) (fun b => match b with
        | ⟨0, _⟩ => fun _ => by show (0 : ℕ) = u.val; omega
        | ⟨1, _⟩ => fun hb => absurd rfl hb) (by show q.val - 128 + 128 = q.val; omega)).trans ?_
    exact hB _

/-- The host operations between region 0's exit and region 1's entry turn the statistics row into `msRow` of it. -/
theorem stretch1 (W : Valuation τ sig (Elt Ideal)) :
    StableHlo.after (hostOps1 (F := Ideal)) W (Proc.devRef .tc main_v36)
      = Cert.Sage.msRow (W (Proc.devRef .tc main_v22_1)) := by
  dsimp only [hostOps1]
  simp only [StableHlo.after_cons, StableHlo.after_nil]
  rw [StableHlo.binary_result]
  refine concat_msRow _ _ _ (fun u q => ?_) (fun j => ?_)
  · norm_results_rw
    exact mean_at _ _ _
  · norm_results_rw
    exact scale_at _ _

/-- The host operations between region 2's exit and region 3's entry turn the statistics row into `msRow` of it. -/
theorem stretch3 (W : Valuation τ sig (Elt Ideal)) :
    StableHlo.after (hostOps3 (F := Ideal)) W (Proc.devRef .tc main_v70)
      = Cert.Sage.msRow (W (Proc.devRef .tc main_v56_1)) := by
  dsimp only [hostOps3]
  simp only [StableHlo.after_cons, StableHlo.after_nil]
  rw [StableHlo.binary_result]
  refine concat_msRow _ _ _ (fun u q => ?_) (fun j => ?_)
  · norm_results_rw
    exact mean_at _ _ _
  · norm_results_rw
    exact scale_at _ _

end Cert.Sage.K.Stretch

end
-- ==== Proof.KHostEdges.lean ====
/-
  The host operations around the regions that move rows along the edges, kept opaque: before region 0 the edge sources
  and targets as flat index vectors and the mean aggregation of the node features; before region 2 the same
  aggregation of region 1's output; before region 4 the endpoint rows of region 3's output side by side. Each is the
  reference's own term for that value (the two programs print the same operations), read off by the result lemmas.
  And: the buffers a line of host operations does not write keep their contents.
-/
import proofs.«149413_j36197984370744_1_alg».proof.Proof.Gen.KernelIdeal.Frame
import proofs.«149413_j36197984370744_1_alg».proof.Proof.RefRead
import Idealize.ShloMosaic.Lib.StableHlo.Run

set_option maxRecDepth 16384

noncomputable section

namespace Cert.Sage.K.RefSide
open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-- For every edge the row of `h` at its source and the row at its target, side by side, in the reference's spelling. -/
def ecatR (h : (⟨S50000x128, .f32⟩ : BufTy).Contents (Elt Ideal)) (e : (⟨S2x400000, .i32⟩ : BufTy).Contents (Elt Ideal)) : (⟨S400000x256, .f32⟩ : BufTy).Contents (Elt Ideal) :=
  concatenate S400000x256 1 [⟨S400000x128, Host.gather gather_S50000x128_S400000x1_S400000x128_1_0_n_n_0_1_1128 h (val_main_v95 (F := Ideal) e)⟩, ⟨S400000x128, Host.gather gather_S50000x128_S400000x1_S400000x128_1_0_n_n_0_1_1128 h (val_main_v102 (F := Ideal) e)⟩] concatenates_S400000x128_S400000x128_S400000x256_d1

end Cert.Sage.K.RefSide

namespace Cert.Sage.K.Stretch

open Idealize.ShloMosaic Idealize.ShloMosaic.ValueIdx Idealize.ShloMosaic.TcCoe Idealize.SL.Sem Idealize.ShloMosaic.Tactic
open Idealize.ShloMosaic.Pipeline (Dat)
open Cert.KernelIdeal Cert.KernelIdeal.Gen
open scoped BigOperators

open Idealize.ShloMosaic.StableHlo

/-- The result lemmas of a line of host operations, applied outermost first until none applies. -/
macro "edge_results_rw" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-- No operation of a line of host operations writes the reference: it keeps its contents. -/
macro "not_written" : tactic =>
  `(tactic| (refine StableHlo.after_of_forall_not_mem _ _ (List.forall_iff_forall_mem.mp ?_)
             simp only [hostOps0, hostOps1, hostOps2, hostOps3, hostOps4, List.Forall, StableHlo.nullary_writes,
               StableHlo.unary_writes, StableHlo.binary_writes, StableHlo.ternary_writes, StableHlo.reshape_writes,
               Finset.mem_singleton]
             repeat' apply And.intro
             all_goals exact StableHlo.devRef_ne_of_ne (by decide)))

/-- Two arrays side by side, equal when their halves are. -/
theorem concat2_congr {α : Type} {t s : Shape} (a : Fin t.rank) (A A' B B' : s.Idx → α) (h : Shape.Concatenates [s, s] t a)
    (hA : A = A') (hB : B = B') :
    concatenate t a [⟨s, A⟩, ⟨s, B⟩] h = concatenate t a [⟨s, A'⟩, ⟨s, B'⟩] h := by
  subst hA hB; rfl

set_option maxHeartbeats 1000000 in
/-- The host operations before region 0 leave the edge sources as a flat index vector, -/
theorem stretch0_src (W : Valuation τ sig (Elt Ideal)) :
    StableHlo.after (hostOps0 (F := Ideal)) W (Proc.devRef .tc main_v1)
      = Cert.ReferenceIdeal.ReadP.val_main_v1 (F := Ideal) (W (Proc.devRef .tc main_arg1)) := by
  dsimp only [hostOps0]
  simp only [StableHlo.after_cons, StableHlo.after_nil]
  edge_results_rw
  rfl

set_option maxHeartbeats 1000000 in
/-- the edge targets likewise, -/
theorem stretch0_dst (W : Valuation τ sig (Elt Ideal)) :
    StableHlo.after (hostOps0 (F := Ideal)) W (Proc.devRef .tc main_v3)
      = Cert.ReferenceIdeal.ReadP.val_main_v3 (F := Ideal) (W (Proc.devRef .tc main_arg1)) := by
  dsimp only [hostOps0]
  simp only [StableHlo.after_cons, StableHlo.after_nil]
  edge_results_rw
  rfl

set_option maxHeartbeats 1000000 in
/-- and the mean aggregation of the node features along the edges. -/
theorem stretch0_agg (W : Valuation τ sig (Elt Ideal)) :
    StableHlo.after (hostOps0 (F := Ideal)) W (Proc.devRef .tc main_v21)
      = Cert.ReferenceIdeal.ReadP.val_main_v21 (F := Ideal) (W (Proc.devRef .tc main_arg0)) (W (Proc.devRef .tc main_arg1)) := by
  dsimp only [hostOps0]
  simp only [StableHlo.after_cons, StableHlo.after_nil]
  edge_results_rw
  rfl

set_option maxHeartbeats 1000000 in
/-- The host operations before region 2 aggregate region 1's output along the same edges. -/
theorem stretch2_agg (W : Valuation τ sig (Elt Ideal)) (e : (⟨Cert.ReferenceIdeal.S2x400000, .i32⟩ : BufTy).Contents (Elt Ideal))
    (h1 : W (Proc.devRef .tc main_v1) = Cert.ReferenceIdeal.ReadP.val_main_v1 (F := Ideal) e)
    (h3 : W (Proc.devRef .tc main_v3) = Cert.ReferenceIdeal.ReadP.val_main_v3 (F := Ideal) e) :
    StableHlo.after (hostOps2 (F := Ideal)) W (Proc.devRef .tc main_v55)
      = Cert.ReferenceIdeal.ReadP.val_main_v21 (F := Ideal) (W (Proc.devRef .tc main_v37)) e := by
  dsimp only [hostOps2]
  simp only [StableHlo.after_cons, StableHlo.after_nil]
  edge_results_rw
  rw [h1, h3]
  rfl

set_option maxHeartbeats 1000000 in
/-- The host operations before region 4 put the endpoint rows of region 3's output side by side. -/
theorem stretch4_ecat (W : Valuation τ sig (Elt Ideal)) (e : (⟨Cert.ReferenceIdeal.S2x400000, .i32⟩ : BufTy).Contents (Elt Ideal))
    (h1 : W (Proc.devRef .tc main_v1) = Cert.ReferenceIdeal.ReadP.val_main_v1 (F := Ideal) e)
    (h3 : W (Proc.devRef .tc main_v3) = Cert.ReferenceIdeal.ReadP.val_main_v3 (F := Ideal) e) :
    StableHlo.after (hostOps4 (F := Ideal)) W (Proc.devRef .tc main_v86)
      = Cert.Sage.K.RefSide.ecatR (W (Proc.devRef .tc main_v71)) e := by
  dsimp only [hostOps4]
  simp only [StableHlo.after_cons, StableHlo.after_nil]
  rw [StableHlo.binary_result]
  unfold Cert.Sage.K.RefSide.ecatR
  refine concat2_congr _ _ _ _ _ _ ?_ ?_
  · edge_results_rw
    rw [h1]
    rfl
  · edge_results_rw
    rw [h3]
    rfl

/-! ## What a line does not write -/

theorem keep0_arg0 (W : Valuation τ sig (Elt Ideal)) :
    StableHlo.after (hostOps0 (F := Ideal)) W (Proc.devRef .tc main_arg0) = W (Proc.devRef .tc main_arg0) := by
  not_written

theorem keep0_arg2 (W : Valuation τ sig (Elt Ideal)) :
    StableHlo.after (hostOps0 (F := Ideal)) W (Proc.devRef .tc main_arg2) = W (Proc.devRef .tc main_arg2) := by
  not_written

theorem keep0_arg3 (W : Valuation τ sig (Elt Ideal)) :
    StableHlo.after (hostOps0 (F := Ideal)) W (Proc.devRef .tc main_arg3) = W (Proc.devRef .tc main_arg3) := by
  not_written

theorem keep0_arg4 (W : Valuation τ sig (Elt Ideal)) :
    StableHlo.after (hostOps0 (F := Ideal)) W (Proc.devRef .tc main_arg4) = W (Proc.devRef .tc main_arg4) := by
  not_written

theorem keep1_v22_0 (W : Valuation τ sig (Elt Ideal)) :
    StableHlo.after (hostOps1 (F := Ideal)) W (Proc.devRef .tc main_v22_0) = W (Proc.devRef .tc main_v22_0) := by
  not_written

theorem keep1_v1 (W : Valuation τ sig (Elt Ideal)) :
    StableHlo.after (hostOps1 (F := Ideal)) W (Proc.devRef .tc main_v1) = W (Proc.devRef .tc main_v1) := by
  not_written

theorem keep1_v3 (W : Valuation τ sig (Elt Ideal)) :
    StableHlo.after (hostOps1 (F := Ideal)) W (Proc.devRef .tc main_v3) = W (Proc.devRef .tc main_v3) := by
  not_written

theorem keep2_v37 (W : Valuation τ sig (Elt Ideal)) :
    StableHlo.after (hostOps2 (F := Ideal)) W (Proc.devRef .tc main_v37) = W (Proc.devRef .tc main_v37) := by
  not_written

theorem keep2_v1 (W : Valuation τ sig (Elt Ideal)) :
    StableHlo.after (hostOps2 (F := Ideal)) W (Proc.devRef .tc main_v1) = W (Proc.devRef .tc main_v1) := by
  not_written

theorem keep2_v3 (W : Valuation τ sig (Elt Ideal)) :
    StableHlo.after (hostOps2 (F := Ideal)) W (Proc.devRef .tc main_v3) = W (Proc.devRef .tc main_v3) := by
  not_written

theorem keep3_v56_0 (W : Valuation τ sig (Elt Ideal)) :
    StableHlo.after (hostOps3 (F := Ideal)) W (Proc.devRef .tc main_v56_0) = W (Proc.devRef .tc main_v56_0) := by
  not_written

theorem keep3_v1 (W : Valuation τ sig (Elt Ideal)) :
    StableHlo.after (hostOps3 (F := Ideal)) W (Proc.devRef .tc main_v1) = W (Proc.devRef .tc main_v1) := by
  not_written

theorem keep3_v3 (W : Valuation τ sig (Elt Ideal)) :
    StableHlo.after (hostOps3 (F := Ideal)) W (Proc.devRef .tc main_v3) = W (Proc.devRef .tc main_v3) := by
  not_written

theorem keep3_arg5 (W : Valuation τ sig (Elt Ideal)) :
    StableHlo.after (hostOps3 (F := Ideal)) W (Proc.devRef .tc main_arg5) = W (Proc.devRef .tc main_arg5) := by
  not_written

theorem keep3_arg6 (W : Valuation τ sig (Elt Ideal)) :
    StableHlo.after (hostOps3 (F := Ideal)) W (Proc.devRef .tc main_arg6) = W (Proc.devRef .tc main_arg6) := by
  not_written

theorem keep3_arg7 (W : Valuation τ sig (Elt Ideal)) :
    StableHlo.after (hostOps3 (F := Ideal)) W (Proc.devRef .tc main_arg7) = W (Proc.devRef .tc main_arg7) := by
  not_written

theorem keep4_arg5 (W : Valuation τ sig (Elt Ideal)) :
    StableHlo.after (hostOps4 (F := Ideal)) W (Proc.devRef .tc main_arg5) = W (Proc.devRef .tc main_arg5) := by
  not_written

theorem keep4_arg6 (W : Valuation τ sig (Elt Ideal)) :
    StableHlo.after (hostOps4 (F := Ideal)) W (Proc.devRef .tc main_arg6) = W (Proc.devRef .tc main_arg6) := by
  not_written

theorem keep4_arg7 (W : Valuation τ sig (Elt Ideal)) :
    StableHlo.after (hostOps4 (F := Ideal)) W (Proc.devRef .tc main_arg7) = W (Proc.devRef .tc main_arg7) := by
  not_written

end Cert.Sage.K.Stretch

end
-- ==== Proof.RefLayers.lean ====
/-
  The reference program's dense layers, read as the mathematics of Spec.lean.

  Each SAGE layer of the reference is two matrix products with a bias row between them (`conv`), followed by the two-pass
  normalisation and the leaky rectifier (`normR`): the column means are the column totals divided by the node count, the
  centred entries are squared and totalled row by row, and each centred entry is divided by the square root of
  `ε + total / n`.  The second layer's neighbour aggregation is the first layer's, applied to the first layer's output.
-/
import proofs.«149413_j36197984370744_1_alg».proof.Proof.Spec
import proofs.«149413_j36197984370744_1_alg».proof.Proof.RefRead
import Idealize.ShloMosaic.Lib.ValueIdx
import Idealize.ShloMosaic.PureOps.Ideal.Laws

noncomputable section

namespace Cert.Sage.Ref

open Cert.ReferenceIdeal Cert.ReferenceIdeal.ReadP Idealize.ShloMosaic Idealize.ShloMosaic.ValueIdx
open scoped BigOperators

/-- A sum over a rank-1 index set is the sum over its one coordinate. -/
theorem sum_idx1 {M : Type*} [AddCommMonoid M] {n : ℕ} (f : (⟨1, ![n]⟩ : Shape).Idx → M) :
    ∑ j, f j = ∑ r : Fin n, f (ix1 r) := by
  let e : (⟨1, ![n]⟩ : Shape).Idx ≃ Fin n :=
    ⟨fun j => j 0, fun r => ix1 r, fun j => (eq_ix1 j).symm, fun _ => rfl⟩
  rw [← Equiv.sum_comp e.symm f]
  rfl

/-- The first layer before its normalisation: the aggregated features times `wl`, plus the bias row, plus the node
    features times `wr`. -/
theorem conv0 (x0 : (⟨S50000x128, .f32⟩ : BufTy).Contents (Elt Ideal)) (x1 : (⟨S2x400000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v27 (F := Ideal) x0 x1 x2 x3 x4
      = Cert.Sage.conv (R := 50000) (K := 128) (D := 128) (val_main_v21 (F := Ideal) x0 x1) (x0) x2 x3 x4 := by
  funext i
  rw [val_main_v27_apply, val_main_v25_apply, val_main_v22_apply, val_main_v24_apply, val_main_v23_apply, val_main_v26_apply]
  have e1 : ∀ k : Fin 128, lidx_main_v22 i k = ix2 (i 0) k := fun k => funext fun a => Fin.ext (by match a with | ⟨0, _⟩ => rfl | ⟨1, _⟩ => rfl)
  have e2 : ∀ k : Fin 128, ridx_main_v22 i k = ix2 k (i 1) := fun k => funext fun a => Fin.ext (by match a with | ⟨0, _⟩ => rfl | ⟨1, _⟩ => rfl)
  have e3 : idx_main_v23 (idx_main_v24 i) = ix1 (i 1) := funext fun a => Fin.ext (by match a with | ⟨0, _⟩ => rfl)
  have e4 : ∀ k : Fin 128, lidx_main_v26 i k = ix2 (i 0) k := fun k => funext fun a => Fin.ext (by match a with | ⟨0, _⟩ => rfl | ⟨1, _⟩ => rfl)
  have e5 : ∀ k : Fin 128, ridx_main_v26 i k = ix2 k (i 1) := fun k => funext fun a => Fin.ext (by match a with | ⟨0, _⟩ => rfl | ⟨1, _⟩ => rfl)
  simp only [e1, e2, e3, e4, e5]
  rfl

/-- The first layer's row of column means: each column's total over the nodes divided by the node count. -/
theorem mean0 (x0 : (⟨S50000x128, .f32⟩ : BufTy).Contents (Elt Ideal)) (x1 : (⟨S2x400000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (j : S1x128.Idx) :
    val_main_v31 (F := Ideal) x0 x1 x2 x3 x4 j = meanCol (R := 50000) (D := 128) (val_main_v27 (F := Ideal) x0 x1 x2 x3 x4) (j 1) := by
  rw [val_main_v31_apply, val_main_v29_apply, val_main_v30_apply, val_main_cst_5_apply, val_main_v28_apply, val_main_cst_4_apply]
  have e : ∀ k : Fin 50000, idx_main_v28 (idx_main_v29 j) k = ix2 k (j 1) := fun k => funext fun a => Fin.ext (by match a with | ⟨0, _⟩ => rfl | ⟨1, _⟩ => rfl)
  simp only [e, Ideal.ofBits_def, Ideal.ofBits_zero_f32, zero_add]
  rfl

/-- The first layer's centred entries. -/
theorem cen0 (x0 : (⟨S50000x128, .f32⟩ : BufTy).Contents (Elt Ideal)) (x1 : (⟨S2x400000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (i : S50000x128.Idx) :
    val_main_v33 (F := Ideal) x0 x1 x2 x3 x4 i = (val_main_v27 (F := Ideal) x0 x1 x2 x3 x4) i - meanCol (R := 50000) (D := 128) (val_main_v27 (F := Ideal) x0 x1 x2 x3 x4) (i 1) := by
  rw [val_main_v33_apply, val_main_v32_apply, mean0]
  rfl

/-- The first layer's total of the squared centred entries, row by row. -/
theorem sq0 (x0 : (⟨S50000x128, .f32⟩ : BufTy).Contents (Elt Ideal)) (x1 : (⟨S2x400000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (j0 : S_.Idx) :
    val_main_v36 (F := Ideal) x0 x1 x2 x3 x4 j0 = ∑ r : Fin 50000, ∑ c : Fin 128,
      ((val_main_v27 (F := Ideal) x0 x1 x2 x3 x4) (ix2 r c) - meanCol (R := 50000) (D := 128) (val_main_v27 (F := Ideal) x0 x1 x2 x3 x4) c) * ((val_main_v27 (F := Ideal) x0 x1 x2 x3 x4) (ix2 r c) - meanCol (R := 50000) (D := 128) (val_main_v27 (F := Ideal) x0 x1 x2 x3 x4) c) := by
  rw [val_main_v36_apply, val_main_cst_7_apply, sum_idx1]
  simp only [val_main_v35_apply, val_main_cst_6_apply, val_main_v34_apply, cen0]
  have e : ∀ (r : Fin 50000) (c : Fin 128), idx_main_v35 (ix1 r) c = ix2 r c := fun r c => funext fun a => Fin.ext (by match a with | ⟨0, _⟩ => rfl | ⟨1, _⟩ => rfl)
  simp only [e, Ideal.ofBits_def, Ideal.ofBits_zero_f32, zero_add]
  rfl

/-- The first layer's normalisation and rectifier are the two-pass arrangement. -/
theorem norm0 (x0 : (⟨S50000x128, .f32⟩ : BufTy).Contents (Elt Ideal)) (x1 : (⟨S2x400000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v46 (F := Ideal) x0 x1 x2 x3 x4 = Cert.Sage.normR (R := 50000) (val_main_v27 (F := Ideal) x0 x1 x2 x3 x4) := by
  funext i
  rw [val_main_v46_apply, val_main_v43_apply, val_main_v45_apply, val_main_v42_apply, val_main_v44_apply,
    val_main_cst_10_apply, val_main_cst_11_apply, val_main_v41_apply, val_main_v40_apply, val_main_v39_apply,
    val_main_v38_apply, val_main_cst_9_apply, val_main_v37_apply, val_main_cst_8_apply, sq0, cen0]
  rfl

/-- The second layer aggregates the first layer's output with the same index plumbing as the first layer aggregates
    the node features. -/
theorem agg1 (x0 : (⟨S50000x128, .f32⟩ : BufTy).Contents (Elt Ideal)) (x1 : (⟨S2x400000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v64 (F := Ideal) x0 x1 x2 x3 x4 = val_main_v21 (F := Ideal) (val_main_v46 (F := Ideal) x0 x1 x2 x3 x4) x1 := by
  rfl

/-- The second layer before its normalisation. -/
theorem conv1 (x0 : (⟨S50000x128, .f32⟩ : BufTy).Contents (Elt Ideal)) (x1 : (⟨S2x400000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v70 (F := Ideal) x0 x1 x2 x3 x4 x5 x6 x7
      = Cert.Sage.conv (R := 50000) (K := 128) (D := 128) (val_main_v64 (F := Ideal) x0 x1 x2 x3 x4) (val_main_v46 (F := Ideal) x0 x1 x2 x3 x4) x5 x6 x7 := by
  funext i
  rw [val_main_v70_apply, val_main_v68_apply, val_main_v65_apply, val_main_v67_apply, val_main_v66_apply, val_main_v69_apply]
  have e1 : ∀ k : Fin 128, lidx_main_v65 i k = ix2 (i 0) k := fun k => funext fun a => Fin.ext (by match a with | ⟨0, _⟩ => rfl | ⟨1, _⟩ => rfl)
  have e2 : ∀ k : Fin 128, ridx_main_v65 i k = ix2 k (i 1) := fun k => funext fun a => Fin.ext (by match a with | ⟨0, _⟩ => rfl | ⟨1, _⟩ => rfl)
  have e3 : idx_main_v66 (idx_main_v67 i) = ix1 (i 1) := funext fun a => Fin.ext (by match a with | ⟨0, _⟩ => rfl)
  have e4 : ∀ k : Fin 128, lidx_main_v69 i k = ix2 (i 0) k := fun k => funext fun a => Fin.ext (by match a with | ⟨0, _⟩ => rfl | ⟨1, _⟩ => rfl)
  have e5 : ∀ k : Fin 128, ridx_main_v69 i k = ix2 k (i 1) := fun k => funext fun a => Fin.ext (by match a with | ⟨0, _⟩ => rfl | ⟨1, _⟩ => rfl)
  simp only [e1, e2, e3, e4, e5]
  rfl

/-- The second layer's row of column means. -/
theorem mean1 (x0 : (⟨S50000x128, .f32⟩ : BufTy).Contents (Elt Ideal)) (x1 : (⟨S2x400000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (j : S1x128.Idx) :
    val_main_v74 (F := Ideal) x0 x1 x2 x3 x4 x5 x6 x7 j = meanCol (R := 50000) (D := 128) (val_main_v70 (F := Ideal) x0 x1 x2 x3 x4 x5 x6 x7) (j 1) := by
  rw [val_main_v74_apply, val_main_v72_apply, val_main_v73_apply, val_main_cst_19_apply, val_main_v71_apply, val_main_cst_18_apply]
  have e : ∀ k : Fin 50000, idx_main_v71 (idx_main_v72 j) k = ix2 k (j 1) := fun k => funext fun a => Fin.ext (by match a with | ⟨0, _⟩ => rfl | ⟨1, _⟩ => rfl)
  simp only [e, Ideal.ofBits_def, Ideal.ofBits_zero_f32, zero_add]
  rfl

/-- The second layer's centred entries. -/
theorem cen1 (x0 : (⟨S50000x128, .f32⟩ : BufTy).Contents (Elt Ideal)) (x1 : (⟨S2x400000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (i : S50000x128.Idx) :
    val_main_v76 (F := Ideal) x0 x1 x2 x3 x4 x5 x6 x7 i = (val_main_v70 (F := Ideal) x0 x1 x2 x3 x4 x5 x6 x7) i - meanCol (R := 50000) (D := 128) (val_main_v70 (F := Ideal) x0 x1 x2 x3 x4 x5 x6 x7) (i 1) := by
  rw [val_main_v76_apply, val_main_v75_apply, mean1]
  rfl

/-- The second layer's total of the squared centred entries, row by row. -/
theorem sq1 (x0 : (⟨S50000x128, .f32⟩ : BufTy).Contents (Elt Ideal)) (x1 : (⟨S2x400000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (j0 : S_.Idx) :
    val_main_v79 (F := Ideal) x0 x1 x2 x3 x4 x5 x6 x7 j0 = ∑ r : Fin 50000, ∑ c : Fin 128,
      ((val_main_v70 (F := Ideal) x0 x1 x2 x3 x4 x5 x6 x7) (ix2 r c) - meanCol (R := 50000) (D := 128) (val_main_v70 (F := Ideal) x0 x1 x2 x3 x4 x5 x6 x7) c) * ((val_main_v70 (F := Ideal) x0 x1 x2 x3 x4 x5 x6 x7) (ix2 r c) - meanCol (R := 50000) (D := 128) (val_main_v70 (F := Ideal) x0 x1 x2 x3 x4 x5 x6 x7) c) := by
  rw [val_main_v79_apply, val_main_cst_21_apply, sum_idx1]
  simp only [val_main_v78_apply, val_main_cst_20_apply, val_main_v77_apply, cen1]
  have e : ∀ (r : Fin 50000) (c : Fin 128), idx_main_v78 (ix1 r) c = ix2 r c := fun r c => funext fun a => Fin.ext (by match a with | ⟨0, _⟩ => rfl | ⟨1, _⟩ => rfl)
  simp only [e, Ideal.ofBits_def, Ideal.ofBits_zero_f32, zero_add]
  rfl

/-- The second layer's normalisation and rectifier are the two-pass arrangement. -/
theorem norm1 (x0 : (⟨S50000x128, .f32⟩ : BufTy).Contents (Elt Ideal)) (x1 : (⟨S2x400000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v89 (F := Ideal) x0 x1 x2 x3 x4 x5 x6 x7 = Cert.Sage.normR (R := 50000) (val_main_v70 (F := Ideal) x0 x1 x2 x3 x4 x5 x6 x7) := by
  funext i
  rw [val_main_v89_apply, val_main_v86_apply, val_main_v88_apply, val_main_v85_apply, val_main_v87_apply,
    val_main_cst_24_apply, val_main_cst_25_apply, val_main_v84_apply, val_main_v83_apply, val_main_v82_apply,
    val_main_v81_apply, val_main_cst_23_apply, val_main_v80_apply, val_main_cst_22_apply, sq1, cen1]
  rfl

end Cert.Sage.Ref

end
-- ==== Proof.RefMlp.lean ====
/-
  The reference program's edge network, read as the mathematics of Spec.lean: three linear maps (a matrix product plus a
  bias row), the leaky rectifier after the first two.
-/
import proofs.«149413_j36197984370744_1_alg».proof.Proof.Spec
import proofs.«149413_j36197984370744_1_alg».proof.Proof.RefRead
import Idealize.ShloMosaic.Lib.ValueIdx
import Idealize.ShloMosaic.PureOps.Ideal.Laws

noncomputable section

namespace Cert.Sage.Ref

open Cert.ReferenceIdeal Cert.ReferenceIdeal.ReadP Idealize.ShloMosaic Idealize.ShloMosaic.ValueIdx
open scoped BigOperators

/-- The edge network's first linear map. -/
theorem lin1 (x0 : (⟨S50000x128, .f32⟩ : BufTy).Contents (Elt Ideal)) (x1 : (⟨S2x400000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S256x128, .f32⟩ : BufTy).Contents (Elt Ideal)) (x9 : (⟨S128, .f32⟩ : BufTy).Contents (Elt Ideal)) :
    val_main_v108 (F := Ideal) x0 x1 x2 x3 x4 x5 x6 x7 x8 x9
      = Cert.Sage.dec (R := 400000) (K := 256) (D := 128) (val_main_v104 (F := Ideal) x0 x1 x2 x3 x4 x5 x6 x7) x8 x9 := by
  funext i
  rw [val_main_v108_apply, val_main_v105_apply, val_main_v107_apply, val_main_v106_apply]
  have e1 : ∀ k : Fin 256, lidx_main_v105 i k = ix2 (i 0) k := fun k => funext fun a => Fin.ext (by match a with | ⟨0, _⟩ => rfl | ⟨1, _⟩ => rfl)
  have e2 : ∀ k : Fin 256, ridx_main_v105 i k = ix2 k (i 1) := fun k => funext fun a => Fin.ext (by match a with | ⟨0, _⟩ => rfl | ⟨1, _⟩ => rfl)
  have e3 : idx_main_v106 (idx_main_v107 i) = ix1 (i 1) := funext fun a => Fin.ext (by match a with | ⟨0, _⟩ => rfl)
  simp only [e1, e2, e3]
  rfl

/-- The rectifier after the first linear map. -/
theorem act1 (x0 : (⟨S50000x128, .f32⟩ : BufTy).Contents (Elt Ideal)) (x1 : (⟨S2x400000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S256x128, .f32⟩ : BufTy).Contents (Elt Ideal)) (x9 : (⟨S128, .f32⟩ : BufTy).Contents (Elt Ideal)) :
    val_main_v113 (F := Ideal) x0 x1 x2 x3 x4 x5 x6 x7 x8 x9 = Cert.Sage.leakyM (R := 400000) (D := 128) (val_main_v108 (F := Ideal) x0 x1 x2 x3 x4 x5 x6 x7 x8 x9) := by
  funext i
  rw [val_main_v113_apply, val_main_v110_apply, val_main_v112_apply, val_main_v109_apply, val_main_v111_apply,
    val_main_cst_30_apply, val_main_cst_31_apply]
  rfl

/-- The edge network's second linear map. -/
theorem lin2 (x0 : (⟨S50000x128, .f32⟩ : BufTy).Contents (Elt Ideal)) (x1 : (⟨S2x400000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S256x128, .f32⟩ : BufTy).Contents (Elt Ideal)) (x9 : (⟨S128, .f32⟩ : BufTy).Contents (Elt Ideal)) (x10 : (⟨S128x64, .f32⟩ : BufTy).Contents (Elt Ideal)) (x11 : (⟨S64, .f32⟩ : BufTy).Contents (Elt Ideal)) :
    val_main_v117 (F := Ideal) x0 x1 x2 x3 x4 x5 x6 x7 x8 x9 x10 x11
      = Cert.Sage.dec (R := 400000) (K := 128) (D := 64) (val_main_v113 (F := Ideal) x0 x1 x2 x3 x4 x5 x6 x7 x8 x9) x10 x11 := by
  funext i
  rw [val_main_v117_apply, val_main_v114_apply, val_main_v116_apply, val_main_v115_apply]
  have e1 : ∀ k : Fin 128, lidx_main_v114 i k = ix2 (i 0) k := fun k => funext fun a => Fin.ext (by match a with | ⟨0, _⟩ => rfl | ⟨1, _⟩ => rfl)
  have e2 : ∀ k : Fin 128, ridx_main_v114 i k = ix2 k (i 1) := fun k => funext fun a => Fin.ext (by match a with | ⟨0, _⟩ => rfl | ⟨1, _⟩ => rfl)
  have e3 : idx_main_v115 (idx_main_v116 i) = ix1 (i 1) := funext fun a => Fin.ext (by match a with | ⟨0, _⟩ => rfl)
  simp only [e1, e2, e3]
  rfl

/-- The rectifier after the second linear map. -/
theorem act2 (x0 : (⟨S50000x128, .f32⟩ : BufTy).Contents (Elt Ideal)) (x1 : (⟨S2x400000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S256x128, .f32⟩ : BufTy).Contents (Elt Ideal)) (x9 : (⟨S128, .f32⟩ : BufTy).Contents (Elt Ideal)) (x10 : (⟨S128x64, .f32⟩ : BufTy).Contents (Elt Ideal)) (x11 : (⟨S64, .f32⟩ : BufTy).Contents (Elt Ideal)) :
    val_main_v122 (F := Ideal) x0 x1 x2 x3 x4 x5 x6 x7 x8 x9 x10 x11 = Cert.Sage.leakyM (R := 400000) (D := 64) (val_main_v117 (F := Ideal) x0 x1 x2 x3 x4 x5 x6 x7 x8 x9 x10 x11) := by
  funext i
  rw [val_main_v122_apply, val_main_v119_apply, val_main_v121_apply, val_main_v118_apply, val_main_v120_apply,
    val_main_cst_32_apply, val_main_cst_33_apply]
  rfl

/-- The edge network's last linear map. -/
theorem lin3 (x0 : (⟨S50000x128, .f32⟩ : BufTy).Contents (Elt Ideal)) (x1 : (⟨S2x400000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S256x128, .f32⟩ : BufTy).Contents (Elt Ideal)) (x9 : (⟨S128, .f32⟩ : BufTy).Contents (Elt Ideal)) (x10 : (⟨S128x64, .f32⟩ : BufTy).Contents (Elt Ideal)) (x11 : (⟨S64, .f32⟩ : BufTy).Contents (Elt Ideal)) (x12 : (⟨S64x8, .f32⟩ : BufTy).Contents (Elt Ideal)) (x13 : (⟨S8, .f32⟩ : BufTy).Contents (Elt Ideal)) :
    val_main_v126 (F := Ideal) x0 x1 x2 x3 x4 x5 x6 x7 x8 x9 x10 x11 x12 x13
      = Cert.Sage.dec (R := 400000) (K := 64) (D := 8) (val_main_v122 (F := Ideal) x0 x1 x2 x3 x4 x5 x6 x7 x8 x9 x10 x11) x12 x13 := by
  funext i
  rw [val_main_v126_apply, val_main_v123_apply, val_main_v125_apply, val_main_v124_apply]
  have e1 : ∀ k : Fin 64, lidx_main_v123 i k = ix2 (i 0) k := fun k => funext fun a => Fin.ext (by match a with | ⟨0, _⟩ => rfl | ⟨1, _⟩ => rfl)
  have e2 : ∀ k : Fin 64, ridx_main_v123 i k = ix2 k (i 1) := fun k => funext fun a => Fin.ext (by match a with | ⟨0, _⟩ => rfl | ⟨1, _⟩ => rfl)
  have e3 : idx_main_v124 (idx_main_v125 i) = ix1 (i 1) := funext fun a => Fin.ext (by match a with | ⟨0, _⟩ => rfl)
  simp only [e1, e2, e3]
  rfl

/-- The reference's edge scores are the edge network of the concatenated edge features. -/
theorem mlp_ref (x0 : (⟨S50000x128, .f32⟩ : BufTy).Contents (Elt Ideal)) (x1 : (⟨S2x400000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S256x128, .f32⟩ : BufTy).Contents (Elt Ideal)) (x9 : (⟨S128, .f32⟩ : BufTy).Contents (Elt Ideal)) (x10 : (⟨S128x64, .f32⟩ : BufTy).Contents (Elt Ideal)) (x11 : (⟨S64, .f32⟩ : BufTy).Contents (Elt Ideal)) (x12 : (⟨S64x8, .f32⟩ : BufTy).Contents (Elt Ideal)) (x13 : (⟨S8, .f32⟩ : BufTy).Contents (Elt Ideal)) :
    val_main_v126 (F := Ideal) x0 x1 x2 x3 x4 x5 x6 x7 x8 x9 x10 x11 x12 x13
      = Cert.Sage.mlp (E := 400000) (val_main_v104 (F := Ideal) x0 x1 x2 x3 x4 x5 x6 x7) x8 x9 x10 x11 x12 x13 := by
  rw [lin3, act2, lin2, act1, lin1]
  rfl

end Cert.Sage.Ref

end
-- ==== Proof.RefTotal.lean ====
/-
  The reference's result as one closed form over its arguments.

  With `agg h e` the mean of the neighbours' rows of `h` along the edges `e` (kept opaque) and `ecat h e` the two
  endpoint rows of `h` side by side for every edge, the reference's edge scores are
      mlp (ecat H2 e) …   where   H1 = normR (conv (agg x e) x …),   H2 = normR (conv (agg H1 e) H1 …).
-/
import proofs.«149413_j36197984370744_1_alg».proof.Proof.RefLayers
import proofs.«149413_j36197984370744_1_alg».proof.Proof.RefMlp

noncomputable section

namespace Cert.Sage.Ref

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx
open scoped BigOperators

/-- The mean aggregation both layers share: row `p` is the total of the rows of `h` at the sources of the edges into
    `p`, divided by the larger of their number and one. -/
def agg (h : (⟨S50000x128, .f32⟩ : BufTy).Contents (Elt Ideal)) (e : (⟨S2x400000, .i32⟩ : BufTy).Contents (Elt Ideal)) : (⟨S50000x128, .f32⟩ : BufTy).Contents (Elt Ideal) :=
  val_main_v21 (F := Ideal) h e

/-- The edge features: for every edge the row of `h` at its source and the row at its target, side by side. -/
def ecat (h : (⟨S50000x128, .f32⟩ : BufTy).Contents (Elt Ideal)) (e : (⟨S2x400000, .i32⟩ : BufTy).Contents (Elt Ideal)) : (⟨S400000x256, .f32⟩ : BufTy).Contents (Elt Ideal) :=
  concatenate S400000x256 1 [⟨S400000x128, Host.gather gather_S50000x128_S400000x1_S400000x128_1_0_n_n_0_1_1128 h (val_main_v95 (F := Ideal) e)⟩, ⟨S400000x128, Host.gather gather_S50000x128_S400000x1_S400000x128_1_0_n_n_0_1_1128 h (val_main_v102 (F := Ideal) e)⟩] concatenates_S400000x128_S400000x128_S400000x256_d1

/-- The reference's concatenated edge features are `ecat` of its second layer's output. -/
theorem ref_ecat (x0 : (⟨S50000x128, .f32⟩ : BufTy).Contents (Elt Ideal)) (x1 : (⟨S2x400000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v104 (F := Ideal) x0 x1 x2 x3 x4 x5 x6 x7 = ecat (val_main_v89 (F := Ideal) x0 x1 x2 x3 x4 x5 x6 x7) x1 := by
  unfold val_main_v104 val_main_v96 val_main_v103 ecat
  rfl

/-- THE REFERENCE'S VALUE: the edge network of the endpoint rows of the second layer's output, each layer the two-pass
    normalisation of `conv` of the aggregated and the plain features. -/
theorem ref_value (x0 : (⟨S50000x128, .f32⟩ : BufTy).Contents (Elt Ideal)) (x1 : (⟨S2x400000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S256x128, .f32⟩ : BufTy).Contents (Elt Ideal)) (x9 : (⟨S128, .f32⟩ : BufTy).Contents (Elt Ideal)) (x10 : (⟨S128x64, .f32⟩ : BufTy).Contents (Elt Ideal)) (x11 : (⟨S64, .f32⟩ : BufTy).Contents (Elt Ideal)) (x12 : (⟨S64x8, .f32⟩ : BufTy).Contents (Elt Ideal)) (x13 : (⟨S8, .f32⟩ : BufTy).Contents (Elt Ideal)) :
    val_main_v126 (F := Ideal) x0 x1 x2 x3 x4 x5 x6 x7 x8 x9 x10 x11 x12 x13
      = Cert.Sage.mlp (E := 400000) (ecat (Cert.Sage.normR (R := 50000) (Cert.Sage.conv (R := 50000) (K := 128) (D := 128) (agg (Cert.Sage.normR (R := 50000) (Cert.Sage.conv (R := 50000) (K := 128) (D := 128) (agg x0 x1) (x0) x2 x3 x4)) x1) (Cert.Sage.normR (R := 50000) (Cert.Sage.conv (R := 50000) (K := 128) (D := 128) (agg x0 x1) (x0) x2 x3 x4)) x5 x6 x7)) x1) x8 x9 x10 x11 x12 x13 := by
  rw [mlp_ref, ref_ecat, norm1, conv1, agg1, norm0, conv0]
  rfl

end Cert.Sage.Ref

end
-- ==== Proof.KValue.lean ====
/-
  The kernel program's result as one closed form of its arguments.

  The program is five regions with host operations between them. Boundary by boundary, from the launch to the return:
  the host operations before region 0 aggregate the node features along the edges; region 0 leaves the dense layer
  `conv` of the aggregated and the plain features and its statistics row; the host operations after it turn the row
  into `msRow`; region 1 normalises and activates, which together is `normK`; the same four steps make the second
  layer; the host operations before region 4 put the endpoint rows side by side and region 4 applies the edge network.
  A buffer that a region or a line of host operations does not write keeps its contents: the arguments stay what the
  launch memory holds, and the edge index vectors computed before region 0 are read again before regions 2 and 4.
-/
import proofs.«149413_j36197984370744_1_alg».proof.Proof.Gen.KernelIdeal.Frame
import proofs.«149413_j36197984370744_1_alg».proof.Proof.Spec
import proofs.«149413_j36197984370744_1_alg».proof.Proof.KNormAct
import proofs.«149413_j36197984370744_1_alg».proof.Proof.KMlp
import proofs.«149413_j36197984370744_1_alg».proof.Proof.KDenseGrid
import proofs.«149413_j36197984370744_1_alg».proof.Proof.KDenseGrid2
import proofs.«149413_j36197984370744_1_alg».proof.Proof.KHostNorm
import proofs.«149413_j36197984370744_1_alg».proof.Proof.KHostEdges
import proofs.«149413_j36197984370744_1_alg».proof.Proof.RefTotal

set_option maxRecDepth 16384

noncomputable section

namespace Cert.Sage.K

open Idealize.ShloMosaic Idealize.ShloMosaic.ValueIdx Idealize.ShloMosaic.TcCoe Idealize.SL.Sem Idealize.ShloMosaic.Tactic
open Idealize.ShloMosaic.Pipeline (Dat)
open Cert.KernelIdeal Cert.KernelIdeal.Gen
open scoped BigOperators

namespace Stretch

/-! ## The boundaries, one after the other -/

section Assembly
variable (m : (ℓ : Loc nD τ sig) → Buf (Elt Ideal) ℓ) (ρ : Dev nD → PrngReg) (c : Dev nD)

/-! The edge sources and targets, computed before region 0, are read again before regions 2 and 4: no region and no
    later host operation writes them. -/

theorem src1 : W1 (F := Ideal) m ρ c (Proc.devRef .tc main_v1) = Cert.ReferenceIdeal.ReadP.val_main_v1 (F := Ideal) (m ((c : Thread nD τ).loc main_arg1)) :=
  Stretch.stretch0_src (W0 m ρ c)
theorem src4 : W4 (F := Ideal) m ρ c (Proc.devRef .tc main_v1) = Cert.ReferenceIdeal.ReadP.val_main_v1 (F := Ideal) (m ((c : Thread nD τ).loc main_arg1)) :=
  (W4_of_ne m ρ c main_v1 (by decide)).trans ((Stretch.keep1_v1 (W2 m ρ c)).trans
    ((W2_of_ne m ρ c main_v1 (by decide)).trans (src1 m ρ c)))
theorem src8 : W8 (F := Ideal) m ρ c (Proc.devRef .tc main_v1) = Cert.ReferenceIdeal.ReadP.val_main_v1 (F := Ideal) (m ((c : Thread nD τ).loc main_arg1)) :=
  (W8_of_ne m ρ c main_v1 (by decide)).trans ((Stretch.keep3_v1 (W6 m ρ c)).trans
    ((W6_of_ne m ρ c main_v1 (by decide)).trans ((Stretch.keep2_v1 (W4 m ρ c)).trans (src4 m ρ c))))

theorem dst1 : W1 (F := Ideal) m ρ c (Proc.devRef .tc main_v3) = Cert.ReferenceIdeal.ReadP.val_main_v3 (F := Ideal) (m ((c : Thread nD τ).loc main_arg1)) :=
  Stretch.stretch0_dst (W0 m ρ c)
theorem dst4 : W4 (F := Ideal) m ρ c (Proc.devRef .tc main_v3) = Cert.ReferenceIdeal.ReadP.val_main_v3 (F := Ideal) (m ((c : Thread nD τ).loc main_arg1)) :=
  (W4_of_ne m ρ c main_v3 (by decide)).trans ((Stretch.keep1_v3 (W2 m ρ c)).trans
    ((W2_of_ne m ρ c main_v3 (by decide)).trans (dst1 m ρ c)))
theorem dst8 : W8 (F := Ideal) m ρ c (Proc.devRef .tc main_v3) = Cert.ReferenceIdeal.ReadP.val_main_v3 (F := Ideal) (m ((c : Thread nD τ).loc main_arg1)) :=
  (W8_of_ne m ρ c main_v3 (by decide)).trans ((Stretch.keep3_v3 (W6 m ρ c)).trans
    ((W6_of_ne m ρ c main_v3 (by decide)).trans ((Stretch.keep2_v3 (W4 m ρ c)).trans (dst4 m ρ c))))

/-! Layer 1. -/

theorem z0 : W2 (F := Ideal) m ρ c (Proc.devRef .tc main_v22_0) = Cert.Sage.conv (R := 50000) (K := 128) (D := 128) (Cert.Sage.Ref.agg ((m ((c : Thread nD τ).loc main_arg0))) (m ((c : Thread nD τ).loc main_arg1))) ((m ((c : Thread nD τ).loc main_arg0))) (m ((c : Thread nD τ).loc main_arg2)) (m ((c : Thread nD τ).loc main_arg3)) (m ((c : Thread nD τ).loc main_arg4)) := by
  have e := region0_z (V1 (F := Ideal) m ρ) c
  have a0 : V1 (F := Ideal) m ρ c (Pipeline.arrRef spec0 0) = Cert.Sage.Ref.agg ((m ((c : Thread nD τ).loc main_arg0))) (m ((c : Thread nD τ).loc main_arg1)) := Stretch.stretch0_agg (W0 m ρ c)
  have a1 : V1 (F := Ideal) m ρ c (Pipeline.arrRef spec0 1) = (m ((c : Thread nD τ).loc main_arg0)) := Stretch.keep0_arg0 (W0 m ρ c)
  have a2 : V1 (F := Ideal) m ρ c (Pipeline.arrRef spec0 2) = (m ((c : Thread nD τ).loc main_arg2)) := Stretch.keep0_arg2 (W0 m ρ c)
  have a3 : V1 (F := Ideal) m ρ c (Pipeline.arrRef spec0 3) = (m ((c : Thread nD τ).loc main_arg3)) := Stretch.keep0_arg3 (W0 m ρ c)
  have a4 : V1 (F := Ideal) m ρ c (Pipeline.arrRef spec0 4) = (m ((c : Thread nD τ).loc main_arg4)) := Stretch.keep0_arg4 (W0 m ρ c)
  rw [a0, a1, a2, a3, a4] at e
  exact (W2_arr m ρ c 5).trans e

theorem s0 : W2 (F := Ideal) m ρ c (Proc.devRef .tc main_v22_1) = Cert.Sage.stats (R := 50000) (Cert.Sage.conv (R := 50000) (K := 128) (D := 128) (Cert.Sage.Ref.agg ((m ((c : Thread nD τ).loc main_arg0))) (m ((c : Thread nD τ).loc main_arg1))) ((m ((c : Thread nD τ).loc main_arg0))) (m ((c : Thread nD τ).loc main_arg2)) (m ((c : Thread nD τ).loc main_arg3)) (m ((c : Thread nD τ).loc main_arg4))) := by
  have e := region0_stats (V1 (F := Ideal) m ρ) c
  have a0 : V1 (F := Ideal) m ρ c (Pipeline.arrRef spec0 0) = Cert.Sage.Ref.agg ((m ((c : Thread nD τ).loc main_arg0))) (m ((c : Thread nD τ).loc main_arg1)) := Stretch.stretch0_agg (W0 m ρ c)
  have a1 : V1 (F := Ideal) m ρ c (Pipeline.arrRef spec0 1) = (m ((c : Thread nD τ).loc main_arg0)) := Stretch.keep0_arg0 (W0 m ρ c)
  have a2 : V1 (F := Ideal) m ρ c (Pipeline.arrRef spec0 2) = (m ((c : Thread nD τ).loc main_arg2)) := Stretch.keep0_arg2 (W0 m ρ c)
  have a3 : V1 (F := Ideal) m ρ c (Pipeline.arrRef spec0 3) = (m ((c : Thread nD τ).loc main_arg3)) := Stretch.keep0_arg3 (W0 m ρ c)
  have a4 : V1 (F := Ideal) m ρ c (Pipeline.arrRef spec0 4) = (m ((c : Thread nD τ).loc main_arg4)) := Stretch.keep0_arg4 (W0 m ρ c)
  rw [a0, a1, a2, a3, a4] at e
  exact (W2_arr m ρ c 6).trans e

theorem h1 : W4 (F := Ideal) m ρ c (Proc.devRef .tc main_v37) = Cert.Sage.normK (R := 50000) (Cert.Sage.conv (R := 50000) (K := 128) (D := 128) (Cert.Sage.Ref.agg ((m ((c : Thread nD τ).loc main_arg0))) (m ((c : Thread nD τ).loc main_arg1))) ((m ((c : Thread nD τ).loc main_arg0))) (m ((c : Thread nD τ).loc main_arg2)) (m ((c : Thread nD τ).loc main_arg3)) (m ((c : Thread nD τ).loc main_arg4))) := by
  have e := region1_out (V3 (F := Ideal) m ρ) c
  have b0 : V3 (F := Ideal) m ρ c (Pipeline.arrRef spec1 0) = Cert.Sage.conv (R := 50000) (K := 128) (D := 128) (Cert.Sage.Ref.agg ((m ((c : Thread nD τ).loc main_arg0))) (m ((c : Thread nD τ).loc main_arg1))) ((m ((c : Thread nD τ).loc main_arg0))) (m ((c : Thread nD τ).loc main_arg2)) (m ((c : Thread nD τ).loc main_arg3)) (m ((c : Thread nD τ).loc main_arg4)) :=
    (Stretch.keep1_v22_0 (W2 m ρ c)).trans (z0 m ρ c)
  have b1 : V3 (F := Ideal) m ρ c (Pipeline.arrRef spec1 1) = Cert.Sage.msRow (Cert.Sage.stats (R := 50000) (Cert.Sage.conv (R := 50000) (K := 128) (D := 128) (Cert.Sage.Ref.agg ((m ((c : Thread nD τ).loc main_arg0))) (m ((c : Thread nD τ).loc main_arg1))) ((m ((c : Thread nD τ).loc main_arg0))) (m ((c : Thread nD τ).loc main_arg2)) (m ((c : Thread nD τ).loc main_arg3)) (m ((c : Thread nD τ).loc main_arg4)))) :=
    (Stretch.stretch1 (W2 m ρ c)).trans (congrArg Cert.Sage.msRow (s0 m ρ c))
  rw [b0, b1] at e
  exact (W4_arr m ρ c 2).trans e

/-! Layer 2. -/

theorem arg5_at5 : V5 (F := Ideal) m ρ c (Pipeline.arrRef spec2 2) = (m ((c : Thread nD τ).loc main_arg5)) :=
  (((W6_arr m ρ c 2).trans (((dat2 (V5 m ρ) c).arrAt_in 2 rfl _).trans (A_eq2 (V5 m ρ) c 2))).symm).trans
    ((Stretch.keep3_arg5 (W6 m ρ c)).symm.trans ((W8_of_ne m ρ c main_arg5 (by decide)).symm.trans
      ((Stretch.keep4_arg5 (W8 m ρ c)).symm.trans ((W10_of_ne m ρ c main_arg5 (by decide)).symm.trans (W10_main_arg5 m ρ c)))))

theorem arg6_at5 : V5 (F := Ideal) m ρ c (Pipeline.arrRef spec2 3) = (m ((c : Thread nD τ).loc main_arg6)) :=
  (((W6_arr m ρ c 3).trans (((dat2 (V5 m ρ) c).arrAt_in 3 rfl _).trans (A_eq2 (V5 m ρ) c 3))).symm).trans
    ((Stretch.keep3_arg6 (W6 m ρ c)).symm.trans ((W8_of_ne m ρ c main_arg6 (by decide)).symm.trans
      ((Stretch.keep4_arg6 (W8 m ρ c)).symm.trans ((W10_of_ne m ρ c main_arg6 (by decide)).symm.trans (W10_main_arg6 m ρ c)))))

theorem arg7_at5 : V5 (F := Ideal) m ρ c (Pipeline.arrRef spec2 4) = (m ((c : Thread nD τ).loc main_arg7)) :=
  (((W6_arr m ρ c 4).trans (((dat2 (V5 m ρ) c).arrAt_in 4 rfl _).trans (A_eq2 (V5 m ρ) c 4))).symm).trans
    ((Stretch.keep3_arg7 (W6 m ρ c)).symm.trans ((W8_of_ne m ρ c main_arg7 (by decide)).symm.trans
      ((Stretch.keep4_arg7 (W8 m ρ c)).symm.trans ((W10_of_ne m ρ c main_arg7 (by decide)).symm.trans (W10_main_arg7 m ρ c)))))

theorem z1 : W6 (F := Ideal) m ρ c (Proc.devRef .tc main_v56_0) = Cert.Sage.conv (R := 50000) (K := 128) (D := 128) (Cert.Sage.Ref.agg (Cert.Sage.normK (R := 50000) (Cert.Sage.conv (R := 50000) (K := 128) (D := 128) (Cert.Sage.Ref.agg ((m ((c : Thread nD τ).loc main_arg0))) (m ((c : Thread nD τ).loc main_arg1))) ((m ((c : Thread nD τ).loc main_arg0))) (m ((c : Thread nD τ).loc main_arg2)) (m ((c : Thread nD τ).loc main_arg3)) (m ((c : Thread nD τ).loc main_arg4)))) (m ((c : Thread nD τ).loc main_arg1))) (Cert.Sage.normK (R := 50000) (Cert.Sage.conv (R := 50000) (K := 128) (D := 128) (Cert.Sage.Ref.agg ((m ((c : Thread nD τ).loc main_arg0))) (m ((c : Thread nD τ).loc main_arg1))) ((m ((c : Thread nD τ).loc main_arg0))) (m ((c : Thread nD τ).loc main_arg2)) (m ((c : Thread nD τ).loc main_arg3)) (m ((c : Thread nD τ).loc main_arg4)))) (m ((c : Thread nD τ).loc main_arg5)) (m ((c : Thread nD τ).loc main_arg6)) (m ((c : Thread nD τ).loc main_arg7)) := by
  have e := region2_z (V5 (F := Ideal) m ρ) c
  have a0 : V5 (F := Ideal) m ρ c (Pipeline.arrRef spec2 0) = Cert.Sage.Ref.agg (Cert.Sage.normK (R := 50000) (Cert.Sage.conv (R := 50000) (K := 128) (D := 128) (Cert.Sage.Ref.agg ((m ((c : Thread nD τ).loc main_arg0))) (m ((c : Thread nD τ).loc main_arg1))) ((m ((c : Thread nD τ).loc main_arg0))) (m ((c : Thread nD τ).loc main_arg2)) (m ((c : Thread nD τ).loc main_arg3)) (m ((c : Thread nD τ).loc main_arg4)))) (m ((c : Thread nD τ).loc main_arg1)) :=
    (Stretch.stretch2_agg (W4 m ρ c) (m ((c : Thread nD τ).loc main_arg1)) (src4 m ρ c) (dst4 m ρ c)).trans (congrArg (fun h => Cert.Sage.Ref.agg h (m ((c : Thread nD τ).loc main_arg1))) (h1 m ρ c))
  have a1 : V5 (F := Ideal) m ρ c (Pipeline.arrRef spec2 1) = Cert.Sage.normK (R := 50000) (Cert.Sage.conv (R := 50000) (K := 128) (D := 128) (Cert.Sage.Ref.agg ((m ((c : Thread nD τ).loc main_arg0))) (m ((c : Thread nD τ).loc main_arg1))) ((m ((c : Thread nD τ).loc main_arg0))) (m ((c : Thread nD τ).loc main_arg2)) (m ((c : Thread nD τ).loc main_arg3)) (m ((c : Thread nD τ).loc main_arg4))) := (Stretch.keep2_v37 (W4 m ρ c)).trans (h1 m ρ c)
  rw [a0, a1, arg5_at5 m ρ c, arg6_at5 m ρ c, arg7_at5 m ρ c] at e
  exact (W6_arr m ρ c 5).trans e

theorem s1 : W6 (F := Ideal) m ρ c (Proc.devRef .tc main_v56_1) = Cert.Sage.stats (R := 50000) (Cert.Sage.conv (R := 50000) (K := 128) (D := 128) (Cert.Sage.Ref.agg (Cert.Sage.normK (R := 50000) (Cert.Sage.conv (R := 50000) (K := 128) (D := 128) (Cert.Sage.Ref.agg ((m ((c : Thread nD τ).loc main_arg0))) (m ((c : Thread nD τ).loc main_arg1))) ((m ((c : Thread nD τ).loc main_arg0))) (m ((c : Thread nD τ).loc main_arg2)) (m ((c : Thread nD τ).loc main_arg3)) (m ((c : Thread nD τ).loc main_arg4)))) (m ((c : Thread nD τ).loc main_arg1))) (Cert.Sage.normK (R := 50000) (Cert.Sage.conv (R := 50000) (K := 128) (D := 128) (Cert.Sage.Ref.agg ((m ((c : Thread nD τ).loc main_arg0))) (m ((c : Thread nD τ).loc main_arg1))) ((m ((c : Thread nD τ).loc main_arg0))) (m ((c : Thread nD τ).loc main_arg2)) (m ((c : Thread nD τ).loc main_arg3)) (m ((c : Thread nD τ).loc main_arg4)))) (m ((c : Thread nD τ).loc main_arg5)) (m ((c : Thread nD τ).loc main_arg6)) (m ((c : Thread nD τ).loc main_arg7))) := by
  have e := region2_stats (V5 (F := Ideal) m ρ) c
  have a0 : V5 (F := Ideal) m ρ c (Pipeline.arrRef spec2 0) = Cert.Sage.Ref.agg (Cert.Sage.normK (R := 50000) (Cert.Sage.conv (R := 50000) (K := 128) (D := 128) (Cert.Sage.Ref.agg ((m ((c : Thread nD τ).loc main_arg0))) (m ((c : Thread nD τ).loc main_arg1))) ((m ((c : Thread nD τ).loc main_arg0))) (m ((c : Thread nD τ).loc main_arg2)) (m ((c : Thread nD τ).loc main_arg3)) (m ((c : Thread nD τ).loc main_arg4)))) (m ((c : Thread nD τ).loc main_arg1)) :=
    (Stretch.stretch2_agg (W4 m ρ c) (m ((c : Thread nD τ).loc main_arg1)) (src4 m ρ c) (dst4 m ρ c)).trans (congrArg (fun h => Cert.Sage.Ref.agg h (m ((c : Thread nD τ).loc main_arg1))) (h1 m ρ c))
  have a1 : V5 (F := Ideal) m ρ c (Pipeline.arrRef spec2 1) = Cert.Sage.normK (R := 50000) (Cert.Sage.conv (R := 50000) (K := 128) (D := 128) (Cert.Sage.Ref.agg ((m ((c : Thread nD τ).loc main_arg0))) (m ((c : Thread nD τ).loc main_arg1))) ((m ((c : Thread nD τ).loc main_arg0))) (m ((c : Thread nD τ).loc main_arg2)) (m ((c : Thread nD τ).loc main_arg3)) (m ((c : Thread nD τ).loc main_arg4))) := (Stretch.keep2_v37 (W4 m ρ c)).trans (h1 m ρ c)
  rw [a0, a1, arg5_at5 m ρ c, arg6_at5 m ρ c, arg7_at5 m ρ c] at e
  exact (W6_arr m ρ c 6).trans e

theorem h2 : W8 (F := Ideal) m ρ c (Proc.devRef .tc main_v71) = Cert.Sage.normK (R := 50000) (Cert.Sage.conv (R := 50000) (K := 128) (D := 128) (Cert.Sage.Ref.agg (Cert.Sage.normK (R := 50000) (Cert.Sage.conv (R := 50000) (K := 128) (D := 128) (Cert.Sage.Ref.agg ((m ((c : Thread nD τ).loc main_arg0))) (m ((c : Thread nD τ).loc main_arg1))) ((m ((c : Thread nD τ).loc main_arg0))) (m ((c : Thread nD τ).loc main_arg2)) (m ((c : Thread nD τ).loc main_arg3)) (m ((c : Thread nD τ).loc main_arg4)))) (m ((c : Thread nD τ).loc main_arg1))) (Cert.Sage.normK (R := 50000) (Cert.Sage.conv (R := 50000) (K := 128) (D := 128) (Cert.Sage.Ref.agg ((m ((c : Thread nD τ).loc main_arg0))) (m ((c : Thread nD τ).loc main_arg1))) ((m ((c : Thread nD τ).loc main_arg0))) (m ((c : Thread nD τ).loc main_arg2)) (m ((c : Thread nD τ).loc main_arg3)) (m ((c : Thread nD τ).loc main_arg4)))) (m ((c : Thread nD τ).loc main_arg5)) (m ((c : Thread nD τ).loc main_arg6)) (m ((c : Thread nD τ).loc main_arg7))) := by
  have e := region3_out (V7 (F := Ideal) m ρ) c
  have b0 : V7 (F := Ideal) m ρ c (Pipeline.arrRef spec3 0) = Cert.Sage.conv (R := 50000) (K := 128) (D := 128) (Cert.Sage.Ref.agg (Cert.Sage.normK (R := 50000) (Cert.Sage.conv (R := 50000) (K := 128) (D := 128) (Cert.Sage.Ref.agg ((m ((c : Thread nD τ).loc main_arg0))) (m ((c : Thread nD τ).loc main_arg1))) ((m ((c : Thread nD τ).loc main_arg0))) (m ((c : Thread nD τ).loc main_arg2)) (m ((c : Thread nD τ).loc main_arg3)) (m ((c : Thread nD τ).loc main_arg4)))) (m ((c : Thread nD τ).loc main_arg1))) (Cert.Sage.normK (R := 50000) (Cert.Sage.conv (R := 50000) (K := 128) (D := 128) (Cert.Sage.Ref.agg ((m ((c : Thread nD τ).loc main_arg0))) (m ((c : Thread nD τ).loc main_arg1))) ((m ((c : Thread nD τ).loc main_arg0))) (m ((c : Thread nD τ).loc main_arg2)) (m ((c : Thread nD τ).loc main_arg3)) (m ((c : Thread nD τ).loc main_arg4)))) (m ((c : Thread nD τ).loc main_arg5)) (m ((c : Thread nD τ).loc main_arg6)) (m ((c : Thread nD τ).loc main_arg7)) :=
    (Stretch.keep3_v56_0 (W6 m ρ c)).trans (z1 m ρ c)
  have b1 : V7 (F := Ideal) m ρ c (Pipeline.arrRef spec3 1) = Cert.Sage.msRow (Cert.Sage.stats (R := 50000) (Cert.Sage.conv (R := 50000) (K := 128) (D := 128) (Cert.Sage.Ref.agg (Cert.Sage.normK (R := 50000) (Cert.Sage.conv (R := 50000) (K := 128) (D := 128) (Cert.Sage.Ref.agg ((m ((c : Thread nD τ).loc main_arg0))) (m ((c : Thread nD τ).loc main_arg1))) ((m ((c : Thread nD τ).loc main_arg0))) (m ((c : Thread nD τ).loc main_arg2)) (m ((c : Thread nD τ).loc main_arg3)) (m ((c : Thread nD τ).loc main_arg4)))) (m ((c : Thread nD τ).loc main_arg1))) (Cert.Sage.normK (R := 50000) (Cert.Sage.conv (R := 50000) (K := 128) (D := 128) (Cert.Sage.Ref.agg ((m ((c : Thread nD τ).loc main_arg0))) (m ((c : Thread nD τ).loc main_arg1))) ((m ((c : Thread nD τ).loc main_arg0))) (m ((c : Thread nD τ).loc main_arg2)) (m ((c : Thread nD τ).loc main_arg3)) (m ((c : Thread nD τ).loc main_arg4)))) (m ((c : Thread nD τ).loc main_arg5)) (m ((c : Thread nD τ).loc main_arg6)) (m ((c : Thread nD τ).loc main_arg7)))) :=
    (Stretch.stretch3 (W6 m ρ c)).trans (congrArg Cert.Sage.msRow (s1 m ρ c))
  rw [b0, b1] at e
  exact (W8_arr m ρ c 2).trans e

/-! The edge network. -/

theorem arg8_at9 : V9 (F := Ideal) m ρ c (Pipeline.arrRef spec4 1) = (m ((c : Thread nD τ).loc main_arg8)) :=
  (((W10_arr m ρ c 1).trans (((dat4 (V9 m ρ) c).arrAt_in 1 rfl _).trans (A_eq4 (V9 m ρ) c 1))).symm).trans (W10_main_arg8 m ρ c)

theorem arg9_at9 : V9 (F := Ideal) m ρ c (Pipeline.arrRef spec4 2) = (m ((c : Thread nD τ).loc main_arg9)) :=
  (((W10_arr m ρ c 2).trans (((dat4 (V9 m ρ) c).arrAt_in 2 rfl _).trans (A_eq4 (V9 m ρ) c 2))).symm).trans (W10_main_arg9 m ρ c)

theorem arg10_at9 : V9 (F := Ideal) m ρ c (Pipeline.arrRef spec4 3) = (m ((c : Thread nD τ).loc main_arg10)) :=
  (((W10_arr m ρ c 3).trans (((dat4 (V9 m ρ) c).arrAt_in 3 rfl _).trans (A_eq4 (V9 m ρ) c 3))).symm).trans (W10_main_arg10 m ρ c)

theorem arg11_at9 : V9 (F := Ideal) m ρ c (Pipeline.arrRef spec4 4) = (m ((c : Thread nD τ).loc main_arg11)) :=
  (((W10_arr m ρ c 4).trans (((dat4 (V9 m ρ) c).arrAt_in 4 rfl _).trans (A_eq4 (V9 m ρ) c 4))).symm).trans (W10_main_arg11 m ρ c)

theorem arg12_at9 : V9 (F := Ideal) m ρ c (Pipeline.arrRef spec4 5) = (m ((c : Thread nD τ).loc main_arg12)) :=
  (((W10_arr m ρ c 5).trans (((dat4 (V9 m ρ) c).arrAt_in 5 rfl _).trans (A_eq4 (V9 m ρ) c 5))).symm).trans (W10_main_arg12 m ρ c)

theorem arg13_at9 : V9 (F := Ideal) m ρ c (Pipeline.arrRef spec4 6) = (m ((c : Thread nD τ).loc main_arg13)) :=
  (((W10_arr m ρ c 6).trans (((dat4 (V9 m ρ) c).arrAt_in 6 rfl _).trans (A_eq4 (V9 m ρ) c 6))).symm).trans (W10_main_arg13 m ρ c)

end Assembly

end Stretch

/-- THE KERNEL PROGRAM'S VALUE: its result array after the run, as one closed form of the launch memory's argument
    arrays — the edge network of the endpoint rows of the second layer's output, each layer the one-pass normalisation
    of `conv` of the aggregated and the plain features. -/
theorem kernel_value (m : (ℓ : Loc nD τ sig) → Buf (Elt Ideal) ℓ) (ρ : Dev nD → PrngReg) (c : Dev nD) :
    W10 (F := Ideal) m ρ c (Proc.devRef .tc main_v87) = Cert.Sage.mlp (E := 400000) (Cert.Sage.Ref.ecat (Cert.Sage.normK (R := 50000) (Cert.Sage.conv (R := 50000) (K := 128) (D := 128) (Cert.Sage.Ref.agg (Cert.Sage.normK (R := 50000) (Cert.Sage.conv (R := 50000) (K := 128) (D := 128) (Cert.Sage.Ref.agg ((m ((c : Thread nD τ).loc main_arg0))) (m ((c : Thread nD τ).loc main_arg1))) ((m ((c : Thread nD τ).loc main_arg0))) (m ((c : Thread nD τ).loc main_arg2)) (m ((c : Thread nD τ).loc main_arg3)) (m ((c : Thread nD τ).loc main_arg4)))) (m ((c : Thread nD τ).loc main_arg1))) (Cert.Sage.normK (R := 50000) (Cert.Sage.conv (R := 50000) (K := 128) (D := 128) (Cert.Sage.Ref.agg ((m ((c : Thread nD τ).loc main_arg0))) (m ((c : Thread nD τ).loc main_arg1))) ((m ((c : Thread nD τ).loc main_arg0))) (m ((c : Thread nD τ).loc main_arg2)) (m ((c : Thread nD τ).loc main_arg3)) (m ((c : Thread nD τ).loc main_arg4)))) (m ((c : Thread nD τ).loc main_arg5)) (m ((c : Thread nD τ).loc main_arg6)) (m ((c : Thread nD τ).loc main_arg7)))) (m ((c : Thread nD τ).loc main_arg1))) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have e := region4_out (V9 (F := Ideal) m ρ) c
  have d0 : V9 (F := Ideal) m ρ c (Pipeline.arrRef spec4 0) = Cert.Sage.Ref.ecat (Cert.Sage.normK (R := 50000) (Cert.Sage.conv (R := 50000) (K := 128) (D := 128) (Cert.Sage.Ref.agg (Cert.Sage.normK (R := 50000) (Cert.Sage.conv (R := 50000) (K := 128) (D := 128) (Cert.Sage.Ref.agg ((m ((c : Thread nD τ).loc main_arg0))) (m ((c : Thread nD τ).loc main_arg1))) ((m ((c : Thread nD τ).loc main_arg0))) (m ((c : Thread nD τ).loc main_arg2)) (m ((c : Thread nD τ).loc main_arg3)) (m ((c : Thread nD τ).loc main_arg4)))) (m ((c : Thread nD τ).loc main_arg1))) (Cert.Sage.normK (R := 50000) (Cert.Sage.conv (R := 50000) (K := 128) (D := 128) (Cert.Sage.Ref.agg ((m ((c : Thread nD τ).loc main_arg0))) (m ((c : Thread nD τ).loc main_arg1))) ((m ((c : Thread nD τ).loc main_arg0))) (m ((c : Thread nD τ).loc main_arg2)) (m ((c : Thread nD τ).loc main_arg3)) (m ((c : Thread nD τ).loc main_arg4)))) (m ((c : Thread nD τ).loc main_arg5)) (m ((c : Thread nD τ).loc main_arg6)) (m ((c : Thread nD τ).loc main_arg7)))) (m ((c : Thread nD τ).loc main_arg1)) :=
    (Stretch.stretch4_ecat (W8 m ρ c) (m ((c : Thread nD τ).loc main_arg1)) (Stretch.src8 m ρ c) (Stretch.dst8 m ρ c)).trans
      (congrArg (fun h => Cert.Sage.Ref.ecat h (m ((c : Thread nD τ).loc main_arg1))) (Stretch.h2 m ρ c))
  rw [d0, Stretch.arg8_at9 m ρ c, Stretch.arg9_at9 m ρ c, Stretch.arg10_at9 m ρ c, Stretch.arg11_at9 m ρ c,
    Stretch.arg12_at9 m ρ c, Stretch.arg13_at9 m ρ c] at e
  exact (W10_arr m ρ c 7).trans e

end Cert.Sage.K

end
-- ==== Proof.Algebra.lean ====
/-
  The two arrangements of the normalisation are one function on finite entries.

  For a matrix `z` of REAL entries with `n` rows, column means `μ_c = (Σ_r z[r,c]) / n`:
      Σ_r Σ_c (z[r,c] − μ_c)²  =  Σ_r Σ_c z[r,c]²  −  n · Σ_c μ_c²
  (expand the square column by column; `Σ_r z[r,c] = n·μ_c`). So the one-pass variance `(Q − n·Σ_c μ_c²)/n` is the
  two-pass one; it is nonnegative, ε plus it is positive, and there multiplying by `1/√v` is dividing by `√v`.
  On extended reals that are not real the identity fails, which is why the entries are assumed real.
-/
import proofs.«149413_j36197984370744_1_alg».proof.Proof.Spec
import proofs.«149413_j36197984370744_1_alg».proof.Proof.Consts

noncomputable section

namespace Cert.Sage

open Idealize.ShloMosaic Idealize.ShloMosaic.ValueIdx
open scoped BigOperators

/-- The inclusion of the reals in the extended reals commutes with finite sums. -/
theorem coe_fsum {ι : Type*} (s : Finset ι) (g : ι → ℝ) : ((∑ i ∈ s, g i : ℝ) : EReal) = ∑ i ∈ s, (g i : EReal) := by
  classical
  refine Finset.induction_on s (by simp) fun a s ha ih => ?_
  rw [Finset.sum_insert ha, Finset.sum_insert ha, EReal.coe_add, ih]

/-- The variance identity, column by column, over the reals. -/
theorem var_identity {R D : ℕ} (f : Fin R → Fin D → ℝ) (n : ℝ) (hn : n ≠ 0) (hR : (R : ℝ) = n) :
    (∑ r, ∑ c, (f r c - (∑ r', f r' c) * (1 / n)) * (f r c - (∑ r', f r' c) * (1 / n)))
      = (∑ r, ∑ c, f r c * f r c) - n * ∑ c, ((∑ r', f r' c) * (1 / n)) * ((∑ r', f r' c) * (1 / n)) := by
  rw [Finset.sum_comm, Finset.sum_comm (f := fun r c => f r c * f r c), Finset.mul_sum, ← Finset.sum_sub_distrib]
  refine Finset.sum_congr rfl fun c _ => ?_
  generalize hs : (∑ r', f r' c) = s
  have h1 : ∀ r, (f r c - s * (1 / n)) * (f r c - s * (1 / n))
      = f r c * f r c - (2 * (s * (1 / n))) * f r c + (s * (1 / n)) * (s * (1 / n)) := fun r => by ring
  simp only [h1, Finset.sum_add_distrib, Finset.sum_sub_distrib, ← Finset.mul_sum, Finset.sum_const, Finset.card_univ,
    Fintype.card_fin, nsmul_eq_mul, hs, hR]
  field_simp
  ring

/-- A statistics row's low entry is the column total, its entry 128 the total of squares. -/
theorem stats_lo {R : ℕ} (z : Mat R 128) (k : Fin 128) :
    stats z (ix2 (0 : Fin 1) (⟨k.val, by omega⟩ : Fin 256)) = colSum z k := by
  unfold stats
  rw [dif_pos (show ((ix2 (0 : Fin 1) (⟨k.val, by omega⟩ : Fin 256)) 1).val < 128 from k.isLt)]
theorem stats_hi {R : ℕ} (z : Mat R 128) (k : Fin 128) :
    stats z (ix2 (0 : Fin 1) (⟨128 + k.val, by omega⟩ : Fin 256)) = sqSum z := by
  unfold stats
  rw [dif_neg (show ¬ ((ix2 (0 : Fin 1) (⟨128 + k.val, by omega⟩ : Fin 256)) 1).val < 128 from by
    show ¬ (128 + k.val < 128); omega)]

/-- ON REAL ENTRIES THE TWO ARRANGEMENTS AGREE. -/
theorem normK_eq_normR (z : Mat 50000 128) (hz : ∀ i, IsReal (z i)) : normK z = normR z := by
  choose g hg using hz
  obtain ⟨e, he, hE⟩ := epsW_pos
  have hn : (50000 : ℝ) ≠ 0 := by norm_num
  have hcol : ∀ c : Fin 128, colSum z c = ((∑ r : Fin 50000, g (ix2 r c) : ℝ) : EReal) := fun c => by
    unfold colSum; rw [coe_fsum]; exact Finset.sum_congr rfl fun r _ => hg _
  have hmean : ∀ c : Fin 128, meanCol z c = (((∑ r : Fin 50000, g (ix2 r c)) * (1 / 50000) : ℝ) : EReal) := fun c => by
    unfold meanCol; rw [hcol, nW_eq, Ideal.div_coe hn, ← EReal.coe_mul]
  have hsq : sqSum z = ((∑ r : Fin 50000, ∑ c : Fin 128, g (ix2 r c) * g (ix2 r c) : ℝ) : EReal) := by
    unfold sqSum; rw [coe_fsum]; refine Finset.sum_congr rfl fun r _ => ?_
    rw [coe_fsum]; refine Finset.sum_congr rfl fun c _ => ?_
    rw [hg, ← EReal.coe_mul]
  -- the two-pass total of squared differences, as a real
  have hdev : (∑ r : Fin 50000, ∑ c : Fin 128, (z (ix2 r c) - meanCol z c) * (z (ix2 r c) - meanCol z c))
      = ((∑ r : Fin 50000, ∑ c : Fin 128, (g (ix2 r c) - (∑ r' : Fin 50000, g (ix2 r' c)) * (1 / 50000))
          * (g (ix2 r c) - (∑ r' : Fin 50000, g (ix2 r' c)) * (1 / 50000)) : ℝ) : EReal) := by
    rw [coe_fsum]; refine Finset.sum_congr rfl fun r _ => ?_
    rw [coe_fsum]; refine Finset.sum_congr rfl fun c _ => ?_
    rw [hg, hmean, ← EReal.coe_sub, ← EReal.coe_mul]
  set S : ℝ := ∑ r : Fin 50000, ∑ c : Fin 128, (g (ix2 r c) - (∑ r' : Fin 50000, g (ix2 r' c)) * (1 / 50000))
          * (g (ix2 r c) - (∑ r' : Fin 50000, g (ix2 r' c)) * (1 / 50000)) with hS
  have hS0 : 0 ≤ S := Finset.sum_nonneg fun r _ => Finset.sum_nonneg fun c _ => mul_self_nonneg _
  have hv : 0 < e + S * (1 / 50000) := by
    have h0 : 0 ≤ S * (1 / 50000) := mul_nonneg hS0 (by norm_num)
    linarith
  -- the one-pass numerator is the same real
  have hone : sqSum z - nW * ∑ c : Fin 128, meanCol z c * meanCol z c = ((S : ℝ) : EReal) := by
    rw [hsq, nW_eq]
    have : (∑ c : Fin 128, meanCol z c * meanCol z c)
        = ((∑ c : Fin 128, ((∑ r : Fin 50000, g (ix2 r c)) * (1 / 50000)) * ((∑ r : Fin 50000, g (ix2 r c)) * (1 / 50000)) : ℝ) : EReal) := by
      rw [coe_fsum]; refine Finset.sum_congr rfl fun c _ => ?_
      rw [hmean, ← EReal.coe_mul]
    rw [this, ← EReal.coe_mul, ← EReal.coe_sub, hS]
    exact congrArg _ (var_identity (fun r c => g (ix2 r c)) 50000 hn (by norm_num)).symm
  funext i
  obtain ⟨p, q, rfl⟩ : ∃ (p : Fin 50000) (q : Fin 128), i = ix2 p q := ⟨i 0, i 1, eq_ix2 i⟩
  unfold normK normAct normR
  refine congrArg leaky ?_
  -- the mean and the scale read off the row
  have hlo : msRow (stats z) (ix2 (0 : Fin 1) (⟨((ix2 p q : (⟨2, ![50000, 128]⟩ : Shape).Idx) 1).val, by
        have h : ((ix2 p q : (⟨2, ![50000, 128]⟩ : Shape).Idx) 1).val < 128 := q.isLt; omega⟩ : Fin 256)) = meanCol z q := by
    unfold msRow
    rw [dif_pos (show ((ix2 (0 : Fin 1) (⟨q.val, by omega⟩ : Fin 256)) 1).val < 128 from q.isLt)]
    show Ideal.div (stats z (ix2 (0 : Fin 1) (⟨q.val, by omega⟩ : Fin 256))) nW = _
    rw [stats_lo]; rfl
  have hhi : msRow (stats z) (ix2 (0 : Fin 1) (⟨128 + ((ix2 p q : (⟨2, ![50000, 128]⟩ : Shape).Idx) 1).val, by
        have h : ((ix2 p q : (⟨2, ![50000, 128]⟩ : Shape).Idx) 1).val < 128 := q.isLt; omega⟩ : Fin 256))
      = Ideal.rsqrt (epsW + Ideal.div (sqSum z - nW * ∑ c : Fin 128, meanCol z c * meanCol z c) nW) := by
    unfold msRow
    rw [dif_neg (show ¬ ((ix2 (0 : Fin 1) (⟨128 + q.val, by omega⟩ : Fin 256)) 1).val < 128 from by
      show ¬ (128 + q.val < 128); omega)]
    have h128 : stats z (ix2 (0 : Fin 1) (⟨128, by omega⟩ : Fin 256)) = sqSum z := stats_hi z (0 : Fin 128)
    rw [h128]
    refine congrArg (fun t => Ideal.rsqrt (epsW + Ideal.div (sqSum z - nW * t) nW)) ?_
    refine Finset.sum_congr rfl fun c _ => ?_
    rw [stats_lo]; rfl
  rw [hlo, hhi, hone, hdev, hmean, hg, hE, nW_eq, Ideal.div_coe hn, ← EReal.coe_mul, ← EReal.coe_add,
    ← EReal.coe_sub]
  rw [Ideal.rsqrt_coe, Ideal.sqrt_coe, if_neg (not_lt.mpr hv.le), if_neg hv.ne', if_neg (not_lt.mpr hv.le)]
  rw [Ideal.div_coe (Real.sqrt_ne_zero'.mpr hv), ← EReal.coe_mul, ← EReal.coe_mul]
  simp only [one_div]

end Cert.Sage

end
-- ==== Proof.RealOps.lean ====
/-
  "Real in, real out": the operations the layers use keep extended reals that are real numbers real.
  Sums, differences and products of reals are real; a quotient by a nonzero real is real; the square root and the
  reciprocal square root of a positive real are positive reals.  Hence a layer `conv` of real operands is real, and the
  two-pass normalisation `normR` of a real matrix is real: its denominator is the root of ε plus a mean of squares of
  reals, a positive real.
-/
import proofs.«149413_j36197984370744_1_alg».proof.Proof.Consts

noncomputable section

namespace Cert.Sage

open Idealize.ShloMosaic Idealize.ShloMosaic.ValueIdx
open scoped BigOperators

/-- A real number that is positive. -/
def IsPosReal (v : EReal) : Prop := ∃ x : ℝ, 0 < x ∧ v = (x : EReal)
/-- A real number that is not negative. -/
def IsNonnegReal (v : EReal) : Prop := ∃ x : ℝ, 0 ≤ x ∧ v = (x : EReal)

theorem IsPosReal.isReal {v : EReal} (h : IsPosReal v) : IsReal v := let ⟨x, _, e⟩ := h; ⟨x, e⟩
theorem IsNonnegReal.isReal {v : EReal} (h : IsNonnegReal v) : IsReal v := let ⟨x, _, e⟩ := h; ⟨x, e⟩
theorem IsPosReal.nonneg {v : EReal} (h : IsPosReal v) : IsNonnegReal v := let ⟨x, hx, e⟩ := h; ⟨x, hx.le, e⟩

theorem IsReal.zero : IsReal 0 := ⟨0, rfl⟩
theorem IsReal.one : IsReal 1 := ⟨1, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.sub {a b : EReal} (ha : IsReal a) (hb : IsReal b) : IsReal (a - b) := by
  obtain ⟨x, rfl⟩ := ha; obtain ⟨y, rfl⟩ := hb; exact ⟨x - y, (EReal.coe_sub x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.neg {a : EReal} (ha : IsReal a) : IsReal (-a) := by
  obtain ⟨x, rfl⟩ := ha; exact ⟨-x, (EReal.coe_neg x).symm⟩

/-- A finite sum of reals is a real. -/
theorem IsReal.sum {ι : Type} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self _ _)).add (ih fun i hi => h i (Finset.mem_insert_of_mem hi))

theorem IsNonnegReal.zero : IsNonnegReal 0 := ⟨0, le_refl _, rfl⟩

theorem IsNonnegReal.add {a b : EReal} (ha : IsNonnegReal a) (hb : IsNonnegReal b) : IsNonnegReal (a + b) := by
  obtain ⟨x, hx, rfl⟩ := ha; obtain ⟨y, hy, rfl⟩ := hb; exact ⟨x + y, add_nonneg hx hy, (EReal.coe_add x y).symm⟩

/-- The square of a real is a real that is not negative. -/
theorem IsReal.mul_self {a : EReal} (ha : IsReal a) : IsNonnegReal (a * a) := by
  obtain ⟨x, rfl⟩ := ha; exact ⟨x * x, mul_self_nonneg x, (EReal.coe_mul x x).symm⟩

/-- A finite sum of nonnegative reals is a nonnegative real. -/
theorem IsNonnegReal.sum {ι : Type} (s : Finset ι) (f : ι → EReal) (h : ∀ i ∈ s, IsNonnegReal (f i)) :
    IsNonnegReal (∑ i ∈ s, f i) := by
  classical
  induction s using Finset.induction_on with
  | empty => rw [Finset.sum_empty]; exact IsNonnegReal.zero
  | insert a s ha ih =>
    rw [Finset.sum_insert ha]
    exact (h a (Finset.mem_insert_self _ _)).add (ih fun i hi => h i (Finset.mem_insert_of_mem hi))

/-- A positive real plus a nonnegative real is a positive real. -/
theorem IsPosReal.add_nonneg {a b : EReal} (ha : IsPosReal a) (hb : IsNonnegReal b) : IsPosReal (a + b) := by
  obtain ⟨x, hx, rfl⟩ := ha; obtain ⟨y, hy, rfl⟩ := hb
  exact ⟨x + y, add_pos_of_pos_of_nonneg hx hy, (EReal.coe_add x y).symm⟩

/-- The quotient of a real by a nonzero real is a real. -/
theorem div_real {a b : EReal} (ha : IsReal a) (hb : ∃ y : ℝ, y ≠ 0 ∧ b = (y : EReal)) : IsReal (Ideal.div a b) := by
  obtain ⟨x, rfl⟩ := ha; obtain ⟨y, hy, rfl⟩ := hb
  rw [Ideal.div_coe hy]; exact ⟨x * (1 / y), (EReal.coe_mul _ _).symm⟩

/-- The quotient of a nonnegative real by a positive real is a nonnegative real. -/
theorem div_nonneg_real {a b : EReal} (ha : IsNonnegReal a) (hb : IsPosReal b) : IsNonnegReal (Ideal.div a b) := by
  obtain ⟨x, hx, rfl⟩ := ha; obtain ⟨y, hy, rfl⟩ := hb
  rw [Ideal.div_coe hy.ne']
  exact ⟨x * (1 / y), mul_nonneg hx (one_div_pos.2 hy).le, (EReal.coe_mul _ _).symm⟩

/-- The square root of a positive real is a positive real. -/
theorem sqrt_pos_real {a : EReal} (ha : IsPosReal a) : IsPosReal (Ideal.sqrt a) := by
  obtain ⟨x, hx, rfl⟩ := ha
  rw [Ideal.sqrt_coe, if_neg (not_lt.2 hx.le)]
  exact ⟨Real.sqrt x, Real.sqrt_pos.2 hx, rfl⟩

/-- The reciprocal square root of a positive real is a positive real. -/
theorem rsqrt_pos_real {a : EReal} (ha : IsPosReal a) : IsPosReal (Ideal.rsqrt a) := by
  obtain ⟨x, hx, rfl⟩ := ha
  rw [Ideal.rsqrt_coe, if_neg (not_lt.2 hx.le), if_neg hx.ne']
  exact ⟨(Real.sqrt x)⁻¹, inv_pos.2 (Real.sqrt_pos.2 hx), rfl⟩

/-- The node count is a positive real. -/
theorem nW_pos : IsPosReal nW := ⟨50000, by norm_num, nW_eq⟩

/-- ε is a positive real. -/
theorem epsW_posReal : IsPosReal epsW := epsW_pos

/-- A layer of real operands has real entries. -/
theorem conv_real {R K D : ℕ} (a x : Mat R K) (wl : Mat K D) (b : Row D) (wr : Mat K D)
    (ha : ∀ i, IsReal (a i)) (hx : ∀ i, IsReal (x i)) (hwl : ∀ i, IsReal (wl i)) (hb : ∀ i, IsReal (b i))
    (hwr : ∀ i, IsReal (wr i)) (i : (⟨2, ![R, D]⟩ : Shape).Idx) : IsReal (conv a x wl b wr i) := by
  unfold conv
  exact ((IsReal.sum _ _ fun k _ => (ha _).mul (hwl _)).add (hb _)).add (IsReal.sum _ _ fun k _ => (hx _).mul (hwr _))

/-- A decoder of real operands has real entries. -/
theorem dec_real {R K D : ℕ} (z : Mat R K) (w : Mat K D) (b : Row D)
    (hz : ∀ i, IsReal (z i)) (hw : ∀ i, IsReal (w i)) (hb : ∀ i, IsReal (b i))
    (i : (⟨2, ![R, D]⟩ : Shape).Idx) : IsReal (dec z w b i) := by
  unfold dec
  exact (IsReal.sum _ _ fun k _ => (hz _).mul (hw _)).add (hb _)

/-- The column totals of a real matrix are real. -/
theorem colSum_real {R D : ℕ} (z : Mat R D) (hz : ∀ i, IsReal (z i)) (c : Fin D) : IsReal (colSum z c) := by
  unfold colSum; exact IsReal.sum _ _ fun r _ => hz _

/-- The total of squares of a real matrix is a nonnegative real. -/
theorem sqSum_real {R D : ℕ} (z : Mat R D) (hz : ∀ i, IsReal (z i)) : IsNonnegReal (sqSum z) := by
  unfold sqSum; exact IsNonnegReal.sum _ _ fun r _ => IsNonnegReal.sum _ _ fun c _ => (hz _).mul_self

/-- The column means of a real matrix are real. -/
theorem meanCol_real {R D : ℕ} (z : Mat R D) (hz : ∀ i, IsReal (z i)) (c : Fin D) : IsReal (meanCol z c) := by
  unfold meanCol
  obtain ⟨n, hn, e⟩ := nW_pos
  exact div_real (colSum_real z hz c) ⟨n, hn.ne', e⟩

/-- The two-pass denominator, the root of ε plus the mean squared deviation, is a positive real. -/
theorem normR_den_pos {R : ℕ} (z : Mat R 128) (hz : ∀ i, IsReal (z i)) :
    IsPosReal (Ideal.sqrt (epsW + Ideal.div
      (∑ r : Fin R, ∑ c : Fin 128, (z (ix2 r c) - meanCol z c) * (z (ix2 r c) - meanCol z c)) nW)) := by
  refine sqrt_pos_real (epsW_posReal.add_nonneg (div_nonneg_real ?_ nW_pos))
  exact IsNonnegReal.sum _ _ fun r _ => IsNonnegReal.sum _ _ fun c _ => ((hz _).sub (meanCol_real z hz c)).mul_self

/-- The two-pass normalisation of a real matrix has real entries. -/
theorem normR_real {R : ℕ} (z : Mat R 128) (hz : ∀ i, IsReal (z i)) (i : (⟨2, ![R, 128]⟩ : Shape).Idx) :
    IsReal (normR z i) := by
  unfold normR
  obtain ⟨s, hs, e⟩ := normR_den_pos z hz
  exact leaky_real (div_real ((hz i).sub (meanCol_real z hz (i 1))) ⟨s, hs.ne', e⟩)

end Cert.Sage

end
-- ==== Proof.LibGatherRows.lean ====
/-
  `stablehlo.gather` by a COLUMN of start indices, read at an index.  No program is imported.

  What `x[idx]` lowers to when the integer array `idx` of `M` indices is passed as an `[M, 1]` array (index vector
  axis 1, one component per start index):

  * `gather_flat_apply`: of a flat operand `x : [N]`, result `[M]` — element `p` is `x` at the start index `idx[p, 0]`
    read as a signed integer and clamped into `[0, N − 1]`;
  * `gather_rows_apply`: of a table of rows `x : [A, C]`, result `[M, C]` (whole rows: slice sizes `[1, C]`, axis 0
    collapsed, axis 1 the result's offset axis) — element `(p, k)` is `x` at row `idx[p, 0]`, read signed and clamped
    into `[0, A − 1]`, and column `k`.

  The dimension numbers are literal records with an arbitrary proof of their conditions, so a program's own record
  with the same fields is one of these by `rfl`.
-/
import Idealize.ShloMosaic.Lib.ValueIdx

noncomputable section

namespace Cert.Moe

open Idealize.ShloMosaic Idealize.ShloMosaic.ValueIdx

section
variable {α : Type}

/-- Dimension numbers of a flat gather by a column of indices: operand `[N]`, start indices `[M, 1]`, result `[M]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `p`: the operand at the start index `idx[p, 0]`, read signed and clamped into
    `[0, N − 1]`. -/
theorem gather_flat_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (p : Fin M) :
    Host.gather (flatDims N M wf) x idx (ix1 p) = x (ix1 ⟨min (idx (ix2 p 0)).toInt.toNat (N - 1), by omega⟩) := by
  unfold Host.gather
  refine congrArg x ?_
  funext a
  obtain rfl : a = 0 := Subsingleton.elim _ _
  refine Fin.ext ?_
  show (flatDims N M wf).start (ix1 p) idx 0 + (flatDims N M wf).batchCoord (ix1 p) 0
    + (flatDims N M wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx (ix1 p) ⟨List.idxOf (0 : Fin 1) (flatDims N M wf).startIndexMap,
      List.idxOf_lt_length_iff.2 (List.mem_singleton.mpr rfl)⟩ = ix2 p 0 := by
    funext b; refine Fin.ext ?_
    match b with
    | ⟨0, _⟩ => rfl
    | ⟨1, _⟩ => rfl
  rw [hsi]
  rfl

/-- Dimension numbers of a gather of whole rows by a column of indices: operand `[A, C]`, start indices `[M, 1]`,
    result `[M, C]`. -/
abbrev rowDims (A C M : Nat) (wf : GatherDims.WF ⟨2, ![A, C]⟩ ⟨2, ![M, 1]⟩ ⟨2, ![M, C]⟩ [1] [0] [] [0] [] 1 ![1, C]) :
    GatherDims ⟨2, ![A, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

set_option maxHeartbeats 50000 in
/-- THE ROW GATHER READ AT `(p, k)`: the operand at the row `idx[p, 0]`, read signed and clamped into `[0, A − 1]`,
    and column `k`. -/
theorem gather_rows_apply {A C M w : Nat} (hA : 0 < A)
    (wf : GatherDims.WF ⟨2, ![A, C]⟩ ⟨2, ![M, 1]⟩ ⟨2, ![M, C]⟩ [1] [0] [] [0] [] 1 ![1, C])
    (x : (⟨2, ![A, C]⟩ : Shape).Idx → α) (idx : IVec ⟨2, ![M, 1]⟩ w) (p : Fin M) (k : Fin C) :
    Host.gather (rowDims A C M wf) x idx (ix2 p k)
      = x (ix2 ⟨min (idx (ix2 p 0)).toInt.toNat (A - 1), by omega⟩ k) := by
  unfold Host.gather
  refine congrArg x ?_
  funext a
  refine Fin.ext ?_
  match a with
  | ⟨0, _⟩ =>
    show (rowDims A C M wf).start (ix2 p k) idx 0 + (rowDims A C M wf).batchCoord (ix2 p k) 0
      + (rowDims A C M wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims A C M wf).startIndexMap from List.mem_singleton.mpr rfl)]
    have hsi : (rowDims A C M wf).siIdx (ix2 p k) ⟨List.idxOf (0 : Fin 2) (rowDims A C M wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowDims A C M wf).start (ix2 p k) idx 1 + (rowDims A C M wf).batchCoord (ix2 p k) 1
      + (rowDims A C M wf).offCoord (ix2 p k) 1 = k.val
    have hs : (rowDims A C M wf).start (ix2 p k) idx 1 = 0 := by
      unfold GatherDims.start
      rw [dif_neg (show (1 : Fin 2) ∉ (rowDims A C M wf).startIndexMap from
        (by decide : (1 : Fin 2) ∉ [(0 : Fin 2)]))]
    have ho : (rowDims A C M wf).offCoord (ix2 p k) 1 = k.val := by
      unfold GatherDims.offCoord
      rw [dif_pos (show (1 : Fin 2) ∈ (rowDims A C M wf).sKept from
        (GatherDims.mem_sKept _ _).mpr ⟨(by decide : (1 : Fin 2) ∉ [(0 : Fin 2)]), List.not_mem_nil⟩)]
      rfl
    rw [hs, ho, GatherDims.batchCoord_eq_zero _ _ _ List.not_mem_nil]
    omega

end

end Cert.Moe

end
-- ==== Proof.LibScatterLanding.lean ====
/-
  Where a scatter's update lands, for ANY scatter dimension numbers.

  An update element `j` of a `stablehlo.scatter` lands on operand index `i` exactly when, on every operand axis,
  the start read off the scatter indices (a signed integer, not clamped) plus `j`'s window coordinate equals `i`'s
  coordinate; otherwise — some axis out of range — the update is dropped.  This turns the option-valued
  `ScatterDims.resultIdx?` into one equation per axis, which is the form in which an accumulating scatter's exact
  sum ("each operand element plus the sum of the updates landing on it") is re-indexed by hand.
-/
import Idealize.ShloMosaic.PureOps.Ideal

namespace Idealize.ShloMosaic.ScatterDims

/-- An update lands on operand index `i` exactly when, on every axis, start plus window coordinate is
    `i`'s coordinate (which is then in range, so nothing is dropped). -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      have := h a
      show _ = (((d.start j idx a + (d.window j a : Int)).toNat : Nat) : Int)
      omega
    · intro e
      funext a
      apply Fin.ext
      have := e a
      have := h a
      show (d.start j idx a + (d.window j a : Int)).toNat = (i a).val
      omega
  · rename_i h
    constructor
    · intro e; cases e
    · intro e
      exfalso
      apply h
      intro a
      have := e a
      have := (i a).isLt
      omega

end Idealize.ShloMosaic.ScatterDims
-- ==== Proof.LibScatterRows.lean ====
/-
  An accumulating `stablehlo.scatter` of ROWS into a table, read at an element.  No program is imported.

  What `x.at[idx].add(upd)` lowers to for a table `x : [A, C]`, `M` row indices passed as an `[M, 1]` array and `M`
  rows of updates `upd : [M, C]` (update window axis 1, inserted window axis 0, the one index component naming
  operand axis 0): update element `(p, c)` lands on table element `(b, h)` exactly when the index `idx[p, 0]`, read
  as a signed integer, is `b` and `c = h` — an index outside `[0, A)` lands nowhere and the row is dropped.  So, over
  the extended reals, the result's element `(b, h)` is `x[b, h]` plus the sum, over the rows `p` whose index is `b`,
  of `upd[p, h]` (`scatterAdd_rows_apply`).

  The dimension numbers are a literal record with an arbitrary proof of its conditions, so a program's own record
  with the same fields is this one by `rfl`.
-/
import Idealize.ShloMosaic.PureOps.Ideal
import Idealize.ShloMosaic.Lib.ValueIdx
import proofs.«149413_j36197984370744_1_alg».proof.Proof.LibScatterLanding

noncomputable section

namespace Cert.Moe

open Idealize.ShloMosaic Idealize.ShloMosaic.ValueIdx
open scoped BigOperators

/-- Dimension numbers of a scatter of whole rows by a column of indices: operand `[A, C]`, scatter indices `[M, 1]`,
    updates `[M, C]`. -/
abbrev rowScatter (A C M : Nat) (wf : ScatterDims.WF ⟨2, ![A, C]⟩ ⟨2, ![M, 1]⟩ ⟨2, ![M, C]⟩ [1] [0] [0] 1) :
    ScatterDims ⟨2, ![A, C]⟩ ⟨2, ![M, 1]⟩ ⟨2, ![M, C]⟩ where
  updateWindowDims := [1]
  insertedWindowDims := [0]
  scatterDimsToOperandDims := [0]
  indexVectorDim := 1
  wf := wf

section
variable {A C M w : Nat} (wf : ScatterDims.WF ⟨2, ![A, C]⟩ ⟨2, ![M, 1]⟩ ⟨2, ![M, C]⟩ [1] [0] [0] 1)
  (idx : IVec ⟨2, ![M, 1]⟩ w) (p : Fin M) (c : Fin C)

/-- On the row axis the window starts at the row index, read signed … -/
theorem rowScatter_start0 : (rowScatter A C M wf).start (ix2 p c) idx 0 = (idx (ix2 p 0)).toInt := by
  unfold ScatterDims.start
  rw [dif_pos (show (0 : Fin 2) ∈ (rowScatter A C M wf).scatterDimsToOperandDims from List.mem_singleton.mpr rfl)]
  have hsi : (rowScatter A C M wf).siIdx (ix2 p c) ⟨List.idxOf (0 : Fin 2) (rowScatter A C M wf).scatterDimsToOperandDims,
      List.idxOf_lt_length_iff.2 (List.mem_singleton.mpr rfl)⟩ = ix2 p 0 := by
    funext b; refine Fin.ext ?_
    match b with
    | ⟨0, _⟩ => rfl
    | ⟨1, _⟩ => rfl
  rw [hsi]

/-- … and the window has no extent there; -/
theorem rowScatter_window0 : (rowScatter A C M wf).window (ix2 p c) 0 = 0 := by
  unfold ScatterDims.window
  rw [dif_neg]
  show (0 : Fin 2) ∉ (List.finRange 2).filter (· ∉ [(0 : Fin 2)])
  decide

/-- on the column axis the window starts at `0` … -/
theorem rowScatter_start1 : (rowScatter A C M wf).start (ix2 p c) idx 1 = 0 := by
  unfold ScatterDims.start
  rw [dif_neg (show (1 : Fin 2) ∉ (rowScatter A C M wf).scatterDimsToOperandDims from
    (by decide : (1 : Fin 2) ∉ [(0 : Fin 2)]))]

/-- … and its coordinate is the update's column. -/
theorem rowScatter_window1 : (rowScatter A C M wf).window (ix2 p c) 1 = c.val := by
  unfold ScatterDims.window
  rw [dif_pos (show (1 : Fin 2) ∈ (rowScatter A C M wf).sKept from
    (by decide : (1 : Fin 2) ∈ (List.finRange 2).filter (· ∉ [(0 : Fin 2)])))]
  rfl

/-- WHERE A ROW'S ELEMENT LANDS: update `(p, c)` lands on `(b, h)` exactly when row `p`'s index, read signed, is `b`
    and the columns agree. -/
theorem rowScatter_lands (b : Fin A) (h : Fin C) :
    (rowScatter A C M wf).resultIdx? (ix2 p c) idx = some (ix2 b h)
      ↔ (idx (ix2 p 0)).toInt = (b.val : Int) ∧ c = h := by
  rw [ScatterDims.resultIdx?_eq_some_iff]
  constructor
  · intro e
    have e0 := e 0
    have e1 := e 1
    rw [rowScatter_start0, rowScatter_window0] at e0
    rw [rowScatter_start1, rowScatter_window1] at e1
    refine ⟨?_, Fin.ext ?_⟩
    · have : ((ix2 b h : (⟨2, ![A, C]⟩ : Shape).Idx) 0).val = b.val := rfl
      rw [this] at e0
      omega
    · have : ((ix2 b h : (⟨2, ![A, C]⟩ : Shape).Idx) 1).val = h.val := rfl
      rw [this] at e1
      omega
  · rintro ⟨e0, rfl⟩ a
    match a with
    | ⟨0, _⟩ =>
      show (rowScatter A C M wf).start (ix2 p c) idx 0 + ((rowScatter A C M wf).window (ix2 p c) 0 : Int) = (b.val : Int)
      rw [rowScatter_start0, rowScatter_window0, e0]
      omega
    | ⟨1, _⟩ =>
      show (rowScatter A C M wf).start (ix2 p c) idx 1 + ((rowScatter A C M wf).window (ix2 p c) 1 : Int) = (c.val : Int)
      rw [rowScatter_start1, rowScatter_window1]
      omega

end

/-- THE ROW SCATTER-ADD READ AT `(b, h)`: the table's element plus the sum of column `h` of the update rows whose
    index, read signed, is `b`. -/
theorem scatterAdd_rows_apply {A C M w : Nat} (wf : ScatterDims.WF ⟨2, ![A, C]⟩ ⟨2, ![M, 1]⟩ ⟨2, ![M, C]⟩ [1] [0] [0] 1)
    (x : (⟨2, ![A, C]⟩ : Shape).Idx → EReal) (idx : IVec ⟨2, ![M, 1]⟩ w) (upd : (⟨2, ![M, C]⟩ : Shape).Idx → EReal)
    (b : Fin A) (h : Fin C) :
    Ideal.hostScatterAdd (rowScatter A C M wf) x idx upd (ix2 b h)
      = x (ix2 b h) + ∑ p ∈ Finset.univ.filter (fun p : Fin M => (idx (ix2 p 0)).toInt = (b.val : Int)), upd (ix2 p h) := by
  unfold Ideal.hostScatterAdd
  refine congrArg (x (ix2 b h) + ·) ?_
  rw [Finset.sum_filter, sum_idx2, Finset.sum_filter]
  refine Finset.sum_congr rfl fun p _ => ?_
  by_cases hp : (idx (ix2 p 0)).toInt = (b.val : Int)
  · rw [if_pos hp]
    rw [Finset.sum_eq_single h]
    · rw [if_pos ((rowScatter_lands wf idx p h b h).mpr ⟨hp, rfl⟩)]
    · intro c _ hc
      rw [if_neg fun e => hc ((rowScatter_lands wf idx p c b h).mp e).2]
    · intro hh
      exact absurd (Finset.mem_univ h) hh
  · rw [if_neg hp]
    refine Finset.sum_eq_zero fun c _ => ?_
    rw [if_neg fun e => hp ((rowScatter_lands wf idx p c b h).mp e).1]

end Cert.Moe

end
-- ==== Proof.RealGlue.lean ====
/-
  The index plumbing both programs share keeps entries real.  A gather of rows of a real table is real whatever the
  indices (each entry IS an entry of the table); an accumulating scatter of real rows into a real table is real whatever
  the indices (each entry is the table's plus a finite sum of updates, possibly empty).  The mean aggregation divides
  such a sum by the larger of the in-degree — a scatter of ones — and one: a real at least one, hence not zero.
-/
import proofs.«149413_j36197984370744_1_alg».proof.Proof.RefRead
import proofs.«149413_j36197984370744_1_alg».proof.Proof.RealOps
import proofs.«149413_j36197984370744_1_alg».proof.Proof.LibGatherRows
import proofs.«149413_j36197984370744_1_alg».proof.Proof.LibScatterRows

noncomputable section

namespace Cert.Sage

open Idealize.ShloMosaic Idealize.ShloMosaic.ValueIdx
open scoped BigOperators

/-- A gather of whole rows of a real table has real entries, whatever the indices. -/
theorem gather_rows_real {A C M w : ℕ} (hA : 0 < A)
    (wf : GatherDims.WF ⟨2, ![A, C]⟩ ⟨2, ![M, 1]⟩ ⟨2, ![M, C]⟩ [1] [0] [] [0] [] 1 ![1, C])
    (x : (⟨2, ![A, C]⟩ : Shape).Idx → EReal) (idx : IVec ⟨2, ![M, 1]⟩ w) (hx : ∀ i, IsReal (x i))
    (i : (⟨2, ![M, C]⟩ : Shape).Idx) : IsReal (Host.gather (Cert.Moe.rowDims A C M wf) x idx i) := by
  obtain ⟨p, k, rfl⟩ : ∃ p k, i = ix2 p k := ⟨i 0, i 1, eq_ix2 i⟩
  rw [Cert.Moe.gather_rows_apply hA]
  exact hx _

/-- An accumulating scatter of real rows into a real table has real entries, whatever the indices: each entry is
    the table's plus a finite sum of updates. -/
theorem scatterAdd_rows_real {A C M w : ℕ}
    (wf : ScatterDims.WF ⟨2, ![A, C]⟩ ⟨2, ![M, 1]⟩ ⟨2, ![M, C]⟩ [1] [0] [0] 1)
    (x : (⟨2, ![A, C]⟩ : Shape).Idx → EReal) (idx : IVec ⟨2, ![M, 1]⟩ w) (upd : (⟨2, ![M, C]⟩ : Shape).Idx → EReal)
    (hx : ∀ i, IsReal (x i)) (hu : ∀ i, IsReal (upd i)) (i : (⟨2, ![A, C]⟩ : Shape).Idx) :
    IsReal (Ideal.hostScatterAdd (Cert.Moe.rowScatter A C M wf) x idx upd i) := by
  obtain ⟨b, h, rfl⟩ : ∃ b h, i = ix2 b h := ⟨i 0, i 1, eq_ix2 i⟩
  rw [Cert.Moe.scatterAdd_rows_apply]
  exact (hx _).add (IsReal.sum _ _ fun p _ => hu _)

/-- The maximum of a real with one is a nonzero real. -/
theorem max_one_nonzero {a : EReal} (ha : IsReal a) : ∃ y : ℝ, y ≠ 0 ∧ max a 1 = (y : EReal) := by
  obtain ⟨x, rfl⟩ := ha
  rcases le_total x 1 with h | h
  · exact ⟨1, one_ne_zero, by rw [max_eq_right (by exact_mod_cast h)]; rfl⟩
  · exact ⟨x, by linarith, by rw [max_eq_left (by exact_mod_cast h)]⟩

section
open Cert.ReferenceIdeal Cert.ReferenceIdeal.Gen Cert.ReferenceIdeal.ReadP

/-- The reference's row-scatter records are the generic row scatters, and its row-gather record the generic row gather. -/
theorem scatter128_eq : scatter_S50000x128_S400000x1_S400000x128_1_0_0_1
    = Cert.Moe.rowScatter 50000 128 400000 scatter_S50000x128_S400000x1_S400000x128_1_0_0_1_wf := rfl
theorem scatter1_eq : scatter_S50000x1_S400000x1_S400000x1_1_0_0_1
    = Cert.Moe.rowScatter 50000 1 400000 scatter_S50000x1_S400000x1_S400000x1_1_0_0_1_wf := rfl
theorem gather128_eq : gather_S50000x128_S400000x1_S400000x128_1_0_n_n_0_1_1128
    = Cert.Moe.rowDims 50000 128 400000 gather_S50000x128_S400000x1_S400000x128_1_0_n_n_0_1_1128_wf := rfl

/-- THE MEAN AGGREGATION KEEPS REALS, in the reference's own operations: the rows of a real table `x` gathered at any
    indices `gi`, accumulated into a real table `z` at any indices `si`, divided by the larger of a count (ones `u`
    accumulated into a real column `z1` at any indices `ci`) and one, is real. -/
theorem meanAgg_real (x z : S50000x128.Idx → EReal) (gi si ci : IVec S400000x1 32) (z1 o : S50000x1.Idx → EReal)
    (u : S400000x1.Idx → EReal) (hx : ∀ i, IsReal (x i)) (hz : ∀ i, IsReal (z i)) (hz1 : ∀ i, IsReal (z1 i))
    (hu : ∀ i, IsReal (u i)) (ho : ∀ j, o j = 1) (i : S50000x128.Idx) (j : S50000x1.Idx) :
    IsReal (Ideal.div
      (Host.scatterAdd (F := Ideal) (φ := .f32) scatter_S50000x128_S400000x1_S400000x128_1_0_0_1 z si
        (Host.gather gather_S50000x128_S400000x1_S400000x128_1_0_n_n_0_1_1128 x gi) i)
      (max (Host.scatterAdd (F := Ideal) (φ := .f32) scatter_S50000x1_S400000x1_S400000x1_1_0_0_1 z1 ci u j) (o j))) := by
  unfold Host.scatterAdd
  rw [Ideal.hostScatterAdd_def, Ideal.hostScatterAdd_def, scatter128_eq, scatter1_eq, gather128_eq, ho]
  exact div_real (scatterAdd_rows_real _ _ _ _ hz (gather_rows_real (Nat.succ_pos _) _ _ _ hx) i)
    (max_one_nonzero (scatterAdd_rows_real _ _ _ _ hz1 hu j))

/-- THE FIRST LAYER'S AGGREGATION KEEPS REALS, for every index array. -/
theorem agg_real (x0 : (⟨S50000x128, .f32⟩ : BufTy).Contents (Elt Ideal)) (x1 : (⟨S2x400000, .i32⟩ : BufTy).Contents (Elt Ideal))
    (hx : ∀ i, IsReal (x0 i)) (i : S50000x128.Idx) : IsReal (val_main_v21 (F := Ideal) x0 x1 i) := by
  rw [val_main_v21_apply, Ideal.hostDivf_def, val_main_v20_apply, val_main_v19_apply, Ideal.maximumf_def]
  unfold val_main_v13 val_main_v17 val_main_v10
  refine meanAgg_real x0 (val_main_v11 (F := Ideal)) (val_main_v9 (F := Ideal) x1) (val_main_v12 (F := Ideal) x1)
    (val_main_v16 (F := Ideal) x1) (val_main_v15 (F := Ideal)) (val_main_v18 (F := Ideal)) (val_main_v14 (F := Ideal))
    hx (fun k => ?_) (fun k => ?_) (fun k => ?_) (fun k => ?_) i _
  · rw [val_main_v11_apply, val_main_cst_apply, Ideal.ofBits_def, zero_word]; exact IsReal.zero
  · rw [val_main_v15_apply, val_main_cst_2_apply, Ideal.ofBits_def, zero_word]; exact IsReal.zero
  · rw [val_main_v14_apply, val_main_cst_1_apply, Ideal.ofBits_def, one_word]; exact IsReal.one
  · rw [val_main_v18_apply, val_main_cst_3_apply, Ideal.ofBits_def, one_word]

/-- THE SECOND LAYER'S AGGREGATION KEEPS REALS: the same operations on the first layer's output. -/
theorem agg2_real (x0 : (⟨S50000x128, .f32⟩ : BufTy).Contents (Elt Ideal)) (x1 : (⟨S2x400000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal))
    (hx : ∀ i, IsReal (val_main_v46 (F := Ideal) x0 x1 x2 x3 x4 i)) (i : S50000x128.Idx) :
    IsReal (val_main_v64 (F := Ideal) x0 x1 x2 x3 x4 i) := by
  rw [val_main_v64_apply, Ideal.hostDivf_def, val_main_v63_apply, val_main_v62_apply, Ideal.maximumf_def]
  unfold val_main_v56 val_main_v60 val_main_v53
  refine meanAgg_real (val_main_v46 (F := Ideal) x0 x1 x2 x3 x4) (val_main_v54 (F := Ideal)) (val_main_v52 (F := Ideal) x1)
    (val_main_v55 (F := Ideal) x1) (val_main_v59 (F := Ideal) x1) (val_main_v58 (F := Ideal)) (val_main_v61 (F := Ideal))
    (val_main_v57 (F := Ideal)) hx (fun k => ?_) (fun k => ?_) (fun k => ?_) (fun k => ?_) i _
  · rw [val_main_v54_apply, val_main_cst_14_apply, Ideal.ofBits_def, zero_word]; exact IsReal.zero
  · rw [val_main_v58_apply, val_main_cst_16_apply, Ideal.ofBits_def, zero_word]; exact IsReal.zero
  · rw [val_main_v57_apply, val_main_cst_15_apply, Ideal.ofBits_def, one_word]; exact IsReal.one
  · rw [val_main_v61_apply, val_main_cst_17_apply, Ideal.ofBits_def, one_word]

end

end Cert.Sage

end
-- ==== Proof.Bridge.lean ====
/-
  The two closed forms agree on real inputs.

  The kernel normalises each layer in one pass (`normK`), the reference in two (`normR`).  On a matrix of real entries the
  two arrangements are equal; a layer of real operands has real entries, the aggregation of a real matrix is real, and the
  two-pass normalisation of a real matrix is real.  So, layer by layer, the kernel's closed form is the reference's.
-/
import proofs.«149413_j36197984370744_1_alg».proof.Proof.RefTotal
import proofs.«149413_j36197984370744_1_alg».proof.Proof.Algebra
import proofs.«149413_j36197984370744_1_alg».proof.Proof.RealOps
import proofs.«149413_j36197984370744_1_alg».proof.Proof.RealGlue

noncomputable section

namespace Cert.Sage.Ref

open Cert.ReferenceIdeal Cert.ReferenceIdeal.ReadP Idealize.ShloMosaic Idealize.ShloMosaic.ValueIdx
open scoped BigOperators

/-- THE BRIDGE: on real node features and real layer weights, the closed form with the one-pass normalisation in both
    layers is the reference's result. -/
theorem total_eq (x0 : (⟨S50000x128, .f32⟩ : BufTy).Contents (Elt Ideal)) (x1 : (⟨S2x400000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S256x128, .f32⟩ : BufTy).Contents (Elt Ideal)) (x9 : (⟨S128, .f32⟩ : BufTy).Contents (Elt Ideal)) (x10 : (⟨S128x64, .f32⟩ : BufTy).Contents (Elt Ideal)) (x11 : (⟨S64, .f32⟩ : BufTy).Contents (Elt Ideal)) (x12 : (⟨S64x8, .f32⟩ : BufTy).Contents (Elt Ideal)) (x13 : (⟨S8, .f32⟩ : BufTy).Contents (Elt Ideal))
    (h0 : (∀ i, IsReal (x0 i))) (h2 : (∀ i, IsReal (x2 i))) (h3 : (∀ i, IsReal (x3 i))) (h4 : (∀ i, IsReal (x4 i)))
    (h5 : (∀ i, IsReal (x5 i))) (h6 : (∀ i, IsReal (x6 i))) (h7 : (∀ i, IsReal (x7 i))) :
    Cert.Sage.mlp (E := 400000) (ecat (Cert.Sage.normK (R := 50000) (Cert.Sage.conv (R := 50000) (K := 128) (D := 128) (agg (Cert.Sage.normK (R := 50000) (Cert.Sage.conv (R := 50000) (K := 128) (D := 128) (agg x0 x1) (x0) x2 x3 x4)) x1) (Cert.Sage.normK (R := 50000) (Cert.Sage.conv (R := 50000) (K := 128) (D := 128) (agg x0 x1) (x0) x2 x3 x4)) x5 x6 x7)) x1) x8 x9 x10 x11 x12 x13
      = val_main_v126 (F := Ideal) x0 x1 x2 x3 x4 x5 x6 x7 x8 x9 x10 x11 x12 x13 := by
  have hZ0 : ∀ i, IsReal (Cert.Sage.conv (R := 50000) (K := 128) (D := 128) (agg x0 x1) (x0) x2 x3 x4 i) :=
    conv_real _ _ _ _ _ (Cert.Sage.agg_real x0 x1 h0) h0 h2 h3 h4
  rw [normK_eq_normR _ hZ0]
  have hH1 : ∀ i, IsReal (Cert.Sage.normR (R := 50000) (Cert.Sage.conv (R := 50000) (K := 128) (D := 128) (agg x0 x1) (x0) x2 x3 x4) i) := normR_real _ hZ0
  have hZ1 : ∀ i, IsReal (Cert.Sage.conv (R := 50000) (K := 128) (D := 128) (agg (Cert.Sage.normR (R := 50000) (Cert.Sage.conv (R := 50000) (K := 128) (D := 128) (agg x0 x1) (x0) x2 x3 x4)) x1) (Cert.Sage.normR (R := 50000) (Cert.Sage.conv (R := 50000) (K := 128) (D := 128) (agg x0 x1) (x0) x2 x3 x4)) x5 x6 x7 i) :=
    conv_real _ _ _ _ _ (Cert.Sage.agg_real _ x1 hH1) hH1 h5 h6 h7
  rw [normK_eq_normR _ hZ1]
  exact (ref_value x0 x1 x2 x3 x4 x5 x6 x7 x8 x9 x10 x11 x12 x13).symm

end Cert.Sage.Ref

end
-- ==== Proof.Claims.lean ====
/-
  The five claims, assembled.  The frames are the generated ones and the reference's run; the idealization rewrote
  nothing; and over the extended reals the two programs end with one result: the kernel's last boundary holds the edge
  network applied to the two layers normalised in one pass, the reference's result is the same network with the layers
  normalised in two passes, and the two arrangements agree on real inputs, which the precondition provides.
-/
import proofs.«149413_j36197984370744_1_alg».proof.Defs
import proofs.«149413_j36197984370744_1_alg».proof.Proof.Gen.Kernel.Frame
import proofs.«149413_j36197984370744_1_alg».proof.Proof.Gen.KernelIdeal.Frame
import proofs.«149413_j36197984370744_1_alg».proof.Proof.Gen.ReferenceIdeal
import proofs.«149413_j36197984370744_1_alg».proof.Proof.Gen.Pre_finite_inputs
import proofs.«149413_j36197984370744_1_alg».proof.Proof.KRun
import proofs.«149413_j36197984370744_1_alg».proof.Proof.RefRunFast
import proofs.«149413_j36197984370744_1_alg».proof.Proof.PreReal
import proofs.«149413_j36197984370744_1_alg».proof.Proof.KValue
import proofs.«149413_j36197984370744_1_alg».proof.Proof.Bridge

noncomputable section

namespace Cert.Proof.Claims

open Idealize.ShloMosaic Idealize.ShloMosaic.TcCoe Idealize.SL.Sem

/-- The kernel runs and leaves its arguments as launched: the generated frame. -/
theorem frame_k : Cert.frame_Kernel := fun m ρ _ => Cert.Kernel.Gen.frame m ρ

/-- The idealized kernel runs and leaves its arguments as launched: the generated frame. -/
theorem frame_ki : Cert.frame_KernelIdeal := fun m ρ _ => Cert.KernelIdeal.Gen.frame m ρ

/-- The reference runs and leaves its arguments as launched: its run, the result's conjunct dropped. -/
theorem frame_ri : Cert.frame_ReferenceIdeal := fun m ρ _ =>
  (θ_run Cert.ReferenceIdeal.defs _ _).mono (fun _ h c => (h c).2) (Cert.ReferenceIdeal.ValueQ.run (F := Ideal) m ρ)

/-- The idealization rewrote no operation. -/
theorem preserves : Cert.preserves_Kernel_KernelIdeal := trivial

/-- Over the extended reals the kernel's result array and the reference's are one function of arguments that agree:
    the kernel's last boundary holds the edge network of the two normalised layers (the one-pass arrangement), the
    reference's stage function is the same network of the two-pass arrangement, and on real inputs — which the
    precondition gives — the two arrangements of the normalisation agree. -/
theorem algebraic : Cert.algebraic_KernelIdeal_ReferenceIdeal := by
  intro m ρ m' ρ' hpre hagree
  refine ⟨fun c => Cert.KernelIdeal.Gen.W10 (F := Ideal) m ρ c (Proc.devRef .tc Cert.KernelIdeal.main_v87),
    Cert.Sage.K.run_value (F := Ideal) m ρ, ?_⟩
  refine (θ_run Cert.ReferenceIdeal.defs _ _).mono (fun _ h c => ⟨(h c).1.trans ?_, (h c).2⟩)
    (Cert.ReferenceIdeal.ValueQ.run (F := Ideal) m' ρ')
  obtain ⟨e0, e1, e2, e3, e4, e5, e6, e7, e8, e9, e10, e11, e12, e13⟩ := hagree c
  rw [e0, e1, e2, e3, e4, e5, e6, e7, e8, e9, e10, e11, e12, e13]
  obtain ⟨h0, h2, h3, h4, h5, h6, h7, -⟩ := Cert.Sage.real_inputs _ _ _ _ _ _ _ _ _ _ _ _ _ _ (hpre c)
  exact (Cert.Sage.Ref.total_eq _ _ _ _ _ _ _ _ _ _ _ _ _ _ h0 h2 h3 h4 h5 h6 h7).symm.trans
    (Cert.Sage.K.kernel_value m ρ c).symm

end Cert.Proof.Claims

end
-- ==== Proof.lean ====
/-
  A two-layer graph network with an edge head, computed two ways, is one function on finite inputs.

  Both programs aggregate, for each node, the mean of its in-neighbours' features (a gather of rows by the edges'
  sources, a sum into the edges' targets, a division by the in-degree, at least one), apply a dense layer
  `z = (agg·Wl + bl) + x·Wr`, normalise `z` over all its entries (centre each column, divide by the root of ε plus the mean
  squared row norm of the centred matrix) and pass it through a leaky rectifier; after two such layers the features of
  each edge's two ends, side by side, go through three linear maps with the rectifier between them.

  The reference normalises in two passes. The kernel program computes each layer in row blocks, keeps running column
  totals and a running total of squares, and normalises in one pass from them: mean `μ_c = S_c/n`, variance
  `(Q − n·Σ_c μ_c²)/n`, scale by `1/√(ε + variance)`. Over the reals `Q − n·Σ_c μ_c² = Σ_r Σ_c (z[r,c] − μ_c)²`, so the two
  normalisations agree; the precondition makes every input real, and the aggregation, the dense layer and the normalisation
  keep entries real, so this holds at both layers. The edge head is the same arrangement in both programs; the
  aggregation and the edge gather are the same index operations in both and are never opened.

  The frames of the two kernel programs are the generated ones; the reference's frame is its run with the result dropped;
  the idealization rewrote no operation.
-/
import proofs.«149413_j36197984370744_1_alg».proof.Defs
import proofs.«149413_j36197984370744_1_alg».proof.Proof.Gen.Kernel
import proofs.«149413_j36197984370744_1_alg».proof.Proof.Gen.KernelIdeal
import proofs.«149413_j36197984370744_1_alg».proof.Proof.Gen.ReferenceIdeal
import proofs.«149413_j36197984370744_1_alg».proof.Proof.Gen.Pre_finite_inputs
import proofs.«149413_j36197984370744_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
